-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S3x128 : S_.BroadcastsInDim S3x128 (![] : Fin 0 → Fin S3x128.rank)
  reducesTo_S3x128_S_d0_1 : S3x128.ReducesTo [0, 1] S_

variable [Facts]

def fn_part4 {F : FTy → Type} [FloatOps F] (main_arg15 : FVec F S3x128 .f32) (main_arg16 : FVec F S3x128 .f32) (main_v63 : IVec S_ 1) (main_v67 : IVec S_ 1) : IVec S_ 1 :=
  let main_v68 : IVec S_ 1 := andi main_v63 main_v67
  let main_v69 : FVec F S3x128 .f32 := Host.absf main_arg15
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128 .f32 := Host.absf main_arg16
  let main_cst_28 : FVec F S_ .f32 := constant S_ .f32 0x7F800000#32
  let main_v75 : FVec F S3x128 .f32 := broadcastInDim S3x128 ![] bcast_S_S3x128 main_cst_28
  let main_v76 : IVec S3x128 1 := cmpf .olt main_v74 main_v75
  let main_c_29 : IVec S_ 1 := constantI S_ 1 1#1
  let main_v77 : IVec S_ 1 := (fun x v => Host.reduce IntOp.andi x v reducesTo_S3x128_S_d0_1 h_S_) main_v76 main_c_29
  let main_v78 : IVec S_ 1 := andi main_v73 main_v77
  main_v78

def fn_part3 {F : FTy → Type} [FloatOps F] (main_arg12 : FVec F S128x40 .f32) (main_arg13 : FVec F S128x40 .f32) (main_arg14 : FVec F S40 .f32) (main_arg15 : FVec F S3x128 .f32) (main_arg16 : FVec F S3x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg12
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S128x40 .f32 := Host.absf main_arg13
  let main_cst_22 : FVec F S_ .f32 := constant S_ .f32 0x7F800000#32
  let main_v60 : FVec F S128x40 .f32 := broadcastInDim S128x40 ![] bcast_S_S128x40 main_cst_22
  let main_v61 : IVec S128x40 1 := cmpf .olt main_v59 main_v60
  let main_c_23 : IVec S_ 1 := constantI S_ 1 1#1
  let main_v62 : IVec S_ 1 := (fun x v => Host.reduce IntOp.andi x v reducesTo_S128x40_S_d0_1 h_S_) main_v61 main_c_23
  let main_v63 : IVec S_ 1 := andi main_v58 main_v62
  let main_v64 : FVec F S40 .f32 := Host.absf main_arg14
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128x40 .f32) (main_arg13 : FVec F S128x40 .f32) (main_arg14 : FVec F S40 .f32) (main_arg15 : FVec F S3x128 .f32) (main_arg16 : FVec F S3x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x40 .f32) (main_arg13 : FVec F S128x40 .f32) (main_arg14 : FVec F S40 .f32) (main_arg15 : FVec F S3x128 .f32) (main_arg16 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x40 .f32) (main_arg13 : FVec F S128x40 .f32) (main_arg14 : FVec F S40 .f32) (main_arg15 : FVec F S3x128 .f32) (main_arg16 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 151
  | .vmem => 77
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x40, .f32⟩
  | 13 => ⟨S128x40, .f32⟩
  | 14 => ⟨S40, .f32⟩
  | 15 => ⟨S3x128, .f32⟩
  | 16 => ⟨S3x128, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000x1, .f32⟩
  | 23 => ⟨S_, .f32⟩
  | 24 => ⟨S100000x1, .f32⟩
  | 25 => ⟨S1600000x1, .i32⟩
  | 26 => ⟨S100000x1, .f32⟩
  | 27 => ⟨S_, .f32⟩
  | 28 => ⟨S100000x1, .f32⟩
  | 29 => ⟨S100000x1, .f32⟩
  | 30 => ⟨S_, .f32⟩
  | 31 => ⟨S100000x1, .f32⟩
  | 32 => ⟨S100000x1, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S1x128, .f32⟩
  | 81 => ⟨S1x128, .f32⟩
  | 82 => ⟨S100000x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S1x128, .f32⟩
  | 5 => ⟨S100000x128, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .f32⟩
  | 16 => ⟨S100000x128, .f32⟩
  | 17 => ⟨S1600000x1, .i32⟩
  | 18 => ⟨S100000x128, .f32⟩
  | 19 => ⟨S100000x128, .f32⟩
  | 20 => ⟨S100000x128, .f32⟩
  | 21 => ⟨S1x40, .f32⟩
  | 22 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x40, .f32⟩
  | .local _ .vmem, ⟨73, _⟩ => ⟨S128x40, .f32⟩
  | .local _ .vmem, ⟨74, _⟩ => ⟨S1x40, .f32⟩
  | .local _ .vmem, ⟨75, _⟩ => ⟨S5000x40, .f32⟩
  | .local _ .vmem, ⟨76, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev main_v51_2 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_12 : Ref sig .tc := ⟨.hbm, 100, rfl⟩
abbrev main_v65 : Ref sig .tc := ⟨.hbm, 101, rfl⟩
abbrev main_v66 : Ref sig .tc := ⟨.hbm, 102, rfl⟩
abbrev main_c_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78_0 : Ref sig .tc := ⟨.hbm, 116, rfl⟩
abbrev main_v78_1 : Ref sig .tc := ⟨.hbm, 117, rfl⟩
abbrev main_v78_2 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_cst_16 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_17 : Ref sig .tc := ⟨.hbm, 134, rfl⟩
abbrev main_v92 : Ref sig .tc := ⟨.hbm, 135, rfl⟩
abbrev main_v93 : Ref sig .tc := ⟨.hbm, 136, rfl⟩
abbrev main_c_18 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg8_0 : Ref sig .tc := ⟨.vmem, 32, rfl⟩
abbrev cc2_scratch0 : Ref sig .tc := ⟨.vmem, 33, rfl⟩
abbrev cc2_scratch1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg7_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc5_stg6_0 : Ref sig .tc := ⟨.vmem, 66, rfl⟩
abbrev cc5_stg6_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg5_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem8_0 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem5_1 : DmaSem sig := 38
abbrev cc3_sem6_0 : DmaSem sig := 39
abbrev cc3_sem6_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem5_1 : DmaSem sig := 49
abbrev cc4_sem6_0 : DmaSem sig := 50
abbrev cc4_sem7_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc5_sem6_0 : DmaSem sig := 60
abbrev cc5_sem6_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem5_1 : DmaSem sig := 70

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v31 : BitVec 1 := Scalar.cmpi .eq arg0 c19_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_26 : BitVec 32 := 0#32
  let v40 : BitVec 1 := Scalar.cmpi .ne v39 c0_i32_26
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_23 : BitVec 32 := 0#32
  let v34 : BitVec 1 := Scalar.cmpi .ne v33 c0_i32_23
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x40 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x40.size a ≤ S128x40.size a
  hwx6_2 : ∀ i : grid6.Coords, EltTy.bits .f32 = 32 ∨ (Rect.block (s := S128x40) S128x40.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x40.size a ≤ S128x40.size a
  hwx6_3 : ∀ i : grid6.Coords, EltTy.bits .f32 = 32 ∨ (Rect.block (s := S128x40) S128x40.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x40.size a ≤ S100000x40.size a
  hwx6_5 : ∀ i : grid6.Coords, EltTy.bits .f32 = 32 ∨ (Rect.block (s := S100000x40) S5000x40.size (cc6_transform_5 i) (hinb6_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v51_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v51_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v51_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v64) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v78_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v78_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v64) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v91) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v103) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg12) S128x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S128x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v104) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v105) S5000x40.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩
abbrev S100000 : Shape := ⟨1, ![100000]⟩

abbrev nBuf : Space → Nat
  | .hbm => 306
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x40, .f32⟩
  | 13 => ⟨S128x40, .f32⟩
  | 14 => ⟨S40, .f32⟩
  | 15 => ⟨S3x128, .f32⟩
  | 16 => ⟨S3x128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000x1, .f32⟩
  | 36 => ⟨S_, .f32⟩
  | 37 => ⟨S100000x1, .f32⟩
  | 38 => ⟨S1600000x1, .i32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S_, .f32⟩
  | 17 => ⟨S_, .f32⟩
  | 18 => ⟨S128, .f32⟩
  | 19 => ⟨S128, .f32⟩
  | 20 => ⟨S128, .f32⟩
  | 21 => ⟨S_, .f32⟩
  | 22 => ⟨S_, .i1⟩
  | 23 => ⟨S_, .f32⟩
  | 24 => ⟨S_, .f32⟩
  | 25 => ⟨S128, .f32⟩
  | 26 => ⟨S128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S_, .f32⟩
  | 65 => ⟨S1600000x1, .f32⟩
  | 66 => ⟨S_, .f32⟩
  | 67 => ⟨S100000x1, .f32⟩
  | 68 => ⟨S1600000x1, .i32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S_, .f32⟩
  | 19 => ⟨S1600000x1, .f32⟩
  | 20 => ⟨S_, .f32⟩
  | 21 => ⟨S100000x1, .f32⟩
  | 22 => ⟨S1600000x1, .i32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S100000x40, .f32⟩
  | 30 => ⟨S1x40, .f32⟩
  | 31 => ⟨S100000x40, .f32⟩
  | 32 => ⟨S100000x40, .f32⟩
  | 33 => ⟨S100000x40, .f32⟩
  | 34 => ⟨S100000x40, .f32⟩
  | 35 => ⟨S_, .f32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x40, .f32⟩
  | 42 => ⟨S100000x40, .f32⟩
  | 43 => ⟨S100000x40, .f32⟩
  | 44 => ⟨S_, .f32⟩
  | 45 => ⟨S100000, .f32⟩
  | 46 => ⟨S100000x1, .f32⟩
  | 47 => ⟨S100000x1, .f32⟩
  | 48 => ⟨S100000x40, .f32⟩
  | 49 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_7 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_call1_cst : Ref sig .tc := ⟨.hbm, 99, rfl⟩
abbrev main_call1_v0 : Ref sig .tc := ⟨.hbm, 100, rfl⟩
abbrev main_v51 : Ref sig .tc := ⟨.hbm, 101, rfl⟩
abbrev main_c_8 : Ref sig .tc := ⟨.hbm, 102, rfl⟩
abbrev main_v52 : Ref sig .tc := ⟨.hbm, 103, rfl⟩
abbrev main_v53 : Ref sig .tc := ⟨.hbm, 104, rfl⟩
abbrev main_c_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_10 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_call2_cst : Ref sig .tc := ⟨.hbm, 120, rfl⟩
abbrev main_call2_v0 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_11 : Ref sig .tc := ⟨.hbm, 127, rfl⟩
abbrev main_v72 : Ref sig .tc := ⟨.hbm, 128, rfl⟩
abbrev main_cst_12 : Ref sig .tc := ⟨.hbm, 129, rfl⟩
abbrev main_v73 : Ref sig .tc := ⟨.hbm, 130, rfl⟩
abbrev main_v74 : Ref sig .tc := ⟨.hbm, 131, rfl⟩
abbrev main_c_13 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_cst_3 : Ref sig .tc := ⟨.hbm, 149, rfl⟩
abbrev main_call3_v12 : Ref sig .tc := ⟨.hbm, 150, rfl⟩
abbrev main_call3_cst_4 : Ref sig .tc := ⟨.hbm, 151, rfl⟩
abbrev main_call3_call0_v0 : Ref sig .tc := ⟨.hbm, 152, rfl⟩
abbrev main_call3_call0_v1 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_cst_14 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_call4_cst : Ref sig .tc := ⟨.hbm, 175, rfl⟩
abbrev main_call4_v0 : Ref sig .tc := ⟨.hbm, 176, rfl⟩
abbrev main_v95 : Ref sig .tc := ⟨.hbm, 177, rfl⟩
abbrev main_v96 : Ref sig .tc := ⟨.hbm, 178, rfl⟩
abbrev main_c_15 : Ref sig .tc := ⟨.hbm, 179, rfl⟩
abbrev main_v97 : Ref sig .tc := ⟨.hbm, 180, rfl⟩
abbrev main_v98 : Ref sig .tc := ⟨.hbm, 181, rfl⟩
abbrev main_c_16 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_17 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_18 : Ref sig .tc := ⟨.hbm, 192, rfl⟩
abbrev main_v107 : Ref sig .tc := ⟨.hbm, 193, rfl⟩
abbrev main_cst_19 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_20 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_cst_21 : Ref sig .tc := ⟨.hbm, 209, rfl⟩
abbrev main_v121 : Ref sig .tc := ⟨.hbm, 210, rfl⟩
abbrev main_cst_22 : Ref sig .tc := ⟨.hbm, 211, rfl⟩
abbrev main_v122 : Ref sig .tc := ⟨.hbm, 212, rfl⟩
abbrev main_v123 : Ref sig .tc := ⟨.hbm, 213, rfl⟩
abbrev main_c_23 : Ref sig .tc := ⟨.hbm, 214, rfl⟩
abbrev main_call5_cst : Ref sig .tc := ⟨.hbm, 215, rfl⟩
abbrev main_call5_v0 : Ref sig .tc := ⟨.hbm, 216, rfl⟩
abbrev main_call5_v1 : Ref sig .tc := ⟨.hbm, 217, rfl⟩
abbrev main_call5_cst_0 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_v5 : Ref sig .tc := ⟨.hbm, 222, rfl⟩
abbrev main_call5_v6 : Ref sig .tc := ⟨.hbm, 223, rfl⟩
abbrev main_call5_v7 : Ref sig .tc := ⟨.hbm, 224, rfl⟩
abbrev main_call5_cst_1 : Ref sig .tc := ⟨.hbm, 225, rfl⟩
abbrev main_call5_v8 : Ref sig .tc := ⟨.hbm, 226, rfl⟩
abbrev main_call5_cst_2 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_cst_3 : Ref sig .tc := ⟨.hbm, 231, rfl⟩
abbrev main_call5_v12 : Ref sig .tc := ⟨.hbm, 232, rfl⟩
abbrev main_call5_cst_4 : Ref sig .tc := ⟨.hbm, 233, rfl⟩
abbrev main_call5_call0_v0 : Ref sig .tc := ⟨.hbm, 234, rfl⟩
abbrev main_call5_call0_v1 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_24 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_call6_cst : Ref sig .tc := ⟨.hbm, 257, rfl⟩
abbrev main_call6_v0 : Ref sig .tc := ⟨.hbm, 258, rfl⟩
abbrev main_v144 : Ref sig .tc := ⟨.hbm, 259, rfl⟩
abbrev main_v145 : Ref sig .tc := ⟨.hbm, 260, rfl⟩
abbrev main_c_25 : Ref sig .tc := ⟨.hbm, 261, rfl⟩
abbrev main_v146 : Ref sig .tc := ⟨.hbm, 262, rfl⟩
abbrev main_v147 : Ref sig .tc := ⟨.hbm, 263, rfl⟩
abbrev main_c_26 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_cst_27 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_cst_28 : Ref sig .tc := ⟨.hbm, 274, rfl⟩
abbrev main_v156 : Ref sig .tc := ⟨.hbm, 275, rfl⟩
abbrev main_cst_29 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_cst_30 : Ref sig .tc := ⟨.hbm, 280, rfl⟩
abbrev main_v160 : Ref sig .tc := ⟨.hbm, 281, rfl⟩
abbrev main_v161 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_call7_cst : Ref sig .tc := ⟨.hbm, 291, rfl⟩
abbrev main_call7_v0 : Ref sig .tc := ⟨.hbm, 292, rfl⟩
abbrev main_call7_cst_0 : Ref sig .tc := ⟨.hbm, 293, rfl⟩
abbrev main_call7_v1 : Ref sig .tc := ⟨.hbm, 294, rfl⟩
abbrev main_call7_v2 : Ref sig .tc := ⟨.hbm, 295, rfl⟩
abbrev main_call7_v3 : Ref sig .tc := ⟨.hbm, 296, rfl⟩
abbrev main_call7_v4 : Ref sig .tc := ⟨.hbm, 297, rfl⟩
abbrev main_call7_v5 : Ref sig .tc := ⟨.hbm, 298, rfl⟩
abbrev main_call7_v6 : Ref sig .tc := ⟨.hbm, 299, rfl⟩
abbrev main_call7_cst_1 : Ref sig .tc := ⟨.hbm, 300, rfl⟩
abbrev main_call7_v7 : Ref sig .tc := ⟨.hbm, 301, rfl⟩
abbrev main_call7_v8 : Ref sig .tc := ⟨.hbm, 302, rfl⟩
abbrev main_call7_v9 : Ref sig .tc := ⟨.hbm, 303, rfl⟩
abbrev main_call7_v10 : Ref sig .tc := ⟨.hbm, 304, rfl⟩
abbrev main_v170 : Ref sig .tc := ⟨.hbm, 305, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_0_0 : S3x128.Slices ![0, 0] S1x128
  shapeCasts_S1x128_S128 : S1x128.ShapeCasts S128
  slices_S3x128_S1x128_1_0 : S3x128.Slices ![1, 0] S1x128
  slices_S3x128_S1x128_2_0 : S3x128.Slices ![2, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.K.Stats0Runs.lean ====
/- Region 0 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)
/-- The second branch condition (the grid coordinate is the last). -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last point the body stores nothing into one-row output 6, and its block is not written back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Off the last point the body stores nothing into one-row output 7, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-- One staging buffer of each output window, through which its contents are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two scratch rows: whole scoped buffers of the kernel's own, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two scratch rows split out as memrefs owned at some contents; the rest of the scoped
    buffers stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Gen

end
-- ==== Proof.K.Stats0RunA.lean ====
/- Region 0, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.K.Stats0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.Kernel.Gen

end
-- ==== Proof.K.Stats0RunB.lean ====
/- Region 0, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.K.Stats0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.Kernel.Gen

end
-- ==== Proof.K.Stats0RunC.lean ====
/- Region 0, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.K.Stats0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ (∃ f, arg7.view.loc (c : Thread nD τ) ↦[arg7.view.set]{fullShare} arg7.view.writes (Elt F) f LO0) ∗ (∃ f, arg8.view.loc (c : Thread nD τ) ↦[arg8.view.set]{fullShare} arg8.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, ?_, ?_, fun E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]; · iexists _; iexact HO0
    isplitl [HO1]; · iexists _; iexact HO1
    isplitl [HS0]; · iexists _; iexact HS0
    iexists _; iexact HS1

end Cert.Kernel.Gen

end
-- ==== Proof.K.Stats0.lean ====
/- Region 0: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.K.Stats0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## What each case leaves, read back from the pieces its run finds -/

theorem coverH0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).1 S5000x128.size (by sl_kernel_rfl) y
def outH0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 argS0 hargS0 argS1 hargS1 hc0 hc1 x0 x1 x2 x3 x4).1)
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).2.1 S1x128.size (by sl_kernel_rfl) y
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 argS0 hargS0 argS1 hargS1 hc0 hc1 x0 x1 x2 x3 x4).2.1)
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).2.2.1 S1x128.size (by sl_kernel_rfl) y
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 argS0 hargS0 argS1 hargS1 hc0 hc1 x0 x1 x2 x3 x4).2.2.1)

theorem coverH0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1)
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1)
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1)

theorem coverH0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1)
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1)
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1)
theorem coverO0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def outO0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1)
theorem coverO0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def outO0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt0 (c : Dev nD) : (n : ℕ) → n < cfg0.N → Vec F S5000x128 .f32 × Vec F S1x128 .f32 × Vec F S1x128 .f32 × Vec F S1x128 .f32 × Vec F S1x128 .f32
  | 0, hn => (outH0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 20 = 19 then
      (outH0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, outO0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, outO0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (outH0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (outH0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = (outH0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (outH0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, outO0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, outO0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 20 = 0
  · have h1 : ¬t.val % 20 = 19 := by omega
    have hcc0 : cond0_0 (grid0.coords t) := (hcond0_0 t).mpr h0
    have hcc1 : ¬cond0_1 (grid0.coords t) := fun h => h1 ((hcond0_1 t).mp h)
    rw [Dat.leavesExact_idle (dat0 V c) 6 t (idleAt0_6 t hcc1) (noFlush0_6 t hcc1)]
    rw [Dat.leavesExact_idle (dat0 V c) 7 t (idleAt0_7 t hcc1) (noFlush0_7 t hcc1)]
    rw [outsAt0_A V c t h0 h1]
    unfold outH0_A sout0_A_0 sout0_A_1; (try dsimp only)
    have hz : t.val = 0 := by omega
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hcc0 hcc1 (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%eH, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverH0_A c _ _ _ _ _ _ _ _ _ _ _ _ _ _ _ _ _ _ _ _ _ _ _ _ _ _ _ _)
    isplitl [H6]; · iexists _; iexact H6
    iexists _; iexact H7

  · have hz : t.val ≠ 0 := by omega
    have hcc0 : ¬cond0_0 (grid0.coords t) := fun h => h0 ((hcond0_0 t).mp h)
    by_cases h1 : t.val % 20 = 19
    · have hcc1 : cond0_1 (grid0.coords t) := (hcond0_1 t).mpr h1
      rw [show (dat0 V c).leavesExact 6 t = owns (c : Thread nD τ) (ms0_6 t) fullShare ((dat0 V c).after 6 t) from by
      unfold Dat.leavesExact; rw [liveAt0_6_C t hcc1], after0_6]
      rw [show (dat0 V c).leavesExact 7 t = owns (c : Thread nD τ) (ms0_7 t) fullShare ((dat0 V c).after 7 t) from by
      unfold Dat.leavesExact; rw [liveAt0_7_C t hcc1], after0_7]
      rw [outsAt0_C V c t h0 h1]
      unfold outH0_C outO0_C_0 outO0_C_1 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hcc0 hcc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%eH, H5⟩, ⟨%eO0, H6⟩, ⟨%eO1, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH0_C c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverO0_C_0 c _ _ _ _ _ _ _ _ _ _ _ _ _ _ _ _ _ _ _ _ _ _ _ _ _ _ _ _ _ _)
      unfold owns; iexists _; isplitr
      swap; · iexact H7
      ipureintro; exact View.read_writes_of_cover _ _ _ _ _ (coverO0_C_1 c _ _ _ _ _ _ _ _ _ _ _ _ _ _ _ _ _ _ _ _ _ _ _ _ _ _ _ _ _ _)

    · have hcc1 : ¬cond0_1 (grid0.coords t) := fun h => h1 ((hcond0_1 t).mp h)
      rw [Dat.leavesExact_idle (dat0 V c) 6 t (idleAt0_6 t hcc1) (noFlush0_6 t hcc1)]
      rw [Dat.leavesExact_idle (dat0 V c) 7 t (idleAt0_7 t hcc1) (noFlush0_7 t hcc1)]
      rw [outsAt0_B V c t h0 h1]
      unfold outH0_B sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hcc0 hcc1 (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%eH, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH0_B c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

/-- What the region is handed is the invariant before the first point; after the last point the invariant gives it
    back, the scratch rows' contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.Kernel.Gen

end
-- ==== Proof.K.Stats2Runs.lean ====
/- Region 2 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)
/-- The second branch condition (the grid coordinate is the last). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Off the last point the body stores nothing into one-row output 7, and its block is not written back there. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel
/-- Off the last point the body stores nothing into one-row output 8, and its block is not written back there. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch rows: whole scoped buffers of the kernel's own, passed beside the windows. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two scratch rows split out as memrefs owned at some contents; the rest of the scoped
    buffers stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Gen

end
-- ==== Proof.K.Stats2RunA.lean ====
/- Region 2, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.K.Stats2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi0 ∗ owns (c : Thread nD τ) arg9 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ owns (c : Thread nD τ) arg8 fullShare xi0 ∗ owns (c : Thread nD τ) arg9 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, fun xi0 xi1 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfO0; obtain rfl := harg9.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]
    · iexists _; isplitr; · ipureintro; exact harg8.read_unread _
      iexact HO0
    isplitl [HO1]
    · iexists _; isplitr; · ipureintro; exact harg9.read_unread _
      iexact HO1
    isplitl [HS0]; · iexists _; iexact HS0
    iexists _; iexact HS1

end Cert.Kernel.Gen

end
-- ==== Proof.K.Stats2RunB.lean ====
/- Region 2, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.K.Stats2RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi0 ∗ owns (c : Thread nD τ) arg9 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ owns (c : Thread nD τ) arg8 fullShare xi0 ∗ owns (c : Thread nD τ) arg9 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, fun xi0 xi1 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfO0; obtain rfl := harg9.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]
    · iexists _; isplitr; · ipureintro; exact harg8.read_unread _
      iexact HO0
    isplitl [HO1]
    · iexists _; isplitr; · ipureintro; exact harg9.read_unread _
      iexact HO1
    isplitl [HS0]; · iexists _; iexact HS0
    iexists _; iexact HS1

end Cert.Kernel.Gen

end
-- ==== Proof.K.Stats2RunC.lean ====
/- Region 2, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.K.Stats2RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ (∃ f, arg8.view.loc (c : Thread nD τ) ↦[arg8.view.set]{fullShare} arg8.view.writes (Elt F) f LO0) ∗ (∃ f, arg9.view.loc (c : Thread nD τ) ↦[arg9.view.set]{fullShare} arg9.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, ?_, ?_, fun E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]; · iexists _; iexact HO0
    isplitl [HO1]; · iexists _; iexact HO1
    isplitl [HS0]; · iexists _; iexact HS0
    iexists _; iexact HS1

end Cert.Kernel.Gen

end
-- ==== Proof.K.Stats2.lean ====
/- Region 2: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.K.Stats2RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## What each case leaves, read back from the pieces its run finds -/

theorem coverH2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1 S5000x128.size (by sl_kernel_rfl) y
def outH2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1)
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1 S1x128.size (by sl_kernel_rfl) y
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1)
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1 S1x128.size (by sl_kernel_rfl) y
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1)

theorem coverH2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1 S5000x128.size (by sl_kernel_rfl) y
def outH2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1)
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1)
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1)

theorem coverH2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1 S5000x128.size (by sl_kernel_rfl) y
def outH2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1)
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1)
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1)
theorem coverO2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1 S1x128.size (by sl_kernel_rfl) y
def outO2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1)
theorem coverO2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1 S1x128.size (by sl_kernel_rfl) y
def outO2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt2 (c : Dev nD) : (n : ℕ) → n < cfg2.N → Vec F S5000x128 .f32 × Vec F S1x128 .f32 × Vec F S1x128 .f32 × Vec F S1x128 .f32 × Vec F S1x128 .f32
  | 0, hn => (outH2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : (n + 1) % 20 = 19 then
      (outH2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, outO2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, outO2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (outH2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (outH2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 20 := lt_of_lt_of_eq hn (show cfg2.N = 20 from N_2); (try dsimp only at h0); omega)

theorem outsAt2_B (c : Dev nD) (t : Fin cfg2.N) (h0 : ¬t.val % 20 = 0) (h1 : ¬t.val % 20 = 19) :
    outsAt2 V c t.val t.isLt = (outH2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (outH2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, outO2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, outO2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  rw [show (dat2 V c).leavesExact 6 t = owns (c : Thread nD τ) (ms2_6 t) fullShare ((dat2 V c).after 6 t) from by
      unfold Dat.leavesExact; rw [liveAt2_6 t], after2_6]
  by_cases h0 : t.val % 20 = 0
  · have h1 : ¬t.val % 20 = 19 := by omega
    have hcc0 : cond2_0 (grid2.coords t) := (hcond2_0 t).mpr h0
    have hcc1 : ¬cond2_1 (grid2.coords t) := fun h => h1 ((hcond2_1 t).mp h)
    rw [Dat.leavesExact_idle (dat2 V c) 7 t (idleAt2_7 t hcc1) (noFlush2_7 t hcc1)]
    rw [Dat.leavesExact_idle (dat2 V c) 8 t (idleAt2_8 t hcc1) (noFlush2_8 t hcc1)]
    rw [outsAt2_A V c t h0 h1]
    unfold outH2_A sout2_A_0 sout2_A_1; (try dsimp only)
    have hz : t.val = 0 := by omega
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%eH, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverH2_A c _ _ _ _ _ _ _ _ _ _ _ _ _ _ _ _ _ _ _ _ _ _ _ _ _ _ _ _ _ _ _)
    isplitl [H7]; · iexists _; iexact H7
    iexists _; iexact H8

  · have hz : t.val ≠ 0 := by omega
    have hcc0 : ¬cond2_0 (grid2.coords t) := fun h => h0 ((hcond2_0 t).mp h)
    by_cases h1 : t.val % 20 = 19
    · have hcc1 : cond2_1 (grid2.coords t) := (hcond2_1 t).mpr h1
      rw [show (dat2 V c).leavesExact 7 t = owns (c : Thread nD τ) (ms2_7 t) fullShare ((dat2 V c).after 7 t) from by
      unfold Dat.leavesExact; rw [liveAt2_7_C t hcc1], after2_7]
      rw [show (dat2 V c).leavesExact 8 t = owns (c : Thread nD τ) (ms2_8 t) fullShare ((dat2 V c).after 8 t) from by
      unfold Dat.leavesExact; rw [liveAt2_8_C t hcc1], after2_8]
      rw [outsAt2_C V c t h0 h1]
      unfold outH2_C outO2_C_0 outO2_C_1 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%eH, H6⟩, ⟨%eO0, H7⟩, ⟨%eO1, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverH2_C c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverO2_C_0 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverO2_C_1 c _ _ _ _ _ _ _ _ _ _ _ _ _ _ _ _ _ _ _ _ _ _ _ _ _ _ _ _ _ _ _ _ _)

    · have hcc1 : ¬cond2_1 (grid2.coords t) := fun h => h1 ((hcond2_1 t).mp h)
      rw [Dat.leavesExact_idle (dat2 V c) 7 t (idleAt2_7 t hcc1) (noFlush2_7 t hcc1)]
      rw [Dat.leavesExact_idle (dat2 V c) 8 t (idleAt2_8 t hcc1) (noFlush2_8 t hcc1)]
      rw [outsAt2_B V c t h0 h1]
      unfold outH2_B sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%eH, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverH2_B c _ _ _ _ _ _ _ _ _ _ _ _ _ _ _ _ _ _ _ _ _ _ _ _ _ _ _ _ _ _ _ _ _)
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the region is handed is the invariant before the first point; after the last point the invariant gives it
    back, the scratch rows' contents forgotten. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.Kernel.Gen

end
-- ==== Proof.K.Stats4Runs.lean ====
/- Region 4 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)
/-- The second branch condition (the grid coordinate is the last). -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Off the last point the body stores nothing into one-row output 6, and its block is not written back there. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Off the last point the body stores nothing into one-row output 7, and its block is not written back there. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-- One staging buffer of each output window, through which its contents are stated. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two scratch rows: whole scoped buffers of the kernel's own, passed beside the windows. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows split out as memrefs owned at some contents; the rest of the scoped
    buffers stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Gen

end
-- ==== Proof.K.Stats4RunA.lean ====
/- Region 4, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.K.Stats4Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.Kernel.Gen

end
-- ==== Proof.K.Stats4RunB.lean ====
/- Region 4, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.K.Stats4RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.Kernel.Gen

end
-- ==== Proof.K.Stats4RunC.lean ====
/- Region 4, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.K.Stats4RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ (∃ f, arg7.view.loc (c : Thread nD τ) ↦[arg7.view.set]{fullShare} arg7.view.writes (Elt F) f LO0) ∗ (∃ f, arg8.view.loc (c : Thread nD τ) ↦[arg8.view.set]{fullShare} arg8.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, ?_, ?_, fun E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]; · iexists _; iexact HO0
    isplitl [HO1]; · iexists _; iexact HO1
    isplitl [HS0]; · iexists _; iexact HS0
    iexists _; iexact HS1

end Cert.Kernel.Gen

end
-- ==== Proof.K.Stats4.lean ====
/- Region 4: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.K.Stats4RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## What each case leaves, read back from the pieces its run finds -/

theorem coverH4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).1 S5000x128.size (by sl_kernel_rfl) y
def outH4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 argS0 hargS0 argS1 hargS1 hc0 hc1 x0 x1 x2 x3 x4).1)
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).2.1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).2.1 S1x128.size (by sl_kernel_rfl) y
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 argS0 hargS0 argS1 hargS1 hc0 hc1 x0 x1 x2 x3 x4).2.1)
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).2.2.1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).2.2.1 S1x128.size (by sl_kernel_rfl) y
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 argS0 hargS0 argS1 hargS1 hc0 hc1 x0 x1 x2 x3 x4).2.2.1)

theorem coverH4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1)
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1)
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1)

theorem coverH4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1)
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1 S1x128.size (by sl_kernel_rfl) y
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1)
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1 S1x128.size (by sl_kernel_rfl) y
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1)
theorem coverO4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def outO4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1)
theorem coverO4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def outO4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt4 (c : Dev nD) : (n : ℕ) → n < cfg4.N → Vec F S5000x128 .f32 × Vec F S1x128 .f32 × Vec F S1x128 .f32 × Vec F S1x128 .f32 × Vec F S1x128 .f32
  | 0, hn => (outH4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 20 = 19 then
      (outH4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, outO4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, outO4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (outH4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val % 20 = 0) (h1 : ¬t.val % 20 = 19) :
    outsAt4 V c t.val t.isLt = (outH4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (by exfalso; have hN : n + 1 < 20 := lt_of_lt_of_eq hn (show cfg4.N = 20 from N_4); (try dsimp only at h0); omega)

theorem outsAt4_B (c : Dev nD) (t : Fin cfg4.N) (h0 : ¬t.val % 20 = 0) (h1 : ¬t.val % 20 = 19) :
    outsAt4 V c t.val t.isLt = (outH4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 20 = 0) (h1 : t.val % 20 = 19) :
    outsAt4 V c t.val t.isLt = (outH4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, outO4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, outO4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  rw [show (dat4 V c).leavesExact 5 t = owns (c : Thread nD τ) (ms4_5 t) fullShare ((dat4 V c).after 5 t) from by
      unfold Dat.leavesExact; rw [liveAt4_5 t], after4_5]
  by_cases h0 : t.val % 20 = 0
  · have h1 : ¬t.val % 20 = 19 := by omega
    have hcc0 : cond4_0 (grid4.coords t) := (hcond4_0 t).mpr h0
    have hcc1 : ¬cond4_1 (grid4.coords t) := fun h => h1 ((hcond4_1 t).mp h)
    rw [Dat.leavesExact_idle (dat4 V c) 6 t (idleAt4_6 t hcc1) (noFlush4_6 t hcc1)]
    rw [Dat.leavesExact_idle (dat4 V c) 7 t (idleAt4_7 t hcc1) (noFlush4_7 t hcc1)]
    rw [outsAt4_A V c t h0 h1]
    unfold outH4_A sout4_A_0 sout4_A_1; (try dsimp only)
    have hz : t.val = 0 := by omega
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ hcc0 hcc1 (iblk4 V c 0 t) (iblk4 V c 1 t) (iblk4 V c 2 t) (iblk4 V c 3 t) (iblk4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%eH, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverH4_A c _ _ _ _ _ _ _ _ _ _ _ _ _ _ _ _ _ _ _ _ _ _ _ _ _ _ _ _)
    isplitl [H6]; · iexists _; iexact H6
    iexists _; iexact H7

  · have hz : t.val ≠ 0 := by omega
    have hcc0 : ¬cond4_0 (grid4.coords t) := fun h => h0 ((hcond4_0 t).mp h)
    by_cases h1 : t.val % 20 = 19
    · have hcc1 : cond4_1 (grid4.coords t) := (hcond4_1 t).mpr h1
      rw [show (dat4 V c).leavesExact 6 t = owns (c : Thread nD τ) (ms4_6 t) fullShare ((dat4 V c).after 6 t) from by
      unfold Dat.leavesExact; rw [liveAt4_6_C t hcc1], after4_6]
      rw [show (dat4 V c).leavesExact 7 t = owns (c : Thread nD τ) (ms4_7 t) fullShare ((dat4 V c).after 7 t) from by
      unfold Dat.leavesExact; rw [liveAt4_7_C t hcc1], after4_7]
      rw [outsAt4_C V c t h0 h1]
      unfold outH4_C outO4_C_0 outO4_C_1 sout4_C_0 sout4_C_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ hcc0 hcc1 (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%eH, H5⟩, ⟨%eO0, H6⟩, ⟨%eO1, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH4_C c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverO4_C_0 c _ _ _ _ _ _ _ _ _ _ _ _ _ _ _ _ _ _ _ _ _ _ _ _ _ _ _ _ _ _)
      unfold owns; iexists _; isplitr
      swap; · iexact H7
      ipureintro; exact View.read_writes_of_cover _ _ _ _ _ (coverO4_C_1 c _ _ _ _ _ _ _ _ _ _ _ _ _ _ _ _ _ _ _ _ _ _ _ _ _ _ _ _ _ _)

    · have hcc1 : ¬cond4_1 (grid4.coords t) := fun h => h1 ((hcond4_1 t).mp h)
      rw [Dat.leavesExact_idle (dat4 V c) 6 t (idleAt4_6 t hcc1) (noFlush4_6 t hcc1)]
      rw [Dat.leavesExact_idle (dat4 V c) 7 t (idleAt4_7 t hcc1) (noFlush4_7 t hcc1)]
      rw [outsAt4_B V c t h0 h1]
      unfold outH4_B sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ hcc0 hcc1 (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%eH, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH4_B c _ _ _ _ _ _ _ _ _ _ _ _ _ _ _ _ _ _ _ _ _ _ _ _ _ _ _ _ _ _)
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

/-- What the region is handed is the invariant before the first point; after the last point the invariant gives it
    back, the scratch rows' contents forgotten. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.Kernel.Gen

end
-- ==== Proof.K.NormBody1.lean ====
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

/-! # Region 1 of the kernel program (normalise, scale, shift, clamp): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 1: `cc1_kern`, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's access rectangles: every load and the store take a whole buffer. -/
abbrev r1_big : Rect S5000x128 := Rect.unit (s := S5000x128) ![0, 0] S5000x128.size inb_S5000x128_S5000x128_0_0
abbrev r1_row : Rect S1x128 := Rect.unit (s := S1x128) ![0, 0] S1x128.size inb_S1x128_S1x128_0_0

/-- The output window's buffer after the body, from the input windows' blocks: its one store, of the block
    computed from the loaded inputs. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_big, k1_pay1 (View.ld x0 r1_big) (View.ld x1 r1_row) (View.ld x2 r1_row) (View.ld x3 r1_row) (View.ld x4 r1_row)⟩]

/-- The store takes the whole buffer, so it covers it. -/
theorem cover1_5 (p0 : Vec F S5000x128 .f32) (y : S5000x128.Idx) :
    ∃ pc ∈ ([⟨r1_big, p0⟩] : List (View.Piece (Elt F) S5000x128 .f32)), y ∈ pc.1.set :=
  View.cover_of_tiled [⟨r1_big, p0⟩] S5000x128.size (by rfl) y

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1_kern i arg0 harg0 arg1 harg1 arg2 harg2 arg3 harg3 arg4 harg4 arg5 harg5) K := by
  simp only [cc1_kern_eq_skeleton]; unfold cc1_kern_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t`
    each input's buffer at its block and the output's at `out1_5` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Gen
-- ==== Proof.K.NormBody3.lean ====
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

/-! # Region 3 of the kernel program (normalise, scale, shift, clamp, add the residual): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 3: `cc3_kern`, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The body's access rectangles: every load and the store take a whole buffer. -/
abbrev r3_big : Rect S5000x128 := Rect.unit (s := S5000x128) ![0, 0] S5000x128.size inb_S5000x128_S5000x128_0_0
abbrev r3_row : Rect S1x128 := Rect.unit (s := S1x128) ![0, 0] S1x128.size inb_S1x128_S1x128_0_0

/-- The output window's buffer after the body, from the input windows' blocks: its one store, of the block
    computed from the loaded inputs. -/
def out3_6 (x0 : Vec F S5000x128 .f32) (x1 : Vec F S1x128 .f32) (x2 : Vec F S1x128 .f32) (x3 : Vec F S1x128 .f32) (x4 : Vec F S1x128 .f32) (x5 : Vec F S5000x128 .f32) : Vec F S5000x128 .f32 :=
  View.canon [⟨r3_big, k3_pay1 (View.ld x0 r3_big) (View.ld x1 r3_row) (View.ld x2 r3_row) (View.ld x3 r3_row) (View.ld x4 r3_row) (View.ld x5 r3_big)⟩]

/-- The store takes the whole buffer, so it covers it. -/
theorem cover3_6 (p0 : Vec F S5000x128 .f32) (y : S5000x128.Idx) :
    ∃ pc ∈ ([⟨r3_big, p0⟩] : List (View.Piece (Elt F) S5000x128 .f32)), y ∈ pc.1.set :=
  View.cover_of_tiled [⟨r3_big, p0⟩] S5000x128.size (by rfl) y

set_option maxHeartbeats 1000000 in
/-- The body on whole staging memrefs, the inputs' at contents `xW` and the output's at anything, runs to the
    continuation holding the inputs' as they were and the output's at `out3_6` of the inputs'. -/
theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3_kern i arg0 harg0 arg1 harg1 arg2 harg2 arg3 harg3 arg4 harg4 arg5 harg5 arg6 harg6) K := by
  simp only [cc3_kern_eq_skeleton]; unfold cc3_kern_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at point `t`
    each input's buffer at its block and the output's at `out3_6` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Gen
-- ==== Proof.K.NormBody5.lean ====
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

/-! # Region 5 of the kernel program (normalise, scale, shift, clamp, add the residual): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 5: `cc5_kern`, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (unfetched, the
    block index has not moved), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (unfetched, the
    block index has not moved), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (unfetched, the
    block index has not moved), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (unfetched, the
    block index has not moved), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not (unfetched, the
    block index has not moved), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The body's access rectangles: every load and the store take a whole buffer. -/
abbrev r5_big : Rect S5000x128 := Rect.unit (s := S5000x128) ![0, 0] S5000x128.size inb_S5000x128_S5000x128_0_0
abbrev r5_row : Rect S1x128 := Rect.unit (s := S1x128) ![0, 0] S1x128.size inb_S1x128_S1x128_0_0

/-- The output window's buffer after the body, from the input windows' blocks: its one store, of the block
    computed from the loaded inputs. -/
def out5_6 (x0 : Vec F S5000x128 .f32) (x1 : Vec F S1x128 .f32) (x2 : Vec F S1x128 .f32) (x3 : Vec F S1x128 .f32) (x4 : Vec F S1x128 .f32) (x5 : Vec F S5000x128 .f32) : Vec F S5000x128 .f32 :=
  View.canon [⟨r5_big, k5_pay1 (View.ld x0 r5_big) (View.ld x1 r5_row) (View.ld x2 r5_row) (View.ld x3 r5_row) (View.ld x4 r5_row) (View.ld x5 r5_big)⟩]

/-- The store takes the whole buffer, so it covers it. -/
theorem cover5_6 (p0 : Vec F S5000x128 .f32) (y : S5000x128.Idx) :
    ∃ pc ∈ ([⟨r5_big, p0⟩] : List (View.Piece (Elt F) S5000x128 .f32)), y ∈ pc.1.set :=
  View.cover_of_tiled [⟨r5_big, p0⟩] S5000x128.size (by rfl) y

set_option maxHeartbeats 1000000 in
/-- The body on whole staging memrefs, the inputs' at contents `xW` and the output's at anything, runs to the
    continuation holding the inputs' as they were and the output's at `out5_6` of the inputs'. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5_kern i arg0 harg0 arg1 harg1 arg2 harg2 arg3 harg3 arg4 harg4 arg5 harg5 arg6 harg6) K := by
  simp only [cc5_kern_eq_skeleton]; unfold cc5_kern_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of pipeline 5 on core `c`: the arrays as the region finds them; after the body at point `t`
    each input's buffer at its block and the output's at `out5_6` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Gen
-- ==== Proof.K.NormBody.lean ====
import proofs.«167498_j75179107549620_1_alg».proof.Proof.K.NormBody1
import proofs.«167498_j75179107549620_1_alg».proof.Proof.K.NormBody3
import proofs.«167498_j75179107549620_1_alg».proof.Proof.K.NormBody5

/-! # The normalisation regions (1, 3, 5) of the kernel program: frame data and body obligations, gathered -/
-- ==== Proof.K.FinalBody.lean ====
import proofs.«167498_j75179107549620_1_alg».proof.Proof.Gen.Kernel.Launch
import proofs.«167498_j75179107549620_1_alg».proof.Proof.Gen.Kernel.Skeleton
import proofs.«167498_j75179107549620_1_alg».proof.Proof.Gen.Kernel.Points
import Idealize.ShloMosaic.Lib.Pipeline.FrameBody
import Idealize.ShloMosaic.Lib.Ring
import Idealize.ShloMosaic.Lib.Tactic

/-! # Region 6 of the kernel program (two products, bias, log-softmax): frame data and body obligation

The region runs one body at every grid point; the body reads its input blocks whole, computes the block of
log-probabilities and stores it whole into the output window's buffer. At the buffer contents `V` the region is
entered with: every window's block, the output buffer after the body as a function of the input blocks, the body's
triple, the pipeline's proof data and the body obligation. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 6: `cc6__final_kernel`, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (unfetched, the
    block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (unfetched, the
    block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (unfetched, the
    block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (unfetched, the
    block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The body's access rectangles: every load and the store take a whole buffer. -/
abbrev r6_big : Rect S5000x128 := Rect.unit (s := S5000x128) ![0, 0] S5000x128.size inb_S5000x128_S5000x128_0_0
abbrev r6_wgt : Rect S128x40 := Rect.unit (s := S128x40) ![0, 0] S128x40.size inb_S128x40_S128x40_0_0
abbrev r6_bias : Rect S1x40 := Rect.unit (s := S1x40) ![0, 0] S1x40.size inb_S1x40_S1x40_0_0
abbrev r6_out : Rect S5000x40 := Rect.unit (s := S5000x40) ![0, 0] S5000x40.size inb_S5000x40_S5000x40_0_0

/-- The output window's buffer after the body, from the input windows' blocks: its one store, of the block
    computed from the loaded inputs. -/
def out6_5 (x0 : Vec F S5000x128 .f32) (x1 : Vec F S5000x128 .f32) (x2 : Vec F S128x40 .f32) (x3 : Vec F S128x40 .f32) (x4 : Vec F S1x40 .f32) : Vec F S5000x40 .f32 :=
  View.canon [⟨r6_out, k6_pay1 (View.ld x0 r6_big) (View.ld x2 r6_wgt) (View.ld x1 r6_big) (View.ld x3 r6_wgt) (View.ld x4 r6_bias)⟩]

/-- The store takes the whole buffer, so it covers it. -/
theorem cover6_5 (p0 : Vec F S5000x40 .f32) (y : S5000x40.Idx) :
    ∃ pc ∈ ([⟨r6_out, p0⟩] : List (View.Piece (Elt F) S5000x40 .f32)), y ∈ pc.1.set :=
  View.cover_of_tiled [⟨r6_out, p0⟩] S5000x40.size (by rfl) y

set_option maxHeartbeats 1000000 in
/-- The body on whole staging memrefs, the inputs' at contents `xW` and the output's at anything, runs to the
    continuation holding the inputs' as they were and the output's at `out6_5` of the inputs'. -/
theorem sound_kernel6 (c : Dev nD) (E : Set ℕ) (i : grid6.Coords) (arg0 : Memref sig .tc .vmem S5000x128 .f32) (harg0 : arg0.IsWhole) (arg1 : Memref sig .tc .vmem S5000x128 .f32) (harg1 : arg1.IsWhole) (arg2 : Memref sig .tc .vmem S128x40 .f32) (harg2 : arg2.IsWhole) (arg3 : Memref sig .tc .vmem S128x40 .f32) (harg3 : arg3.IsWhole) (arg4 : Memref sig .tc .vmem S1x40 .f32) (harg4 : arg4.IsWhole) (arg5 : Memref sig .tc .vmem S5000x40 .f32) (harg5 : arg5.IsWhole)
    (x0 : Vec F S5000x128 .f32) (x1 : Vec F S5000x128 .f32) (x2 : Vec F S128x40 .f32) (x3 : Vec F S128x40 .f32) (x4 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__final_kernel i arg0 harg0 arg1 harg1 arg2 harg2 arg3 harg3 arg4 harg4 arg5 harg5) K := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core `c`: the arrays as the region finds them; after the body at point `t`
    each input's buffer at its block and the output's at `out6_5` of the input blocks; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Gen
-- ==== Proof.K.Bounds.lean ====
/- The whole program as a run of fourteen segments — seven stretches of host operations, each followed by one kernel region —
   from the launch to the return. The buffer contents at each segment boundary are a fold from the launch memory: a host
   stretch applies its operations; a region leaves each of its arrays at what the write-backs of its blocks leave and every
   other buffer as entered. Every unscoped buffer ends at the last boundary's contents; an argument array is written by no
   stretch and is no region's output, so it ends as launched. -/
import proofs.«167498_j75179107549620_1_alg».proof.Proof.K.Stats0
import proofs.«167498_j75179107549620_1_alg».proof.Proof.K.Stats2
import proofs.«167498_j75179107549620_1_alg».proof.Proof.K.Stats4
import proofs.«167498_j75179107549620_1_alg».proof.Proof.K.NormBody
import proofs.«167498_j75179107549620_1_alg».proof.Proof.K.FinalBody
import proofs.«167498_j75179107549620_1_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1r : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1r m ρ) c).arrAt w cfg0.N
theorem W2_arr (c : Dev nD) (w : Fin cfg0.W) :
    W2 m ρ c (Proc.devRef .tc (Pipeline.arrRef spec0 w)) = (dat0 (V1r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2r : (c : Dev nD) → (b : Ref sig .tc) → Buf (Elt F) ((c : Thread nD τ).loc b) := fun c b => W2 m ρ c b
theorem hF0 (c : Dev nD) (w : Fin cfg0.W) : (dat0 (V1r m ρ) c).arrAt w cfg0.N = V2r m ρ c (Pipeline.arrRef spec0 w) :=
  (W2_arr m ρ c w).symm
theorem hrest0 (c : Dev nD) : ∀ b, b ∉ Finset.univ.image (Pipeline.arrRef spec0) → V2r m ρ c b = V1r m ρ c b :=
  fun b hb => W2_of_ne m ρ c b fun w e => hb (Finset.mem_image.mpr ⟨w, Finset.mem_univ _, e⟩)
/-- Through the stretch before region 0 and the region itself a buffer that neither writes keeps its contents. -/
theorem W2_keep (c : Dev nD) (b : Ref sig .tc) (hh : b ∉ hostOps0_W) (hb : ∀ w, Pipeline.arrRef spec0 w ≠ b) :
    W2 m ρ c (Proc.devRef .tc b) = W0 m ρ c (Proc.devRef .tc b) :=
  (W2_of_ne m ρ c b hb).trans (StableHlo.after_of_writes_sub hostOps0 _ hostOps0_writes hh)
/-- The same for an array the region only reads through input window `w`. -/
theorem W2_keep_in (c : Dev nD) (w : Fin cfg0.W) (hw : (cfg0.win w).isOut = false) (hh : Pipeline.arrRef spec0 w ∉ hostOps0_W) :
    W2 m ρ c (Proc.devRef .tc (Pipeline.arrRef spec0 w)) = W0 m ρ c (Proc.devRef .tc (Pipeline.arrRef spec0 w)) :=
  (W2_arr m ρ c w).trans (((dat0 (V1r m ρ) c).arrAt_in w hw _).trans ((A_eq0 (V1r m ρ) c w).trans
    (StableHlo.after_of_writes_sub hostOps0 _ hostOps0_writes hh)))

abbrev W3 : Dev nD → Valuation τ sig (Elt F) := fun c => StableHlo.after hostOps1 (W2 m ρ c)
abbrev V3r : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3r m ρ) c).arrAt w cfg1.N
theorem W4_arr (c : Dev nD) (w : Fin cfg1.W) :
    W4 m ρ c (Proc.devRef .tc (Pipeline.arrRef spec1 w)) = (dat1 (V3r m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4r : (c : Dev nD) → (b : Ref sig .tc) → Buf (Elt F) ((c : Thread nD τ).loc b) := fun c b => W4 m ρ c b
theorem hF1 (c : Dev nD) (w : Fin cfg1.W) : (dat1 (V3r m ρ) c).arrAt w cfg1.N = V4r m ρ c (Pipeline.arrRef spec1 w) :=
  (W4_arr m ρ c w).symm
theorem hrest1 (c : Dev nD) : ∀ b, b ∉ Finset.univ.image (Pipeline.arrRef spec1) → V4r m ρ c b = V3r m ρ c b :=
  fun b hb => W4_of_ne m ρ c b fun w e => hb (Finset.mem_image.mpr ⟨w, Finset.mem_univ _, e⟩)
/-- Through the stretch before region 1 and the region itself a buffer that neither writes keeps its contents. -/
theorem W4_keep (c : Dev nD) (b : Ref sig .tc) (hh : b ∉ hostOps1_W) (hb : ∀ w, Pipeline.arrRef spec1 w ≠ b) :
    W4 m ρ c (Proc.devRef .tc b) = W2 m ρ c (Proc.devRef .tc b) :=
  (W4_of_ne m ρ c b hb).trans (StableHlo.after_of_writes_sub hostOps1 _ hostOps1_writes hh)
/-- The same for an array the region only reads through input window `w`. -/
theorem W4_keep_in (c : Dev nD) (w : Fin cfg1.W) (hw : (cfg1.win w).isOut = false) (hh : Pipeline.arrRef spec1 w ∉ hostOps1_W) :
    W4 m ρ c (Proc.devRef .tc (Pipeline.arrRef spec1 w)) = W2 m ρ c (Proc.devRef .tc (Pipeline.arrRef spec1 w)) :=
  (W4_arr m ρ c w).trans (((dat1 (V3r m ρ) c).arrAt_in w hw _).trans ((A_eq1 (V3r m ρ) c w).trans
    (StableHlo.after_of_writes_sub hostOps1 _ hostOps1_writes hh)))

abbrev W5 : Dev nD → Valuation τ sig (Elt F) := fun c => StableHlo.after hostOps2 (W4 m ρ c)
abbrev V5r : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5r m ρ) c).arrAt w cfg2.N
theorem W6_arr (c : Dev nD) (w : Fin cfg2.W) :
    W6 m ρ c (Proc.devRef .tc (Pipeline.arrRef spec2 w)) = (dat2 (V5r m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6r : (c : Dev nD) → (b : Ref sig .tc) → Buf (Elt F) ((c : Thread nD τ).loc b) := fun c b => W6 m ρ c b
theorem hF2 (c : Dev nD) (w : Fin cfg2.W) : (dat2 (V5r m ρ) c).arrAt w cfg2.N = V6r m ρ c (Pipeline.arrRef spec2 w) :=
  (W6_arr m ρ c w).symm
theorem hrest2 (c : Dev nD) : ∀ b, b ∉ Finset.univ.image (Pipeline.arrRef spec2) → V6r m ρ c b = V5r m ρ c b :=
  fun b hb => W6_of_ne m ρ c b fun w e => hb (Finset.mem_image.mpr ⟨w, Finset.mem_univ _, e⟩)
/-- Through the stretch before region 2 and the region itself a buffer that neither writes keeps its contents. -/
theorem W6_keep (c : Dev nD) (b : Ref sig .tc) (hh : b ∉ hostOps2_W) (hb : ∀ w, Pipeline.arrRef spec2 w ≠ b) :
    W6 m ρ c (Proc.devRef .tc b) = W4 m ρ c (Proc.devRef .tc b) :=
  (W6_of_ne m ρ c b hb).trans (StableHlo.after_of_writes_sub hostOps2 _ hostOps2_writes hh)
/-- The same for an array the region only reads through input window `w`. -/
theorem W6_keep_in (c : Dev nD) (w : Fin cfg2.W) (hw : (cfg2.win w).isOut = false) (hh : Pipeline.arrRef spec2 w ∉ hostOps2_W) :
    W6 m ρ c (Proc.devRef .tc (Pipeline.arrRef spec2 w)) = W4 m ρ c (Proc.devRef .tc (Pipeline.arrRef spec2 w)) :=
  (W6_arr m ρ c w).trans (((dat2 (V5r m ρ) c).arrAt_in w hw _).trans ((A_eq2 (V5r m ρ) c w).trans
    (StableHlo.after_of_writes_sub hostOps2 _ hostOps2_writes hh)))

abbrev W7 : Dev nD → Valuation τ sig (Elt F) := fun c => StableHlo.after hostOps3 (W6 m ρ c)
abbrev V7r : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7r m ρ) c).arrAt w cfg3.N
theorem W8_arr (c : Dev nD) (w : Fin cfg3.W) :
    W8 m ρ c (Proc.devRef .tc (Pipeline.arrRef spec3 w)) = (dat3 (V7r m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8r : (c : Dev nD) → (b : Ref sig .tc) → Buf (Elt F) ((c : Thread nD τ).loc b) := fun c b => W8 m ρ c b
theorem hF3 (c : Dev nD) (w : Fin cfg3.W) : (dat3 (V7r m ρ) c).arrAt w cfg3.N = V8r m ρ c (Pipeline.arrRef spec3 w) :=
  (W8_arr m ρ c w).symm
theorem hrest3 (c : Dev nD) : ∀ b, b ∉ Finset.univ.image (Pipeline.arrRef spec3) → V8r m ρ c b = V7r m ρ c b :=
  fun b hb => W8_of_ne m ρ c b fun w e => hb (Finset.mem_image.mpr ⟨w, Finset.mem_univ _, e⟩)
/-- Through the stretch before region 3 and the region itself a buffer that neither writes keeps its contents. -/
theorem W8_keep (c : Dev nD) (b : Ref sig .tc) (hh : b ∉ hostOps3_W) (hb : ∀ w, Pipeline.arrRef spec3 w ≠ b) :
    W8 m ρ c (Proc.devRef .tc b) = W6 m ρ c (Proc.devRef .tc b) :=
  (W8_of_ne m ρ c b hb).trans (StableHlo.after_of_writes_sub hostOps3 _ hostOps3_writes hh)
/-- The same for an array the region only reads through input window `w`. -/
theorem W8_keep_in (c : Dev nD) (w : Fin cfg3.W) (hw : (cfg3.win w).isOut = false) (hh : Pipeline.arrRef spec3 w ∉ hostOps3_W) :
    W8 m ρ c (Proc.devRef .tc (Pipeline.arrRef spec3 w)) = W6 m ρ c (Proc.devRef .tc (Pipeline.arrRef spec3 w)) :=
  (W8_arr m ρ c w).trans (((dat3 (V7r m ρ) c).arrAt_in w hw _).trans ((A_eq3 (V7r m ρ) c w).trans
    (StableHlo.after_of_writes_sub hostOps3 _ hostOps3_writes hh)))

abbrev W9 : Dev nD → Valuation τ sig (Elt F) := fun c => StableHlo.after hostOps4 (W8 m ρ c)
abbrev V9r : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9r m ρ) c).arrAt w cfg4.N
theorem W10_arr (c : Dev nD) (w : Fin cfg4.W) :
    W10 m ρ c (Proc.devRef .tc (Pipeline.arrRef spec4 w)) = (dat4 (V9r m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10r : (c : Dev nD) → (b : Ref sig .tc) → Buf (Elt F) ((c : Thread nD τ).loc b) := fun c b => W10 m ρ c b
theorem hF4 (c : Dev nD) (w : Fin cfg4.W) : (dat4 (V9r m ρ) c).arrAt w cfg4.N = V10r m ρ c (Pipeline.arrRef spec4 w) :=
  (W10_arr m ρ c w).symm
theorem hrest4 (c : Dev nD) : ∀ b, b ∉ Finset.univ.image (Pipeline.arrRef spec4) → V10r m ρ c b = V9r m ρ c b :=
  fun b hb => W10_of_ne m ρ c b fun w e => hb (Finset.mem_image.mpr ⟨w, Finset.mem_univ _, e⟩)
/-- Through the stretch before region 4 and the region itself a buffer that neither writes keeps its contents. -/
theorem W10_keep (c : Dev nD) (b : Ref sig .tc) (hh : b ∉ hostOps4_W) (hb : ∀ w, Pipeline.arrRef spec4 w ≠ b) :
    W10 m ρ c (Proc.devRef .tc b) = W8 m ρ c (Proc.devRef .tc b) :=
  (W10_of_ne m ρ c b hb).trans (StableHlo.after_of_writes_sub hostOps4 _ hostOps4_writes hh)
/-- The same for an array the region only reads through input window `w`. -/
theorem W10_keep_in (c : Dev nD) (w : Fin cfg4.W) (hw : (cfg4.win w).isOut = false) (hh : Pipeline.arrRef spec4 w ∉ hostOps4_W) :
    W10 m ρ c (Proc.devRef .tc (Pipeline.arrRef spec4 w)) = W8 m ρ c (Proc.devRef .tc (Pipeline.arrRef spec4 w)) :=
  (W10_arr m ρ c w).trans (((dat4 (V9r m ρ) c).arrAt_in w hw _).trans ((A_eq4 (V9r m ρ) c w).trans
    (StableHlo.after_of_writes_sub hostOps4 _ hostOps4_writes hh)))

abbrev W11 : Dev nD → Valuation τ sig (Elt F) := fun c => StableHlo.after hostOps5 (W10 m ρ c)
abbrev V11r : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11r m ρ) c).arrAt w cfg5.N
theorem W12_arr (c : Dev nD) (w : Fin cfg5.W) :
    W12 m ρ c (Proc.devRef .tc (Pipeline.arrRef spec5 w)) = (dat5 (V11r m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12r : (c : Dev nD) → (b : Ref sig .tc) → Buf (Elt F) ((c : Thread nD τ).loc b) := fun c b => W12 m ρ c b
theorem hF5 (c : Dev nD) (w : Fin cfg5.W) : (dat5 (V11r m ρ) c).arrAt w cfg5.N = V12r m ρ c (Pipeline.arrRef spec5 w) :=
  (W12_arr m ρ c w).symm
theorem hrest5 (c : Dev nD) : ∀ b, b ∉ Finset.univ.image (Pipeline.arrRef spec5) → V12r m ρ c b = V11r m ρ c b :=
  fun b hb => W12_of_ne m ρ c b fun w e => hb (Finset.mem_image.mpr ⟨w, Finset.mem_univ _, e⟩)
/-- Through the stretch before region 5 and the region itself a buffer that neither writes keeps its contents. -/
theorem W12_keep (c : Dev nD) (b : Ref sig .tc) (hh : b ∉ hostOps5_W) (hb : ∀ w, Pipeline.arrRef spec5 w ≠ b) :
    W12 m ρ c (Proc.devRef .tc b) = W10 m ρ c (Proc.devRef .tc b) :=
  (W12_of_ne m ρ c b hb).trans (StableHlo.after_of_writes_sub hostOps5 _ hostOps5_writes hh)
/-- The same for an array the region only reads through input window `w`. -/
theorem W12_keep_in (c : Dev nD) (w : Fin cfg5.W) (hw : (cfg5.win w).isOut = false) (hh : Pipeline.arrRef spec5 w ∉ hostOps5_W) :
    W12 m ρ c (Proc.devRef .tc (Pipeline.arrRef spec5 w)) = W10 m ρ c (Proc.devRef .tc (Pipeline.arrRef spec5 w)) :=
  (W12_arr m ρ c w).trans (((dat5 (V11r m ρ) c).arrAt_in w hw _).trans ((A_eq5 (V11r m ρ) c w).trans
    (StableHlo.after_of_writes_sub hostOps5 _ hostOps5_writes hh)))

abbrev W13 : Dev nD → Valuation τ sig (Elt F) := fun c => StableHlo.after hostOps6 (W12 m ρ c)
abbrev V13r : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13r m ρ) c).arrAt w cfg6.N
theorem W14_arr (c : Dev nD) (w : Fin cfg6.W) :
    W14 m ρ c (Proc.devRef .tc (Pipeline.arrRef spec6 w)) = (dat6 (V13r m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14r : (c : Dev nD) → (b : Ref sig .tc) → Buf (Elt F) ((c : Thread nD τ).loc b) := fun c b => W14 m ρ c b
theorem hF6 (c : Dev nD) (w : Fin cfg6.W) : (dat6 (V13r m ρ) c).arrAt w cfg6.N = V14r m ρ c (Pipeline.arrRef spec6 w) :=
  (W14_arr m ρ c w).symm
theorem hrest6 (c : Dev nD) : ∀ b, b ∉ Finset.univ.image (Pipeline.arrRef spec6) → V14r m ρ c b = V13r m ρ c b :=
  fun b hb => W14_of_ne m ρ c b fun w e => hb (Finset.mem_image.mpr ⟨w, Finset.mem_univ _, e⟩)
/-- Through the stretch before region 6 and the region itself a buffer that neither writes keeps its contents. -/
theorem W14_keep (c : Dev nD) (b : Ref sig .tc) (hh : b ∉ hostOps6_W) (hb : ∀ w, Pipeline.arrRef spec6 w ≠ b) :
    W14 m ρ c (Proc.devRef .tc b) = W12 m ρ c (Proc.devRef .tc b) :=
  (W14_of_ne m ρ c b hb).trans (StableHlo.after_of_writes_sub hostOps6 _ hostOps6_writes hh)
/-- The same for an array the region only reads through input window `w`. -/
theorem W14_keep_in (c : Dev nD) (w : Fin cfg6.W) (hw : (cfg6.win w).isOut = false) (hh : Pipeline.arrRef spec6 w ∉ hostOps6_W) :
    W14 m ρ c (Proc.devRef .tc (Pipeline.arrRef spec6 w)) = W12 m ρ c (Proc.devRef .tc (Pipeline.arrRef spec6 w)) :=
  (W14_arr m ρ c w).trans (((dat6 (V13r m ρ) c).arrAt_in w hw _).trans ((A_eq6 (V13r m ρ) c w).trans
    (StableHlo.after_of_writes_sub hostOps6 _ hostOps6_writes hh)))

/-! ## The arguments end as launched -/

theorem W14_main_arg0 (c : Dev nD) : W14 m ρ c (Proc.devRef .tc main_arg0) = m ((c : Thread nD τ).loc main_arg0) :=
  (W14_keep m ρ c main_arg0 (by decide) (by decide)).trans <| (W12_keep m ρ c main_arg0 (by decide) (by decide)).trans <| (W10_keep m ρ c main_arg0 (by decide) (by decide)).trans <| (W8_keep m ρ c main_arg0 (by decide) (by decide)).trans <| (W6_keep m ρ c main_arg0 (by decide) (by decide)).trans <| (W4_keep m ρ c main_arg0 (by decide) (by decide)).trans <| (W2_keep_in m ρ c 1 rfl (by decide)).trans <| rfl
theorem W14_main_arg1 (c : Dev nD) : W14 m ρ c (Proc.devRef .tc main_arg1) = m ((c : Thread nD τ).loc main_arg1) :=
  (W14_keep m ρ c main_arg1 (by decide) (by decide)).trans <| (W12_keep m ρ c main_arg1 (by decide) (by decide)).trans <| (W10_keep m ρ c main_arg1 (by decide) (by decide)).trans <| (W8_keep m ρ c main_arg1 (by decide) (by decide)).trans <| (W6_keep m ρ c main_arg1 (by decide) (by decide)).trans <| (W4_keep m ρ c main_arg1 (by decide) (by decide)).trans <| (W2_keep m ρ c main_arg1 (by decide) (by decide)).trans <| rfl
theorem W14_main_arg2 (c : Dev nD) : W14 m ρ c (Proc.devRef .tc main_arg2) = m ((c : Thread nD τ).loc main_arg2) :=
  (W14_keep m ρ c main_arg2 (by decide) (by decide)).trans <| (W12_keep m ρ c main_arg2 (by decide) (by decide)).trans <| (W10_keep m ρ c main_arg2 (by decide) (by decide)).trans <| (W8_keep m ρ c main_arg2 (by decide) (by decide)).trans <| (W6_keep m ρ c main_arg2 (by decide) (by decide)).trans <| (W4_keep m ρ c main_arg2 (by decide) (by decide)).trans <| (W2_keep_in m ρ c 2 rfl (by decide)).trans <| rfl
theorem W14_main_arg3 (c : Dev nD) : W14 m ρ c (Proc.devRef .tc main_arg3) = m ((c : Thread nD τ).loc main_arg3) :=
  (W14_keep m ρ c main_arg3 (by decide) (by decide)).trans <| (W12_keep m ρ c main_arg3 (by decide) (by decide)).trans <| (W10_keep m ρ c main_arg3 (by decide) (by decide)).trans <| (W8_keep m ρ c main_arg3 (by decide) (by decide)).trans <| (W6_keep m ρ c main_arg3 (by decide) (by decide)).trans <| (W4_keep m ρ c main_arg3 (by decide) (by decide)).trans <| (W2_keep_in m ρ c 3 rfl (by decide)).trans <| rfl
theorem W14_main_arg4 (c : Dev nD) : W14 m ρ c (Proc.devRef .tc main_arg4) = m ((c : Thread nD τ).loc main_arg4) :=
  (W14_keep m ρ c main_arg4 (by decide) (by decide)).trans <| (W12_keep m ρ c main_arg4 (by decide) (by decide)).trans <| (W10_keep m ρ c main_arg4 (by decide) (by decide)).trans <| (W8_keep m ρ c main_arg4 (by decide) (by decide)).trans <| (W6_keep m ρ c main_arg4 (by decide) (by decide)).trans <| (W4_keep m ρ c main_arg4 (by decide) (by decide)).trans <| (W2_keep m ρ c main_arg4 (by decide) (by decide)).trans <| rfl
theorem W14_main_arg5 (c : Dev nD) : W14 m ρ c (Proc.devRef .tc main_arg5) = m ((c : Thread nD τ).loc main_arg5) :=
  (W14_keep m ρ c main_arg5 (by decide) (by decide)).trans <| (W12_keep m ρ c main_arg5 (by decide) (by decide)).trans <| (W10_keep m ρ c main_arg5 (by decide) (by decide)).trans <| (W8_keep m ρ c main_arg5 (by decide) (by decide)).trans <| (W6_keep_in m ρ c 2 rfl (by decide)).trans <| (W4_keep m ρ c main_arg5 (by decide) (by decide)).trans <| (W2_keep m ρ c main_arg5 (by decide) (by decide)).trans <| rfl
theorem W14_main_arg6 (c : Dev nD) : W14 m ρ c (Proc.devRef .tc main_arg6) = m ((c : Thread nD τ).loc main_arg6) :=
  (W14_keep m ρ c main_arg6 (by decide) (by decide)).trans <| (W12_keep m ρ c main_arg6 (by decide) (by decide)).trans <| (W10_keep m ρ c main_arg6 (by decide) (by decide)).trans <| (W8_keep m ρ c main_arg6 (by decide) (by decide)).trans <| (W6_keep m ρ c main_arg6 (by decide) (by decide)).trans <| (W4_keep m ρ c main_arg6 (by decide) (by decide)).trans <| (W2_keep m ρ c main_arg6 (by decide) (by decide)).trans <| rfl
theorem W14_main_arg7 (c : Dev nD) : W14 m ρ c (Proc.devRef .tc main_arg7) = m ((c : Thread nD τ).loc main_arg7) :=
  (W14_keep m ρ c main_arg7 (by decide) (by decide)).trans <| (W12_keep m ρ c main_arg7 (by decide) (by decide)).trans <| (W10_keep m ρ c main_arg7 (by decide) (by decide)).trans <| (W8_keep m ρ c main_arg7 (by decide) (by decide)).trans <| (W6_keep_in m ρ c 4 rfl (by decide)).trans <| (W4_keep m ρ c main_arg7 (by decide) (by decide)).trans <| (W2_keep m ρ c main_arg7 (by decide) (by decide)).trans <| rfl
theorem W14_main_arg8 (c : Dev nD) : W14 m ρ c (Proc.devRef .tc main_arg8) = m ((c : Thread nD τ).loc main_arg8) :=
  (W14_keep m ρ c main_arg8 (by decide) (by decide)).trans <| (W12_keep m ρ c main_arg8 (by decide) (by decide)).trans <| (W10_keep m ρ c main_arg8 (by decide) (by decide)).trans <| (W8_keep m ρ c main_arg8 (by decide) (by decide)).trans <| (W6_keep m ρ c main_arg8 (by decide) (by decide)).trans <| (W4_keep m ρ c main_arg8 (by decide) (by decide)).trans <| (W2_keep m ρ c main_arg8 (by decide) (by decide)).trans <| rfl
theorem W14_main_arg9 (c : Dev nD) : W14 m ρ c (Proc.devRef .tc main_arg9) = m ((c : Thread nD τ).loc main_arg9) :=
  (W14_keep m ρ c main_arg9 (by decide) (by decide)).trans <| (W12_keep m ρ c main_arg9 (by decide) (by decide)).trans <| (W10_keep_in m ρ c 2 rfl (by decide)).trans <| (W8_keep m ρ c main_arg9 (by decide) (by decide)).trans <| (W6_keep m ρ c main_arg9 (by decide) (by decide)).trans <| (W4_keep m ρ c main_arg9 (by decide) (by decide)).trans <| (W2_keep m ρ c main_arg9 (by decide) (by decide)).trans <| rfl
theorem W14_main_arg10 (c : Dev nD) : W14 m ρ c (Proc.devRef .tc main_arg10) = m ((c : Thread nD τ).loc main_arg10) :=
  (W14_keep m ρ c main_arg10 (by decide) (by decide)).trans <| (W12_keep m ρ c main_arg10 (by decide) (by decide)).trans <| (W10_keep_in m ρ c 3 rfl (by decide)).trans <| (W8_keep m ρ c main_arg10 (by decide) (by decide)).trans <| (W6_keep m ρ c main_arg10 (by decide) (by decide)).trans <| (W4_keep m ρ c main_arg10 (by decide) (by decide)).trans <| (W2_keep m ρ c main_arg10 (by decide) (by decide)).trans <| rfl
theorem W14_main_arg11 (c : Dev nD) : W14 m ρ c (Proc.devRef .tc main_arg11) = m ((c : Thread nD τ).loc main_arg11) :=
  (W14_keep m ρ c main_arg11 (by decide) (by decide)).trans <| (W12_keep m ρ c main_arg11 (by decide) (by decide)).trans <| (W10_keep m ρ c main_arg11 (by decide) (by decide)).trans <| (W8_keep m ρ c main_arg11 (by decide) (by decide)).trans <| (W6_keep m ρ c main_arg11 (by decide) (by decide)).trans <| (W4_keep m ρ c main_arg11 (by decide) (by decide)).trans <| (W2_keep m ρ c main_arg11 (by decide) (by decide)).trans <| rfl
theorem W14_main_arg12 (c : Dev nD) : W14 m ρ c (Proc.devRef .tc main_arg12) = m ((c : Thread nD τ).loc main_arg12) :=
  (W14_keep_in m ρ c 2 rfl (by decide)).trans <| (W12_keep m ρ c main_arg12 (by decide) (by decide)).trans <| (W10_keep m ρ c main_arg12 (by decide) (by decide)).trans <| (W8_keep m ρ c main_arg12 (by decide) (by decide)).trans <| (W6_keep m ρ c main_arg12 (by decide) (by decide)).trans <| (W4_keep m ρ c main_arg12 (by decide) (by decide)).trans <| (W2_keep m ρ c main_arg12 (by decide) (by decide)).trans <| rfl
theorem W14_main_arg13 (c : Dev nD) : W14 m ρ c (Proc.devRef .tc main_arg13) = m ((c : Thread nD τ).loc main_arg13) :=
  (W14_keep_in m ρ c 3 rfl (by decide)).trans <| (W12_keep m ρ c main_arg13 (by decide) (by decide)).trans <| (W10_keep m ρ c main_arg13 (by decide) (by decide)).trans <| (W8_keep m ρ c main_arg13 (by decide) (by decide)).trans <| (W6_keep m ρ c main_arg13 (by decide) (by decide)).trans <| (W4_keep m ρ c main_arg13 (by decide) (by decide)).trans <| (W2_keep m ρ c main_arg13 (by decide) (by decide)).trans <| rfl
theorem W14_main_arg14 (c : Dev nD) : W14 m ρ c (Proc.devRef .tc main_arg14) = m ((c : Thread nD τ).loc main_arg14) :=
  (W14_keep m ρ c main_arg14 (by decide) (by decide)).trans <| (W12_keep m ρ c main_arg14 (by decide) (by decide)).trans <| (W10_keep m ρ c main_arg14 (by decide) (by decide)).trans <| (W8_keep m ρ c main_arg14 (by decide) (by decide)).trans <| (W6_keep m ρ c main_arg14 (by decide) (by decide)).trans <| (W4_keep m ρ c main_arg14 (by decide) (by decide)).trans <| (W2_keep m ρ c main_arg14 (by decide) (by decide)).trans <| rfl
theorem W14_main_arg15 (c : Dev nD) : W14 m ρ c (Proc.devRef .tc main_arg15) = m ((c : Thread nD τ).loc main_arg15) :=
  (W14_keep m ρ c main_arg15 (by decide) (by decide)).trans <| (W12_keep m ρ c main_arg15 (by decide) (by decide)).trans <| (W10_keep m ρ c main_arg15 (by decide) (by decide)).trans <| (W8_keep m ρ c main_arg15 (by decide) (by decide)).trans <| (W6_keep m ρ c main_arg15 (by decide) (by decide)).trans <| (W4_keep m ρ c main_arg15 (by decide) (by decide)).trans <| (W2_keep m ρ c main_arg15 (by decide) (by decide)).trans <| rfl
theorem W14_main_arg16 (c : Dev nD) : W14 m ρ c (Proc.devRef .tc main_arg16) = m ((c : Thread nD τ).loc main_arg16) :=
  (W14_keep m ρ c main_arg16 (by decide) (by decide)).trans <| (W12_keep m ρ c main_arg16 (by decide) (by decide)).trans <| (W10_keep m ρ c main_arg16 (by decide) (by decide)).trans <| (W8_keep m ρ c main_arg16 (by decide) (by decide)).trans <| (W6_keep m ρ c main_arg16 (by decide) (by decide)).trans <| (W4_keep m ρ c main_arg16 (by decide) (by decide)).trans <| (W2_keep m ρ c main_arg16 (by decide) (by decide)).trans <| rfl

/-! ## The proof data family and the thread state -/

def pdats : (p : Fin 7) → (c : Dev nD) → Dat τ (Elt F) Unit ℕ (UR sig nD τ) ℕ (Pipeline.pin (pcfgs (F := F)) adm p) c
  | ⟨0, _⟩ => fun c => dat0 (V1r m ρ) c
  | ⟨1, _⟩ => fun c => dat1 (V3r m ρ) c
  | ⟨2, _⟩ => fun c => dat2 (V5r m ρ) c
  | ⟨3, _⟩ => fun c => dat3 (V7r m ρ) c
  | ⟨4, _⟩ => fun c => dat4 (V9r m ρ) c
  | ⟨5, _⟩ => fun c => dat5 (V11r m ρ) c
  | ⟨6, _⟩ => fun c => dat6 (V13r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at the contents after the stretch before it, left
    with its arrays at what the pipeline leaves and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ (iprop(Pipeline.scopedRest spec0 c ∗ ∃ r, prngReg c r) : sProp 𝕄) := hout0 (V1r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1r m ρ c) (V2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the stretch before it, left
    with its arrays at what the pipeline leaves and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3r m ρ c) (V4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after the stretch before it, left
    with its arrays at what the pipeline leaves and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5r m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5r m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m ρ 2 c).Φ (Fin.last _) ⊢ (iprop(Pipeline.scopedRest spec2 c ∗ ∃ r, prngReg c r) : sProp 𝕄) := hout2 (V5r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5r m ρ c) (V6r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after the stretch before it, left
    with its arrays at what the pipeline leaves and every other buffer as entered. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7r m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7r m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7r m ρ c) (V8r m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents after the stretch before it, left
    with its arrays at what the pipeline leaves and every other buffer as entered. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9r m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9r m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    have h : (pdats m ρ 4 c).Φ (Fin.last _) ⊢ (iprop(Pipeline.scopedRest spec4 c ∗ ∃ r, prngReg c r) : sProp 𝕄) := hout4 (V9r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9r m ρ c) (V10r m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents after the stretch before it, left
    with its arrays at what the pipeline leaves and every other buffer as entered. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11r m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11r m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11r m ρ c) (V12r m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents after the stretch before it, left
    with its arrays at what the pipeline leaves and every other buffer as entered. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13r m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13r m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13r m ρ c) (V14r m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Gen

end
-- ==== Proof.K.Run.lean ====
/- The launch over the fourteen segments: every weakly fair execution terminates and every unscoped buffer ends at the last
   boundary's contents; hence the frame (the arguments end as launched) and the run with the result array named. -/
import proofs.«167498_j75179107549620_1_alg».proof.Proof.K.Bounds

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segsAll : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in
/-- Every weakly fair execution of @main from memory `m` terminates, nothing faulting, and every unscoped buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) := by
  refine Pipeline.θ_run_regions_kit_dev (pcfgs (F := F)) adm (pdats m ρ) () cellOf_inj emb₁ defs₀ 𝒱₀ L lv m ρ main
    (fun _ => segsAll m ρ)
    (fun c Q => by
      rewrite [main_chain c, Pipeline.Seg.run_eq_chain,
        show (segsAll m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c)⟩) (run_all m ρ)

/-- The run with the result array named: it ends at what region 6's write-backs leave. -/
theorem run_value : θ_run defs (onTc (τ := τ) (main (F := F))) ⟨m, fun _ => 0, ρ⟩ (fun r => ∀ c : Dev nD,
      r.2.mem ((c.tc : Thread nD τ).loc main_v105) = (dat6 (V13r m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v105 (by decide))).trans (W14_arr m ρ c 5),
    (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c)⟩) (run_all m ρ)

end Cert.Kernel.Gen

end
-- ==== Proof.KI.Stats0Runs.lean ====
/- Region 0 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 20 = 0 :=
  (by decide +kernel : ∀ t : Fin grid0.N, cond0_0 (grid0.coords t) ↔ t.val % 20 = 0)
/-- The second branch condition (the grid coordinate is the last). -/
abbrev cond0_1 (i : grid0.Coords) : Prop := k0_cond2 i = 1#1
/-- It holds at the last point only. -/
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last point the body stores nothing into one-row output 6, and its block is not written back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Off the last point the body stores nothing into one-row output 7, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-- One staging buffer of each output window, through which its contents are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two scratch rows: whole scoped buffers of the kernel's own, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two scratch rows split out as memrefs owned at some contents; the rest of the scoped
    buffers stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Gen

end
-- ==== Proof.KI.Stats0RunA.lean ====
/- Region 0, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.KI.Stats0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.KernelIdeal.Gen

end
-- ==== Proof.KI.Stats0RunB.lean ====
/- Region 0, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.KI.Stats0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.KernelIdeal.Gen

end
-- ==== Proof.KI.Stats0RunC.lean ====
/- Region 0, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.KI.Stats0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ (∃ f, arg7.view.loc (c : Thread nD τ) ↦[arg7.view.set]{fullShare} arg7.view.writes (Elt F) f LO0) ∗ (∃ f, arg8.view.loc (c : Thread nD τ) ↦[arg8.view.set]{fullShare} arg8.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc0__sage_stats_kernel i arg1 harg1 arg2 harg2 arg3 harg3 arg4 harg4 arg5 harg5 arg6 harg6 arg7 harg7 arg8 harg8 argS0 hargS0 argS1 hargS1) K } := by
  refine ⟨?_, ?_, ?_, ?_, ?_, fun E K => ?run⟩
  case run =>
    simp only [cc0__sage_stats_kernel_eq_skeleton]; unfold cc0__sage_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]; · iexists _; iexact HO0
    isplitl [HO1]; · iexists _; iexact HO1
    isplitl [HS0]; · iexists _; iexact HS0
    iexists _; iexact HS1

end Cert.KernelIdeal.Gen

end
-- ==== Proof.KI.Stats0.lean ====
/- Region 0: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.KI.Stats0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## What each case leaves, read back from the pieces its run finds -/

theorem coverH0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).1 S5000x128.size (by sl_kernel_rfl) y
def outH0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 argS0 hargS0 argS1 hargS1 hc0 hc1 x0 x1 x2 x3 x4).1)
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).2.1 S1x128.size (by sl_kernel_rfl) y
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 argS0 hargS0 argS1 hargS1 hc0 hc1 x0 x1 x2 x3 x4).2.1)
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 argS0 hargS0 argS1 hargS1 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 argS0 hargS0 argS1 hargS1 hc0 hc1 x0 x1 x2 x3 x4).2.2.1 S1x128.size (by sl_kernel_rfl) y
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 argS0 hargS0 argS1 hargS1 hc0 hc1 x0 x1 x2 x3 x4).2.2.1)

theorem coverH0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).1)
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.1)
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 argS0 hargS0 argS1 hargS1 hc0 hc1 x0 x1 x2 x3 x4 xs0 xs1).2.2.1)

theorem coverH0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).1)
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.1)
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1)
theorem coverO0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def outO0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.1)
theorem coverO0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def outO0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 argS0 hargS0 argS1 hargS1 hc0 hc1 x0 x1 x2 x3 x4 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt0 (c : Dev nD) : (n : ℕ) → n < cfg0.N → Vec F S5000x128 .f32 × Vec F S1x128 .f32 × Vec F S1x128 .f32 × Vec F S1x128 .f32 × Vec F S1x128 .f32
  | 0, hn => (outH0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 20 = 19 then
      (outH0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, outO0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, outO0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (outH0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => by have h' := (hcond0_0 ⟨n + 1, hn⟩).mp h; have hN : n + 1 < 20 := lt_of_lt_of_eq hn (show cfg0.N = 20 from N_0); (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val % 20 = 0) (h1 : ¬t.val % 20 = 19) :
    outsAt0 V c t.val t.isLt = (outH0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 20 := lt_of_lt_of_eq hn (show cfg0.N = 20 from N_0); (try dsimp only at h0); omega)

theorem outsAt0_B (c : Dev nD) (t : Fin cfg0.N) (h0 : ¬t.val % 20 = 0) (h1 : ¬t.val % 20 = 19) :
    outsAt0 V c t.val t.isLt = (outH0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 20 = 0) (h1 : t.val % 20 = 19) :
    outsAt0 V c t.val t.isLt = (outH0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, outO0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, outO0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  rw [show (dat0 V c).leavesExact 4 t = owns (c : Thread nD τ) (ms0_4 t) fullShare ((dat0 V c).after 4 t) from by
      unfold Dat.leavesExact; rw [liveAt0_4 t], after0_4]
  rw [show (dat0 V c).leavesExact 5 t = owns (c : Thread nD τ) (ms0_5 t) fullShare ((dat0 V c).after 5 t) from by
      unfold Dat.leavesExact; rw [liveAt0_5 t], after0_5]
  by_cases h0 : t.val % 20 = 0
  · have h1 : ¬t.val % 20 = 19 := by omega
    have hcc0 : cond0_0 (grid0.coords t) := (hcond0_0 t).mpr h0
    have hcc1 : ¬cond0_1 (grid0.coords t) := fun h => h1 ((hcond0_1 t).mp h)
    rw [Dat.leavesExact_idle (dat0 V c) 6 t (idleAt0_6 t hcc1) (noFlush0_6 t hcc1)]
    rw [Dat.leavesExact_idle (dat0 V c) 7 t (idleAt0_7 t hcc1) (noFlush0_7 t hcc1)]
    rw [outsAt0_A V c t h0 h1]
    unfold outH0_A sout0_A_0 sout0_A_1; (try dsimp only)
    have hz : t.val = 0 := by omega
    rw [PhiS0_castSucc V c t, PhiS0_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ hcc0 hcc1 (iblk0 V c 0 t) (iblk0 V c 1 t) (iblk0 V c 2 t) (iblk0 V c 3 t) (iblk0 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%eH, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverH0_A c _ _ _ _ _ _ _ _ _ _ _ _ _ _ _ _ _ _ _ _ _ _ _ _ _ _ _ _)
    isplitl [H6]; · iexists _; iexact H6
    iexists _; iexact H7

  · have hz : t.val ≠ 0 := by omega
    have hcc0 : ¬cond0_0 (grid0.coords t) := fun h => h0 ((hcond0_0 t).mp h)
    by_cases h1 : t.val % 20 = 19
    · have hcc1 : cond0_1 (grid0.coords t) := (hcond0_1 t).mpr h1
      rw [show (dat0 V c).leavesExact 6 t = owns (c : Thread nD τ) (ms0_6 t) fullShare ((dat0 V c).after 6 t) from by
      unfold Dat.leavesExact; rw [liveAt0_6_C t hcc1], after0_6]
      rw [show (dat0 V c).leavesExact 7 t = owns (c : Thread nD τ) (ms0_7 t) fullShare ((dat0 V c).after 7 t) from by
      unfold Dat.leavesExact; rw [liveAt0_7_C t hcc1], after0_7]
      rw [outsAt0_C V c t h0 h1]
      unfold outH0_C outO0_C_0 outO0_C_1 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ hcc0 hcc1 (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%eH, H5⟩, ⟨%eO0, H6⟩, ⟨%eO1, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH0_C c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverO0_C_0 c _ _ _ _ _ _ _ _ _ _ _ _ _ _ _ _ _ _ _ _ _ _ _ _ _ _ _ _ _ _)
      unfold owns; iexists _; isplitr
      swap; · iexact H7
      ipureintro; exact View.read_writes_of_cover _ _ _ _ _ (coverO0_C_1 c _ _ _ _ _ _ _ _ _ _ _ _ _ _ _ _ _ _ _ _ _ _ _ _ _ _ _ _ _ _)

    · have hcc1 : ¬cond0_1 (grid0.coords t) := fun h => h1 ((hcond0_1 t).mp h)
      rw [Dat.leavesExact_idle (dat0 V c) 6 t (idleAt0_6 t hcc1) (noFlush0_6 t hcc1)]
      rw [Dat.leavesExact_idle (dat0 V c) 7 t (idleAt0_7 t hcc1) (noFlush0_7 t hcc1)]
      rw [outsAt0_B V c t h0 h1]
      unfold outH0_B sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ hcc0 hcc1 (iblk0 V c 0 t) (iblk0 V c 1 t) (iblk0 V c 2 t) (iblk0 V c 3 t) (iblk0 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%eH, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH0_B c _ _ _ _ _ _ _ _ _ _ _ _ _ _ _ _ _ _ _ _ _ _ _ _ _ _ _ _ _ _)
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

/-- What the region is handed is the invariant before the first point; after the last point the invariant gives it
    back, the scratch rows' contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.KernelIdeal.Gen

end
-- ==== Proof.KI.Stats2Runs.lean ====
/- Region 2 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 20 = 0 :=
  (by decide +kernel : ∀ t : Fin grid2.N, cond2_0 (grid2.coords t) ↔ t.val % 20 = 0)
/-- The second branch condition (the grid coordinate is the last). -/
abbrev cond2_1 (i : grid2.Coords) : Prop := k2_cond2 i = 1#1
/-- It holds at the last point only. -/
theorem hcond2_1 : ∀ t : Fin cfg2.N, cond2_1 (grid2.coords t) ↔ t.val % 20 = 19 :=
  (by decide +kernel : ∀ t : Fin grid2.N, cond2_1 (grid2.coords t) ↔ t.val % 20 = 19)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Off the last point the body stores nothing into one-row output 7, and its block is not written back there. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel
/-- Off the last point the body stores nothing into one-row output 8, and its block is not written back there. -/
theorem idleAt2_8 : ∀ t : Fin cfg2.N, ¬cond2_1 (grid2.coords t) → cfg2.idle 8 (grid2.coords t) = true := by decide +kernel
theorem noFlush2_8 : ∀ t : Fin cfg2.N, ¬cond2_1 (grid2.coords t) → (cfg2.win 8).flush t = false := by decide +kernel
theorem liveAt2_8_C : ∀ t : Fin cfg2.N, cond2_1 (grid2.coords t) → cfg2.idle 8 (grid2.coords t) = false := by decide +kernel

/-- One staging buffer of each output window, through which its contents are stated. -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two scratch rows: whole scoped buffers of the kernel's own, passed beside the windows. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two scratch rows split out as memrefs owned at some contents; the rest of the scoped
    buffers stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Gen

end
-- ==== Proof.KI.Stats2RunA.lean ====
/- Region 2, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.KI.Stats2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi0 ∗ owns (c : Thread nD τ) arg9 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ owns (c : Thread nD τ) arg8 fullShare xi0 ∗ owns (c : Thread nD τ) arg9 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, fun xi0 xi1 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfO0; obtain rfl := harg9.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]
    · iexists _; isplitr; · ipureintro; exact harg8.read_unread _
      iexact HO0
    isplitl [HO1]
    · iexists _; isplitr; · ipureintro; exact harg9.read_unread _
      iexact HO1
    isplitl [HS0]; · iexists _; iexact HS0
    iexists _; iexact HS1

end Cert.KernelIdeal.Gen

end
-- ==== Proof.KI.Stats2RunB.lean ====
/- Region 2, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.KI.Stats2RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi0 ∗ owns (c : Thread nD τ) arg9 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ owns (c : Thread nD τ) arg8 fullShare xi0 ∗ owns (c : Thread nD τ) arg9 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, fun xi0 xi1 E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfO0; obtain rfl := harg9.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]
    · iexists _; isplitr; · ipureintro; exact harg8.read_unread _
      iexact HO0
    isplitl [HO1]
    · iexists _; isplitr; · ipureintro; exact harg9.read_unread _
      iexact HO1
    isplitl [HS0]; · iexists _; iexact HS0
    iexists _; iexact HS1

end Cert.KernelIdeal.Gen

end
-- ==== Proof.KI.Stats2RunC.lean ====
/- Region 2, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.KI.Stats2RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f LH) ∗ (∃ f, arg8.view.loc (c : Thread nD τ) ↦[arg8.view.set]{fullShare} arg8.view.writes (Elt F) f LO0) ∗ (∃ f, arg9.view.loc (c : Thread nD τ) ↦[arg9.view.set]{fullShare} arg9.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc2__gin_stats_kernel i arg1 harg1 arg2 harg2 arg3 harg3 arg4 harg4 arg5 harg5 arg6 harg6 arg7 harg7 arg8 harg8 arg9 harg9 argS0 hargS0 argS1 hargS1) K } := by
  refine ⟨?_, ?_, ?_, ?_, ?_, fun E K => ?run⟩
  case run =>
    simp only [cc2__gin_stats_kernel_eq_skeleton]; unfold cc2__gin_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HH]; · iexists _; iexact HH
    isplitl [HO0]; · iexists _; iexact HO0
    isplitl [HO1]; · iexists _; iexact HO1
    isplitl [HS0]; · iexists _; iexact HS0
    iexists _; iexact HS1

end Cert.KernelIdeal.Gen

end
-- ==== Proof.KI.Stats2.lean ====
/- Region 2: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.KI.Stats2RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## What each case leaves, read back from the pieces its run finds -/

theorem coverH2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1 S5000x128.size (by sl_kernel_rfl) y
def outH2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).1)
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1 S1x128.size (by sl_kernel_rfl) y
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.1)
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1 S1x128.size (by sl_kernel_rfl) y
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 argS0 hargS0 argS1 hargS1 hc0 hc1 x0 x1 x2 x3 x4 x5).2.2.1)

theorem coverH2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1 S5000x128.size (by sl_kernel_rfl) y
def outH2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1)
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1)
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1)

theorem coverH2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1 S5000x128.size (by sl_kernel_rfl) y
def outH2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).1)
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.1)
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.2.2.1)
theorem coverO2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1 S1x128.size (by sl_kernel_rfl) y
def outO2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.1)
theorem coverO2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1 S1x128.size (by sl_kernel_rfl) y
def outO2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt2 (c : Dev nD) : (n : ℕ) → n < cfg2.N → Vec F S5000x128 .f32 × Vec F S1x128 .f32 × Vec F S1x128 .f32 × Vec F S1x128 .f32 × Vec F S1x128 .f32
  | 0, hn => (outH2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : (n + 1) % 20 = 19 then
      (outH2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, outO2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, outO2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (outH2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => by have h' := (hcond2_0 ⟨n + 1, hn⟩).mp h; have hN : n + 1 < 20 := lt_of_lt_of_eq hn (show cfg2.N = 20 from N_2); (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

theorem outsAt2_A (c : Dev nD) (t : Fin cfg2.N) (h0 : t.val % 20 = 0) (h1 : ¬t.val % 20 = 19) :
    outsAt2 V c t.val t.isLt = (outH2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (by exfalso; have hN : n + 1 < 20 := lt_of_lt_of_eq hn (show cfg2.N = 20 from N_2); (try dsimp only at h0); omega)

theorem outsAt2_B (c : Dev nD) (t : Fin cfg2.N) (h0 : ¬t.val % 20 = 0) (h1 : ¬t.val % 20 = 19) :
    outsAt2 V c t.val t.isLt = (outH2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (outH2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, outO2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, outO2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  rw [show (dat2 V c).leavesExact 5 t = owns (c : Thread nD τ) (ms2_5 t) fullShare ((dat2 V c).after 5 t) from by
      unfold Dat.leavesExact; rw [liveAt2_5 t], after2_5]
  rw [show (dat2 V c).leavesExact 6 t = owns (c : Thread nD τ) (ms2_6 t) fullShare ((dat2 V c).after 6 t) from by
      unfold Dat.leavesExact; rw [liveAt2_6 t], after2_6]
  by_cases h0 : t.val % 20 = 0
  · have h1 : ¬t.val % 20 = 19 := by omega
    have hcc0 : cond2_0 (grid2.coords t) := (hcond2_0 t).mpr h0
    have hcc1 : ¬cond2_1 (grid2.coords t) := fun h => h1 ((hcond2_1 t).mp h)
    rw [Dat.leavesExact_idle (dat2 V c) 7 t (idleAt2_7 t hcc1) (noFlush2_7 t hcc1)]
    rw [Dat.leavesExact_idle (dat2 V c) 8 t (idleAt2_8 t hcc1) (noFlush2_8 t hcc1)]
    rw [outsAt2_A V c t h0 h1]
    unfold outH2_A sout2_A_0 sout2_A_1; (try dsimp only)
    have hz : t.val = 0 := by omega
    rw [PhiS2_castSucc V c t, PhiS2_zero V c _ _ hz, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%eH, H6⟩, H7, H8, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverH2_A c _ _ _ _ _ _ _ _ _ _ _ _ _ _ _ _ _ _ _ _ _ _ _ _ _ _ _ _ _ _ _)
    isplitl [H7]; · iexists _; iexact H7
    iexists _; iexact H8

  · have hz : t.val ≠ 0 := by omega
    have hcc0 : ¬cond2_0 (grid2.coords t) := fun h => h0 ((hcond2_0 t).mp h)
    by_cases h1 : t.val % 20 = 19
    · have hcc1 : cond2_1 (grid2.coords t) := (hcond2_1 t).mpr h1
      rw [show (dat2 V c).leavesExact 7 t = owns (c : Thread nD τ) (ms2_7 t) fullShare ((dat2 V c).after 7 t) from by
      unfold Dat.leavesExact; rw [liveAt2_7_C t hcc1], after2_7]
      rw [show (dat2 V c).leavesExact 8 t = owns (c : Thread nD τ) (ms2_8 t) fullShare ((dat2 V c).after 8 t) from by
      unfold Dat.leavesExact; rw [liveAt2_8_C t hcc1], after2_8]
      rw [outsAt2_C V c t h0 h1]
      unfold outH2_C outO2_C_0 outO2_C_1 sout2_C_0 sout2_C_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%eH, H6⟩, ⟨%eO0, H7⟩, ⟨%eO1, H8⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverH2_C c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverO2_C_0 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverO2_C_1 c _ _ _ _ _ _ _ _ _ _ _ _ _ _ _ _ _ _ _ _ _ _ _ _ _ _ _ _ _ _ _ _ _)

    · have hcc1 : ¬cond2_1 (grid2.coords t) := fun h => h1 ((hcond2_1 t).mp h)
      rw [Dat.leavesExact_idle (dat2 V c) 7 t (idleAt2_7 t hcc1) (noFlush2_7 t hcc1)]
      rw [Dat.leavesExact_idle (dat2 V c) 8 t (idleAt2_8 t hcc1) (noFlush2_8 t hcc1)]
      rw [outsAt2_B V c t h0 h1]
      unfold outH2_B sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ hcc0 hcc1 (iblk2 V c 0 t) (iblk2 V c 1 t) (iblk2 V c 2 t) (iblk2 V c 3 t) (iblk2 V c 4 t) (iblk2 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%eH, H6⟩, H7, H8, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverH2_B c _ _ _ _ _ _ _ _ _ _ _ _ _ _ _ _ _ _ _ _ _ _ _ _ _ _ _ _ _ _ _ _ _)
      isplitl [H7]; · iexists _; iexact H7
      iexists _; iexact H8

theorem body_obligation2 (c : Dev nD) : BodyObligation (dat2 (F := F) V c) (defs₀ (F := F)) Variants.none () Set.univ := fun t => by
  rw [bigSep_W2, bigSep_W2]
  exact sound_body2 V c t

/-- What the region is handed is the invariant before the first point; after the last point the invariant gives it
    back, the scratch rows' contents forgotten. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.KernelIdeal.Gen

end
-- ==== Proof.KI.Stats4Runs.lean ====
/- Region 4 of the program: a row-block kernel that, besides writing its block of the pre-activation rows, keeps two
   running column sums (of the rows and of their squares) in two scratch rows across the 20 grid points — zeroed at the
   first point, added to at every point, copied to the two one-row outputs at the last. This module holds what the three
   control cases (first point / middle points / last point) share: the two branch conditions in closed form over the grid,
   where the one-row outputs are idle, the staging and scratch memrefs, and the region invariant with the two scratch rows
   split out of the scoped rest. -/
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch condition of the body (the grid coordinate is 0), as the skeleton's scalar chain. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)
/-- The second branch condition (the grid coordinate is the last). -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Off the last point the body stores nothing into one-row output 6, and its block is not written back there. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Off the last point the body stores nothing into one-row output 7, and its block is not written back there. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-- One staging buffer of each output window, through which its contents are stated. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two scratch rows: whole scoped buffers of the kernel's own, passed beside the windows. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows split out as memrefs owned at some contents; the rest of the scoped
    buffers stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Gen

end
-- ==== Proof.KI.Stats4RunA.lean ====
/- Region 4, the body's run at the first grid point (both scratch rows are zeroed before the block's column sums are added): on whole staging memrefs with the inputs at their contents, the body runs to
   the continuation holding the inputs as they were and each buffer it stores into with its stores written, as pieces (last
   first) that the run itself finds. -/
import proofs.«167498_j75179107549620_1_alg».proof.Proof.KI.Stats4Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ (∃ d, owns (c : Thread nD τ) argS0 fullShare d) ∗ (∃ d, owns (c : Thread nD τ) argS1 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%dS0, %fS0, -, HS0⟩, ⟨%dS1, %fS1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.KernelIdeal.Gen

end
-- ==== Proof.KI.Stats4RunB.lean ====
/- Region 4, the body's run at a middle grid point (the block's column sums are added to what the point before left in the scratch rows): on whole staging memrefs with the inputs at their contents, the body runs to
   the continuation holding the inputs as they were and each buffer it stores into with its stores written, as pieces (last
   first) that the run itself finds. -/
import proofs.«167498_j75179107549620_1_alg».proof.Proof.KI.Stats4RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LS0 : List (View.Piece (Elt F) S1x128 .f32)), { LS1 : List (View.Piece (Elt F) S1x128 .f32) //
      ∀ (xi0 xi1 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi0 ∗ owns (c : Thread nD τ) arg8 fullShare xi1 ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ owns (c : Thread nD τ) arg7 fullShare xi0 ∗ owns (c : Thread nD τ) arg8 fullShare xi1 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, fun xi0 xi1 E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%fO0, %hfO0, HO0⟩, ⟨%fO1, %hfO1, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfO0; obtain rfl := harg8.eq_unread hfO1; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]
    · iexists _; isplitr; · ipureintro; exact harg7.read_unread _
      iexact HO0
    isplitl [HO1]
    · iexists _; isplitr; · ipureintro; exact harg8.read_unread _
      iexact HO1
    isplitl [HS0]; · iexists _; iexact HS0
    iexists _; iexact HS1

end Cert.KernelIdeal.Gen

end
-- ==== Proof.KI.Stats4RunC.lean ====
/- Region 4, the body's run at the last grid point (as a middle point, and then the two scratch rows are copied to the one-row outputs): on whole staging memrefs with the inputs at their contents, the body runs to
   the continuation holding the inputs as they were and each buffer it stores into with its stores written, as pieces (last
   first) that the run itself finds. -/
import proofs.«167498_j75179107549620_1_alg».proof.Proof.KI.Stats4RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (LH : List (View.Piece (Elt F) S5000x128 .f32)), Σ' (LO0 : List (View.Piece (Elt F) S1x128 .f32)), Σ' (LO1 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) argS0 fullShare xs0 ∗ owns (c : Thread nD τ) argS1 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f LH) ∗ (∃ f, arg7.view.loc (c : Thread nD τ) ↦[arg7.view.set]{fullShare} arg7.view.writes (Elt F) f LO0) ∗ (∃ f, arg8.view.loc (c : Thread nD τ) ↦[arg8.view.set]{fullShare} arg8.view.writes (Elt F) f LO1) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc4__sage_stats_kernel i arg1 harg1 arg2 harg2 arg3 harg3 arg4 harg4 arg5 harg5 arg6 harg6 arg7 harg7 arg8 harg8 argS0 hargS0 argS1 hargS1) K } := by
  refine ⟨?_, ?_, ?_, ?_, ?_, fun E K => ?run⟩
  case run =>
    simp only [cc4__sage_stats_kernel_eq_skeleton]; unfold cc4__sage_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dH, %fH, -, HH⟩, ⟨%dO0, %fO0, -, HO0⟩, ⟨%dO1, %fO1, -, HO1⟩, ⟨%fS0, %hfS0, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := hargS0.eq_unread hfS0; obtain rfl := hargS1.eq_unread hfS1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HH]; · iexists _; iexact HH
    isplitl [HO0]; · iexists _; iexact HO0
    isplitl [HO1]; · iexists _; iexact HO1
    isplitl [HS0]; · iexists _; iexact HS0
    iexists _; iexact HS1

end Cert.KernelIdeal.Gen

end
-- ==== Proof.KI.Stats4.lean ====
/- Region 4: what the staging buffer of the block of pre-activation rows, the two one-row outputs and the two scratch
   rows hold after each grid point (a recursion over the points: the first point starts the two running column sums from
   zero, every later point adds its block's column sums to what the point before left, the last point also copies the two
   running sums out), the region's proof data over any contents the region is entered with, and the body obligation. -/
import proofs.«167498_j75179107549620_1_alg».proof.Proof.KI.Stats4RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## What each case leaves, read back from the pieces its run finds -/

theorem coverH4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).1 S5000x128.size (by sl_kernel_rfl) y
def outH4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 argS0 hargS0 argS1 hargS1 hc0 hc1 x0 x1 x2 x3 x4).1)
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).2.1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).2.1 S1x128.size (by sl_kernel_rfl) y
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 argS0 hargS0 argS1 hargS1 hc0 hc1 x0 x1 x2 x3 x4).2.1)
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 argS0 hargS0 argS1 hargS1 hc0 hc1 x0 x1 x2 x3 x4).2.2.1, y ∈ pc.1.set :=
  View.cover_of_tiledL (kernelRun4_A c i arg1 harg1 arg2 harg2 arg3 harg3 arg4 harg4 arg5 harg5 arg6 harg6 arg7 harg7 arg8 harg8 argS0 hargS0 argS1 hargS1 hc0 hc1 x0 x1 x2 x3 x4).2.2.1 S1x128.size (by sl_kernel_rfl) y
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 argS0 hargS0 argS1 hargS1 hc0 hc1 x0 x1 x2 x3 x4).2.2.1)

theorem coverH4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).1)
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.1)
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 argS0 hargS0 argS1 hargS1 hc0 hc1 x0 x1 x2 x3 x4 xs0 xs1).2.2.1)

theorem coverH4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1 S5000x128.size (by sl_kernel_rfl) y
def outH4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).1)
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1 S1x128.size (by sl_kernel_rfl) y
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.1)
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1 S1x128.size (by sl_kernel_rfl) y
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.2.2.1)
theorem coverO4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1 S1x128.size (by sl_kernel_rfl) y
def outO4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.1)
theorem coverO4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1 S1x128.size (by sl_kernel_rfl) y
def outO4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 argS0 hargS0 argS1 hargS1 hc0 hc1 x0 x1 x2 x3 x4 xs0 xs1).2.2.1)

section Regions
variable (V : (c : Dev nD) → (b : Ref sig .tc) → Buf (Elt F) ((c : Thread nD τ).loc b))

/-! ## What the buffers hold after each point -/

/-- After the body at position `n`: the block of pre-activation rows in its staging buffer, the two one-row outputs'
    staging buffers (what the last point copies out; before it, a value nothing consults: the windows are idle), and the
    two scratch rows — the case the position selects, run on the point's input blocks, the scratch rows carried from the
    position before. -/
def outsAt4 (c : Dev nD) : (n : ℕ) → n < cfg4.N → Vec F S5000x128 .f32 × Vec F S1x128 .f32 × Vec F S1x128 .f32 × Vec F S1x128 .f32 × Vec F S1x128 .f32
  | 0, hn => (outH4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => by have h' := (hcond4_1 ⟨0, hn⟩).mp h; (try dsimp only at h'); omega) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 20 = 19 then
      (outH4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, outO4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, outO4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (outH4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => by have h' := (hcond4_0 ⟨n + 1, hn⟩).mp h; have hN : n + 1 < 20 := lt_of_lt_of_eq hn (show cfg4.N = 20 from N_4); (try dsimp only at h'); omega) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val % 20 = 0) (h1 : ¬t.val % 20 = 19) :
    outsAt4 V c t.val t.isLt = (outH4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (by exfalso; have hN : n + 1 < 20 := lt_of_lt_of_eq hn (show cfg4.N = 20 from N_4); (try dsimp only at h0); omega)

theorem outsAt4_B (c : Dev nD) (t : Fin cfg4.N) (h0 : ¬t.val % 20 = 0) (h1 : ¬t.val % 20 = 19) :
    outsAt4 V c t.val t.isLt = (outH4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 20 = 0) (h1 : t.val % 20 = 19) :
    outsAt4 V c t.val t.isLt = (outH4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, outO4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, outO4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-! ## The region invariant: the two scratch rows at what the point before left -/

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [show (dat4 V c).leavesExact 4 t = owns (c : Thread nD τ) (ms4_4 t) fullShare ((dat4 V c).after 4 t) from by
      unfold Dat.leavesExact; rw [liveAt4_4 t], after4_4]
  rw [show (dat4 V c).leavesExact 5 t = owns (c : Thread nD τ) (ms4_5 t) fullShare ((dat4 V c).after 5 t) from by
      unfold Dat.leavesExact; rw [liveAt4_5 t], after4_5]
  by_cases h0 : t.val % 20 = 0
  · have h1 : ¬t.val % 20 = 19 := by omega
    have hcc0 : cond4_0 (grid4.coords t) := (hcond4_0 t).mpr h0
    have hcc1 : ¬cond4_1 (grid4.coords t) := fun h => h1 ((hcond4_1 t).mp h)
    rw [Dat.leavesExact_idle (dat4 V c) 6 t (idleAt4_6 t hcc1) (noFlush4_6 t hcc1)]
    rw [Dat.leavesExact_idle (dat4 V c) 7 t (idleAt4_7 t hcc1) (noFlush4_7 t hcc1)]
    rw [outsAt4_A V c t h0 h1]
    unfold outH4_A sout4_A_0 sout4_A_1; (try dsimp only)
    have hz : t.val = 0 := by omega
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ hcc0 hcc1 (iblk4 V c 0 t) (iblk4 V c 1 t) (iblk4 V c 2 t) (iblk4 V c 3 t) (iblk4 V c 4 t)).2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%eH, H5⟩, H6, H7, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverH4_A c _ _ _ _ _ _ _ _ _ _ _ _ _ _ _ _ _ _ _ _ _ _ _ _ _ _ _ _)
    isplitl [H6]; · iexists _; iexact H6
    iexists _; iexact H7

  · have hz : t.val ≠ 0 := by omega
    have hcc0 : ¬cond4_0 (grid4.coords t) := fun h => h0 ((hcond4_0 t).mp h)
    by_cases h1 : t.val % 20 = 19
    · have hcc1 : cond4_1 (grid4.coords t) := (hcond4_1 t).mpr h1
      rw [show (dat4 V c).leavesExact 6 t = owns (c : Thread nD τ) (ms4_6 t) fullShare ((dat4 V c).after 6 t) from by
      unfold Dat.leavesExact; rw [liveAt4_6_C t hcc1], after4_6]
      rw [show (dat4 V c).leavesExact 7 t = owns (c : Thread nD τ) (ms4_7 t) fullShare ((dat4 V c).after 7 t) from by
      unfold Dat.leavesExact; rw [liveAt4_7_C t hcc1], after4_7]
      rw [outsAt4_C V c t h0 h1]
      unfold outH4_C outO4_C_0 outO4_C_1 sout4_C_0 sout4_C_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ hcc0 hcc1 (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%eH, H5⟩, ⟨%eO0, H6⟩, ⟨%eO1, H7⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH4_C c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (coverO4_C_0 c _ _ _ _ _ _ _ _ _ _ _ _ _ _ _ _ _ _ _ _ _ _ _ _ _ _ _ _ _ _)
      unfold owns; iexists _; isplitr
      swap; · iexact H7
      ipureintro; exact View.read_writes_of_cover _ _ _ _ _ (coverO4_C_1 c _ _ _ _ _ _ _ _ _ _ _ _ _ _ _ _ _ _ _ _ _ _ _ _ _ _ _ _ _ _)

    · have hcc1 : ¬cond4_1 (grid4.coords t) := fun h => h1 ((hcond4_1 t).mp h)
      rw [Dat.leavesExact_idle (dat4 V c) 6 t (idleAt4_6 t hcc1) (noFlush4_6 t hcc1)]
      rw [Dat.leavesExact_idle (dat4 V c) 7 t (idleAt4_7 t hcc1) (noFlush4_7 t hcc1)]
      rw [outsAt4_B V c t h0 h1]
      unfold outH4_B sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ hcc0 hcc1 (iblk4 V c 0 t) (iblk4 V c 1 t) (iblk4 V c 2 t) (iblk4 V c 3 t) (iblk4 V c 4 t) _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%eH, H5⟩, H6, H7, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverH4_B c _ _ _ _ _ _ _ _ _ _ _ _ _ _ _ _ _ _ _ _ _ _ _ _ _ _ _ _ _ _)
      isplitl [H6]; · iexists _; iexact H6
      iexists _; iexact H7

theorem body_obligation4 (c : Dev nD) : BodyObligation (dat4 (F := F) V c) (defs₀ (F := F)) Variants.none () Set.univ := fun t => by
  rw [bigSep_W4, bigSep_W4]
  exact sound_body4 V c t

/-- What the region is handed is the invariant before the first point; after the last point the invariant gives it
    back, the scratch rows' contents forgotten. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 20 := N_4; omega), PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Regions

end Cert.KernelIdeal.Gen

end
-- ==== Proof.KI.NormBody1.lean ====
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

/-! # Region 1 of the kernel program (normalise, scale, shift, clamp): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 1: `cc1_kern`, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The body's access rectangles: every load and the store take a whole buffer. -/
abbrev r1_big : Rect S5000x128 := Rect.unit (s := S5000x128) ![0, 0] S5000x128.size inb_S5000x128_S5000x128_0_0
abbrev r1_row : Rect S1x128 := Rect.unit (s := S1x128) ![0, 0] S1x128.size inb_S1x128_S1x128_0_0

/-- The output window's buffer after the body, from the input windows' blocks: its one store, of the block
    computed from the loaded inputs. -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_big, k1_pay1 (View.ld x0 r1_big) (View.ld x1 r1_row) (View.ld x2 r1_row) (View.ld x3 r1_row) (View.ld x4 r1_row)⟩]

/-- The store takes the whole buffer, so it covers it. -/
theorem cover1_5 (p0 : Vec F S5000x128 .f32) (y : S5000x128.Idx) :
    ∃ pc ∈ ([⟨r1_big, p0⟩] : List (View.Piece (Elt F) S5000x128 .f32)), y ∈ pc.1.set :=
  View.cover_of_tiled [⟨r1_big, p0⟩] S5000x128.size (by rfl) y

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1_kern i arg0 harg0 arg1 harg1 arg2 harg2 arg3 harg3 arg4 harg4 arg5 harg5) K := by
  simp only [cc1_kern_eq_skeleton]; unfold cc1_kern_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t`
    each input's buffer at its block and the output's at `out1_5` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Gen
-- ==== Proof.KI.NormBody3.lean ====
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

/-! # Region 3 of the kernel program (normalise, scale, shift, clamp, add the residual): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 3: `cc3_kern`, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The body's access rectangles: every load and the store take a whole buffer. -/
abbrev r3_big : Rect S5000x128 := Rect.unit (s := S5000x128) ![0, 0] S5000x128.size inb_S5000x128_S5000x128_0_0
abbrev r3_row : Rect S1x128 := Rect.unit (s := S1x128) ![0, 0] S1x128.size inb_S1x128_S1x128_0_0

/-- The output window's buffer after the body, from the input windows' blocks: its one store, of the block
    computed from the loaded inputs. -/
def out3_6 (x0 : Vec F S5000x128 .f32) (x1 : Vec F S1x128 .f32) (x2 : Vec F S1x128 .f32) (x3 : Vec F S1x128 .f32) (x4 : Vec F S1x128 .f32) (x5 : Vec F S5000x128 .f32) : Vec F S5000x128 .f32 :=
  View.canon [⟨r3_big, k3_pay1 (View.ld x0 r3_big) (View.ld x1 r3_row) (View.ld x2 r3_row) (View.ld x3 r3_row) (View.ld x4 r3_row) (View.ld x5 r3_big)⟩]

/-- The store takes the whole buffer, so it covers it. -/
theorem cover3_6 (p0 : Vec F S5000x128 .f32) (y : S5000x128.Idx) :
    ∃ pc ∈ ([⟨r3_big, p0⟩] : List (View.Piece (Elt F) S5000x128 .f32)), y ∈ pc.1.set :=
  View.cover_of_tiled [⟨r3_big, p0⟩] S5000x128.size (by rfl) y

set_option maxHeartbeats 1000000 in
/-- The body on whole staging memrefs, the inputs' at contents `xW` and the output's at anything, runs to the
    continuation holding the inputs' as they were and the output's at `out3_6` of the inputs'. -/
theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3_6 x0 x1 x2 x3 x4 x5)) -∗ K ⟨⟩))
      ⊢ wp frame (wpE (defs₀ (F := F)) Variants.none c none) E (cc3_kern i arg0 harg0 arg1 harg1 arg2 harg2 arg3 harg3 arg4 harg4 arg5 harg5 arg6 harg6) K := by
  simp only [cc3_kern_eq_skeleton]; unfold cc3_kern_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of pipeline 3 on core `c`: the arrays as the region finds them; after the body at point `t`
    each input's buffer at its block and the output's at `out3_6` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Gen
-- ==== Proof.KI.NormBody5.lean ====
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

/-! # Region 5 of the kernel program (normalise, scale, shift, clamp, add the residual): frame data and body obligation

The region runs one body at every grid point; the body reads its input blocks whole, computes the normalised block
and stores it whole into the output window's buffer. At the buffer contents `V` the region is entered with: every
window's block, the output buffer after the body as a function of the input blocks, the body's triple, the
pipeline's proof data and the body obligation. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 5: `cc5_kern`, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (unfetched, the
    block index has not moved), for any proof data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (unfetched, the
    block index has not moved), for any proof data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (unfetched, the
    block index has not moved), for any proof data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (unfetched, the
    block index has not moved), for any proof data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (unfetched, the
    block index has not moved), for any proof data whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not (unfetched, the
    block index has not moved), for any proof data whose array is `V`'s and whose body leaves the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- The body's access rectangles: every load and the store take a whole buffer. -/
abbrev r5_big : Rect S5000x128 := Rect.unit (s := S5000x128) ![0, 0] S5000x128.size inb_S5000x128_S5000x128_0_0
abbrev r5_row : Rect S1x128 := Rect.unit (s := S1x128) ![0, 0] S1x128.size inb_S1x128_S1x128_0_0

/-- The output window's buffer after the body, from the input windows' blocks: its one store, of the block
    computed from the loaded inputs. -/
def out5_6 (x0 : Vec F S5000x128 .f32) (x1 : Vec F S1x128 .f32) (x2 : Vec F S1x128 .f32) (x3 : Vec F S1x128 .f32) (x4 : Vec F S1x128 .f32) (x5 : Vec F S5000x128 .f32) : Vec F S5000x128 .f32 :=
  View.canon [⟨r5_big, k5_pay1 (View.ld x0 r5_big) (View.ld x1 r5_row) (View.ld x2 r5_row) (View.ld x3 r5_row) (View.ld x4 r5_row) (View.ld x5 r5_big)⟩]

/-- The store takes the whole buffer, so it covers it. -/
theorem cover5_6 (p0 : Vec F S5000x128 .f32) (y : S5000x128.Idx) :
    ∃ pc ∈ ([⟨r5_big, p0⟩] : List (View.Piece (Elt F) S5000x128 .f32)), y ∈ pc.1.set :=
  View.cover_of_tiled [⟨r5_big, p0⟩] S5000x128.size (by rfl) y

set_option maxHeartbeats 1000000 in
/-- The body on whole staging memrefs, the inputs' at contents `xW` and the output's at anything, runs to the
    continuation holding the inputs' as they were and the output's at `out5_6` of the inputs'. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out5_6 x0 x1 x2 x3 x4 x5)) -∗ K ⟨⟩))
      ⊢ wp frame (wpE (defs₀ (F := F)) Variants.none c none) E (cc5_kern i arg0 harg0 arg1 harg1 arg2 harg2 arg3 harg3 arg4 harg4 arg5 harg5 arg6 harg6) K := by
  simp only [cc5_kern_eq_skeleton]; unfold cc5_kern_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-- The proof data of pipeline 5 on core `c`: the arrays as the region finds them; after the body at point `t`
    each input's buffer at its block and the output's at `out5_6` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Gen
-- ==== Proof.KI.NormBody.lean ====
import proofs.«167498_j75179107549620_1_alg».proof.Proof.KI.NormBody1
import proofs.«167498_j75179107549620_1_alg».proof.Proof.KI.NormBody3
import proofs.«167498_j75179107549620_1_alg».proof.Proof.KI.NormBody5

/-! # The normalisation regions (1, 3, 5) of the kernel program: frame data and body obligations, gathered -/
-- ==== Proof.KI.FinalBody.lean ====
import proofs.«167498_j75179107549620_1_alg».proof.Proof.Gen.KernelIdeal.Launch
import proofs.«167498_j75179107549620_1_alg».proof.Proof.Gen.KernelIdeal.Skeleton
import proofs.«167498_j75179107549620_1_alg».proof.Proof.Gen.KernelIdeal.Points
import Idealize.ShloMosaic.Lib.Pipeline.FrameBody
import Idealize.ShloMosaic.Lib.Ring
import Idealize.ShloMosaic.Lib.Tactic

/-! # Region 6 of the kernel program (two products, bias, log-softmax): frame data and body obligation

The region runs one body at every grid point; the body reads its input blocks whole, computes the block of
log-probabilities and stores it whole into the output window's buffer. At the buffer contents `V` the region is
entered with: every window's block, the output buffer after the body as a function of the input blocks, the body's
triple, the pipeline's proof data and the body obligation. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 6: `cc6__final_kernel`, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (unfetched, the
    block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (unfetched, the
    block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (unfetched, the
    block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (unfetched, the
    block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- The body's access rectangles: every load and the store take a whole buffer. -/
abbrev r6_big : Rect S5000x128 := Rect.unit (s := S5000x128) ![0, 0] S5000x128.size inb_S5000x128_S5000x128_0_0
abbrev r6_wgt : Rect S128x40 := Rect.unit (s := S128x40) ![0, 0] S128x40.size inb_S128x40_S128x40_0_0
abbrev r6_bias : Rect S1x40 := Rect.unit (s := S1x40) ![0, 0] S1x40.size inb_S1x40_S1x40_0_0
abbrev r6_out : Rect S5000x40 := Rect.unit (s := S5000x40) ![0, 0] S5000x40.size inb_S5000x40_S5000x40_0_0

/-- The output window's buffer after the body, from the input windows' blocks: its one store, of the block
    computed from the loaded inputs. -/
def out6_5 (x0 : Vec F S5000x128 .f32) (x1 : Vec F S5000x128 .f32) (x2 : Vec F S128x40 .f32) (x3 : Vec F S128x40 .f32) (x4 : Vec F S1x40 .f32) : Vec F S5000x40 .f32 :=
  View.canon [⟨r6_out, k6_pay1 (View.ld x0 r6_big) (View.ld x2 r6_wgt) (View.ld x1 r6_big) (View.ld x3 r6_wgt) (View.ld x4 r6_bias)⟩]

/-- The store takes the whole buffer, so it covers it. -/
theorem cover6_5 (p0 : Vec F S5000x40 .f32) (y : S5000x40.Idx) :
    ∃ pc ∈ ([⟨r6_out, p0⟩] : List (View.Piece (Elt F) S5000x40 .f32)), y ∈ pc.1.set :=
  View.cover_of_tiled [⟨r6_out, p0⟩] S5000x40.size (by rfl) y

set_option maxHeartbeats 1000000 in
/-- The body on whole staging memrefs, the inputs' at contents `xW` and the output's at anything, runs to the
    continuation holding the inputs' as they were and the output's at `out6_5` of the inputs'. -/
theorem sound_kernel6 (c : Dev nD) (E : Set ℕ) (i : grid6.Coords) (arg0 : Memref sig .tc .vmem S5000x128 .f32) (harg0 : arg0.IsWhole) (arg1 : Memref sig .tc .vmem S5000x128 .f32) (harg1 : arg1.IsWhole) (arg2 : Memref sig .tc .vmem S128x40 .f32) (harg2 : arg2.IsWhole) (arg3 : Memref sig .tc .vmem S128x40 .f32) (harg3 : arg3.IsWhole) (arg4 : Memref sig .tc .vmem S1x40 .f32) (harg4 : arg4.IsWhole) (arg5 : Memref sig .tc .vmem S5000x40 .f32) (harg5 : arg5.IsWhole)
    (x0 : Vec F S5000x128 .f32) (x1 : Vec F S5000x128 .f32) (x2 : Vec F S128x40 .f32) (x3 : Vec F S128x40 .f32) (x4 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__final_kernel i arg0 harg0 arg1 harg1 arg2 harg2 arg3 harg3 arg4 harg4 arg5 harg5) K := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core `c`: the arrays as the region finds them; after the body at point `t`
    each input's buffer at its block and the output's at `out6_5` of the input blocks; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Gen
-- ==== Proof.KI.Bounds.lean ====
/- The whole program as a run of fourteen segments — seven stretches of host operations, each followed by one kernel region —
   from the launch to the return. The buffer contents at each segment boundary are a fold from the launch memory: a host
   stretch applies its operations; a region leaves each of its arrays at what the write-backs of its blocks leave and every
   other buffer as entered. Every unscoped buffer ends at the last boundary's contents; an argument array is written by no
   stretch and is no region's output, so it ends as launched. -/
import proofs.«167498_j75179107549620_1_alg».proof.Proof.KI.Stats0
import proofs.«167498_j75179107549620_1_alg».proof.Proof.KI.Stats2
import proofs.«167498_j75179107549620_1_alg».proof.Proof.KI.Stats4
import proofs.«167498_j75179107549620_1_alg».proof.Proof.KI.NormBody
import proofs.«167498_j75179107549620_1_alg».proof.Proof.KI.FinalBody
import proofs.«167498_j75179107549620_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1r : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1r m ρ) c).arrAt w cfg0.N
theorem W2_arr (c : Dev nD) (w : Fin cfg0.W) :
    W2 m ρ c (Proc.devRef .tc (Pipeline.arrRef spec0 w)) = (dat0 (V1r m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2r : (c : Dev nD) → (b : Ref sig .tc) → Buf (Elt F) ((c : Thread nD τ).loc b) := fun c b => W2 m ρ c b
theorem hF0 (c : Dev nD) (w : Fin cfg0.W) : (dat0 (V1r m ρ) c).arrAt w cfg0.N = V2r m ρ c (Pipeline.arrRef spec0 w) :=
  (W2_arr m ρ c w).symm
theorem hrest0 (c : Dev nD) : ∀ b, b ∉ Finset.univ.image (Pipeline.arrRef spec0) → V2r m ρ c b = V1r m ρ c b :=
  fun b hb => W2_of_ne m ρ c b fun w e => hb (Finset.mem_image.mpr ⟨w, Finset.mem_univ _, e⟩)
/-- Through the stretch before region 0 and the region itself a buffer that neither writes keeps its contents. -/
theorem W2_keep (c : Dev nD) (b : Ref sig .tc) (hh : b ∉ hostOps0_W) (hb : ∀ w, Pipeline.arrRef spec0 w ≠ b) :
    W2 m ρ c (Proc.devRef .tc b) = W0 m ρ c (Proc.devRef .tc b) :=
  (W2_of_ne m ρ c b hb).trans (StableHlo.after_of_writes_sub hostOps0 _ hostOps0_writes hh)
/-- The same for an array the region only reads through input window `w`. -/
theorem W2_keep_in (c : Dev nD) (w : Fin cfg0.W) (hw : (cfg0.win w).isOut = false) (hh : Pipeline.arrRef spec0 w ∉ hostOps0_W) :
    W2 m ρ c (Proc.devRef .tc (Pipeline.arrRef spec0 w)) = W0 m ρ c (Proc.devRef .tc (Pipeline.arrRef spec0 w)) :=
  (W2_arr m ρ c w).trans (((dat0 (V1r m ρ) c).arrAt_in w hw _).trans ((A_eq0 (V1r m ρ) c w).trans
    (StableHlo.after_of_writes_sub hostOps0 _ hostOps0_writes hh)))

abbrev W3 : Dev nD → Valuation τ sig (Elt F) := fun c => StableHlo.after hostOps1 (W2 m ρ c)
abbrev V3r : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3r m ρ) c).arrAt w cfg1.N
theorem W4_arr (c : Dev nD) (w : Fin cfg1.W) :
    W4 m ρ c (Proc.devRef .tc (Pipeline.arrRef spec1 w)) = (dat1 (V3r m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4r : (c : Dev nD) → (b : Ref sig .tc) → Buf (Elt F) ((c : Thread nD τ).loc b) := fun c b => W4 m ρ c b
theorem hF1 (c : Dev nD) (w : Fin cfg1.W) : (dat1 (V3r m ρ) c).arrAt w cfg1.N = V4r m ρ c (Pipeline.arrRef spec1 w) :=
  (W4_arr m ρ c w).symm
theorem hrest1 (c : Dev nD) : ∀ b, b ∉ Finset.univ.image (Pipeline.arrRef spec1) → V4r m ρ c b = V3r m ρ c b :=
  fun b hb => W4_of_ne m ρ c b fun w e => hb (Finset.mem_image.mpr ⟨w, Finset.mem_univ _, e⟩)
/-- Through the stretch before region 1 and the region itself a buffer that neither writes keeps its contents. -/
theorem W4_keep (c : Dev nD) (b : Ref sig .tc) (hh : b ∉ hostOps1_W) (hb : ∀ w, Pipeline.arrRef spec1 w ≠ b) :
    W4 m ρ c (Proc.devRef .tc b) = W2 m ρ c (Proc.devRef .tc b) :=
  (W4_of_ne m ρ c b hb).trans (StableHlo.after_of_writes_sub hostOps1 _ hostOps1_writes hh)
/-- The same for an array the region only reads through input window `w`. -/
theorem W4_keep_in (c : Dev nD) (w : Fin cfg1.W) (hw : (cfg1.win w).isOut = false) (hh : Pipeline.arrRef spec1 w ∉ hostOps1_W) :
    W4 m ρ c (Proc.devRef .tc (Pipeline.arrRef spec1 w)) = W2 m ρ c (Proc.devRef .tc (Pipeline.arrRef spec1 w)) :=
  (W4_arr m ρ c w).trans (((dat1 (V3r m ρ) c).arrAt_in w hw _).trans ((A_eq1 (V3r m ρ) c w).trans
    (StableHlo.after_of_writes_sub hostOps1 _ hostOps1_writes hh)))

abbrev W5 : Dev nD → Valuation τ sig (Elt F) := fun c => StableHlo.after hostOps2 (W4 m ρ c)
abbrev V5r : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5r m ρ) c).arrAt w cfg2.N
theorem W6_arr (c : Dev nD) (w : Fin cfg2.W) :
    W6 m ρ c (Proc.devRef .tc (Pipeline.arrRef spec2 w)) = (dat2 (V5r m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6r : (c : Dev nD) → (b : Ref sig .tc) → Buf (Elt F) ((c : Thread nD τ).loc b) := fun c b => W6 m ρ c b
theorem hF2 (c : Dev nD) (w : Fin cfg2.W) : (dat2 (V5r m ρ) c).arrAt w cfg2.N = V6r m ρ c (Pipeline.arrRef spec2 w) :=
  (W6_arr m ρ c w).symm
theorem hrest2 (c : Dev nD) : ∀ b, b ∉ Finset.univ.image (Pipeline.arrRef spec2) → V6r m ρ c b = V5r m ρ c b :=
  fun b hb => W6_of_ne m ρ c b fun w e => hb (Finset.mem_image.mpr ⟨w, Finset.mem_univ _, e⟩)
/-- Through the stretch before region 2 and the region itself a buffer that neither writes keeps its contents. -/
theorem W6_keep (c : Dev nD) (b : Ref sig .tc) (hh : b ∉ hostOps2_W) (hb : ∀ w, Pipeline.arrRef spec2 w ≠ b) :
    W6 m ρ c (Proc.devRef .tc b) = W4 m ρ c (Proc.devRef .tc b) :=
  (W6_of_ne m ρ c b hb).trans (StableHlo.after_of_writes_sub hostOps2 _ hostOps2_writes hh)
/-- The same for an array the region only reads through input window `w`. -/
theorem W6_keep_in (c : Dev nD) (w : Fin cfg2.W) (hw : (cfg2.win w).isOut = false) (hh : Pipeline.arrRef spec2 w ∉ hostOps2_W) :
    W6 m ρ c (Proc.devRef .tc (Pipeline.arrRef spec2 w)) = W4 m ρ c (Proc.devRef .tc (Pipeline.arrRef spec2 w)) :=
  (W6_arr m ρ c w).trans (((dat2 (V5r m ρ) c).arrAt_in w hw _).trans ((A_eq2 (V5r m ρ) c w).trans
    (StableHlo.after_of_writes_sub hostOps2 _ hostOps2_writes hh)))

abbrev W7 : Dev nD → Valuation τ sig (Elt F) := fun c => StableHlo.after hostOps3 (W6 m ρ c)
abbrev V7r : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7r m ρ) c).arrAt w cfg3.N
theorem W8_arr (c : Dev nD) (w : Fin cfg3.W) :
    W8 m ρ c (Proc.devRef .tc (Pipeline.arrRef spec3 w)) = (dat3 (V7r m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8r : (c : Dev nD) → (b : Ref sig .tc) → Buf (Elt F) ((c : Thread nD τ).loc b) := fun c b => W8 m ρ c b
theorem hF3 (c : Dev nD) (w : Fin cfg3.W) : (dat3 (V7r m ρ) c).arrAt w cfg3.N = V8r m ρ c (Pipeline.arrRef spec3 w) :=
  (W8_arr m ρ c w).symm
theorem hrest3 (c : Dev nD) : ∀ b, b ∉ Finset.univ.image (Pipeline.arrRef spec3) → V8r m ρ c b = V7r m ρ c b :=
  fun b hb => W8_of_ne m ρ c b fun w e => hb (Finset.mem_image.mpr ⟨w, Finset.mem_univ _, e⟩)
/-- Through the stretch before region 3 and the region itself a buffer that neither writes keeps its contents. -/
theorem W8_keep (c : Dev nD) (b : Ref sig .tc) (hh : b ∉ hostOps3_W) (hb : ∀ w, Pipeline.arrRef spec3 w ≠ b) :
    W8 m ρ c (Proc.devRef .tc b) = W6 m ρ c (Proc.devRef .tc b) :=
  (W8_of_ne m ρ c b hb).trans (StableHlo.after_of_writes_sub hostOps3 _ hostOps3_writes hh)
/-- The same for an array the region only reads through input window `w`. -/
theorem W8_keep_in (c : Dev nD) (w : Fin cfg3.W) (hw : (cfg3.win w).isOut = false) (hh : Pipeline.arrRef spec3 w ∉ hostOps3_W) :
    W8 m ρ c (Proc.devRef .tc (Pipeline.arrRef spec3 w)) = W6 m ρ c (Proc.devRef .tc (Pipeline.arrRef spec3 w)) :=
  (W8_arr m ρ c w).trans (((dat3 (V7r m ρ) c).arrAt_in w hw _).trans ((A_eq3 (V7r m ρ) c w).trans
    (StableHlo.after_of_writes_sub hostOps3 _ hostOps3_writes hh)))

abbrev W9 : Dev nD → Valuation τ sig (Elt F) := fun c => StableHlo.after hostOps4 (W8 m ρ c)
abbrev V9r : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9r m ρ) c).arrAt w cfg4.N
theorem W10_arr (c : Dev nD) (w : Fin cfg4.W) :
    W10 m ρ c (Proc.devRef .tc (Pipeline.arrRef spec4 w)) = (dat4 (V9r m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10r : (c : Dev nD) → (b : Ref sig .tc) → Buf (Elt F) ((c : Thread nD τ).loc b) := fun c b => W10 m ρ c b
theorem hF4 (c : Dev nD) (w : Fin cfg4.W) : (dat4 (V9r m ρ) c).arrAt w cfg4.N = V10r m ρ c (Pipeline.arrRef spec4 w) :=
  (W10_arr m ρ c w).symm
theorem hrest4 (c : Dev nD) : ∀ b, b ∉ Finset.univ.image (Pipeline.arrRef spec4) → V10r m ρ c b = V9r m ρ c b :=
  fun b hb => W10_of_ne m ρ c b fun w e => hb (Finset.mem_image.mpr ⟨w, Finset.mem_univ _, e⟩)
/-- Through the stretch before region 4 and the region itself a buffer that neither writes keeps its contents. -/
theorem W10_keep (c : Dev nD) (b : Ref sig .tc) (hh : b ∉ hostOps4_W) (hb : ∀ w, Pipeline.arrRef spec4 w ≠ b) :
    W10 m ρ c (Proc.devRef .tc b) = W8 m ρ c (Proc.devRef .tc b) :=
  (W10_of_ne m ρ c b hb).trans (StableHlo.after_of_writes_sub hostOps4 _ hostOps4_writes hh)
/-- The same for an array the region only reads through input window `w`. -/
theorem W10_keep_in (c : Dev nD) (w : Fin cfg4.W) (hw : (cfg4.win w).isOut = false) (hh : Pipeline.arrRef spec4 w ∉ hostOps4_W) :
    W10 m ρ c (Proc.devRef .tc (Pipeline.arrRef spec4 w)) = W8 m ρ c (Proc.devRef .tc (Pipeline.arrRef spec4 w)) :=
  (W10_arr m ρ c w).trans (((dat4 (V9r m ρ) c).arrAt_in w hw _).trans ((A_eq4 (V9r m ρ) c w).trans
    (StableHlo.after_of_writes_sub hostOps4 _ hostOps4_writes hh)))

abbrev W11 : Dev nD → Valuation τ sig (Elt F) := fun c => StableHlo.after hostOps5 (W10 m ρ c)
abbrev V11r : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11r m ρ) c).arrAt w cfg5.N
theorem W12_arr (c : Dev nD) (w : Fin cfg5.W) :
    W12 m ρ c (Proc.devRef .tc (Pipeline.arrRef spec5 w)) = (dat5 (V11r m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12r : (c : Dev nD) → (b : Ref sig .tc) → Buf (Elt F) ((c : Thread nD τ).loc b) := fun c b => W12 m ρ c b
theorem hF5 (c : Dev nD) (w : Fin cfg5.W) : (dat5 (V11r m ρ) c).arrAt w cfg5.N = V12r m ρ c (Pipeline.arrRef spec5 w) :=
  (W12_arr m ρ c w).symm
theorem hrest5 (c : Dev nD) : ∀ b, b ∉ Finset.univ.image (Pipeline.arrRef spec5) → V12r m ρ c b = V11r m ρ c b :=
  fun b hb => W12_of_ne m ρ c b fun w e => hb (Finset.mem_image.mpr ⟨w, Finset.mem_univ _, e⟩)
/-- Through the stretch before region 5 and the region itself a buffer that neither writes keeps its contents. -/
theorem W12_keep (c : Dev nD) (b : Ref sig .tc) (hh : b ∉ hostOps5_W) (hb : ∀ w, Pipeline.arrRef spec5 w ≠ b) :
    W12 m ρ c (Proc.devRef .tc b) = W10 m ρ c (Proc.devRef .tc b) :=
  (W12_of_ne m ρ c b hb).trans (StableHlo.after_of_writes_sub hostOps5 _ hostOps5_writes hh)
/-- The same for an array the region only reads through input window `w`. -/
theorem W12_keep_in (c : Dev nD) (w : Fin cfg5.W) (hw : (cfg5.win w).isOut = false) (hh : Pipeline.arrRef spec5 w ∉ hostOps5_W) :
    W12 m ρ c (Proc.devRef .tc (Pipeline.arrRef spec5 w)) = W10 m ρ c (Proc.devRef .tc (Pipeline.arrRef spec5 w)) :=
  (W12_arr m ρ c w).trans (((dat5 (V11r m ρ) c).arrAt_in w hw _).trans ((A_eq5 (V11r m ρ) c w).trans
    (StableHlo.after_of_writes_sub hostOps5 _ hostOps5_writes hh)))

abbrev W13 : Dev nD → Valuation τ sig (Elt F) := fun c => StableHlo.after hostOps6 (W12 m ρ c)
abbrev V13r : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13r m ρ) c).arrAt w cfg6.N
theorem W14_arr (c : Dev nD) (w : Fin cfg6.W) :
    W14 m ρ c (Proc.devRef .tc (Pipeline.arrRef spec6 w)) = (dat6 (V13r m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14r : (c : Dev nD) → (b : Ref sig .tc) → Buf (Elt F) ((c : Thread nD τ).loc b) := fun c b => W14 m ρ c b
theorem hF6 (c : Dev nD) (w : Fin cfg6.W) : (dat6 (V13r m ρ) c).arrAt w cfg6.N = V14r m ρ c (Pipeline.arrRef spec6 w) :=
  (W14_arr m ρ c w).symm
theorem hrest6 (c : Dev nD) : ∀ b, b ∉ Finset.univ.image (Pipeline.arrRef spec6) → V14r m ρ c b = V13r m ρ c b :=
  fun b hb => W14_of_ne m ρ c b fun w e => hb (Finset.mem_image.mpr ⟨w, Finset.mem_univ _, e⟩)
/-- Through the stretch before region 6 and the region itself a buffer that neither writes keeps its contents. -/
theorem W14_keep (c : Dev nD) (b : Ref sig .tc) (hh : b ∉ hostOps6_W) (hb : ∀ w, Pipeline.arrRef spec6 w ≠ b) :
    W14 m ρ c (Proc.devRef .tc b) = W12 m ρ c (Proc.devRef .tc b) :=
  (W14_of_ne m ρ c b hb).trans (StableHlo.after_of_writes_sub hostOps6 _ hostOps6_writes hh)
/-- The same for an array the region only reads through input window `w`. -/
theorem W14_keep_in (c : Dev nD) (w : Fin cfg6.W) (hw : (cfg6.win w).isOut = false) (hh : Pipeline.arrRef spec6 w ∉ hostOps6_W) :
    W14 m ρ c (Proc.devRef .tc (Pipeline.arrRef spec6 w)) = W12 m ρ c (Proc.devRef .tc (Pipeline.arrRef spec6 w)) :=
  (W14_arr m ρ c w).trans (((dat6 (V13r m ρ) c).arrAt_in w hw _).trans ((A_eq6 (V13r m ρ) c w).trans
    (StableHlo.after_of_writes_sub hostOps6 _ hostOps6_writes hh)))

/-! ## The arguments end as launched -/

theorem W14_main_arg0 (c : Dev nD) : W14 m ρ c (Proc.devRef .tc main_arg0) = m ((c : Thread nD τ).loc main_arg0) :=
  (W14_keep m ρ c main_arg0 (by decide) (by decide)).trans <| (W12_keep m ρ c main_arg0 (by decide) (by decide)).trans <| (W10_keep m ρ c main_arg0 (by decide) (by decide)).trans <| (W8_keep m ρ c main_arg0 (by decide) (by decide)).trans <| (W6_keep m ρ c main_arg0 (by decide) (by decide)).trans <| (W4_keep m ρ c main_arg0 (by decide) (by decide)).trans <| (W2_keep_in m ρ c 1 rfl (by decide)).trans <| rfl
theorem W14_main_arg1 (c : Dev nD) : W14 m ρ c (Proc.devRef .tc main_arg1) = m ((c : Thread nD τ).loc main_arg1) :=
  (W14_keep m ρ c main_arg1 (by decide) (by decide)).trans <| (W12_keep m ρ c main_arg1 (by decide) (by decide)).trans <| (W10_keep m ρ c main_arg1 (by decide) (by decide)).trans <| (W8_keep m ρ c main_arg1 (by decide) (by decide)).trans <| (W6_keep m ρ c main_arg1 (by decide) (by decide)).trans <| (W4_keep m ρ c main_arg1 (by decide) (by decide)).trans <| (W2_keep m ρ c main_arg1 (by decide) (by decide)).trans <| rfl
theorem W14_main_arg2 (c : Dev nD) : W14 m ρ c (Proc.devRef .tc main_arg2) = m ((c : Thread nD τ).loc main_arg2) :=
  (W14_keep m ρ c main_arg2 (by decide) (by decide)).trans <| (W12_keep m ρ c main_arg2 (by decide) (by decide)).trans <| (W10_keep m ρ c main_arg2 (by decide) (by decide)).trans <| (W8_keep m ρ c main_arg2 (by decide) (by decide)).trans <| (W6_keep m ρ c main_arg2 (by decide) (by decide)).trans <| (W4_keep m ρ c main_arg2 (by decide) (by decide)).trans <| (W2_keep_in m ρ c 2 rfl (by decide)).trans <| rfl
theorem W14_main_arg3 (c : Dev nD) : W14 m ρ c (Proc.devRef .tc main_arg3) = m ((c : Thread nD τ).loc main_arg3) :=
  (W14_keep m ρ c main_arg3 (by decide) (by decide)).trans <| (W12_keep m ρ c main_arg3 (by decide) (by decide)).trans <| (W10_keep m ρ c main_arg3 (by decide) (by decide)).trans <| (W8_keep m ρ c main_arg3 (by decide) (by decide)).trans <| (W6_keep m ρ c main_arg3 (by decide) (by decide)).trans <| (W4_keep m ρ c main_arg3 (by decide) (by decide)).trans <| (W2_keep_in m ρ c 3 rfl (by decide)).trans <| rfl
theorem W14_main_arg4 (c : Dev nD) : W14 m ρ c (Proc.devRef .tc main_arg4) = m ((c : Thread nD τ).loc main_arg4) :=
  (W14_keep m ρ c main_arg4 (by decide) (by decide)).trans <| (W12_keep m ρ c main_arg4 (by decide) (by decide)).trans <| (W10_keep m ρ c main_arg4 (by decide) (by decide)).trans <| (W8_keep m ρ c main_arg4 (by decide) (by decide)).trans <| (W6_keep m ρ c main_arg4 (by decide) (by decide)).trans <| (W4_keep m ρ c main_arg4 (by decide) (by decide)).trans <| (W2_keep m ρ c main_arg4 (by decide) (by decide)).trans <| rfl
theorem W14_main_arg5 (c : Dev nD) : W14 m ρ c (Proc.devRef .tc main_arg5) = m ((c : Thread nD τ).loc main_arg5) :=
  (W14_keep m ρ c main_arg5 (by decide) (by decide)).trans <| (W12_keep m ρ c main_arg5 (by decide) (by decide)).trans <| (W10_keep m ρ c main_arg5 (by decide) (by decide)).trans <| (W8_keep m ρ c main_arg5 (by decide) (by decide)).trans <| (W6_keep_in m ρ c 2 rfl (by decide)).trans <| (W4_keep m ρ c main_arg5 (by decide) (by decide)).trans <| (W2_keep m ρ c main_arg5 (by decide) (by decide)).trans <| rfl
theorem W14_main_arg6 (c : Dev nD) : W14 m ρ c (Proc.devRef .tc main_arg6) = m ((c : Thread nD τ).loc main_arg6) :=
  (W14_keep m ρ c main_arg6 (by decide) (by decide)).trans <| (W12_keep m ρ c main_arg6 (by decide) (by decide)).trans <| (W10_keep m ρ c main_arg6 (by decide) (by decide)).trans <| (W8_keep m ρ c main_arg6 (by decide) (by decide)).trans <| (W6_keep m ρ c main_arg6 (by decide) (by decide)).trans <| (W4_keep m ρ c main_arg6 (by decide) (by decide)).trans <| (W2_keep m ρ c main_arg6 (by decide) (by decide)).trans <| rfl
theorem W14_main_arg7 (c : Dev nD) : W14 m ρ c (Proc.devRef .tc main_arg7) = m ((c : Thread nD τ).loc main_arg7) :=
  (W14_keep m ρ c main_arg7 (by decide) (by decide)).trans <| (W12_keep m ρ c main_arg7 (by decide) (by decide)).trans <| (W10_keep m ρ c main_arg7 (by decide) (by decide)).trans <| (W8_keep m ρ c main_arg7 (by decide) (by decide)).trans <| (W6_keep_in m ρ c 4 rfl (by decide)).trans <| (W4_keep m ρ c main_arg7 (by decide) (by decide)).trans <| (W2_keep m ρ c main_arg7 (by decide) (by decide)).trans <| rfl
theorem W14_main_arg8 (c : Dev nD) : W14 m ρ c (Proc.devRef .tc main_arg8) = m ((c : Thread nD τ).loc main_arg8) :=
  (W14_keep m ρ c main_arg8 (by decide) (by decide)).trans <| (W12_keep m ρ c main_arg8 (by decide) (by decide)).trans <| (W10_keep m ρ c main_arg8 (by decide) (by decide)).trans <| (W8_keep m ρ c main_arg8 (by decide) (by decide)).trans <| (W6_keep m ρ c main_arg8 (by decide) (by decide)).trans <| (W4_keep m ρ c main_arg8 (by decide) (by decide)).trans <| (W2_keep m ρ c main_arg8 (by decide) (by decide)).trans <| rfl
theorem W14_main_arg9 (c : Dev nD) : W14 m ρ c (Proc.devRef .tc main_arg9) = m ((c : Thread nD τ).loc main_arg9) :=
  (W14_keep m ρ c main_arg9 (by decide) (by decide)).trans <| (W12_keep m ρ c main_arg9 (by decide) (by decide)).trans <| (W10_keep_in m ρ c 2 rfl (by decide)).trans <| (W8_keep m ρ c main_arg9 (by decide) (by decide)).trans <| (W6_keep m ρ c main_arg9 (by decide) (by decide)).trans <| (W4_keep m ρ c main_arg9 (by decide) (by decide)).trans <| (W2_keep m ρ c main_arg9 (by decide) (by decide)).trans <| rfl
theorem W14_main_arg10 (c : Dev nD) : W14 m ρ c (Proc.devRef .tc main_arg10) = m ((c : Thread nD τ).loc main_arg10) :=
  (W14_keep m ρ c main_arg10 (by decide) (by decide)).trans <| (W12_keep m ρ c main_arg10 (by decide) (by decide)).trans <| (W10_keep_in m ρ c 3 rfl (by decide)).trans <| (W8_keep m ρ c main_arg10 (by decide) (by decide)).trans <| (W6_keep m ρ c main_arg10 (by decide) (by decide)).trans <| (W4_keep m ρ c main_arg10 (by decide) (by decide)).trans <| (W2_keep m ρ c main_arg10 (by decide) (by decide)).trans <| rfl
theorem W14_main_arg11 (c : Dev nD) : W14 m ρ c (Proc.devRef .tc main_arg11) = m ((c : Thread nD τ).loc main_arg11) :=
  (W14_keep m ρ c main_arg11 (by decide) (by decide)).trans <| (W12_keep m ρ c main_arg11 (by decide) (by decide)).trans <| (W10_keep m ρ c main_arg11 (by decide) (by decide)).trans <| (W8_keep m ρ c main_arg11 (by decide) (by decide)).trans <| (W6_keep m ρ c main_arg11 (by decide) (by decide)).trans <| (W4_keep m ρ c main_arg11 (by decide) (by decide)).trans <| (W2_keep m ρ c main_arg11 (by decide) (by decide)).trans <| rfl
theorem W14_main_arg12 (c : Dev nD) : W14 m ρ c (Proc.devRef .tc main_arg12) = m ((c : Thread nD τ).loc main_arg12) :=
  (W14_keep_in m ρ c 2 rfl (by decide)).trans <| (W12_keep m ρ c main_arg12 (by decide) (by decide)).trans <| (W10_keep m ρ c main_arg12 (by decide) (by decide)).trans <| (W8_keep m ρ c main_arg12 (by decide) (by decide)).trans <| (W6_keep m ρ c main_arg12 (by decide) (by decide)).trans <| (W4_keep m ρ c main_arg12 (by decide) (by decide)).trans <| (W2_keep m ρ c main_arg12 (by decide) (by decide)).trans <| rfl
theorem W14_main_arg13 (c : Dev nD) : W14 m ρ c (Proc.devRef .tc main_arg13) = m ((c : Thread nD τ).loc main_arg13) :=
  (W14_keep_in m ρ c 3 rfl (by decide)).trans <| (W12_keep m ρ c main_arg13 (by decide) (by decide)).trans <| (W10_keep m ρ c main_arg13 (by decide) (by decide)).trans <| (W8_keep m ρ c main_arg13 (by decide) (by decide)).trans <| (W6_keep m ρ c main_arg13 (by decide) (by decide)).trans <| (W4_keep m ρ c main_arg13 (by decide) (by decide)).trans <| (W2_keep m ρ c main_arg13 (by decide) (by decide)).trans <| rfl
theorem W14_main_arg14 (c : Dev nD) : W14 m ρ c (Proc.devRef .tc main_arg14) = m ((c : Thread nD τ).loc main_arg14) :=
  (W14_keep m ρ c main_arg14 (by decide) (by decide)).trans <| (W12_keep m ρ c main_arg14 (by decide) (by decide)).trans <| (W10_keep m ρ c main_arg14 (by decide) (by decide)).trans <| (W8_keep m ρ c main_arg14 (by decide) (by decide)).trans <| (W6_keep m ρ c main_arg14 (by decide) (by decide)).trans <| (W4_keep m ρ c main_arg14 (by decide) (by decide)).trans <| (W2_keep m ρ c main_arg14 (by decide) (by decide)).trans <| rfl
theorem W14_main_arg15 (c : Dev nD) : W14 m ρ c (Proc.devRef .tc main_arg15) = m ((c : Thread nD τ).loc main_arg15) :=
  (W14_keep m ρ c main_arg15 (by decide) (by decide)).trans <| (W12_keep m ρ c main_arg15 (by decide) (by decide)).trans <| (W10_keep m ρ c main_arg15 (by decide) (by decide)).trans <| (W8_keep m ρ c main_arg15 (by decide) (by decide)).trans <| (W6_keep m ρ c main_arg15 (by decide) (by decide)).trans <| (W4_keep m ρ c main_arg15 (by decide) (by decide)).trans <| (W2_keep m ρ c main_arg15 (by decide) (by decide)).trans <| rfl
theorem W14_main_arg16 (c : Dev nD) : W14 m ρ c (Proc.devRef .tc main_arg16) = m ((c : Thread nD τ).loc main_arg16) :=
  (W14_keep m ρ c main_arg16 (by decide) (by decide)).trans <| (W12_keep m ρ c main_arg16 (by decide) (by decide)).trans <| (W10_keep m ρ c main_arg16 (by decide) (by decide)).trans <| (W8_keep m ρ c main_arg16 (by decide) (by decide)).trans <| (W6_keep m ρ c main_arg16 (by decide) (by decide)).trans <| (W4_keep m ρ c main_arg16 (by decide) (by decide)).trans <| (W2_keep m ρ c main_arg16 (by decide) (by decide)).trans <| rfl

/-! ## The proof data family and the thread state -/

def pdats : (p : Fin 7) → (c : Dev nD) → Dat τ (Elt F) Unit ℕ (UR sig nD τ) ℕ (Pipeline.pin (pcfgs (F := F)) adm p) c
  | ⟨0, _⟩ => fun c => dat0 (V1r m ρ) c
  | ⟨1, _⟩ => fun c => dat1 (V3r m ρ) c
  | ⟨2, _⟩ => fun c => dat2 (V5r m ρ) c
  | ⟨3, _⟩ => fun c => dat3 (V7r m ρ) c
  | ⟨4, _⟩ => fun c => dat4 (V9r m ρ) c
  | ⟨5, _⟩ => fun c => dat5 (V11r m ρ) c
  | ⟨6, _⟩ => fun c => dat6 (V13r m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at the contents after the stretch before it, left
    with its arrays at what the pipeline leaves and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ (iprop(Pipeline.scopedRest spec0 c ∗ ∃ r, prngReg c r) : sProp 𝕄) := hout0 (V1r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1r m ρ c) (V2r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the stretch before it, left
    with its arrays at what the pipeline leaves and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3r m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3r m ρ c) (V4r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents after the stretch before it, left
    with its arrays at what the pipeline leaves and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5r m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5r m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (pdats m ρ 2 c).Φ (Fin.last _) ⊢ (iprop(Pipeline.scopedRest spec2 c ∗ ∃ r, prngReg c r) : sProp 𝕄) := hout2 (V5r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5r m ρ c) (V6r m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents after the stretch before it, left
    with its arrays at what the pipeline leaves and every other buffer as entered. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7r m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7r m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7r m ρ c) (V8r m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the contents after the stretch before it, left
    with its arrays at what the pipeline leaves and every other buffer as entered. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9r m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9r m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    have h : (pdats m ρ 4 c).Φ (Fin.last _) ⊢ (iprop(Pipeline.scopedRest spec4 c ∗ ∃ r, prngReg c r) : sProp 𝕄) := hout4 (V9r m ρ) c
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9r m ρ c) (V10r m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents after the stretch before it, left
    with its arrays at what the pipeline leaves and every other buffer as entered. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11r m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11r m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11r m ρ c) (V12r m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents after the stretch before it, left
    with its arrays at what the pipeline leaves and every other buffer as entered. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13r m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13r m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13r m ρ c) (V14r m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.KI.Run.lean ====
/- The launch over the fourteen segments: every weakly fair execution terminates and every unscoped buffer ends at the last
   boundary's contents; hence the frame (the arguments end as launched) and the run with the result array named. -/
import proofs.«167498_j75179107549620_1_alg».proof.Proof.KI.Bounds

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segsAll : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in
/-- Every weakly fair execution of @main from memory `m` terminates, nothing faulting, and every unscoped buffer ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) := by
  refine Pipeline.θ_run_regions_kit_dev (pcfgs (F := F)) adm (pdats m ρ) () cellOf_inj emb₁ defs₀ 𝒱₀ L lv m ρ main
    (fun _ => segsAll m ρ)
    (fun c Q => by
      rewrite [main_chain c, Pipeline.Seg.run_eq_chain,
        show (segsAll m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c)⟩) (run_all m ρ)

/-- The run with the result array named: it ends at what region 6's write-backs leave. -/
theorem run_value : θ_run defs (onTc (τ := τ) (main (F := F))) ⟨m, fun _ => 0, ρ⟩ (fun r => ∀ c : Dev nD,
      r.2.mem ((c.tc : Thread nD τ).loc main_v105) = (dat6 (V13r m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v105 (by decide))).trans (W14_arr m ρ c 5),
    (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c)⟩) (run_all m ρ)

end Cert.KernelIdeal.Gen

end
-- ==== Proof.KI.Stats0Val.lean ====
/- Region 0: the values. What each control case leaves is its store's payload on the loaded blocks; the scratch rows after
   point n are the running column sums of the blocks 0 … n of pre-activation rows (of the rows, and of their squares), so
   after the last point they are the column sums over all rows; the written-back arrays are the pre-activation rows block by
   block and those two column sums. -/
import proofs.«167498_j75179107549620_1_alg».proof.Proof.KI.Stats0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzS0 : (![0, 0] : Fin 2 → Nat) = fun _ => 0 := funext fun a => by fin_cases a <;> rfl

/-! ## The cases' values -/

theorem outH0_A_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    outH0_A c i arg1 harg1 arg2 harg2 arg3 harg3 arg4 harg4 arg5 harg5 arg6 harg6 arg7 harg7 arg8 harg8 argS0 hargS0 argS1 hargS1 hc0 hc1 x0 x1 x2 x3 x4 = k0_pay4 x0 x2 x1 x3 x4 := by
  unfold outH0_A
  rw [View.read_writes_eq_canon _ _ _ (coverH0_A c i arg1 harg1 arg2 harg2 arg3 harg3 arg4 harg4 arg5 harg5 arg6 harg6 arg7 harg7 arg8 harg8 argS0 hargS0 argS1 hargS1 hc0 hc1 x0 x1 x2 x3 x4)]
  unfold kernelRun0_A
  dsimp only
  sl_unfold_words
  rw [View.canon_cons_unit_zero (S := S5000x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    sout0_A_0 c i arg1 harg1 arg2 harg2 arg3 harg3 arg4 harg4 arg5 harg5 arg6 harg6 arg7 harg7 arg8 harg8 argS0 hargS0 argS1 hargS1 hc0 hc1 x0 x1 x2 x3 x4 = k0_pay5 x0 x2 x1 x3 x4 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 argS0 hargS0 argS1 hargS1 hc0 hc1 x0 x1 x2 x3 x4)]
  unfold kernelRun0_A
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    sout0_A_1 c i arg1 harg1 arg2 harg2 arg3 harg3 arg4 harg4 arg5 harg5 arg6 harg6 arg7 harg7 arg8 harg8 argS0 hargS0 argS1 hargS1 hc0 hc1 x0 x1 x2 x3 x4 = k0_pay1 (k0_pay6 x0 x2 x1 x3 x4 (k0_pay3 (F := F))) := by
  unfold sout0_A_1
  rw [View.read_writes_eq_canon _ _ _ (scover0_A_1 c i arg1 harg1 arg2 harg2 arg3 harg3 arg4 harg4 arg5 harg5 arg6 harg6 arg7 harg7 arg8 harg8 argS0 hargS0 argS1 hargS1 hc0 hc1 x0 x1 x2 x3 x4)]
  unfold kernelRun0_A
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]

theorem outH0_B_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outH0_B c i arg1 harg1 arg2 harg2 arg3 harg3 arg4 harg4 arg5 harg5 arg6 harg6 arg7 harg7 arg8 harg8 argS0 hargS0 argS1 hargS1 hc0 hc1 x0 x1 x2 x3 x4 xs0 xs1 = k0_pay4 x0 x2 x1 x3 x4 := by
  unfold outH0_B
  rw [View.read_writes_eq_canon _ _ _ (coverH0_B c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_B
  dsimp only
  sl_unfold_words
  rw [View.canon_cons_unit_zero (S := S5000x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_B_0 c i arg1 harg1 arg2 harg2 arg3 harg3 arg4 harg4 arg5 harg5 arg6 harg6 arg7 harg7 arg8 harg8 argS0 hargS0 argS1 hargS1 hc0 hc1 x0 x1 x2 x3 x4 xs0 xs1 = k0_pay5 x0 x2 x1 x3 x4 xs0 := by
  unfold sout0_B_0
  rw [View.read_writes_eq_canon _ _ _ (scover0_B_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_B
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_B_1 c i arg1 harg1 arg2 harg2 arg3 harg3 arg4 harg4 arg5 harg5 arg6 harg6 arg7 harg7 arg8 harg8 argS0 hargS0 argS1 hargS1 hc0 hc1 x0 x1 x2 x3 x4 xs0 xs1 = k0_pay1 (k0_pay6 x0 x2 x1 x3 x4 xs1) := by
  unfold sout0_B_1
  rw [View.read_writes_eq_canon _ _ _ (scover0_B_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_B
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]

theorem outH0_C_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outH0_C c i arg1 harg1 arg2 harg2 arg3 harg3 arg4 harg4 arg5 harg5 arg6 harg6 arg7 harg7 arg8 harg8 argS0 hargS0 argS1 hargS1 hc0 hc1 x0 x1 x2 x3 x4 xs0 xs1 = k0_pay4 x0 x2 x1 x3 x4 := by
  unfold outH0_C
  rw [View.read_writes_eq_canon _ _ _ (coverH0_C c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_C
  dsimp only
  sl_unfold_words
  rw [View.canon_cons_unit_zero (S := S5000x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_C_0 c i arg1 harg1 arg2 harg2 arg3 harg3 arg4 harg4 arg5 harg5 arg6 harg6 arg7 harg7 arg8 harg8 argS0 hargS0 argS1 hargS1 hc0 hc1 x0 x1 x2 x3 x4 xs0 xs1 = k0_pay5 x0 x2 x1 x3 x4 xs0 := by
  unfold sout0_C_0
  rw [View.read_writes_eq_canon _ _ _ (scover0_C_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_C
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_C_1 c i arg1 harg1 arg2 harg2 arg3 harg3 arg4 harg4 arg5 harg5 arg6 harg6 arg7 harg7 arg8 harg8 argS0 hargS0 argS1 hargS1 hc0 hc1 x0 x1 x2 x3 x4 xs0 xs1 = k0_pay1 (k0_pay6 x0 x2 x1 x3 x4 xs1) := by
  unfold sout0_C_1
  rw [View.read_writes_eq_canon _ _ _ (scover0_C_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_C
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem outO0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outO0_C_0 c i arg1 harg1 arg2 harg2 arg3 harg3 arg4 harg4 arg5 harg5 arg6 harg6 arg7 harg7 arg8 harg8 argS0 hargS0 argS1 hargS1 hc0 hc1 x0 x1 x2 x3 x4 xs0 xs1 = k0_pay5 x0 x2 x1 x3 x4 xs0 := by
  unfold outO0_C_0
  rw [View.read_writes_eq_canon _ _ _ (coverO0_C_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_C
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]
theorem outO0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outO0_C_1 c i arg1 harg1 arg2 harg2 arg3 harg3 arg4 harg4 arg5 harg5 arg6 harg6 arg7 harg7 arg8 harg8 argS0 hargS0 argS1 hargS1 hc0 hc1 x0 x1 x2 x3 x4 xs0 xs1 = k0_pay1 (k0_pay6 x0 x2 x1 x3 x4 xs1) := by
  unfold outO0_C_1
  rw [View.read_writes_eq_canon _ _ _ (coverO0_C_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun0_C
  dsimp only
  sl_unfold_words
  rw [View.canon_cons_unit_zero (S := S1x128) hzS0]
  simp only [View.readAt_eq_ld, harg1.read_unread, harg2.read_unread, harg3.read_unread, harg4.read_unread, harg5.read_unread, hargS0.read_unread, hargS1.read_unread, View.ld_unit_zero (S := S5000x128) hzS0, View.ld_unit_zero (S := S128x128) hzS0, View.ld_unit_zero (S := S1x128) hzS0, View.readCov_unit_zero (S := S1x128) _ hzS0, View.canon_cons_unit_zero (S := S1x128) hzS0]

section Regions
variable (V : (c : Dev nD) → (b : Ref sig .tc) → Buf (Elt F) ((c : Thread nD τ).loc b))

/-- The block of pre-activation rows point `t` computes from its input blocks. -/
def preBlk0 (c : Dev nD) (t : Fin cfg0.N) : Vec F S5000x128 .f32 := k0_pay4 (iblk0 V c 0 t) (iblk0 V c 2 t) (iblk0 V c 1 t) (iblk0 V c 3 t) (iblk0 V c 4 t)

/-- The two scratch rows after point `n`: from zero at the first point, each point adds its block's column sums. -/
def chain0 (c : Dev nD) : (n : ℕ) → n < cfg0.N → Vec F S1x128 .f32 × Vec F S1x128 .f32
  | 0, h => (k0_pay5 (iblk0 V c 0 ⟨0, h⟩) (iblk0 V c 2 ⟨0, h⟩) (iblk0 V c 1 ⟨0, h⟩) (iblk0 V c 3 ⟨0, h⟩) (iblk0 V c 4 ⟨0, h⟩) (k0_pay2 (F := F)), k0_pay1 (k0_pay6 (iblk0 V c 0 ⟨0, h⟩) (iblk0 V c 2 ⟨0, h⟩) (iblk0 V c 1 ⟨0, h⟩) (iblk0 V c 3 ⟨0, h⟩) (iblk0 V c 4 ⟨0, h⟩) (k0_pay3 (F := F))))
  | n + 1, h => (k0_pay5 (iblk0 V c 0 ⟨n + 1, h⟩) (iblk0 V c 2 ⟨n + 1, h⟩) (iblk0 V c 1 ⟨n + 1, h⟩) (iblk0 V c 3 ⟨n + 1, h⟩) (iblk0 V c 4 ⟨n + 1, h⟩) (chain0 c n (Nat.lt_of_succ_lt h)).1, k0_pay1 (k0_pay6 (iblk0 V c 0 ⟨n + 1, h⟩) (iblk0 V c 2 ⟨n + 1, h⟩) (iblk0 V c 1 ⟨n + 1, h⟩) (iblk0 V c 3 ⟨n + 1, h⟩) (iblk0 V c 4 ⟨n + 1, h⟩) (chain0 c n (Nat.lt_of_succ_lt h)).2))

set_option maxHeartbeats 2000000 in
/-- After every point the staging buffer of the pre-activation block holds that point's block, and the scratch rows hold
    the running sums; at the last point the one-row outputs hold them too. -/
theorem outsAt0_vals (c : Dev nD) : ∀ (n : ℕ) (hn : n < cfg0.N),
    (outsAt0 V c n hn).1 = preBlk0 V c ⟨n, hn⟩
    ∧ (outsAt0 V c n hn).2.2.2.1 = (chain0 V c n hn).1 ∧ (outsAt0 V c n hn).2.2.2.2 = (chain0 V c n hn).2
    ∧ (n % 20 = 19 → (outsAt0 V c n hn).2.1 = (chain0 V c n hn).1 ∧ (outsAt0 V c n hn).2.2.1 = (chain0 V c n hn).2) := by
  intro n
  induction n with
  | zero =>
    intro hn
    have hA := outsAt0_A V c ⟨0, hn⟩ (Nat.zero_mod _) (by show ¬(0 : ℕ) % 20 = 19; decide)
    dsimp only at hA
    rw [hA]; dsimp only
    exact ⟨outH0_A_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) _ _ (iblk0 V c 0 ⟨0, hn⟩) (iblk0 V c 1 ⟨0, hn⟩) (iblk0 V c 2 ⟨0, hn⟩) (iblk0 V c 3 ⟨0, hn⟩) (iblk0 V c 4 ⟨0, hn⟩), sout0_A_0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) _ _ (iblk0 V c 0 ⟨0, hn⟩) (iblk0 V c 1 ⟨0, hn⟩) (iblk0 V c 2 ⟨0, hn⟩) (iblk0 V c 3 ⟨0, hn⟩) (iblk0 V c 4 ⟨0, hn⟩),
      sout0_A_1_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) _ _ (iblk0 V c 0 ⟨0, hn⟩) (iblk0 V c 1 ⟨0, hn⟩) (iblk0 V c 2 ⟨0, hn⟩) (iblk0 V c 3 ⟨0, hn⟩) (iblk0 V c 4 ⟨0, hn⟩), fun h => absurd h (by decide)⟩
  | succ n ih =>
    intro hn
    have hN : n + 1 < 20 := lt_of_lt_of_eq hn (show cfg0.N = 20 from N_0)
    obtain ⟨-, ih0, ih1, -⟩ := ih (Nat.lt_of_succ_lt hn)
    have h0 : ¬(n + 1) % 20 = 0 := by omega
    by_cases h1 : (n + 1) % 20 = 19
    · have hC := outsAt0_C V c ⟨n + 1, hn⟩ h0 h1
      dsimp only at hC
      simp only [Nat.add_sub_cancel] at hC
      rw [hC]; dsimp only
      refine ⟨outH0_C_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _, ?_, ?_, fun _ => ⟨?_, ?_⟩⟩
      · exact (sout0_C_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih0]; rfl)
      · exact (sout0_C_1_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih1]; rfl)
      · exact (outO0_C_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih0]; rfl)
      · exact (outO0_C_1_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih1]; rfl)
    · have hB := outsAt0_B V c ⟨n + 1, hn⟩ h0 h1
      dsimp only at hB
      simp only [Nat.add_sub_cancel] at hB
      rw [hB]; dsimp only
      refine ⟨outH0_B_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _, ?_, ?_, fun h => absurd h h1⟩
      · exact (sout0_B_0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih0]; rfl)
      · exact (sout0_B_1_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) _ _ (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _).trans (by rw [ih1]; rfl)

end Regions

end Cert.KernelIdeal.Gen

end
-- ==== Proof.KI.NormSpec.lean ====
import proofs.«167498_j75179107549620_1_alg».proof.Proof.Gen.KernelIdeal.Skeleton
import Idealize.ShloMosaic.Lib.Pipeline.Value
import Idealize.ShloMosaic.Lib.ValueIdx
import Idealize.ShloMosaic.PureOps.Ideal.Laws

/-! # The normalisation regions' payloads, read at an index

One element of the normalised block: the input element minus the column's mean, times the reciprocal square root of
the column's variance plus a small constant, times the column's scale, plus the column's shift, clamped below at
zero; regions 3 and 5 then add the residual's element. The constant stays the word the program prints. -/

noncomputable section

namespace Cert.KernelIdeal.Gen

open Idealize.ShloMosaic
open Idealize.ShloMosaic.ValueIdx

/-- The zero offsets of a rank-2 access, however spelt. -/
theorem hz2 : (![0, 0] : Fin 2 → Nat) = fun _ => 0 := funext fun a => by fin_cases a <;> rfl

/-- One normalised, clamped element: `max (((x − μ) · rsqrt (v + ε)) · g + b) 0`, `ε` the printed word. -/
def normReluAt (x μ v g b : Ideal .f32) : Ideal .f32 :=
  max (((x - μ) * Ideal.rsqrt (v + Ideal.ofBits .f32 0x3727C5AC#32)) * g + b) 0

/-- The index `(0, q)` of a one-row array. -/
abbrev row128 (q : Fin 128) : S1x128.Idx := ix2 (0 : Fin 1) q

/-- A reciprocal square root at an index is the element's. -/
theorem rsqrt_apply {s : Shape} {φ : FTy} (a : FVec Ideal s φ) (i : s.Idx) : rsqrt a i = Ideal.rsqrt (a i) := rfl

/-- A row broadcast down the block's rows reads the row at the element's column. -/
theorem broadcastTo_row_apply {α : Type} (x : S1x128.Idx → α) (h : S1x128.Broadcasts S5000x128) (p : Fin 5000) (q : Fin 128) :
    broadcastTo S5000x128 x h (ix2 p q) = x (row128 q) :=
  broadcastTo_apply x h (ix2 p q) (row128 q) (fun a => by match a with | ⟨0, _⟩ => rfl | ⟨1, _⟩ => rfl)

/-- The normalised, clamped array: element `(r, j)` from the input's element and column `j` of the four one-row arrays. -/
def normRelu (X : Vec Ideal S100000x128 .f32) (M Vr Γ B : Vec Ideal S1x128 .f32) : Vec Ideal S100000x128 .f32 :=
  fun i => normReluAt (X i) (M (row128 (i 1))) (Vr (row128 (i 1))) (Γ (row128 (i 1))) (B (row128 (i 1)))

/-- The same plus the residual array, element by element. -/
def normReluRes (X : Vec Ideal S100000x128 .f32) (M Vr Γ B : Vec Ideal S1x128 .f32) (R : Vec Ideal S100000x128 .f32) :
    Vec Ideal S100000x128 .f32 :=
  fun i => normRelu X M Vr Γ B i + R i

/-- Region 1's stored block at an index. -/
theorem k1_pay1_at (x0 : Vec Ideal S5000x128 .f32) (x1 x2 x3 x4 : Vec Ideal S1x128 .f32) (p : Fin 5000) (q : Fin 128) :
    k1_pay1 x0 x1 x2 x3 x4 (ix2 p q)
      = normReluAt (x0 (ix2 p q)) (x1 (row128 q)) (x2 (row128 q)) (x3 (row128 q)) (x4 (row128 q)) := by
  unfold k1_pay1 normReluAt
  simp only [shapeCast_self, maximumf_apply, addf_apply, mulf_apply, subf_apply, broadcast_apply,
    broadcastTo_row_apply, rsqrt_apply, Ideal.ofBits_def, Ideal.ofBits_zero_f32]

/-- Region 3's stored block at an index: the same, plus the residual's element. -/
theorem k3_pay1_at (x0 : Vec Ideal S5000x128 .f32) (x1 x2 x3 x4 : Vec Ideal S1x128 .f32) (x5 : Vec Ideal S5000x128 .f32) (p : Fin 5000) (q : Fin 128) :
    k3_pay1 x0 x1 x2 x3 x4 x5 (ix2 p q)
      = normReluAt (x0 (ix2 p q)) (x1 (row128 q)) (x2 (row128 q)) (x3 (row128 q)) (x4 (row128 q)) + x5 (ix2 p q) := by
  unfold k3_pay1 normReluAt
  simp only [shapeCast_self, maximumf_apply, addf_apply, mulf_apply, subf_apply, broadcast_apply,
    broadcastTo_row_apply, rsqrt_apply, Ideal.ofBits_def, Ideal.ofBits_zero_f32]

/-- Region 5's stored block at an index: as region 3's. -/
theorem k5_pay1_at (x0 : Vec Ideal S5000x128 .f32) (x1 x2 x3 x4 : Vec Ideal S1x128 .f32) (x5 : Vec Ideal S5000x128 .f32) (p : Fin 5000) (q : Fin 128) :
    k5_pay1 x0 x1 x2 x3 x4 x5 (ix2 p q)
      = normReluAt (x0 (ix2 p q)) (x1 (row128 q)) (x2 (row128 q)) (x3 (row128 q)) (x4 (row128 q)) + x5 (ix2 p q) := by
  unfold k5_pay1 normReluAt
  simp only [shapeCast_self, maximumf_apply, addf_apply, mulf_apply, subf_apply, broadcast_apply,
    broadcastTo_row_apply, rsqrt_apply, Ideal.ofBits_def, Ideal.ofBits_zero_f32]

end Cert.KernelIdeal.Gen
-- ==== Proof.LibAxisReduce.lean ====
/-
  Reductions along one axis of a matrix, a matrix product, and values kept on unit axes, read at an index — over the
  extended reals.

  A reduction of an `a × b` matrix along its rows (axis 1) or down its columns (axis 0) leaves a vector; read at a kept
  coordinate it is the sum, or the fold of `min` or `max` from the value the reduction starts at, over the reduced
  coordinate. The two float words of the infinities are `⊤` and `⊥`, so a minimum started at `+∞` and a maximum started at
  `−∞` are characterised by their bounds alone. A vector of per-column values kept as a `1 × b` row and spread down the
  columns reads the value of its column. The product of an `m × k` and a `k × n` matrix accumulated into the zero matrix
  reads, at `(a, b)`, the sum over the contracted coordinate of the products of the entries. A `1 × 1` value's square
  root given a third unit axis and spread over `n` lanes reads the root of the value in every lane.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Idealize.ShloMosaic.AxisReduce

open Idealize.ShloMosaic Idealize.ShloMosaic.ValueIdx

/-! ## The two infinities as float words -/

/-- The f32 word of `+∞` is the top of the extended reals. -/
theorem ofBits_pinf : Ideal.ofBits .f32 0x7F800000#32 = ⊤ := by simp [Ideal.ofBits, Ideal.ieee]

/-- The f32 word of `−∞` is the bottom of the extended reals. -/
theorem ofBits_ninf : Ideal.ofBits .f32 0xFF800000#32 = ⊥ := by simp [Ideal.ofBits, Ideal.ieee]

/-! ## Reductions along one axis of a matrix, read at the kept coordinate -/

section Reductions
variable {a b : Nat} {φ : FTy}

/-- The index of row `p` with the column `k` put back. -/
theorem lift_ix1 (h : (⟨2, ![a, b]⟩ : Shape).Reduces [1] ⟨1, ![a]⟩) (p : Fin a) (k : Fin b) :
    h.lift (ix1 p) k = ix2 p k :=
  funext fun d => Fin.ext (by
    match d with
    | ⟨0, _⟩ => rfl
    | ⟨1, _⟩ => rfl)

/-- The index of column `c` with the row `k` put back. -/
theorem lift_ix0 (h : (⟨2, ![a, b]⟩ : Shape).Reduces [0] ⟨1, ![b]⟩) (c : Fin b) (k : Fin a) :
    h.lift (ix1 c) k = ix2 k c :=
  funext fun d => Fin.ext (by
    match d with
    | ⟨0, _⟩ => rfl
    | ⟨1, _⟩ => rfl)

/-- Over the extended reals a minimum over one axis, at a kept index, is the fold of `min` over that axis's coordinates
    from the value the reduction starts at. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The minimum along each row, at row `p`: the fold of `min` over the row's entries. -/
theorem rowMin_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (FloatOps.ofBits φ acc) (fun k => src (ix2 p k)) :=
  (multiReduction_minimumf_single src acc h hφ hacc (ix1 p)).trans
    (congrArg (Finset.fold min (FloatOps.ofBits φ acc) · (Finset.univ : Finset (Fin b)))
      (funext fun k => congrArg src (lift_ix1 h p k)))

/-- The minimum down each column, at column `c`: the fold of `min` over the column's entries. -/
theorem colMin_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (FloatOps.ofBits φ acc) (fun k => src (ix2 k c)) :=
  (multiReduction_minimumf_single src acc h hφ hacc (ix1 c)).trans
    (congrArg (Finset.fold min (FloatOps.ofBits φ acc) · (Finset.univ : Finset (Fin a)))
      (funext fun k => congrArg src (lift_ix0 h c k)))

/-- The maximum down each column, at column `c`: the fold of `max` over the column's entries. -/
theorem colMax_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (lift_ix0 h c k)))

/-- The sum down each column, at column `c`: the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_ix0 h c k))

end Reductions

/-! ## A row kept as a unit axis -/

/-- A per-column value kept as a `1 × b` row and spread down the columns of an `a × b` matrix is, at `(p, c)`, the value
    of column `c`. -/
theorem keepdims_row_apply {α : Type} {a b : Nat} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A matrix product into the zero matrix -/

/-- The product of an `m × k` and a `k × n` matrix accumulated into the zero matrix reads, at `(a, b)`, the sum over the
    contracted coordinate of the products of the entries. `w` is the dimension numbers' well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A square root read through unit axes -/

/-- A `[1, 1, 1]` value spread over `n` lanes reads its one entry in every lane. -/
theorem broadcastTo_111_11n_apply {α : Type} {n : Nat} (v : (⟨3, ![1, 1, 1]⟩ : Shape).Idx → α)
    (hb : (⟨3, ![1, 1, 1]⟩ : Shape).Broadcasts ⟨3, ![1, 1, n]⟩) (l : Fin n) :
    broadcastTo ⟨3, ![1, 1, n]⟩ v hb (ix3 (0 : Fin 1) (0 : Fin 1) l) = v (ix3 (0 : Fin 1) (0 : Fin 1) (0 : Fin 1)) := by
  refine broadcastTo_apply v hb (ix3 (0 : Fin 1) (0 : Fin 1) l) (ix3 (0 : Fin 1) (0 : Fin 1) (0 : Fin 1)) fun ax => ?_
  match ax with
  | ⟨0, _⟩ => rfl
  | ⟨1, _⟩ => rfl
  | ⟨2, _⟩ => rfl

/-- A `[1, 1]` value's square root, given a third unit axis (through a cast to its own shape) and spread over `n` lanes,
    reads the root of the value in every lane. -/
theorem sqrt_lanes_apply {n : Nat} {φ : FTy} (w : FVec Ideal ⟨2, ![1, 1]⟩ φ)
    (h1 : (⟨2, ![1, 1]⟩ : Shape).ShapeCasts ⟨3, ![1, 1, 1]⟩) (h2 : (⟨3, ![1, 1, 1]⟩ : Shape).ShapeCasts ⟨3, ![1, 1, 1]⟩)
    (hb : (⟨3, ![1, 1, 1]⟩ : Shape).Broadcasts ⟨3, ![1, 1, n]⟩) (l : Fin n) :
    broadcastTo ⟨3, ![1, 1, n]⟩ (shapeCast ⟨3, ![1, 1, 1]⟩ (shapeCast ⟨3, ![1, 1, 1]⟩ (sqrt w) h1) h2) hb (ix3 0 0 l)
      = Ideal.sqrt (w (ix2 0 0)) := by
  refine (broadcastTo_111_11n_apply _ hb l).trans ?_
  rw [shapeCast_self]
  exact shapeCast_ab_1ab_apply (sqrt w) h1 0 0 0

end Idealize.ShloMosaic.AxisReduce

end
-- ==== Proof.KI.StatsSpec.lean ====
/- The three column-statistics regions' payloads read at an index, over the extended reals: a block of pre-activation rows
   is two matrix products plus a bias row (regions 0 and 4) or a two-layer perceptron of the sum of two blocks (region 2);
   a scratch row after a point is the row before plus the block's column sums (of the entries, or of their squares). -/
import proofs.«167498_j75179107549620_1_alg».proof.Proof.KI.NormSpec
import proofs.«167498_j75179107549620_1_alg».proof.Proof.LibAxisReduce
import Idealize.ShloMosaic.Lib.ValueLayout

noncomputable section

namespace Cert.KernelIdeal.Gen

open Idealize.ShloMosaic
open Idealize.ShloMosaic.ValueIdx

/-- A block of rows times a square weight matrix, into zero, at an index. -/
theorem mm128_at (A : FVec Ideal S5000x128 .f32) (B : FVec Ideal S128x128 .f32) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  AxisReduce.matmul_zero_apply dot_S5000x128_S128x128_S5000x128_1_0_0_1_n_n_wf none A B p q

/-- The column sums of a block, kept as a one-row array, at a column. -/
theorem colsum_row_at (X : FVec Ideal S5000x128 .f32) (q : Fin 128) :
    shapeCast S1x128 (multiReduction .add [0] S128 X 0x00000000#32 reduces_S5000x128_S128 (.inl rfl) rfl) shapeCasts_S128_S1x128 (row128 q)
      = ∑ p : Fin 5000, X (ix2 p q) :=
  (shapeCast_a_1a_apply _ shapeCasts_S128_S1x128 0 q).trans (AxisReduce.colSum_apply X _ reduces_S5000x128_S128 (.inl rfl) rfl q)

/-! ## Regions 0 and 4: two products and a bias row -/

/-- Entry (p, q) of the block: Σ_k a(p,k)·wl(k,q) + Σ_k x(p,k)·wr(k,q) + b(q). -/
def sageAt (a x : Fin 128 → EReal) (wl wr : Fin 128 → EReal) (b : EReal) : EReal :=
  (∑ k : Fin 128, a k * wl k + ∑ k : Fin 128, x k * wr k) + b

theorem k0_pay4_at (x0 x1 : Vec Ideal S5000x128 .f32) (x2 x3 : Vec Ideal S128x128 .f32) (x4 : Vec Ideal S1x128 .f32) (p : Fin 5000) (q : Fin 128) :
    k0_pay4 x0 x2 x1 x3 x4 (ix2 p q)
      = sageAt (fun k => x0 (ix2 p k)) (fun k => x1 (ix2 p k)) (fun k => x2 (ix2 k q)) (fun k => x3 (ix2 k q)) (x4 (row128 q)) := by
  unfold k0_pay4 sageAt
  simp only [shapeCast_self, addf_apply, broadcastTo_row_apply, mm128_at]
theorem k4_pay4_at (x0 x1 : Vec Ideal S5000x128 .f32) (x2 x3 : Vec Ideal S128x128 .f32) (x4 : Vec Ideal S1x128 .f32) (p : Fin 5000) (q : Fin 128) :
    k4_pay4 x0 x2 x1 x3 x4 (ix2 p q)
      = sageAt (fun k => x0 (ix2 p k)) (fun k => x1 (ix2 p k)) (fun k => x2 (ix2 k q)) (fun k => x3 (ix2 k q)) (x4 (row128 q)) := by
  unfold k4_pay4 sageAt
  simp only [shapeCast_self, addf_apply, broadcastTo_row_apply, mm128_at]

theorem k0_pay2_at (q : Fin 128) : k0_pay2 (F := Ideal) (row128 q) = 0 := by
  unfold k0_pay2; simp only [shapeCast_self, broadcast_apply, Ideal.ofBits_def, Ideal.ofBits_zero_f32]
theorem k0_pay3_at (q : Fin 128) : k0_pay3 (F := Ideal) (row128 q) = 0 := by
  unfold k0_pay3; simp only [shapeCast_self, broadcast_apply, Ideal.ofBits_def, Ideal.ofBits_zero_f32]
theorem k4_pay2_at (q : Fin 128) : k4_pay2 (F := Ideal) (row128 q) = 0 := by
  unfold k4_pay2; simp only [shapeCast_self, broadcast_apply, Ideal.ofBits_def, Ideal.ofBits_zero_f32]
theorem k4_pay3_at (q : Fin 128) : k4_pay3 (F := Ideal) (row128 q) = 0 := by
  unfold k4_pay3; simp only [shapeCast_self, broadcast_apply, Ideal.ofBits_def, Ideal.ofBits_zero_f32]
theorem k2_pay2_at (q : Fin 128) : k2_pay2 (F := Ideal) (row128 q) = 0 := by
  unfold k2_pay2; simp only [shapeCast_self, broadcast_apply, Ideal.ofBits_def, Ideal.ofBits_zero_f32]
theorem k2_pay3_at (q : Fin 128) : k2_pay3 (F := Ideal) (row128 q) = 0 := by
  unfold k2_pay3; simp only [shapeCast_self, broadcast_apply, Ideal.ofBits_def, Ideal.ofBits_zero_f32]

theorem k0_pay5_at (x0 x1 : Vec Ideal S5000x128 .f32) (x2 x3 : Vec Ideal S128x128 .f32) (x4 : Vec Ideal S1x128 .f32) (s : Vec Ideal S1x128 .f32) (q : Fin 128) :
    k0_pay5 x0 x2 x1 x3 x4 s (row128 q) = s (row128 q) + ∑ p : Fin 5000, k0_pay4 x0 x2 x1 x3 x4 (ix2 p q) := by
  unfold k0_pay5
  simp only [shapeCast_self, addf_apply]
  exact congrArg (s (row128 q) + ·) (colsum_row_at _ q)
theorem k0_pay16_at (x0 x1 : Vec Ideal S5000x128 .f32) (x2 x3 : Vec Ideal S128x128 .f32) (x4 : Vec Ideal S1x128 .f32) (s : Vec Ideal S1x128 .f32) (q : Fin 128) :
    k0_pay1 (k0_pay6 x0 x2 x1 x3 x4 s) (row128 q)
      = s (row128 q) + ∑ p : Fin 5000, k0_pay4 x0 x2 x1 x3 x4 (ix2 p q) * k0_pay4 x0 x2 x1 x3 x4 (ix2 p q) := by
  unfold k0_pay1 k0_pay6
  simp only [shapeCast_self, addf_apply]
  refine (congrArg (s (row128 q) + ·) (colsum_row_at _ q)).trans ?_
  simp only [mulf_apply]
theorem k4_pay5_at (x0 x1 : Vec Ideal S5000x128 .f32) (x2 x3 : Vec Ideal S128x128 .f32) (x4 : Vec Ideal S1x128 .f32) (s : Vec Ideal S1x128 .f32) (q : Fin 128) :
    k4_pay5 x0 x2 x1 x3 x4 s (row128 q) = s (row128 q) + ∑ p : Fin 5000, k4_pay4 x0 x2 x1 x3 x4 (ix2 p q) := by
  unfold k4_pay5
  simp only [shapeCast_self, addf_apply]
  exact congrArg (s (row128 q) + ·) (colsum_row_at _ q)
theorem k4_pay16_at (x0 x1 : Vec Ideal S5000x128 .f32) (x2 x3 : Vec Ideal S128x128 .f32) (x4 : Vec Ideal S1x128 .f32) (s : Vec Ideal S1x128 .f32) (q : Fin 128) :
    k4_pay1 (k4_pay6 x0 x2 x1 x3 x4 s) (row128 q)
      = s (row128 q) + ∑ p : Fin 5000, k4_pay4 x0 x2 x1 x3 x4 (ix2 p q) * k4_pay4 x0 x2 x1 x3 x4 (ix2 p q) := by
  unfold k4_pay1 k4_pay6
  simp only [shapeCast_self, addf_apply]
  refine (congrArg (s (row128 q) + ·) (colsum_row_at _ q)).trans ?_
  simp only [mulf_apply]

/-! ## Region 2: a two-layer perceptron of the sum of two blocks -/

/-- Entry (p, q): Σ_k max(Σ_k' (h(p,k') + g(p,k'))·w1(k',k) + b1(k), 0)·w2(k,q) + b2(q). -/
def ginAt (h g : Fin 128 → EReal) (w1 : Fin 128 → Fin 128 → EReal) (b1 : Fin 128 → EReal) (w2 : Fin 128 → EReal) (b2 : EReal) : EReal :=
  (∑ k : Fin 128, max ((∑ k' : Fin 128, (h k' + g k') * w1 k' k) + b1 k) 0 * w2 k) + b2

theorem k2_pay4_at (x0 x1 : Vec Ideal S5000x128 .f32) (x2 : Vec Ideal S128x128 .f32) (x3 : Vec Ideal S1x128 .f32) (x4 : Vec Ideal S128x128 .f32) (x5 : Vec Ideal S1x128 .f32)
    (p : Fin 5000) (q : Fin 128) :
    k2_pay4 x0 x1 x2 x3 x4 x5 (ix2 p q)
      = ginAt (fun k => x0 (ix2 p k)) (fun k => x1 (ix2 p k)) (fun k' k => x2 (ix2 k' k)) (fun k => x3 (row128 k)) (fun k => x4 (ix2 k q)) (x5 (row128 q)) := by
  unfold k2_pay4 ginAt
  simp only [shapeCast_self, addf_apply, maximumf_apply, broadcast_apply, broadcastTo_row_apply, mm128_at, Ideal.ofBits_def, Ideal.ofBits_zero_f32]

theorem k2_pay5_at (x0 x1 : Vec Ideal S5000x128 .f32) (x2 : Vec Ideal S128x128 .f32) (x3 : Vec Ideal S1x128 .f32) (x4 : Vec Ideal S128x128 .f32) (x5 : Vec Ideal S1x128 .f32)
    (s : Vec Ideal S1x128 .f32) (q : Fin 128) :
    k2_pay5 x0 x1 x2 x3 x4 x5 s (row128 q) = s (row128 q) + ∑ p : Fin 5000, k2_pay4 x0 x1 x2 x3 x4 x5 (ix2 p q) := by
  unfold k2_pay5
  simp only [shapeCast_self, addf_apply]
  exact congrArg (s (row128 q) + ·) (colsum_row_at _ q)
theorem k2_pay1_at (v : FVec Ideal S5000x128 .f32) (s : Vec Ideal S1x128 .f32) (q : Fin 128) :
    k2_pay1 v s (row128 q) = s (row128 q) + ∑ p : Fin 5000, v (ix2 p q) * v (ix2 p q) := by
  unfold k2_pay1
  simp only [shapeCast_self, addf_apply]
  refine (congrArg (s (row128 q) + ·) (colsum_row_at _ q)).trans ?_
  simp only [mulf_apply]

/-! ## The whole arrays -/

/-- The pre-activation array of a two-product layer: row r from row r of the two operand arrays. -/
def sagePre (A X : Vec Ideal S100000x128 .f32) (WL WR : Vec Ideal S128x128 .f32) (B : Vec Ideal S1x128 .f32) : Vec Ideal S100000x128 .f32 :=
  fun i => sageAt (fun k => A (ix2 (i 0) k)) (fun k => X (ix2 (i 0) k)) (fun k => WL (ix2 k (i 1))) (fun k => WR (ix2 k (i 1))) (B (row128 (i 1)))
/-- The pre-activation array of the perceptron layer. -/
def ginPre (Hh G : Vec Ideal S100000x128 .f32) (W1 : Vec Ideal S128x128 .f32) (B1 : Vec Ideal S1x128 .f32) (W2 : Vec Ideal S128x128 .f32) (B2 : Vec Ideal S1x128 .f32) :
    Vec Ideal S100000x128 .f32 :=
  fun i => ginAt (fun k => Hh (ix2 (i 0) k)) (fun k => G (ix2 (i 0) k)) (fun k' k => W1 (ix2 k' k)) (fun k => B1 (row128 k)) (fun k => W2 (ix2 k (i 1))) (B2 (row128 (i 1)))
/-- The column sums of an array, as a one-row array. -/
def colSumRow (X : Vec Ideal S100000x128 .f32) : Vec Ideal S1x128 .f32 := fun i => ∑ r : Fin 100000, X (ix2 r (i 1))
/-- The column sums of the squared entries. -/
def colSqSumRow (X : Vec Ideal S100000x128 .f32) : Vec Ideal S1x128 .f32 := fun i => ∑ r : Fin 100000, X (ix2 r (i 1)) * X (ix2 r (i 1))

end Cert.KernelIdeal.Gen
-- ==== Proof.LibBlockSum.lean ====
/-
  Regrouping a finite sum into consecutive blocks.

  A sum over the `a * b` indices `0 … a*b - 1` is the sum, over the `a` blocks, of the sum of the `b` consecutive
  entries of each block: entry `j` of block `k` is index `k * b + j`. Only commutativity and associativity of the
  addition are used, so the law holds in every additive commutative monoid — in particular on the extended reals,
  where no finiteness of the summands is needed.
-/
import Mathlib.Algebra.BigOperators.Fin
import Mathlib.Logic.Equiv.Fin.Basic

namespace Cert.LibBlockSum

open Finset

/-- Index `k * b + j` of entry `j` in block `k`, as an index below `a * b`. -/
def blockIx (a b : ℕ) (k : Fin a) (j : Fin b) : Fin (a * b) :=
  ⟨k.val * b + j.val, by
    have hk : k.val + 1 ≤ a := k.isLt
    have hj := j.isLt
    calc k.val * b + j.val < k.val * b + b := Nat.add_lt_add_left hj _
      _ = (k.val + 1) * b := (Nat.succ_mul _ _).symm
      _ ≤ a * b := Nat.mul_le_mul_right b hk⟩

@[simp] theorem blockIx_val (a b : ℕ) (k : Fin a) (j : Fin b) : (blockIx a b k j).val = k.val * b + j.val := rfl

/-- A sum over `a * b` consecutive indices is the sum over the `a` blocks of the `b` entries of each. -/
theorem sum_blocks {M : Type*} [AddCommMonoid M] (a b : ℕ) (f : Fin (a * b) → M) :
    ∑ i : Fin (a * b), f i = ∑ k : Fin a, ∑ j : Fin b, f (blockIx a b k j) := by
  rw [← Fintype.sum_prod_type' (f := fun k j => f (blockIx a b k j))]
  refine (Equiv.sum_comp (finProdFinEquiv (m := a) (n := b)) f).symm.trans ?_
  refine Finset.sum_congr rfl fun p _ => congrArg f (Fin.ext ?_)
  simp [finProdFinEquiv, blockIx_val, Nat.mul_comm, Nat.add_comm]

/-- The same with the blocks enumerated by a range of naturals — the form a fold over consecutive steps produces. `g` is
    the per-block summand as a function of every natural; only its values at the `a` block numbers matter. -/
theorem sum_range_blocks {M : Type*} [AddCommMonoid M] (a b : ℕ) (f : Fin (a * b) → M) (g : ℕ → M)
    (hg : ∀ k : Fin a, g k.val = ∑ j : Fin b, f (blockIx a b k j)) :
    ∑ s ∈ Finset.range a, g s = ∑ i : Fin (a * b), f i := by
  rw [Finset.sum_range, sum_blocks]
  exact Finset.sum_congr rfl fun k _ => hg k

/-- The same for an index type `Fin n` whose length is given as a number with `a * b = n` (so that a literal length such as
    16384 need not be rewritten as a product): entry `j` of block `k` is index `k * b + j`. -/
theorem sum_range_blocks_of_eq {M : Type*} [AddCommMonoid M] (a b n : ℕ) (hn : a * b = n) (f : Fin n → M) (g : ℕ → M)
    (hg : ∀ k : Fin a, g k.val = ∑ j : Fin b, f ⟨k.val * b + j.val, hn ▸ (blockIx a b k j).isLt⟩) :
    ∑ s ∈ Finset.range a, g s = ∑ i : Fin n, f i := by
  subst hn
  exact sum_range_blocks a b f g hg

end Cert.LibBlockSum
-- ==== Proof.KI.Stats0Arr.lean ====
/- Region 0 over the extended reals: the arrays it leaves. The blocks of pre-activation rows tile the pre-activation array;
   the scratch rows' running sums, unrolled over the 20 points of 5000 rows each, are the column sums over all 100000 rows
   (of the entries, and of their squares), and the last point copies them to the two one-row outputs. -/
import proofs.«167498_j75179107549620_1_alg».proof.Proof.KI.Stats0Val
import proofs.«167498_j75179107549620_1_alg».proof.Proof.KI.StatsSpec
import proofs.«167498_j75179107549620_1_alg».proof.Proof.LibBlockSum

set_option maxRecDepth 16384

noncomputable section

namespace Cert.KernelIdeal.Gen

open Idealize.ShloMosaic Idealize.ShloMosaic.TcCoe
open Idealize.ShloMosaic.ValueIdx
open Idealize.ShloMosaic.Pipeline (Dat)

section Arr0
variable (V : (c : Dev nD) → (b : Ref sig .tc) → Buf (Elt Ideal) ((c : Thread nD τ).loc b))

/-- The windows' block indices over the grid: a block-row window is at block row t, every other window at its one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem iblk0_0_at (c : Dev nD) (t : Fin cfg0.N) (p : Fin 5000) (q : Fin 128) (k : S100000x128.Idx)
    (hk0 : (k 0).val = 5000 * t.val + p.val) (hk1 : (k 1).val = q.val) :
    (iblk0 V c 0 t : Vec Ideal S5000x128 .f32) (ix2 p q) = (V c main_v23 : Vec Ideal S100000x128 .f32) k := by
  obtain ⟨e00, e01, e10, e11, e20, e21, e30, e31, e40, e41, e50, e51, e60, e61, e70, e71⟩ := idx_facts0 t
  unfold iblk0
  rw [View.read_apply]
  show V c main_v23 _ = V c main_v23 k
  refine congrArg (V c main_v23) ?_
  funext a; apply Fin.ext
  match a with
  | ⟨0, _⟩ => show win0_0.index t 0 * 5000 + 1 * p.val = (k 0).val; rw [e00, hk0]; omega
  | ⟨1, _⟩ => show win0_0.index t 1 * 128 + 1 * q.val = (k 1).val; rw [e01, hk1]; omega
theorem iblk0_1_at (c : Dev nD) (t : Fin cfg0.N) (p : Fin 5000) (q : Fin 128) (k : S100000x128.Idx)
    (hk0 : (k 0).val = 5000 * t.val + p.val) (hk1 : (k 1).val = q.val) :
    (iblk0 V c 1 t : Vec Ideal S5000x128 .f32) (ix2 p q) = (V c main_arg0 : Vec Ideal S100000x128 .f32) k := by
  obtain ⟨e00, e01, e10, e11, e20, e21, e30, e31, e40, e41, e50, e51, e60, e61, e70, e71⟩ := idx_facts0 t
  unfold iblk0
  rw [View.read_apply]
  show V c main_arg0 _ = V c main_arg0 k
  refine congrArg (V c main_arg0) ?_
  funext a; apply Fin.ext
  match a with
  | ⟨0, _⟩ => show win0_1.index t 0 * 5000 + 1 * p.val = (k 0).val; rw [e10, hk0]; omega
  | ⟨1, _⟩ => show win0_1.index t 1 * 128 + 1 * q.val = (k 1).val; rw [e11, hk1]; omega
theorem iblk0_2_at (c : Dev nD) (t : Fin cfg0.N) (k q : Fin 128) :
    (iblk0 V c 2 t : Vec Ideal S128x128 .f32) (ix2 k q) = (V c main_arg2 : Vec Ideal S128x128 .f32) (ix2 k q) := by
  obtain ⟨e00, e01, e10, e11, e20, e21, e30, e31, e40, e41, e50, e51, e60, e61, e70, e71⟩ := idx_facts0 t
  unfold iblk0
  rw [View.read_apply]
  show V c main_arg2 _ = V c main_arg2 (ix2 k q)
  refine congrArg (V c main_arg2) ?_
  funext a; apply Fin.ext
  match a with
  | ⟨0, _⟩ => show win0_2.index t 0 * 128 + 1 * k.val = k.val; rw [e20]; omega
  | ⟨1, _⟩ => show win0_2.index t 1 * 128 + 1 * q.val = q.val; rw [e21]; omega
theorem iblk0_3_at (c : Dev nD) (t : Fin cfg0.N) (k q : Fin 128) :
    (iblk0 V c 3 t : Vec Ideal S128x128 .f32) (ix2 k q) = (V c main_arg3 : Vec Ideal S128x128 .f32) (ix2 k q) := by
  obtain ⟨e00, e01, e10, e11, e20, e21, e30, e31, e40, e41, e50, e51, e60, e61, e70, e71⟩ := idx_facts0 t
  unfold iblk0
  rw [View.read_apply]
  show V c main_arg3 _ = V c main_arg3 (ix2 k q)
  refine congrArg (V c main_arg3) ?_
  funext a; apply Fin.ext
  match a with
  | ⟨0, _⟩ => show win0_3.index t 0 * 128 + 1 * k.val = k.val; rw [e30]; omega
  | ⟨1, _⟩ => show win0_3.index t 1 * 128 + 1 * q.val = q.val; rw [e31]; omega
theorem iblk0_4_at (c : Dev nD) (t : Fin cfg0.N) (q : Fin 128) :
    (iblk0 V c 4 t : Vec Ideal S1x128 .f32) (row128 q) = (V c main_v24 : Vec Ideal S1x128 .f32) (row128 q) := by
  obtain ⟨e00, e01, e10, e11, e20, e21, e30, e31, e40, e41, e50, e51, e60, e61, e70, e71⟩ := idx_facts0 t
  unfold iblk0
  rw [View.read_apply]
  show V c main_v24 _ = V c main_v24 (row128 q)
  refine congrArg (V c main_v24) ?_
  funext a; apply Fin.ext
  match a with
  | ⟨0, _⟩ => show win0_4.index t 0 * 1 + 1 * 0 = 0; rw [e40]
  | ⟨1, _⟩ => show win0_4.index t 1 * 128 + 1 * q.val = q.val; rw [e41]; omega

/-- Entry (p, q) of the block point `t` computes is entry (5000 t + p, q) of the pre-activation array of the region's input arrays. -/
theorem preBlk0_at (c : Dev nD) (t : Fin cfg0.N) (p : Fin 5000) (q : Fin 128) (r : Fin 100000) (hr : r.val = 5000 * t.val + p.val) :
    preBlk0 V c t (ix2 p q) = (sagePre (V c main_v23) (V c main_arg0) (V c main_arg2) (V c main_arg3) (V c main_v24)) (ix2 r q) := by
  unfold preBlk0
  refine (k0_pay4_at (iblk0 V c 0 t) (iblk0 V c 1 t) (iblk0 V c 2 t) (iblk0 V c 3 t) (iblk0 V c 4 t) p q).trans ?_
  unfold sagePre
  have hr' : ((ix2 r q : S100000x128.Idx) 0).val = 5000 * t.val + p.val := hr
  have h0 : (fun k => (iblk0 V c 0 t : Vec Ideal S5000x128 .f32) (ix2 p k)) = fun k => (V c main_v23 : Vec Ideal S100000x128 .f32) (ix2 r k) :=
    funext fun k => iblk0_0_at V c t p k (ix2 r k) hr rfl
  have h1 : (fun k => (iblk0 V c 1 t : Vec Ideal S5000x128 .f32) (ix2 p k)) = fun k => (V c main_arg0 : Vec Ideal S100000x128 .f32) (ix2 r k) :=
    funext fun k => iblk0_1_at V c t p k (ix2 r k) hr rfl
  simp only [iblk0_2_at V c t, iblk0_3_at V c t, iblk0_4_at V c t]
  rw [h0, h1]

/-! ## The pre-activation array -/

theorem flushedH0_eq (c : Dev nD) (t : Fin cfg0.N) :
    (dat0 V c).flushed 5 t = ((cfg0.win 5).blk t).view.read (Elt Ideal) (sagePre (V c main_v23) (V c main_arg0) (V c main_arg2) (V c main_arg3) (V c main_v24)) := by
  show (cfg0.win 5).cut (grid0.coords t) ((dat0 V c).after 5 t) = _
  rw [after0_5, (outsAt0_vals V c t.val t.isLt).1]
  funext j
  obtain ⟨p, q, rfl⟩ : ∃ (p : Fin 5000) (q : Fin 128), j = ix2 p q := ⟨j 0, j 1, eq_ix2 j⟩
  have hN : cfg0.N = 20 := N_0
  have ht := t.isLt
  obtain ⟨e00, e01, e10, e11, e20, e21, e30, e31, e40, e41, e50, e51, e60, e61, e70, e71⟩ := idx_facts0 t
  have hb : 5000 * t.val + p.val < 100000 := by have := p.isLt; omega
  have he : ((cfg0.win 5).blk t).view.emb (ix2 p q) = (ix2 ⟨5000 * t.val + p.val, hb⟩ q : S100000x128.Idx) := by
    funext a; apply Fin.ext
    match a with
    | ⟨0, _⟩ => show win0_5.index t 0 * 5000 + 1 * p.val = 5000 * t.val + p.val; rw [e50]; omega
    | ⟨1, _⟩ => show win0_5.index t 1 * 128 + 1 * q.val = q.val; rw [e51]; omega
  rw [View.read_apply]
  show preBlk0 V c t (ix2 p q) = (sagePre (V c main_v23) (V c main_arg0) (V c main_arg2) (V c main_arg3) (V c main_v24)) (((cfg0.win 5).blk t).view.emb (ix2 p q))
  rw [he]
  exact preBlk0_at V c t p q ⟨5000 * t.val + p.val, hb⟩ rfl

theorem mem_blkH0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25_0).slice (win0_5.rect t)).set ↔ _
  rw [View.set_slice_whole, Rect.mem_set_unit]
  exact Iff.rfl

theorem coverH0_all (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨e00, e01, e10, e11, e20, e21, e30, e31, e40, e41, e50, e51, e60, e61, e70, e71⟩ := idx_facts0 t
  refine ⟨t, flush0_5 t, ?_⟩
  rw [mem_blkH0]
  intro a
  match a with
  | ⟨0, _⟩ => show win0_5.index t 0 * 5000 ≤ (i 0).val ∧ (i 0).val < win0_5.index t 0 * 5000 + 5000; rw [e50]; omega
  | ⟨1, _⟩ => show win0_5.index t 1 * 128 ≤ (i 1).val ∧ (i 1).val < win0_5.index t 1 * 128 + 128; rw [e51]; omega

/-- The array of pre-activation rows after region 0. -/
theorem arrAt0_pre (c : Dev nD) : (dat0 V c).arrAt 5 cfg0.N = (sagePre (V c main_v23) (V c main_arg0) (V c main_arg2) (V c main_arg3) (V c main_v24)) :=
  (dat0 V c).arrAt_eq_of_cover 5 _ (fun t _ => flushedH0_eq V c t) coverH0_all

/-! ## The running column sums -/

/-- The column sums of block `s` (zero past the grid). -/
def blkSum0 (c : Dev nD) (q : Fin 128) (s : ℕ) : EReal :=
  if h : s < cfg0.N then ∑ p : Fin 5000, preBlk0 V c ⟨s, h⟩ (ix2 p q) else 0
def blkSqSum0 (c : Dev nD) (q : Fin 128) (s : ℕ) : EReal :=
  if h : s < cfg0.N then ∑ p : Fin 5000, preBlk0 V c ⟨s, h⟩ (ix2 p q) * preBlk0 V c ⟨s, h⟩ (ix2 p q) else 0

theorem chain0_at (c : Dev nD) (q : Fin 128) : ∀ (n : ℕ) (hn : n < cfg0.N),
    (chain0 V c n hn).1 (row128 q) = ∑ s ∈ Finset.range (n + 1), blkSum0 V c q s
    ∧ (chain0 V c n hn).2 (row128 q) = ∑ s ∈ Finset.range (n + 1), blkSqSum0 V c q s := by
  intro n
  induction n with
  | zero =>
    intro hn
    rw [Finset.sum_range_one, Finset.sum_range_one]
    unfold blkSum0 blkSqSum0
    rw [dif_pos hn, dif_pos hn]
    constructor
    · show (k0_pay5 (iblk0 V c 0 ⟨0, hn⟩) (iblk0 V c 2 ⟨0, hn⟩) (iblk0 V c 1 ⟨0, hn⟩) (iblk0 V c 3 ⟨0, hn⟩) (iblk0 V c 4 ⟨0, hn⟩) (k0_pay2 (F := Ideal))) (row128 q) = _
      rw [k0_pay5_at, k0_pay2_at, zero_add]; rfl
    · show (k0_pay1 (k0_pay6 (iblk0 V c 0 ⟨0, hn⟩) (iblk0 V c 2 ⟨0, hn⟩) (iblk0 V c 1 ⟨0, hn⟩) (iblk0 V c 3 ⟨0, hn⟩) (iblk0 V c 4 ⟨0, hn⟩) (k0_pay3 (F := Ideal)))) (row128 q) = _
      rw [k0_pay16_at, k0_pay3_at, zero_add]; rfl
  | succ n ih =>
    intro hn
    obtain ⟨ih0, ih1⟩ := ih (Nat.lt_of_succ_lt hn)
    rw [Finset.sum_range_succ _ (n + 1), Finset.sum_range_succ _ (n + 1), ← ih0, ← ih1]
    unfold blkSum0 blkSqSum0
    rw [dif_pos hn, dif_pos hn]
    constructor
    · show (k0_pay5 (iblk0 V c 0 ⟨n + 1, hn⟩) (iblk0 V c 2 ⟨n + 1, hn⟩) (iblk0 V c 1 ⟨n + 1, hn⟩) (iblk0 V c 3 ⟨n + 1, hn⟩) (iblk0 V c 4 ⟨n + 1, hn⟩) (chain0 V c n (Nat.lt_of_succ_lt hn)).1) (row128 q) = _
      rw [k0_pay5_at]; rfl
    · show (k0_pay1 (k0_pay6 (iblk0 V c 0 ⟨n + 1, hn⟩) (iblk0 V c 2 ⟨n + 1, hn⟩) (iblk0 V c 1 ⟨n + 1, hn⟩) (iblk0 V c 3 ⟨n + 1, hn⟩) (iblk0 V c 4 ⟨n + 1, hn⟩) (chain0 V c n (Nat.lt_of_succ_lt hn)).2)) (row128 q) = _
      rw [k0_pay16_at]; rfl

/-- After the last point the scratch rows are the column sums over all rows. -/
theorem chain0_last (c : Dev nD) (q : Fin 128) (hn : 19 < cfg0.N) :
    (chain0 V c 19 hn).1 (row128 q) = colSumRow (sagePre (V c main_v23) (V c main_arg0) (V c main_arg2) (V c main_arg3) (V c main_v24)) (row128 q)
    ∧ (chain0 V c 19 hn).2 (row128 q) = colSqSumRow (sagePre (V c main_v23) (V c main_arg0) (V c main_arg2) (V c main_arg3) (V c main_v24)) (row128 q) := by
  obtain ⟨h0, h1⟩ := chain0_at V c q 19 hn
  rw [h0, h1]
  have hN : cfg0.N = 20 := N_0
  constructor
  · unfold colSumRow
    refine Cert.LibBlockSum.sum_range_blocks_of_eq 20 5000 100000 rfl (fun r => (sagePre (V c main_v23) (V c main_arg0) (V c main_arg2) (V c main_arg3) (V c main_v24)) (ix2 r q)) (blkSum0 V c q) fun k => ?_
    unfold blkSum0
    rw [dif_pos (by have := k.isLt; omega)]
    exact Finset.sum_congr rfl fun p _ => preBlk0_at V c ⟨k.val, _⟩ p q ⟨k.val * 5000 + p.val, _⟩ (by show k.val * 5000 + p.val = 5000 * k.val + p.val; omega)
  · unfold colSqSumRow
    refine Cert.LibBlockSum.sum_range_blocks_of_eq 20 5000 100000 rfl (fun r => (sagePre (V c main_v23) (V c main_arg0) (V c main_arg2) (V c main_arg3) (V c main_v24)) (ix2 r q) * (sagePre (V c main_v23) (V c main_arg0) (V c main_arg2) (V c main_arg3) (V c main_v24)) (ix2 r q)) (blkSqSum0 V c q) fun k => ?_
    unfold blkSqSum0
    rw [dif_pos (by have := k.isLt; omega)]
    exact Finset.sum_congr rfl fun p _ => by
      rw [preBlk0_at V c ⟨k.val, _⟩ p q ⟨k.val * 5000 + p.val, _⟩ (by show k.val * 5000 + p.val = 5000 * k.val + p.val; omega)]

/-! ## The two one-row outputs: the last point writes back the whole one-row array -/

/-- The last grid point. -/
abbrev tLast0 : Fin cfg0.N := ⟨19, by decide⟩

theorem flushed_sum0_eq (c : Dev nD) (t : Fin cfg0.N) (hf : (cfg0.win 6).flush t = true) :
    (dat0 V c).flushed 6 t = ((cfg0.win 6).blk t).view.read (Elt Ideal) (colSumRow (sagePre (V c main_v23) (V c main_arg0) (V c main_arg2) (V c main_arg3) (V c main_v24))) := by
  have h19 : t.val % 20 = 19 := (flush0_6 t).mp hf
  have hN : cfg0.N = 20 := N_0
  have ht := t.isLt
  have ht19 : t.val = 19 := by omega
  obtain rfl : t = tLast0 := Fin.ext ht19
  show (cfg0.win 6).cut (grid0.coords tLast0) ((dat0 V c).after 6 tLast0) = _
  rw [after0_6]
  have hXG : (outsAt0 V c tLast0.val tLast0.isLt).2.1 = colSumRow (sagePre (V c main_v23) (V c main_arg0) (V c main_arg2) (V c main_arg3) (V c main_v24)) := by
    rw [((outsAt0_vals V c tLast0.val tLast0.isLt).2.2.2 h19).1]
    funext i
    obtain ⟨z, q, rfl⟩ : ∃ (z : Fin 1) (q : Fin 128), i = ix2 z q := ⟨i 0, i 1, eq_ix2 i⟩
    obtain rfl : z = 0 := Subsingleton.elim _ _
    exact (chain0_last V c q tLast0.isLt).1
  rw [hXG]
  have hz' : (fun a => win0_6.index tLast0 a * main_v25_1.ty.shape.size a) = fun _ => 0 := funext fun a => by fin_cases a <;> decide
  exact (Memref.read_access_unit_zero (Elt Ideal) main_v25_1 hz' (fun a => by rw [congrFun hz' a]; simp) (colSumRow (sagePre (V c main_v23) (V c main_arg0) (V c main_arg2) (V c main_arg3) (V c main_v24)))).symm

theorem cover_sum0 (i : S1x128.Idx) :
    ∃ t : Fin cfg0.N, (cfg0.win 6).flush t = true ∧ i ∈ ((cfg0.win 6).blk t).view.set := by
  have hN : cfg0.N = 20 := N_0
  obtain ⟨t, ht⟩ : ∃ t : Fin cfg0.N, t.val = 19 := ⟨⟨19, by omega⟩, rfl⟩
  obtain ⟨e00, e01, e10, e11, e20, e21, e30, e31, e40, e41, e50, e51, e60, e61, e70, e71⟩ := idx_facts0 t
  refine ⟨t, (flush0_6 t).mpr (by omega), ?_⟩
  show i ∈ ((View.whole main_v25_1).slice (win0_6.rect t)).set
  rw [View.set_slice_whole, Rect.mem_set_unit]
  intro a
  have hi0 : (i 0).val < 1 := (i 0).isLt
  have hi1 : (i 1).val < 128 := (i 1).isLt
  match a with
  | ⟨0, _⟩ => show win0_6.index t 0 * 1 ≤ (i 0).val ∧ (i 0).val < win0_6.index t 0 * 1 + 1; rw [e60]; omega
  | ⟨1, _⟩ => show win0_6.index t 1 * 128 ≤ (i 1).val ∧ (i 1).val < win0_6.index t 1 * 128 + 128; rw [e61]; omega

theorem arrAt0_sum (c : Dev nD) : (dat0 V c).arrAt 6 cfg0.N = colSumRow (sagePre (V c main_v23) (V c main_arg0) (V c main_arg2) (V c main_arg3) (V c main_v24)) :=
  (dat0 V c).arrAt_eq_of_cover 6 _ (fun t hf => flushed_sum0_eq V c t hf) cover_sum0

theorem flushed_sq0_eq (c : Dev nD) (t : Fin cfg0.N) (hf : (cfg0.win 7).flush t = true) :
    (dat0 V c).flushed 7 t = ((cfg0.win 7).blk t).view.read (Elt Ideal) (colSqSumRow (sagePre (V c main_v23) (V c main_arg0) (V c main_arg2) (V c main_arg3) (V c main_v24))) := by
  have h19 : t.val % 20 = 19 := (flush0_7 t).mp hf
  have hN : cfg0.N = 20 := N_0
  have ht := t.isLt
  have ht19 : t.val = 19 := by omega
  obtain rfl : t = tLast0 := Fin.ext ht19
  show (cfg0.win 7).cut (grid0.coords tLast0) ((dat0 V c).after 7 tLast0) = _
  rw [after0_7]
  have hXG : (outsAt0 V c tLast0.val tLast0.isLt).2.2.1 = colSqSumRow (sagePre (V c main_v23) (V c main_arg0) (V c main_arg2) (V c main_arg3) (V c main_v24)) := by
    rw [((outsAt0_vals V c tLast0.val tLast0.isLt).2.2.2 h19).2]
    funext i
    obtain ⟨z, q, rfl⟩ : ∃ (z : Fin 1) (q : Fin 128), i = ix2 z q := ⟨i 0, i 1, eq_ix2 i⟩
    obtain rfl : z = 0 := Subsingleton.elim _ _
    exact (chain0_last V c q tLast0.isLt).2
  rw [hXG]
  have hz' : (fun a => win0_7.index tLast0 a * main_v25_2.ty.shape.size a) = fun _ => 0 := funext fun a => by fin_cases a <;> decide
  exact (Memref.read_access_unit_zero (Elt Ideal) main_v25_2 hz' (fun a => by rw [congrFun hz' a]; simp) (colSqSumRow (sagePre (V c main_v23) (V c main_arg0) (V c main_arg2) (V c main_arg3) (V c main_v24)))).symm

theorem cover_sq0 (i : S1x128.Idx) :
    ∃ t : Fin cfg0.N, (cfg0.win 7).flush t = true ∧ i ∈ ((cfg0.win 7).blk t).view.set := by
  have hN : cfg0.N = 20 := N_0
  obtain ⟨t, ht⟩ : ∃ t : Fin cfg0.N, t.val = 19 := ⟨⟨19, by omega⟩, rfl⟩
  obtain ⟨e00, e01, e10, e11, e20, e21, e30, e31, e40, e41, e50, e51, e60, e61, e70, e71⟩ := idx_facts0 t
  refine ⟨t, (flush0_7 t).mpr (by omega), ?_⟩
  show i ∈ ((View.whole main_v25_2).slice (win0_7.rect t)).set
  rw [View.set_slice_whole, Rect.mem_set_unit]
  intro a
  have hi0 : (i 0).val < 1 := (i 0).isLt
  have hi1 : (i 1).val < 128 := (i 1).isLt
  match a with
  | ⟨0, _⟩ => show win0_7.index t 0 * 1 ≤ (i 0).val ∧ (i 0).val < win0_7.index t 0 * 1 + 1; rw [e70]; omega
  | ⟨1, _⟩ => show win0_7.index t 1 * 128 ≤ (i 1).val ∧ (i 1).val < win0_7.index t 1 * 128 + 128; rw [e71]; omega

theorem arrAt0_sq (c : Dev nD) : (dat0 V c).arrAt 7 cfg0.N = colSqSumRow (sagePre (V c main_v23) (V c main_arg0) (V c main_arg2) (V c main_arg3) (V c main_v24)) :=
  (dat0 V c).arrAt_eq_of_cover 7 _ (fun t hf => flushed_sq0_eq V c t hf) cover_sq0

end Arr0

end Cert.KernelIdeal.Gen
-- ==== Proof.KI.Stats2Val.lean ====
/- Region 2: the values. What each control case leaves is its store's payload on the loaded blocks; the scratch rows after
   point n are the running column sums of the blocks 0 … n of pre-activation rows (of the rows, and of their squares), so
   after the last point they are the column sums over all rows; the written-back arrays are the pre-activation rows block by
   block and those two column sums. -/
import proofs.«167498_j75179107549620_1_alg».proof.Proof.KI.Stats2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzS2 : (![0, 0] : Fin 2 → Nat) = fun _ => 0 := funext fun a => by fin_cases a <;> rfl

/-! ## The cases' values -/

theorem outH2_A_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    outH2_A c i arg1 harg1 arg2 harg2 arg3 harg3 arg4 harg4 arg5 harg5 arg6 harg6 arg7 harg7 arg8 harg8 arg9 harg9 argS0 hargS0 argS1 hargS1 hc0 hc1 x0 x1 x2 x3 x4 x5 = k2_pay4 x0 x1 x2 x3 x4 x5 := by
  unfold outH2_A
  rw [View.read_writes_eq_canon _ _ _ (coverH2_A c i arg1 harg1 arg2 harg2 arg3 harg3 arg4 harg4 arg5 harg5 arg6 harg6 arg7 harg7 arg8 harg8 arg9 harg9 argS0 hargS0 argS1 hargS1 hc0 hc1 x0 x1 x2 x3 x4 x5)]
  unfold kernelRun2_A
  dsimp only
  sl_unfold_words
  rw [View.canon_cons_unit_zero (S := S5000x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_A_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    sout2_A_0 c i arg1 harg1 arg2 harg2 arg3 harg3 arg4 harg4 arg5 harg5 arg6 harg6 arg7 harg7 arg8 harg8 arg9 harg9 argS0 hargS0 argS1 hargS1 hc0 hc1 x0 x1 x2 x3 x4 x5 = k2_pay5 x0 x1 x2 x3 x4 x5 (k2_pay2 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 argS0 hargS0 argS1 hargS1 hc0 hc1 x0 x1 x2 x3 x4 x5)]
  unfold kernelRun2_A
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_A_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    sout2_A_1 c i arg1 harg1 arg2 harg2 arg3 harg3 arg4 harg4 arg5 harg5 arg6 harg6 arg7 harg7 arg8 harg8 arg9 harg9 argS0 hargS0 argS1 hargS1 hc0 hc1 x0 x1 x2 x3 x4 x5 = k2_pay1 (k2_pay4 x0 x1 x2 x3 x4 x5) (k2_pay3 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 argS0 hargS0 argS1 hargS1 hc0 hc1 x0 x1 x2 x3 x4 x5)]
  unfold kernelRun2_A
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]

theorem outH2_B_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    outH2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay4 x0 x1 x2 x3 x4 x5 := by
  unfold outH2_B
  rw [View.read_writes_eq_canon _ _ _ (coverH2_B c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_B
  dsimp only
  sl_unfold_words
  rw [View.canon_cons_unit_zero (S := S5000x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_B_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    sout2_B_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay5 x0 x1 x2 x3 x4 x5 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_B
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_B_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    sout2_B_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay1 (k2_pay4 x0 x1 x2 x3 x4 x5) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_B
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]

theorem outH2_C_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    outH2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay4 x0 x1 x2 x3 x4 x5 := by
  unfold outH2_C
  rw [View.read_writes_eq_canon _ _ _ (coverH2_C c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_C
  dsimp only
  sl_unfold_words
  rw [View.canon_cons_unit_zero (S := S5000x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_C_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    sout2_C_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay5 x0 x1 x2 x3 x4 x5 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_C
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem sout2_C_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    sout2_C_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay1 (k2_pay4 x0 x1 x2 x3 x4 x5) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_C
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem outO2_C_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    outO2_C_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay5 x0 x1 x2 x3 x4 x5 xs0 := by
  unfold outO2_C_0
  rw [View.read_writes_eq_canon _ _ _ (coverO2_C_0 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_C
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]
theorem outO2_C_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (argS0 : Memref sig .tc .vmem S1x128 .f32) (hargS0 : argS0.IsWhole) (argS1 : Memref sig .tc .vmem S1x128 .f32) (hargS1 : argS1.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 xs1 : Vec F S1x128 .f32) :
    outO2_C_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1 = k2_pay1 (k2_pay4 x0 x1 x2 x3 x4 x5) xs1 := by
  unfold outO2_C_1
  rw [View.read_writes_eq_canon _ _ _ (coverO2_C_1 c i arg1 harg1 arg2 harg2 arg3 harg3 arg4 harg4 arg5 harg5 arg6 harg6 arg7 harg7 arg8 harg8 arg9 harg9 argS0 hargS0 argS1 hargS1 hc0 hc1 x0 x1 x2 x3 x4 x5 xs0 xs1)]
  unfold kernelRun2_C
  dsimp only
  sl_unfold_words
  rw [View.canon_cons_unit_zero (S := S1x128) hzS2]
  simp only [View.readAt_eq_ld, harg1.read_unread, harg2.read_unread, harg3.read_unread, harg4.read_unread, harg5.read_unread, harg6.read_unread, hargS0.read_unread, hargS1.read_unread, View.ld_unit_zero (S := S5000x128) hzS2, View.ld_unit_zero (S := S128x128) hzS2, View.ld_unit_zero (S := S1x128) hzS2, View.readCov_unit_zero (S := S1x128) _ hzS2, View.canon_cons_unit_zero (S := S1x128) hzS2]

section Regions
variable (V : (c : Dev nD) → (b : Ref sig .tc) → Buf (Elt F) ((c : Thread nD τ).loc b))

/-- The block of pre-activation rows point `t` computes from its input blocks. -/
def preBlk2 (c : Dev nD) (t : Fin cfg2.N) : Vec F S5000x128 .f32 := k2_pay4 (iblk2 V c 0 t) (iblk2 V c 1 t) (iblk2 V c 2 t) (iblk2 V c 3 t) (iblk2 V c 4 t) (iblk2 V c 5 t)

/-- The two scratch rows after point `n`: from zero at the first point, each point adds its block's column sums. -/
def chain2 (c : Dev nD) : (n : ℕ) → n < cfg2.N → Vec F S1x128 .f32 × Vec F S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := F)), k2_pay1 (k2_pay4 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (k2_pay3 (F := F)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (chain2 c n (Nat.lt_of_succ_lt h)).1, k2_pay1 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)) (chain2 c n (Nat.lt_of_succ_lt h)).2)

set_option maxHeartbeats 2000000 in
/-- After every point the staging buffer of the pre-activation block holds that point's block, and the scratch rows hold
    the running sums; at the last point the one-row outputs hold them too. -/
theorem outsAt2_vals (c : Dev nD) : ∀ (n : ℕ) (hn : n < cfg2.N),
    (outsAt2 V c n hn).1 = preBlk2 V c ⟨n, hn⟩
    ∧ (outsAt2 V c n hn).2.2.2.1 = (chain2 V c n hn).1 ∧ (outsAt2 V c n hn).2.2.2.2 = (chain2 V c n hn).2
    ∧ (n % 20 = 19 → (outsAt2 V c n hn).2.1 = (chain2 V c n hn).1 ∧ (outsAt2 V c n hn).2.2.1 = (chain2 V c n hn).2) := by
  intro n
  induction n with
  | zero =>
    intro hn
    have hA := outsAt2_A V c ⟨0, hn⟩ (Nat.zero_mod _) (by show ¬(0 : ℕ) % 20 = 19; decide)
    dsimp only at hA
    rw [hA]; dsimp only
    exact ⟨outH2_A_eq c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) _ _ (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0_eq c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) _ _ (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1_eq c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) _ _ (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), fun h => absurd h (by decide)⟩
  | succ n ih =>
    intro hn
    have hN : n + 1 < 20 := lt_of_lt_of_eq hn (show cfg2.N = 20 from N_2)
    obtain ⟨-, ih0, ih1, -⟩ := ih (Nat.lt_of_succ_lt hn)
    have h0 : ¬(n + 1) % 20 = 0 := by omega
    by_cases h1 : (n + 1) % 20 = 19
    · have hC := outsAt2_C V c ⟨n + 1, hn⟩ h0 h1
      dsimp only at hC
      simp only [Nat.add_sub_cancel] at hC
      rw [hC]; dsimp only
      refine ⟨outH2_C_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _, ?_, ?_, fun _ => ⟨?_, ?_⟩⟩
      · exact (sout2_C_0_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih0]; rfl)
      · exact (sout2_C_1_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih1]; rfl)
      · exact (outO2_C_0_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih0]; rfl)
      · exact (outO2_C_1_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih1]; rfl)
    · have hB := outsAt2_B V c ⟨n + 1, hn⟩ h0 h1
      dsimp only at hB
      simp only [Nat.add_sub_cancel] at hB
      rw [hB]; dsimp only
      refine ⟨outH2_B_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _, ?_, ?_, fun h => absurd h h1⟩
      · exact (sout2_B_0_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih0]; rfl)
      · exact (sout2_B_1_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) _ _).trans (by rw [ih1]; rfl)

end Regions

end Cert.KernelIdeal.Gen

end
-- ==== Proof.KI.Stats2Arr.lean ====
/- Region 2 over the extended reals: the arrays it leaves. The blocks of pre-activation rows tile the pre-activation array;
   the scratch rows' running sums, unrolled over the 20 points of 5000 rows each, are the column sums over all 100000 rows
   (of the entries, and of their squares), and the last point copies them to the two one-row outputs. -/
import proofs.«167498_j75179107549620_1_alg».proof.Proof.KI.Stats2Val
import proofs.«167498_j75179107549620_1_alg».proof.Proof.KI.StatsSpec
import proofs.«167498_j75179107549620_1_alg».proof.Proof.LibBlockSum

set_option maxRecDepth 16384

noncomputable section

namespace Cert.KernelIdeal.Gen

open Idealize.ShloMosaic Idealize.ShloMosaic.TcCoe
open Idealize.ShloMosaic.ValueIdx
open Idealize.ShloMosaic.Pipeline (Dat)

section Arr2
variable (V : (c : Dev nD) → (b : Ref sig .tc) → Buf (Elt Ideal) ((c : Thread nD τ).loc b))

/-- The windows' block indices over the grid: a block-row window is at block row t, every other window at its one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem iblk2_0_at (c : Dev nD) (t : Fin cfg2.N) (p : Fin 5000) (q : Fin 128) (k : S100000x128.Idx)
    (hk0 : (k 0).val = 5000 * t.val + p.val) (hk1 : (k 1).val = q.val) :
    (iblk2 V c 0 t : Vec Ideal S5000x128 .f32) (ix2 p q) = (V c main_v38 : Vec Ideal S100000x128 .f32) k := by
  obtain ⟨e00, e01, e10, e11, e20, e21, e30, e31, e40, e41, e50, e51, e60, e61, e70, e71, e80, e81⟩ := idx_facts2 t
  unfold iblk2
  rw [View.read_apply]
  show V c main_v38 _ = V c main_v38 k
  refine congrArg (V c main_v38) ?_
  funext a; apply Fin.ext
  match a with
  | ⟨0, _⟩ => show win2_0.index t 0 * 5000 + 1 * p.val = (k 0).val; rw [e00, hk0]; omega
  | ⟨1, _⟩ => show win2_0.index t 1 * 128 + 1 * q.val = (k 1).val; rw [e01, hk1]; omega
theorem iblk2_1_at (c : Dev nD) (t : Fin cfg2.N) (p : Fin 5000) (q : Fin 128) (k : S100000x128.Idx)
    (hk0 : (k 0).val = 5000 * t.val + p.val) (hk1 : (k 1).val = q.val) :
    (iblk2 V c 1 t : Vec Ideal S5000x128 .f32) (ix2 p q) = (V c main_v48 : Vec Ideal S100000x128 .f32) k := by
  obtain ⟨e00, e01, e10, e11, e20, e21, e30, e31, e40, e41, e50, e51, e60, e61, e70, e71, e80, e81⟩ := idx_facts2 t
  unfold iblk2
  rw [View.read_apply]
  show V c main_v48 _ = V c main_v48 k
  refine congrArg (V c main_v48) ?_
  funext a; apply Fin.ext
  match a with
  | ⟨0, _⟩ => show win2_1.index t 0 * 5000 + 1 * p.val = (k 0).val; rw [e10, hk0]; omega
  | ⟨1, _⟩ => show win2_1.index t 1 * 128 + 1 * q.val = (k 1).val; rw [e11, hk1]; omega
theorem iblk2_2_at (c : Dev nD) (t : Fin cfg2.N) (k q : Fin 128) :
    (iblk2 V c 2 t : Vec Ideal S128x128 .f32) (ix2 k q) = (V c main_arg5 : Vec Ideal S128x128 .f32) (ix2 k q) := by
  obtain ⟨e00, e01, e10, e11, e20, e21, e30, e31, e40, e41, e50, e51, e60, e61, e70, e71, e80, e81⟩ := idx_facts2 t
  unfold iblk2
  rw [View.read_apply]
  show V c main_arg5 _ = V c main_arg5 (ix2 k q)
  refine congrArg (V c main_arg5) ?_
  funext a; apply Fin.ext
  match a with
  | ⟨0, _⟩ => show win2_2.index t 0 * 128 + 1 * k.val = k.val; rw [e20]; omega
  | ⟨1, _⟩ => show win2_2.index t 1 * 128 + 1 * q.val = q.val; rw [e21]; omega
theorem iblk2_3_at (c : Dev nD) (t : Fin cfg2.N) (q : Fin 128) :
    (iblk2 V c 3 t : Vec Ideal S1x128 .f32) (row128 q) = (V c main_v49 : Vec Ideal S1x128 .f32) (row128 q) := by
  obtain ⟨e00, e01, e10, e11, e20, e21, e30, e31, e40, e41, e50, e51, e60, e61, e70, e71, e80, e81⟩ := idx_facts2 t
  unfold iblk2
  rw [View.read_apply]
  show V c main_v49 _ = V c main_v49 (row128 q)
  refine congrArg (V c main_v49) ?_
  funext a; apply Fin.ext
  match a with
  | ⟨0, _⟩ => show win2_3.index t 0 * 1 + 1 * 0 = 0; rw [e30]
  | ⟨1, _⟩ => show win2_3.index t 1 * 128 + 1 * q.val = q.val; rw [e31]; omega
theorem iblk2_4_at (c : Dev nD) (t : Fin cfg2.N) (k q : Fin 128) :
    (iblk2 V c 4 t : Vec Ideal S128x128 .f32) (ix2 k q) = (V c main_arg7 : Vec Ideal S128x128 .f32) (ix2 k q) := by
  obtain ⟨e00, e01, e10, e11, e20, e21, e30, e31, e40, e41, e50, e51, e60, e61, e70, e71, e80, e81⟩ := idx_facts2 t
  unfold iblk2
  rw [View.read_apply]
  show V c main_arg7 _ = V c main_arg7 (ix2 k q)
  refine congrArg (V c main_arg7) ?_
  funext a; apply Fin.ext
  match a with
  | ⟨0, _⟩ => show win2_4.index t 0 * 128 + 1 * k.val = k.val; rw [e40]; omega
  | ⟨1, _⟩ => show win2_4.index t 1 * 128 + 1 * q.val = q.val; rw [e41]; omega
theorem iblk2_5_at (c : Dev nD) (t : Fin cfg2.N) (q : Fin 128) :
    (iblk2 V c 5 t : Vec Ideal S1x128 .f32) (row128 q) = (V c main_v50 : Vec Ideal S1x128 .f32) (row128 q) := by
  obtain ⟨e00, e01, e10, e11, e20, e21, e30, e31, e40, e41, e50, e51, e60, e61, e70, e71, e80, e81⟩ := idx_facts2 t
  unfold iblk2
  rw [View.read_apply]
  show V c main_v50 _ = V c main_v50 (row128 q)
  refine congrArg (V c main_v50) ?_
  funext a; apply Fin.ext
  match a with
  | ⟨0, _⟩ => show win2_5.index t 0 * 1 + 1 * 0 = 0; rw [e50]
  | ⟨1, _⟩ => show win2_5.index t 1 * 128 + 1 * q.val = q.val; rw [e51]; omega

/-- Entry (p, q) of the block point `t` computes is entry (5000 t + p, q) of the pre-activation array of the region's input arrays. -/
theorem preBlk2_at (c : Dev nD) (t : Fin cfg2.N) (p : Fin 5000) (q : Fin 128) (r : Fin 100000) (hr : r.val = 5000 * t.val + p.val) :
    preBlk2 V c t (ix2 p q) = (ginPre (V c main_v38) (V c main_v48) (V c main_arg5) (V c main_v49) (V c main_arg7) (V c main_v50)) (ix2 r q) := by
  unfold preBlk2
  refine (k2_pay4_at (iblk2 V c 0 t) (iblk2 V c 1 t) (iblk2 V c 2 t) (iblk2 V c 3 t) (iblk2 V c 4 t) (iblk2 V c 5 t) p q).trans ?_
  unfold ginPre
  have hr' : ((ix2 r q : S100000x128.Idx) 0).val = 5000 * t.val + p.val := hr
  have h0 : (fun k => (iblk2 V c 0 t : Vec Ideal S5000x128 .f32) (ix2 p k)) = fun k => (V c main_v38 : Vec Ideal S100000x128 .f32) (ix2 r k) :=
    funext fun k => iblk2_0_at V c t p k (ix2 r k) hr rfl
  have h1 : (fun k => (iblk2 V c 1 t : Vec Ideal S5000x128 .f32) (ix2 p k)) = fun k => (V c main_v48 : Vec Ideal S100000x128 .f32) (ix2 r k) :=
    funext fun k => iblk2_1_at V c t p k (ix2 r k) hr rfl
  simp only [iblk2_2_at V c t, iblk2_3_at V c t, iblk2_4_at V c t, iblk2_5_at V c t]
  rw [h0, h1]

/-! ## The pre-activation array -/

theorem flushedH2_eq (c : Dev nD) (t : Fin cfg2.N) :
    (dat2 V c).flushed 6 t = ((cfg2.win 6).blk t).view.read (Elt Ideal) (ginPre (V c main_v38) (V c main_v48) (V c main_arg5) (V c main_v49) (V c main_arg7) (V c main_v50)) := by
  show (cfg2.win 6).cut (grid2.coords t) ((dat2 V c).after 6 t) = _
  rw [after2_6, (outsAt2_vals V c t.val t.isLt).1]
  funext j
  obtain ⟨p, q, rfl⟩ : ∃ (p : Fin 5000) (q : Fin 128), j = ix2 p q := ⟨j 0, j 1, eq_ix2 j⟩
  have hN : cfg2.N = 20 := N_2
  have ht := t.isLt
  obtain ⟨e00, e01, e10, e11, e20, e21, e30, e31, e40, e41, e50, e51, e60, e61, e70, e71, e80, e81⟩ := idx_facts2 t
  have hb : 5000 * t.val + p.val < 100000 := by have := p.isLt; omega
  have he : ((cfg2.win 6).blk t).view.emb (ix2 p q) = (ix2 ⟨5000 * t.val + p.val, hb⟩ q : S100000x128.Idx) := by
    funext a; apply Fin.ext
    match a with
    | ⟨0, _⟩ => show win2_6.index t 0 * 5000 + 1 * p.val = 5000 * t.val + p.val; rw [e60]; omega
    | ⟨1, _⟩ => show win2_6.index t 1 * 128 + 1 * q.val = q.val; rw [e61]; omega
  rw [View.read_apply]
  show preBlk2 V c t (ix2 p q) = (ginPre (V c main_v38) (V c main_v48) (V c main_arg5) (V c main_v49) (V c main_arg7) (V c main_v50)) (((cfg2.win 6).blk t).view.emb (ix2 p q))
  rw [he]
  exact preBlk2_at V c t p q ⟨5000 * t.val + p.val, hb⟩ rfl

theorem mem_blkH2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v51_0).slice (win2_6.rect t)).set ↔ _
  rw [View.set_slice_whole, Rect.mem_set_unit]
  exact Iff.rfl

theorem coverH2_all (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨e00, e01, e10, e11, e20, e21, e30, e31, e40, e41, e50, e51, e60, e61, e70, e71, e80, e81⟩ := idx_facts2 t
  refine ⟨t, flush2_6 t, ?_⟩
  rw [mem_blkH2]
  intro a
  match a with
  | ⟨0, _⟩ => show win2_6.index t 0 * 5000 ≤ (i 0).val ∧ (i 0).val < win2_6.index t 0 * 5000 + 5000; rw [e60]; omega
  | ⟨1, _⟩ => show win2_6.index t 1 * 128 ≤ (i 1).val ∧ (i 1).val < win2_6.index t 1 * 128 + 128; rw [e61]; omega

/-- The array of pre-activation rows after region 2. -/
theorem arrAt2_pre (c : Dev nD) : (dat2 V c).arrAt 6 cfg2.N = (ginPre (V c main_v38) (V c main_v48) (V c main_arg5) (V c main_v49) (V c main_arg7) (V c main_v50)) :=
  (dat2 V c).arrAt_eq_of_cover 6 _ (fun t _ => flushedH2_eq V c t) coverH2_all

/-! ## The running column sums -/

/-- The column sums of block `s` (zero past the grid). -/
def blkSum2 (c : Dev nD) (q : Fin 128) (s : ℕ) : EReal :=
  if h : s < cfg2.N then ∑ p : Fin 5000, preBlk2 V c ⟨s, h⟩ (ix2 p q) else 0
def blkSqSum2 (c : Dev nD) (q : Fin 128) (s : ℕ) : EReal :=
  if h : s < cfg2.N then ∑ p : Fin 5000, preBlk2 V c ⟨s, h⟩ (ix2 p q) * preBlk2 V c ⟨s, h⟩ (ix2 p q) else 0

theorem chain2_at (c : Dev nD) (q : Fin 128) : ∀ (n : ℕ) (hn : n < cfg2.N),
    (chain2 V c n hn).1 (row128 q) = ∑ s ∈ Finset.range (n + 1), blkSum2 V c q s
    ∧ (chain2 V c n hn).2 (row128 q) = ∑ s ∈ Finset.range (n + 1), blkSqSum2 V c q s := by
  intro n
  induction n with
  | zero =>
    intro hn
    rw [Finset.sum_range_one, Finset.sum_range_one]
    unfold blkSum2 blkSqSum2
    rw [dif_pos hn, dif_pos hn]
    constructor
    · show (k2_pay5 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (k2_pay2 (F := Ideal))) (row128 q) = _
      rw [k2_pay5_at, k2_pay2_at, zero_add]; rfl
    · show (k2_pay1 (k2_pay4 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)) (k2_pay3 (F := Ideal))) (row128 q) = _
      rw [k2_pay1_at, k2_pay3_at, zero_add]; rfl
  | succ n ih =>
    intro hn
    obtain ⟨ih0, ih1⟩ := ih (Nat.lt_of_succ_lt hn)
    rw [Finset.sum_range_succ _ (n + 1), Finset.sum_range_succ _ (n + 1), ← ih0, ← ih1]
    unfold blkSum2 blkSqSum2
    rw [dif_pos hn, dif_pos hn]
    constructor
    · show (k2_pay5 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (chain2 V c n (Nat.lt_of_succ_lt hn)).1) (row128 q) = _
      rw [k2_pay5_at]; rfl
    · show (k2_pay1 (k2_pay4 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (chain2 V c n (Nat.lt_of_succ_lt hn)).2) (row128 q) = _
      rw [k2_pay1_at]; rfl

/-- After the last point the scratch rows are the column sums over all rows. -/
theorem chain2_last (c : Dev nD) (q : Fin 128) (hn : 19 < cfg2.N) :
    (chain2 V c 19 hn).1 (row128 q) = colSumRow (ginPre (V c main_v38) (V c main_v48) (V c main_arg5) (V c main_v49) (V c main_arg7) (V c main_v50)) (row128 q)
    ∧ (chain2 V c 19 hn).2 (row128 q) = colSqSumRow (ginPre (V c main_v38) (V c main_v48) (V c main_arg5) (V c main_v49) (V c main_arg7) (V c main_v50)) (row128 q) := by
  obtain ⟨h0, h1⟩ := chain2_at V c q 19 hn
  rw [h0, h1]
  have hN : cfg2.N = 20 := N_2
  constructor
  · unfold colSumRow
    refine Cert.LibBlockSum.sum_range_blocks_of_eq 20 5000 100000 rfl (fun r => (ginPre (V c main_v38) (V c main_v48) (V c main_arg5) (V c main_v49) (V c main_arg7) (V c main_v50)) (ix2 r q)) (blkSum2 V c q) fun k => ?_
    unfold blkSum2
    rw [dif_pos (by have := k.isLt; omega)]
    exact Finset.sum_congr rfl fun p _ => preBlk2_at V c ⟨k.val, _⟩ p q ⟨k.val * 5000 + p.val, _⟩ (by show k.val * 5000 + p.val = 5000 * k.val + p.val; omega)
  · unfold colSqSumRow
    refine Cert.LibBlockSum.sum_range_blocks_of_eq 20 5000 100000 rfl (fun r => (ginPre (V c main_v38) (V c main_v48) (V c main_arg5) (V c main_v49) (V c main_arg7) (V c main_v50)) (ix2 r q) * (ginPre (V c main_v38) (V c main_v48) (V c main_arg5) (V c main_v49) (V c main_arg7) (V c main_v50)) (ix2 r q)) (blkSqSum2 V c q) fun k => ?_
    unfold blkSqSum2
    rw [dif_pos (by have := k.isLt; omega)]
    exact Finset.sum_congr rfl fun p _ => by
      rw [preBlk2_at V c ⟨k.val, _⟩ p q ⟨k.val * 5000 + p.val, _⟩ (by show k.val * 5000 + p.val = 5000 * k.val + p.val; omega)]

/-! ## The two one-row outputs: the last point writes back the whole one-row array -/

/-- The last grid point. -/
abbrev tLast2 : Fin cfg2.N := ⟨19, by decide⟩

theorem flushed_sum2_eq (c : Dev nD) (t : Fin cfg2.N) (hf : (cfg2.win 7).flush t = true) :
    (dat2 V c).flushed 7 t = ((cfg2.win 7).blk t).view.read (Elt Ideal) (colSumRow (ginPre (V c main_v38) (V c main_v48) (V c main_arg5) (V c main_v49) (V c main_arg7) (V c main_v50))) := by
  have h19 : t.val % 20 = 19 := (flush2_7 t).mp hf
  have hN : cfg2.N = 20 := N_2
  have ht := t.isLt
  have ht19 : t.val = 19 := by omega
  obtain rfl : t = tLast2 := Fin.ext ht19
  show (cfg2.win 7).cut (grid2.coords tLast2) ((dat2 V c).after 7 tLast2) = _
  rw [after2_7]
  have hXG : (outsAt2 V c tLast2.val tLast2.isLt).2.1 = colSumRow (ginPre (V c main_v38) (V c main_v48) (V c main_arg5) (V c main_v49) (V c main_arg7) (V c main_v50)) := by
    rw [((outsAt2_vals V c tLast2.val tLast2.isLt).2.2.2 h19).1]
    funext i
    obtain ⟨z, q, rfl⟩ : ∃ (z : Fin 1) (q : Fin 128), i = ix2 z q := ⟨i 0, i 1, eq_ix2 i⟩
    obtain rfl : z = 0 := Subsingleton.elim _ _
    exact (chain2_last V c q tLast2.isLt).1
  rw [hXG]
  have hz' : (fun a => win2_7.index tLast2 a * main_v51_1.ty.shape.size a) = fun _ => 0 := funext fun a => by fin_cases a <;> decide
  exact (Memref.read_access_unit_zero (Elt Ideal) main_v51_1 hz' (fun a => by rw [congrFun hz' a]; simp) (colSumRow (ginPre (V c main_v38) (V c main_v48) (V c main_arg5) (V c main_v49) (V c main_arg7) (V c main_v50)))).symm

theorem cover_sum2 (i : S1x128.Idx) :
    ∃ t : Fin cfg2.N, (cfg2.win 7).flush t = true ∧ i ∈ ((cfg2.win 7).blk t).view.set := by
  have hN : cfg2.N = 20 := N_2
  obtain ⟨t, ht⟩ : ∃ t : Fin cfg2.N, t.val = 19 := ⟨⟨19, by omega⟩, rfl⟩
  obtain ⟨e00, e01, e10, e11, e20, e21, e30, e31, e40, e41, e50, e51, e60, e61, e70, e71, e80, e81⟩ := idx_facts2 t
  refine ⟨t, (flush2_7 t).mpr (by omega), ?_⟩
  show i ∈ ((View.whole main_v51_1).slice (win2_7.rect t)).set
  rw [View.set_slice_whole, Rect.mem_set_unit]
  intro a
  have hi0 : (i 0).val < 1 := (i 0).isLt
  have hi1 : (i 1).val < 128 := (i 1).isLt
  match a with
  | ⟨0, _⟩ => show win2_7.index t 0 * 1 ≤ (i 0).val ∧ (i 0).val < win2_7.index t 0 * 1 + 1; rw [e70]; omega
  | ⟨1, _⟩ => show win2_7.index t 1 * 128 ≤ (i 1).val ∧ (i 1).val < win2_7.index t 1 * 128 + 128; rw [e71]; omega

theorem arrAt2_sum (c : Dev nD) : (dat2 V c).arrAt 7 cfg2.N = colSumRow (ginPre (V c main_v38) (V c main_v48) (V c main_arg5) (V c main_v49) (V c main_arg7) (V c main_v50)) :=
  (dat2 V c).arrAt_eq_of_cover 7 _ (fun t hf => flushed_sum2_eq V c t hf) cover_sum2

theorem flushed_sq2_eq (c : Dev nD) (t : Fin cfg2.N) (hf : (cfg2.win 8).flush t = true) :
    (dat2 V c).flushed 8 t = ((cfg2.win 8).blk t).view.read (Elt Ideal) (colSqSumRow (ginPre (V c main_v38) (V c main_v48) (V c main_arg5) (V c main_v49) (V c main_arg7) (V c main_v50))) := by
  have h19 : t.val % 20 = 19 := (flush2_8 t).mp hf
  have hN : cfg2.N = 20 := N_2
  have ht := t.isLt
  have ht19 : t.val = 19 := by omega
  obtain rfl : t = tLast2 := Fin.ext ht19
  show (cfg2.win 8).cut (grid2.coords tLast2) ((dat2 V c).after 8 tLast2) = _
  rw [after2_8]
  have hXG : (outsAt2 V c tLast2.val tLast2.isLt).2.2.1 = colSqSumRow (ginPre (V c main_v38) (V c main_v48) (V c main_arg5) (V c main_v49) (V c main_arg7) (V c main_v50)) := by
    rw [((outsAt2_vals V c tLast2.val tLast2.isLt).2.2.2 h19).2]
    funext i
    obtain ⟨z, q, rfl⟩ : ∃ (z : Fin 1) (q : Fin 128), i = ix2 z q := ⟨i 0, i 1, eq_ix2 i⟩
    obtain rfl : z = 0 := Subsingleton.elim _ _
    exact (chain2_last V c q tLast2.isLt).2
  rw [hXG]
  have hz' : (fun a => win2_8.index tLast2 a * main_v51_2.ty.shape.size a) = fun _ => 0 := funext fun a => by fin_cases a <;> decide
  exact (Memref.read_access_unit_zero (Elt Ideal) main_v51_2 hz' (fun a => by rw [congrFun hz' a]; simp) (colSqSumRow (ginPre (V c main_v38) (V c main_v48) (V c main_arg5) (V c main_v49) (V c main_arg7) (V c main_v50)))).symm

theorem cover_sq2 (i : S1x128.Idx) :
    ∃ t : Fin cfg2.N, (cfg2.win 8).flush t = true ∧ i ∈ ((cfg2.win 8).blk t).view.set := by
  have hN : cfg2.N = 20 := N_2
  obtain ⟨t, ht⟩ : ∃ t : Fin cfg2.N, t.val = 19 := ⟨⟨19, by omega⟩, rfl⟩
  obtain ⟨e00, e01, e10, e11, e20, e21, e30, e31, e40, e41, e50, e51, e60, e61, e70, e71, e80, e81⟩ := idx_facts2 t
  refine ⟨t, (flush2_8 t).mpr (by omega), ?_⟩
  show i ∈ ((View.whole main_v51_2).slice (win2_8.rect t)).set
  rw [View.set_slice_whole, Rect.mem_set_unit]
  intro a
  have hi0 : (i 0).val < 1 := (i 0).isLt
  have hi1 : (i 1).val < 128 := (i 1).isLt
  match a with
  | ⟨0, _⟩ => show win2_8.index t 0 * 1 ≤ (i 0).val ∧ (i 0).val < win2_8.index t 0 * 1 + 1; rw [e80]; omega
  | ⟨1, _⟩ => show win2_8.index t 1 * 128 ≤ (i 1).val ∧ (i 1).val < win2_8.index t 1 * 128 + 128; rw [e81]; omega

theorem arrAt2_sq (c : Dev nD) : (dat2 V c).arrAt 8 cfg2.N = colSqSumRow (ginPre (V c main_v38) (V c main_v48) (V c main_arg5) (V c main_v49) (V c main_arg7) (V c main_v50)) :=
  (dat2 V c).arrAt_eq_of_cover 8 _ (fun t hf => flushed_sq2_eq V c t hf) cover_sq2

end Arr2

end Cert.KernelIdeal.Gen
-- ==== Proof.KI.Stats4Val.lean ====
/- Region 4: the values. What each control case leaves is its store's payload on the loaded blocks; the scratch rows after
   point n are the running column sums of the blocks 0 … n of pre-activation rows (of the rows, and of their squares), so
   after the last point they are the column sums over all rows; the written-back arrays are the pre-activation rows block by
   block and those two column sums. -/
import proofs.«167498_j75179107549620_1_alg».proof.Proof.KI.Stats4
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzS4 : (![0, 0] : Fin 2 → Nat) = fun _ => 0 := funext fun a => by fin_cases a <;> rfl

/-! ## The cases' values -/

theorem outH4_A_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    outH4_A c i arg1 harg1 arg2 harg2 arg3 harg3 arg4 harg4 arg5 harg5 arg6 harg6 arg7 harg7 arg8 harg8 argS0 hargS0 argS1 hargS1 hc0 hc1 x0 x1 x2 x3 x4 = k4_pay4 x0 x2 x1 x3 x4 := by
  unfold outH4_A
  rw [View.read_writes_eq_canon _ _ _ (coverH4_A c i arg1 harg1 arg2 harg2 arg3 harg3 arg4 harg4 arg5 harg5 arg6 harg6 arg7 harg7 arg8 harg8 argS0 hargS0 argS1 hargS1 hc0 hc1 x0 x1 x2 x3 x4)]
  unfold kernelRun4_A
  dsimp only
  sl_unfold_words
  rw [View.canon_cons_unit_zero (S := S5000x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_A_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    sout4_A_0 c i arg1 harg1 arg2 harg2 arg3 harg3 arg4 harg4 arg5 harg5 arg6 harg6 arg7 harg7 arg8 harg8 argS0 hargS0 argS1 hargS1 hc0 hc1 x0 x1 x2 x3 x4 = k4_pay5 x0 x2 x1 x3 x4 (k4_pay2 (F := F)) := by
  unfold sout4_A_0
  rw [View.read_writes_eq_canon _ _ _ (scover4_A_0 c i arg1 harg1 arg2 harg2 arg3 harg3 arg4 harg4 arg5 harg5 arg6 harg6 arg7 harg7 arg8 harg8 argS0 hargS0 argS1 hargS1 hc0 hc1 x0 x1 x2 x3 x4)]
  unfold kernelRun4_A
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_A_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    sout4_A_1 c i arg1 harg1 arg2 harg2 arg3 harg3 arg4 harg4 arg5 harg5 arg6 harg6 arg7 harg7 arg8 harg8 argS0 hargS0 argS1 hargS1 hc0 hc1 x0 x1 x2 x3 x4 = k4_pay1 (k4_pay6 x0 x2 x1 x3 x4 (k4_pay3 (F := F))) := by
  unfold sout4_A_1
  rw [View.read_writes_eq_canon _ _ _ (scover4_A_1 c i arg1 harg1 arg2 harg2 arg3 harg3 arg4 harg4 arg5 harg5 arg6 harg6 arg7 harg7 arg8 harg8 argS0 hargS0 argS1 hargS1 hc0 hc1 x0 x1 x2 x3 x4)]
  unfold kernelRun4_A
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]

theorem outH4_B_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outH4_B c i arg1 harg1 arg2 harg2 arg3 harg3 arg4 harg4 arg5 harg5 arg6 harg6 arg7 harg7 arg8 harg8 argS0 hargS0 argS1 hargS1 hc0 hc1 x0 x1 x2 x3 x4 xs0 xs1 = k4_pay4 x0 x2 x1 x3 x4 := by
  unfold outH4_B
  rw [View.read_writes_eq_canon _ _ _ (coverH4_B c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_B
  dsimp only
  sl_unfold_words
  rw [View.canon_cons_unit_zero (S := S5000x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_B_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_B_0 c i arg1 harg1 arg2 harg2 arg3 harg3 arg4 harg4 arg5 harg5 arg6 harg6 arg7 harg7 arg8 harg8 argS0 hargS0 argS1 hargS1 hc0 hc1 x0 x1 x2 x3 x4 xs0 xs1 = k4_pay5 x0 x2 x1 x3 x4 xs0 := by
  unfold sout4_B_0
  rw [View.read_writes_eq_canon _ _ _ (scover4_B_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_B
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_B_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_B_1 c i arg1 harg1 arg2 harg2 arg3 harg3 arg4 harg4 arg5 harg5 arg6 harg6 arg7 harg7 arg8 harg8 argS0 hargS0 argS1 hargS1 hc0 hc1 x0 x1 x2 x3 x4 xs0 xs1 = k4_pay1 (k4_pay6 x0 x2 x1 x3 x4 xs1) := by
  unfold sout4_B_1
  rw [View.read_writes_eq_canon _ _ _ (scover4_B_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_B
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]

theorem outH4_C_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outH4_C c i arg1 harg1 arg2 harg2 arg3 harg3 arg4 harg4 arg5 harg5 arg6 harg6 arg7 harg7 arg8 harg8 argS0 hargS0 argS1 hargS1 hc0 hc1 x0 x1 x2 x3 x4 xs0 xs1 = k4_pay4 x0 x2 x1 x3 x4 := by
  unfold outH4_C
  rw [View.read_writes_eq_canon _ _ _ (coverH4_C c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_C
  dsimp only
  sl_unfold_words
  rw [View.canon_cons_unit_zero (S := S5000x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_C_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_C_0 c i arg1 harg1 arg2 harg2 arg3 harg3 arg4 harg4 arg5 harg5 arg6 harg6 arg7 harg7 arg8 harg8 argS0 hargS0 argS1 hargS1 hc0 hc1 x0 x1 x2 x3 x4 xs0 xs1 = k4_pay5 x0 x2 x1 x3 x4 xs0 := by
  unfold sout4_C_0
  rw [View.read_writes_eq_canon _ _ _ (scover4_C_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_C
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem sout4_C_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_C_1 c i arg1 harg1 arg2 harg2 arg3 harg3 arg4 harg4 arg5 harg5 arg6 harg6 arg7 harg7 arg8 harg8 argS0 hargS0 argS1 hargS1 hc0 hc1 x0 x1 x2 x3 x4 xs0 xs1 = k4_pay1 (k4_pay6 x0 x2 x1 x3 x4 xs1) := by
  unfold sout4_C_1
  rw [View.read_writes_eq_canon _ _ _ (scover4_C_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_C
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem outO4_C_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outO4_C_0 c i arg1 harg1 arg2 harg2 arg3 harg3 arg4 harg4 arg5 harg5 arg6 harg6 arg7 harg7 arg8 harg8 argS0 hargS0 argS1 hargS1 hc0 hc1 x0 x1 x2 x3 x4 xs0 xs1 = k4_pay5 x0 x2 x1 x3 x4 xs0 := by
  unfold outO4_C_0
  rw [View.read_writes_eq_canon _ _ _ (coverO4_C_0 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_C
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]
theorem outO4_C_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (argS0 : Memref sig .tc .vmem S1x128 .f32) (hargS0 : argS0.IsWhole) (argS1 : Memref sig .tc .vmem S1x128 .f32) (hargS1 : argS1.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    outO4_C_1 c i arg1 harg1 arg2 harg2 arg3 harg3 arg4 harg4 arg5 harg5 arg6 harg6 arg7 harg7 arg8 harg8 argS0 hargS0 argS1 hargS1 hc0 hc1 x0 x1 x2 x3 x4 xs0 xs1 = k4_pay1 (k4_pay6 x0 x2 x1 x3 x4 xs1) := by
  unfold outO4_C_1
  rw [View.read_writes_eq_canon _ _ _ (coverO4_C_1 c i arg1 harg1 arg2 harg2 arg3 harg3 arg4 harg4 arg5 harg5 arg6 harg6 arg7 harg7 arg8 harg8 argS0 hargS0 argS1 hargS1 hc0 hc1 x0 x1 x2 x3 x4 xs0 xs1)]
  unfold kernelRun4_C
  dsimp only
  sl_unfold_words
  rw [View.canon_cons_unit_zero (S := S1x128) hzS4]
  simp only [View.readAt_eq_ld, harg1.read_unread, harg2.read_unread, harg3.read_unread, harg4.read_unread, harg5.read_unread, hargS0.read_unread, hargS1.read_unread, View.ld_unit_zero (S := S5000x128) hzS4, View.ld_unit_zero (S := S128x128) hzS4, View.ld_unit_zero (S := S1x128) hzS4, View.readCov_unit_zero (S := S1x128) _ hzS4, View.canon_cons_unit_zero (S := S1x128) hzS4]

section Regions
variable (V : (c : Dev nD) → (b : Ref sig .tc) → Buf (Elt F) ((c : Thread nD τ).loc b))

/-- The block of pre-activation rows point `t` computes from its input blocks. -/
def preBlk4 (c : Dev nD) (t : Fin cfg4.N) : Vec F S5000x128 .f32 := k4_pay4 (iblk4 V c 0 t) (iblk4 V c 2 t) (iblk4 V c 1 t) (iblk4 V c 3 t) (iblk4 V c 4 t)

/-- The two scratch rows after point `n`: from zero at the first point, each point adds its block's column sums. -/
def chain4 (c : Dev nD) : (n : ℕ) → n < cfg4.N → Vec F S1x128 .f32 × Vec F S1x128 .f32
  | 0, h => (k4_pay5 (iblk4 V c 0 ⟨0, h⟩) (iblk4 V c 2 ⟨0, h⟩) (iblk4 V c 1 ⟨0, h⟩) (iblk4 V c 3 ⟨0, h⟩) (iblk4 V c 4 ⟨0, h⟩) (k4_pay2 (F := F)), k4_pay1 (k4_pay6 (iblk4 V c 0 ⟨0, h⟩) (iblk4 V c 2 ⟨0, h⟩) (iblk4 V c 1 ⟨0, h⟩) (iblk4 V c 3 ⟨0, h⟩) (iblk4 V c 4 ⟨0, h⟩) (k4_pay3 (F := F))))
  | n + 1, h => (k4_pay5 (iblk4 V c 0 ⟨n + 1, h⟩) (iblk4 V c 2 ⟨n + 1, h⟩) (iblk4 V c 1 ⟨n + 1, h⟩) (iblk4 V c 3 ⟨n + 1, h⟩) (iblk4 V c 4 ⟨n + 1, h⟩) (chain4 c n (Nat.lt_of_succ_lt h)).1, k4_pay1 (k4_pay6 (iblk4 V c 0 ⟨n + 1, h⟩) (iblk4 V c 2 ⟨n + 1, h⟩) (iblk4 V c 1 ⟨n + 1, h⟩) (iblk4 V c 3 ⟨n + 1, h⟩) (iblk4 V c 4 ⟨n + 1, h⟩) (chain4 c n (Nat.lt_of_succ_lt h)).2))

set_option maxHeartbeats 2000000 in
/-- After every point the staging buffer of the pre-activation block holds that point's block, and the scratch rows hold
    the running sums; at the last point the one-row outputs hold them too. -/
theorem outsAt4_vals (c : Dev nD) : ∀ (n : ℕ) (hn : n < cfg4.N),
    (outsAt4 V c n hn).1 = preBlk4 V c ⟨n, hn⟩
    ∧ (outsAt4 V c n hn).2.2.2.1 = (chain4 V c n hn).1 ∧ (outsAt4 V c n hn).2.2.2.2 = (chain4 V c n hn).2
    ∧ (n % 20 = 19 → (outsAt4 V c n hn).2.1 = (chain4 V c n hn).1 ∧ (outsAt4 V c n hn).2.2.1 = (chain4 V c n hn).2) := by
  intro n
  induction n with
  | zero =>
    intro hn
    have hA := outsAt4_A V c ⟨0, hn⟩ (Nat.zero_mod _) (by show ¬(0 : ℕ) % 20 = 19; decide)
    dsimp only at hA
    rw [hA]; dsimp only
    exact ⟨outH4_A_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) _ _ (iblk4 V c 0 ⟨0, hn⟩) (iblk4 V c 1 ⟨0, hn⟩) (iblk4 V c 2 ⟨0, hn⟩) (iblk4 V c 3 ⟨0, hn⟩) (iblk4 V c 4 ⟨0, hn⟩), sout4_A_0_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) _ _ (iblk4 V c 0 ⟨0, hn⟩) (iblk4 V c 1 ⟨0, hn⟩) (iblk4 V c 2 ⟨0, hn⟩) (iblk4 V c 3 ⟨0, hn⟩) (iblk4 V c 4 ⟨0, hn⟩),
      sout4_A_1_eq c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) _ _ (iblk4 V c 0 ⟨0, hn⟩) (iblk4 V c 1 ⟨0, hn⟩) (iblk4 V c 2 ⟨0, hn⟩) (iblk4 V c 3 ⟨0, hn⟩) (iblk4 V c 4 ⟨0, hn⟩), fun h => absurd h (by decide)⟩
  | succ n ih =>
    intro hn
    have hN : n + 1 < 20 := lt_of_lt_of_eq hn (show cfg4.N = 20 from N_4)
    obtain ⟨-, ih0, ih1, -⟩ := ih (Nat.lt_of_succ_lt hn)
    have h0 : ¬(n + 1) % 20 = 0 := by omega
    by_cases h1 : (n + 1) % 20 = 19
    · have hC := outsAt4_C V c ⟨n + 1, hn⟩ h0 h1
      dsimp only at hC
      simp only [Nat.add_sub_cancel] at hC
      rw [hC]; dsimp only
      refine ⟨outH4_C_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _, ?_, ?_, fun _ => ⟨?_, ?_⟩⟩
      · exact (sout4_C_0_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih0]; rfl)
      · exact (sout4_C_1_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih1]; rfl)
      · exact (outO4_C_0_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih0]; rfl)
      · exact (outO4_C_1_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih1]; rfl)
    · have hB := outsAt4_B V c ⟨n + 1, hn⟩ h0 h1
      dsimp only at hB
      simp only [Nat.add_sub_cancel] at hB
      rw [hB]; dsimp only
      refine ⟨outH4_B_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _, ?_, ?_, fun h => absurd h h1⟩
      · exact (sout4_B_0_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih0]; rfl)
      · exact (sout4_B_1_eq c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) _ _ (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) _ _).trans (by rw [ih1]; rfl)

end Regions

end Cert.KernelIdeal.Gen

end
-- ==== Proof.KI.Stats4Arr.lean ====
/- Region 4 over the extended reals: the arrays it leaves. The blocks of pre-activation rows tile the pre-activation array;
   the scratch rows' running sums, unrolled over the 20 points of 5000 rows each, are the column sums over all 100000 rows
   (of the entries, and of their squares), and the last point copies them to the two one-row outputs. -/
import proofs.«167498_j75179107549620_1_alg».proof.Proof.KI.Stats4Val
import proofs.«167498_j75179107549620_1_alg».proof.Proof.KI.StatsSpec
import proofs.«167498_j75179107549620_1_alg».proof.Proof.LibBlockSum

set_option maxRecDepth 16384

noncomputable section

namespace Cert.KernelIdeal.Gen

open Idealize.ShloMosaic Idealize.ShloMosaic.TcCoe
open Idealize.ShloMosaic.ValueIdx
open Idealize.ShloMosaic.Pipeline (Dat)

section Arr4
variable (V : (c : Dev nD) → (b : Ref sig .tc) → Buf (Elt Ideal) ((c : Thread nD τ).loc b))

/-- The windows' block indices over the grid: a block-row window is at block row t, every other window at its one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem iblk4_0_at (c : Dev nD) (t : Fin cfg4.N) (p : Fin 5000) (q : Fin 128) (k : S100000x128.Idx)
    (hk0 : (k 0).val = 5000 * t.val + p.val) (hk1 : (k 1).val = q.val) :
    (iblk4 V c 0 t : Vec Ideal S5000x128 .f32) (ix2 p q) = (V c main_v76 : Vec Ideal S100000x128 .f32) k := by
  obtain ⟨e00, e01, e10, e11, e20, e21, e30, e31, e40, e41, e50, e51, e60, e61, e70, e71⟩ := idx_facts4 t
  unfold iblk4
  rw [View.read_apply]
  show V c main_v76 _ = V c main_v76 k
  refine congrArg (V c main_v76) ?_
  funext a; apply Fin.ext
  match a with
  | ⟨0, _⟩ => show win4_0.index t 0 * 5000 + 1 * p.val = (k 0).val; rw [e00, hk0]; omega
  | ⟨1, _⟩ => show win4_0.index t 1 * 128 + 1 * q.val = (k 1).val; rw [e01, hk1]; omega
theorem iblk4_1_at (c : Dev nD) (t : Fin cfg4.N) (p : Fin 5000) (q : Fin 128) (k : S100000x128.Idx)
    (hk0 : (k 0).val = 5000 * t.val + p.val) (hk1 : (k 1).val = q.val) :
    (iblk4 V c 1 t : Vec Ideal S5000x128 .f32) (ix2 p q) = (V c main_v64 : Vec Ideal S100000x128 .f32) k := by
  obtain ⟨e00, e01, e10, e11, e20, e21, e30, e31, e40, e41, e50, e51, e60, e61, e70, e71⟩ := idx_facts4 t
  unfold iblk4
  rw [View.read_apply]
  show V c main_v64 _ = V c main_v64 k
  refine congrArg (V c main_v64) ?_
  funext a; apply Fin.ext
  match a with
  | ⟨0, _⟩ => show win4_1.index t 0 * 5000 + 1 * p.val = (k 0).val; rw [e10, hk0]; omega
  | ⟨1, _⟩ => show win4_1.index t 1 * 128 + 1 * q.val = (k 1).val; rw [e11, hk1]; omega
theorem iblk4_2_at (c : Dev nD) (t : Fin cfg4.N) (k q : Fin 128) :
    (iblk4 V c 2 t : Vec Ideal S128x128 .f32) (ix2 k q) = (V c main_arg9 : Vec Ideal S128x128 .f32) (ix2 k q) := by
  obtain ⟨e00, e01, e10, e11, e20, e21, e30, e31, e40, e41, e50, e51, e60, e61, e70, e71⟩ := idx_facts4 t
  unfold iblk4
  rw [View.read_apply]
  show V c main_arg9 _ = V c main_arg9 (ix2 k q)
  refine congrArg (V c main_arg9) ?_
  funext a; apply Fin.ext
  match a with
  | ⟨0, _⟩ => show win4_2.index t 0 * 128 + 1 * k.val = k.val; rw [e20]; omega
  | ⟨1, _⟩ => show win4_2.index t 1 * 128 + 1 * q.val = q.val; rw [e21]; omega
theorem iblk4_3_at (c : Dev nD) (t : Fin cfg4.N) (k q : Fin 128) :
    (iblk4 V c 3 t : Vec Ideal S128x128 .f32) (ix2 k q) = (V c main_arg10 : Vec Ideal S128x128 .f32) (ix2 k q) := by
  obtain ⟨e00, e01, e10, e11, e20, e21, e30, e31, e40, e41, e50, e51, e60, e61, e70, e71⟩ := idx_facts4 t
  unfold iblk4
  rw [View.read_apply]
  show V c main_arg10 _ = V c main_arg10 (ix2 k q)
  refine congrArg (V c main_arg10) ?_
  funext a; apply Fin.ext
  match a with
  | ⟨0, _⟩ => show win4_3.index t 0 * 128 + 1 * k.val = k.val; rw [e30]; omega
  | ⟨1, _⟩ => show win4_3.index t 1 * 128 + 1 * q.val = q.val; rw [e31]; omega
theorem iblk4_4_at (c : Dev nD) (t : Fin cfg4.N) (q : Fin 128) :
    (iblk4 V c 4 t : Vec Ideal S1x128 .f32) (row128 q) = (V c main_v77 : Vec Ideal S1x128 .f32) (row128 q) := by
  obtain ⟨e00, e01, e10, e11, e20, e21, e30, e31, e40, e41, e50, e51, e60, e61, e70, e71⟩ := idx_facts4 t
  unfold iblk4
  rw [View.read_apply]
  show V c main_v77 _ = V c main_v77 (row128 q)
  refine congrArg (V c main_v77) ?_
  funext a; apply Fin.ext
  match a with
  | ⟨0, _⟩ => show win4_4.index t 0 * 1 + 1 * 0 = 0; rw [e40]
  | ⟨1, _⟩ => show win4_4.index t 1 * 128 + 1 * q.val = q.val; rw [e41]; omega

/-- Entry (p, q) of the block point `t` computes is entry (5000 t + p, q) of the pre-activation array of the region's input arrays. -/
theorem preBlk4_at (c : Dev nD) (t : Fin cfg4.N) (p : Fin 5000) (q : Fin 128) (r : Fin 100000) (hr : r.val = 5000 * t.val + p.val) :
    preBlk4 V c t (ix2 p q) = (sagePre (V c main_v76) (V c main_v64) (V c main_arg9) (V c main_arg10) (V c main_v77)) (ix2 r q) := by
  unfold preBlk4
  refine (k4_pay4_at (iblk4 V c 0 t) (iblk4 V c 1 t) (iblk4 V c 2 t) (iblk4 V c 3 t) (iblk4 V c 4 t) p q).trans ?_
  unfold sagePre
  have hr' : ((ix2 r q : S100000x128.Idx) 0).val = 5000 * t.val + p.val := hr
  have h0 : (fun k => (iblk4 V c 0 t : Vec Ideal S5000x128 .f32) (ix2 p k)) = fun k => (V c main_v76 : Vec Ideal S100000x128 .f32) (ix2 r k) :=
    funext fun k => iblk4_0_at V c t p k (ix2 r k) hr rfl
  have h1 : (fun k => (iblk4 V c 1 t : Vec Ideal S5000x128 .f32) (ix2 p k)) = fun k => (V c main_v64 : Vec Ideal S100000x128 .f32) (ix2 r k) :=
    funext fun k => iblk4_1_at V c t p k (ix2 r k) hr rfl
  simp only [iblk4_2_at V c t, iblk4_3_at V c t, iblk4_4_at V c t]
  rw [h0, h1]

/-! ## The pre-activation array -/

theorem flushedH4_eq (c : Dev nD) (t : Fin cfg4.N) :
    (dat4 V c).flushed 5 t = ((cfg4.win 5).blk t).view.read (Elt Ideal) (sagePre (V c main_v76) (V c main_v64) (V c main_arg9) (V c main_arg10) (V c main_v77)) := by
  show (cfg4.win 5).cut (grid4.coords t) ((dat4 V c).after 5 t) = _
  rw [after4_5, (outsAt4_vals V c t.val t.isLt).1]
  funext j
  obtain ⟨p, q, rfl⟩ : ∃ (p : Fin 5000) (q : Fin 128), j = ix2 p q := ⟨j 0, j 1, eq_ix2 j⟩
  have hN : cfg4.N = 20 := N_4
  have ht := t.isLt
  obtain ⟨e00, e01, e10, e11, e20, e21, e30, e31, e40, e41, e50, e51, e60, e61, e70, e71⟩ := idx_facts4 t
  have hb : 5000 * t.val + p.val < 100000 := by have := p.isLt; omega
  have he : ((cfg4.win 5).blk t).view.emb (ix2 p q) = (ix2 ⟨5000 * t.val + p.val, hb⟩ q : S100000x128.Idx) := by
    funext a; apply Fin.ext
    match a with
    | ⟨0, _⟩ => show win4_5.index t 0 * 5000 + 1 * p.val = 5000 * t.val + p.val; rw [e50]; omega
    | ⟨1, _⟩ => show win4_5.index t 1 * 128 + 1 * q.val = q.val; rw [e51]; omega
  rw [View.read_apply]
  show preBlk4 V c t (ix2 p q) = (sagePre (V c main_v76) (V c main_v64) (V c main_arg9) (V c main_arg10) (V c main_v77)) (((cfg4.win 5).blk t).view.emb (ix2 p q))
  rw [he]
  exact preBlk4_at V c t p q ⟨5000 * t.val + p.val, hb⟩ rfl

theorem mem_blkH4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v78_0).slice (win4_5.rect t)).set ↔ _
  rw [View.set_slice_whole, Rect.mem_set_unit]
  exact Iff.rfl

theorem coverH4_all (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by omega⟩, rfl⟩
  obtain ⟨e00, e01, e10, e11, e20, e21, e30, e31, e40, e41, e50, e51, e60, e61, e70, e71⟩ := idx_facts4 t
  refine ⟨t, flush4_5 t, ?_⟩
  rw [mem_blkH4]
  intro a
  match a with
  | ⟨0, _⟩ => show win4_5.index t 0 * 5000 ≤ (i 0).val ∧ (i 0).val < win4_5.index t 0 * 5000 + 5000; rw [e50]; omega
  | ⟨1, _⟩ => show win4_5.index t 1 * 128 ≤ (i 1).val ∧ (i 1).val < win4_5.index t 1 * 128 + 128; rw [e51]; omega

/-- The array of pre-activation rows after region 4. -/
theorem arrAt4_pre (c : Dev nD) : (dat4 V c).arrAt 5 cfg4.N = (sagePre (V c main_v76) (V c main_v64) (V c main_arg9) (V c main_arg10) (V c main_v77)) :=
  (dat4 V c).arrAt_eq_of_cover 5 _ (fun t _ => flushedH4_eq V c t) coverH4_all

/-! ## The running column sums -/

/-- The column sums of block `s` (zero past the grid). -/
def blkSum4 (c : Dev nD) (q : Fin 128) (s : ℕ) : EReal :=
  if h : s < cfg4.N then ∑ p : Fin 5000, preBlk4 V c ⟨s, h⟩ (ix2 p q) else 0
def blkSqSum4 (c : Dev nD) (q : Fin 128) (s : ℕ) : EReal :=
  if h : s < cfg4.N then ∑ p : Fin 5000, preBlk4 V c ⟨s, h⟩ (ix2 p q) * preBlk4 V c ⟨s, h⟩ (ix2 p q) else 0

theorem chain4_at (c : Dev nD) (q : Fin 128) : ∀ (n : ℕ) (hn : n < cfg4.N),
    (chain4 V c n hn).1 (row128 q) = ∑ s ∈ Finset.range (n + 1), blkSum4 V c q s
    ∧ (chain4 V c n hn).2 (row128 q) = ∑ s ∈ Finset.range (n + 1), blkSqSum4 V c q s := by
  intro n
  induction n with
  | zero =>
    intro hn
    rw [Finset.sum_range_one, Finset.sum_range_one]
    unfold blkSum4 blkSqSum4
    rw [dif_pos hn, dif_pos hn]
    constructor
    · show (k4_pay5 (iblk4 V c 0 ⟨0, hn⟩) (iblk4 V c 2 ⟨0, hn⟩) (iblk4 V c 1 ⟨0, hn⟩) (iblk4 V c 3 ⟨0, hn⟩) (iblk4 V c 4 ⟨0, hn⟩) (k4_pay2 (F := Ideal))) (row128 q) = _
      rw [k4_pay5_at, k4_pay2_at, zero_add]; rfl
    · show (k4_pay1 (k4_pay6 (iblk4 V c 0 ⟨0, hn⟩) (iblk4 V c 2 ⟨0, hn⟩) (iblk4 V c 1 ⟨0, hn⟩) (iblk4 V c 3 ⟨0, hn⟩) (iblk4 V c 4 ⟨0, hn⟩) (k4_pay3 (F := Ideal)))) (row128 q) = _
      rw [k4_pay16_at, k4_pay3_at, zero_add]; rfl
  | succ n ih =>
    intro hn
    obtain ⟨ih0, ih1⟩ := ih (Nat.lt_of_succ_lt hn)
    rw [Finset.sum_range_succ _ (n + 1), Finset.sum_range_succ _ (n + 1), ← ih0, ← ih1]
    unfold blkSum4 blkSqSum4
    rw [dif_pos hn, dif_pos hn]
    constructor
    · show (k4_pay5 (iblk4 V c 0 ⟨n + 1, hn⟩) (iblk4 V c 2 ⟨n + 1, hn⟩) (iblk4 V c 1 ⟨n + 1, hn⟩) (iblk4 V c 3 ⟨n + 1, hn⟩) (iblk4 V c 4 ⟨n + 1, hn⟩) (chain4 V c n (Nat.lt_of_succ_lt hn)).1) (row128 q) = _
      rw [k4_pay5_at]; rfl
    · show (k4_pay1 (k4_pay6 (iblk4 V c 0 ⟨n + 1, hn⟩) (iblk4 V c 2 ⟨n + 1, hn⟩) (iblk4 V c 1 ⟨n + 1, hn⟩) (iblk4 V c 3 ⟨n + 1, hn⟩) (iblk4 V c 4 ⟨n + 1, hn⟩) (chain4 V c n (Nat.lt_of_succ_lt hn)).2)) (row128 q) = _
      rw [k4_pay16_at]; rfl

/-- After the last point the scratch rows are the column sums over all rows. -/
theorem chain4_last (c : Dev nD) (q : Fin 128) (hn : 19 < cfg4.N) :
    (chain4 V c 19 hn).1 (row128 q) = colSumRow (sagePre (V c main_v76) (V c main_v64) (V c main_arg9) (V c main_arg10) (V c main_v77)) (row128 q)
    ∧ (chain4 V c 19 hn).2 (row128 q) = colSqSumRow (sagePre (V c main_v76) (V c main_v64) (V c main_arg9) (V c main_arg10) (V c main_v77)) (row128 q) := by
  obtain ⟨h0, h1⟩ := chain4_at V c q 19 hn
  rw [h0, h1]
  have hN : cfg4.N = 20 := N_4
  constructor
  · unfold colSumRow
    refine Cert.LibBlockSum.sum_range_blocks_of_eq 20 5000 100000 rfl (fun r => (sagePre (V c main_v76) (V c main_v64) (V c main_arg9) (V c main_arg10) (V c main_v77)) (ix2 r q)) (blkSum4 V c q) fun k => ?_
    unfold blkSum4
    rw [dif_pos (by have := k.isLt; omega)]
    exact Finset.sum_congr rfl fun p _ => preBlk4_at V c ⟨k.val, _⟩ p q ⟨k.val * 5000 + p.val, _⟩ (by show k.val * 5000 + p.val = 5000 * k.val + p.val; omega)
  · unfold colSqSumRow
    refine Cert.LibBlockSum.sum_range_blocks_of_eq 20 5000 100000 rfl (fun r => (sagePre (V c main_v76) (V c main_v64) (V c main_arg9) (V c main_arg10) (V c main_v77)) (ix2 r q) * (sagePre (V c main_v76) (V c main_v64) (V c main_arg9) (V c main_arg10) (V c main_v77)) (ix2 r q)) (blkSqSum4 V c q) fun k => ?_
    unfold blkSqSum4
    rw [dif_pos (by have := k.isLt; omega)]
    exact Finset.sum_congr rfl fun p _ => by
      rw [preBlk4_at V c ⟨k.val, _⟩ p q ⟨k.val * 5000 + p.val, _⟩ (by show k.val * 5000 + p.val = 5000 * k.val + p.val; omega)]

/-! ## The two one-row outputs: the last point writes back the whole one-row array -/

/-- The last grid point. -/
abbrev tLast4 : Fin cfg4.N := ⟨19, by decide⟩

theorem flushed_sum4_eq (c : Dev nD) (t : Fin cfg4.N) (hf : (cfg4.win 6).flush t = true) :
    (dat4 V c).flushed 6 t = ((cfg4.win 6).blk t).view.read (Elt Ideal) (colSumRow (sagePre (V c main_v76) (V c main_v64) (V c main_arg9) (V c main_arg10) (V c main_v77))) := by
  have h19 : t.val % 20 = 19 := (flush4_6 t).mp hf
  have hN : cfg4.N = 20 := N_4
  have ht := t.isLt
  have ht19 : t.val = 19 := by omega
  obtain rfl : t = tLast4 := Fin.ext ht19
  show (cfg4.win 6).cut (grid4.coords tLast4) ((dat4 V c).after 6 tLast4) = _
  rw [after4_6]
  have hXG : (outsAt4 V c tLast4.val tLast4.isLt).2.1 = colSumRow (sagePre (V c main_v76) (V c main_v64) (V c main_arg9) (V c main_arg10) (V c main_v77)) := by
    rw [((outsAt4_vals V c tLast4.val tLast4.isLt).2.2.2 h19).1]
    funext i
    obtain ⟨z, q, rfl⟩ : ∃ (z : Fin 1) (q : Fin 128), i = ix2 z q := ⟨i 0, i 1, eq_ix2 i⟩
    obtain rfl : z = 0 := Subsingleton.elim _ _
    exact (chain4_last V c q tLast4.isLt).1
  rw [hXG]
  have hz' : (fun a => win4_6.index tLast4 a * main_v78_1.ty.shape.size a) = fun _ => 0 := funext fun a => by fin_cases a <;> decide
  exact (Memref.read_access_unit_zero (Elt Ideal) main_v78_1 hz' (fun a => by rw [congrFun hz' a]; simp) (colSumRow (sagePre (V c main_v76) (V c main_v64) (V c main_arg9) (V c main_arg10) (V c main_v77)))).symm

theorem cover_sum4 (i : S1x128.Idx) :
    ∃ t : Fin cfg4.N, (cfg4.win 6).flush t = true ∧ i ∈ ((cfg4.win 6).blk t).view.set := by
  have hN : cfg4.N = 20 := N_4
  obtain ⟨t, ht⟩ : ∃ t : Fin cfg4.N, t.val = 19 := ⟨⟨19, by omega⟩, rfl⟩
  obtain ⟨e00, e01, e10, e11, e20, e21, e30, e31, e40, e41, e50, e51, e60, e61, e70, e71⟩ := idx_facts4 t
  refine ⟨t, (flush4_6 t).mpr (by omega), ?_⟩
  show i ∈ ((View.whole main_v78_1).slice (win4_6.rect t)).set
  rw [View.set_slice_whole, Rect.mem_set_unit]
  intro a
  have hi0 : (i 0).val < 1 := (i 0).isLt
  have hi1 : (i 1).val < 128 := (i 1).isLt
  match a with
  | ⟨0, _⟩ => show win4_6.index t 0 * 1 ≤ (i 0).val ∧ (i 0).val < win4_6.index t 0 * 1 + 1; rw [e60]; omega
  | ⟨1, _⟩ => show win4_6.index t 1 * 128 ≤ (i 1).val ∧ (i 1).val < win4_6.index t 1 * 128 + 128; rw [e61]; omega

theorem arrAt4_sum (c : Dev nD) : (dat4 V c).arrAt 6 cfg4.N = colSumRow (sagePre (V c main_v76) (V c main_v64) (V c main_arg9) (V c main_arg10) (V c main_v77)) :=
  (dat4 V c).arrAt_eq_of_cover 6 _ (fun t hf => flushed_sum4_eq V c t hf) cover_sum4

theorem flushed_sq4_eq (c : Dev nD) (t : Fin cfg4.N) (hf : (cfg4.win 7).flush t = true) :
    (dat4 V c).flushed 7 t = ((cfg4.win 7).blk t).view.read (Elt Ideal) (colSqSumRow (sagePre (V c main_v76) (V c main_v64) (V c main_arg9) (V c main_arg10) (V c main_v77))) := by
  have h19 : t.val % 20 = 19 := (flush4_7 t).mp hf
  have hN : cfg4.N = 20 := N_4
  have ht := t.isLt
  have ht19 : t.val = 19 := by omega
  obtain rfl : t = tLast4 := Fin.ext ht19
  show (cfg4.win 7).cut (grid4.coords tLast4) ((dat4 V c).after 7 tLast4) = _
  rw [after4_7]
  have hXG : (outsAt4 V c tLast4.val tLast4.isLt).2.2.1 = colSqSumRow (sagePre (V c main_v76) (V c main_v64) (V c main_arg9) (V c main_arg10) (V c main_v77)) := by
    rw [((outsAt4_vals V c tLast4.val tLast4.isLt).2.2.2 h19).2]
    funext i
    obtain ⟨z, q, rfl⟩ : ∃ (z : Fin 1) (q : Fin 128), i = ix2 z q := ⟨i 0, i 1, eq_ix2 i⟩
    obtain rfl : z = 0 := Subsingleton.elim _ _
    exact (chain4_last V c q tLast4.isLt).2
  rw [hXG]
  have hz' : (fun a => win4_7.index tLast4 a * main_v78_2.ty.shape.size a) = fun _ => 0 := funext fun a => by fin_cases a <;> decide
  exact (Memref.read_access_unit_zero (Elt Ideal) main_v78_2 hz' (fun a => by rw [congrFun hz' a]; simp) (colSqSumRow (sagePre (V c main_v76) (V c main_v64) (V c main_arg9) (V c main_arg10) (V c main_v77)))).symm

theorem cover_sq4 (i : S1x128.Idx) :
    ∃ t : Fin cfg4.N, (cfg4.win 7).flush t = true ∧ i ∈ ((cfg4.win 7).blk t).view.set := by
  have hN : cfg4.N = 20 := N_4
  obtain ⟨t, ht⟩ : ∃ t : Fin cfg4.N, t.val = 19 := ⟨⟨19, by omega⟩, rfl⟩
  obtain ⟨e00, e01, e10, e11, e20, e21, e30, e31, e40, e41, e50, e51, e60, e61, e70, e71⟩ := idx_facts4 t
  refine ⟨t, (flush4_7 t).mpr (by omega), ?_⟩
  show i ∈ ((View.whole main_v78_2).slice (win4_7.rect t)).set
  rw [View.set_slice_whole, Rect.mem_set_unit]
  intro a
  have hi0 : (i 0).val < 1 := (i 0).isLt
  have hi1 : (i 1).val < 128 := (i 1).isLt
  match a with
  | ⟨0, _⟩ => show win4_7.index t 0 * 1 ≤ (i 0).val ∧ (i 0).val < win4_7.index t 0 * 1 + 1; rw [e70]; omega
  | ⟨1, _⟩ => show win4_7.index t 1 * 128 ≤ (i 1).val ∧ (i 1).val < win4_7.index t 1 * 128 + 128; rw [e71]; omega

theorem arrAt4_sq (c : Dev nD) : (dat4 V c).arrAt 7 cfg4.N = colSqSumRow (sagePre (V c main_v76) (V c main_v64) (V c main_arg9) (V c main_arg10) (V c main_v77)) :=
  (dat4 V c).arrAt_eq_of_cover 7 _ (fun t hf => flushed_sq4_eq V c t hf) cover_sq4

end Arr4

end Cert.KernelIdeal.Gen
-- ==== Proof.KI.NormValue1.lean ====
import proofs.«167498_j75179107549620_1_alg».proof.Proof.KI.NormBody1
import proofs.«167498_j75179107549620_1_alg».proof.Proof.KI.NormSpec
import Idealize.ShloMosaic.Lib.Pipeline.Value
import Idealize.ShloMosaic.Lib.ValueIdx
import Idealize.ShloMosaic.Lib.Tactic

/-! # Region 1 of the kernel program: the output array after the region, as one function of the input arrays

Each grid point writes back block `t` (rows `5000 t … 5000 t + 4999`) of the normalised array; the twenty blocks
cover the array, so the array ends holding it. -/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

/-! # Region 1: the output array after the region -/

section Value1
variable (V : (c : Dev nD) → (b : Ref sig .tc) → Buf (Elt Ideal) ((c : Thread nD τ).loc b))

/-- The printed index maps, decided over the 20 grid points: the three-or-four large windows take row block `t` at
    point `t`, the one-row windows their whole array at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Input window 0's block at point `t` is rows `5000 t … 5000 t + 4999` of its array. -/
theorem iblk1_0_apply (c : Dev nD) (t : Fin cfg1.N) (p : Fin 5000) (q : Fin 128) (k : S100000x128.Idx)
    (hk0 : (k 0).val = 5000 * t.val + p.val) (hk1 : (k 1).val = q.val) :
    (iblk1 V c 0 t : Vec Ideal S5000x128 .f32) (ix2 p q) = (V c main_v25_0 : Vec Ideal S100000x128 .f32) k := by
  obtain ⟨e00, e01, e10, e11, e20, e21, e30, e31, e40, e41, e50, e51⟩ := idx_facts1 t
  unfold iblk1
  rw [View.read_apply]
  show V c main_v25_0 _ = V c main_v25_0 k
  refine congrArg (V c main_v25_0) ?_
  funext a; apply Fin.ext
  match a with
  | ⟨0, _⟩ => show win1_0.index t 0 * 5000 + 1 * p.val = (k 0).val; rw [e00, hk0]; omega
  | ⟨1, _⟩ => show win1_0.index t 1 * 128 + 1 * q.val = (k 1).val; rw [e01, hk1]; omega

/-- Input window 1's block at every point is its one-row array. -/
theorem iblk1_1_apply (c : Dev nD) (t : Fin cfg1.N) (q : Fin 128) :
    (iblk1 V c 1 t : Vec Ideal S1x128 .f32) (row128 q) = (V c main_v27 : Vec Ideal S1x128 .f32) (row128 q) := by
  obtain ⟨e00, e01, e10, e11, e20, e21, e30, e31, e40, e41, e50, e51⟩ := idx_facts1 t
  unfold iblk1
  rw [View.read_apply]
  show V c main_v27 _ = V c main_v27 (row128 q)
  refine congrArg (V c main_v27) ?_
  funext a; apply Fin.ext
  match a with
  | ⟨0, _⟩ => show win1_1.index t 0 * 1 + 1 * 0 = 0; rw [e10]
  | ⟨1, _⟩ => show win1_1.index t 1 * 128 + 1 * q.val = q.val; rw [e11]; omega

/-- Input window 2's block at every point is its one-row array. -/
theorem iblk1_2_apply (c : Dev nD) (t : Fin cfg1.N) (q : Fin 128) :
    (iblk1 V c 2 t : Vec Ideal S1x128 .f32) (row128 q) = (V c main_v31 : Vec Ideal S1x128 .f32) (row128 q) := by
  obtain ⟨e00, e01, e10, e11, e20, e21, e30, e31, e40, e41, e50, e51⟩ := idx_facts1 t
  unfold iblk1
  rw [View.read_apply]
  show V c main_v31 _ = V c main_v31 (row128 q)
  refine congrArg (V c main_v31) ?_
  funext a; apply Fin.ext
  match a with
  | ⟨0, _⟩ => show win1_2.index t 0 * 1 + 1 * 0 = 0; rw [e20]
  | ⟨1, _⟩ => show win1_2.index t 1 * 128 + 1 * q.val = q.val; rw [e21]; omega

/-- Input window 3's block at every point is its one-row array. -/
theorem iblk1_3_apply (c : Dev nD) (t : Fin cfg1.N) (q : Fin 128) :
    (iblk1 V c 3 t : Vec Ideal S1x128 .f32) (row128 q) = (V c main_v36 : Vec Ideal S1x128 .f32) (row128 q) := by
  obtain ⟨e00, e01, e10, e11, e20, e21, e30, e31, e40, e41, e50, e51⟩ := idx_facts1 t
  unfold iblk1
  rw [View.read_apply]
  show V c main_v36 _ = V c main_v36 (row128 q)
  refine congrArg (V c main_v36) ?_
  funext a; apply Fin.ext
  match a with
  | ⟨0, _⟩ => show win1_3.index t 0 * 1 + 1 * 0 = 0; rw [e30]
  | ⟨1, _⟩ => show win1_3.index t 1 * 128 + 1 * q.val = q.val; rw [e31]; omega

/-- Input window 4's block at every point is its one-row array. -/
theorem iblk1_4_apply (c : Dev nD) (t : Fin cfg1.N) (q : Fin 128) :
    (iblk1 V c 4 t : Vec Ideal S1x128 .f32) (row128 q) = (V c main_v37 : Vec Ideal S1x128 .f32) (row128 q) := by
  obtain ⟨e00, e01, e10, e11, e20, e21, e30, e31, e40, e41, e50, e51⟩ := idx_facts1 t
  unfold iblk1
  rw [View.read_apply]
  show V c main_v37 _ = V c main_v37 (row128 q)
  refine congrArg (V c main_v37) ?_
  funext a; apply Fin.ext
  match a with
  | ⟨0, _⟩ => show win1_4.index t 0 * 1 + 1 * 0 = 0; rw [e40]
  | ⟨1, _⟩ => show win1_4.index t 1 * 128 + 1 * q.val = q.val; rw [e41]; omega

/-- What point `t` writes back is block `t` of the normalised array of the region's input arrays. -/
theorem flushed1_eq (c : Dev nD) (t : Fin cfg1.N) :
    (dat1 V c).flushed 5 t = ((cfg1.win 5).blk t).view.read (Elt Ideal) (normRelu (V c main_v25_0) (V c main_v27) (V c main_v31) (V c main_v36) (V c main_v37)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hN : cfg1.N = 20 := N_1
  have ht := t.isLt
  obtain ⟨e00, e01, e10, e11, e20, e21, e30, e31, e40, e41, e50, e51⟩ := idx_facts1 t
  have hb : 5000 * t.val + p.val < 100000 := by have := p.isLt; omega
  have he : ((cfg1.win 5).blk t).view.emb (ix2 p q) = (ix2 ⟨5000 * t.val + p.val, hb⟩ q : S100000x128.Idx) := by
    funext a; apply Fin.ext
    match a with
    | ⟨0, _⟩ => show win1_5.index t 0 * 5000 + 1 * p.val = 5000 * t.val + p.val; rw [e50]; omega
    | ⟨1, _⟩ => show win1_5.index t 1 * 128 + 1 * q.val = q.val; rw [e51]; omega
  rw [View.read_apply]
  show k1_pay1 (iblk1 V c 0 t) (iblk1 V c 1 t) (iblk1 V c 2 t) (iblk1 V c 3 t) (iblk1 V c 4 t) (ix2 p q)
    = normRelu (V c main_v25_0) (V c main_v27) (V c main_v31) (V c main_v36) (V c main_v37) (((cfg1.win 5).blk t).view.emb (ix2 p q))
  rw [he]
  refine (k1_pay1_at _ _ _ _ _ p q).trans ?_
  rw [iblk1_0_apply V c t p q (ix2 ⟨5000 * t.val + p.val, hb⟩ q) rfl rfl,
    iblk1_1_apply V c t q,
    iblk1_2_apply V c t q,
    iblk1_3_apply V c t q,
    iblk1_4_apply V c t q]
  rfl

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Row `r` of the output array is in the block of point `r / 5000`: the blocks cover the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t 0 * 5000 ≤ (i 0).val ∧ (i 0).val < win1_5.index t 0 * 5000 + 5000; rw [e50]; omega
  | ⟨1, _⟩ => show win1_5.index t 1 * 128 ≤ (i 1).val ∧ (i 1).val < win1_5.index t 1 * 128 + 128; rw [e51]; omega

/-- THE OUTPUT ARRAY after region 1: the normalised array of the region's input arrays as it finds them. -/
theorem arrAt1_out (c : Dev nD) :
    (dat1 V c).arrAt 5 cfg1.N = normRelu (V c main_v25_0) (V c main_v27) (V c main_v31) (V c main_v36) (V c main_v37) :=
  (dat1 V c).arrAt_eq_of_cover 5 _ (fun t _ => flushed1_eq V c t) cover1

end Value1

end Cert.KernelIdeal.Gen
-- ==== Proof.KI.NormValue3.lean ====
import proofs.«167498_j75179107549620_1_alg».proof.Proof.KI.NormBody3
import proofs.«167498_j75179107549620_1_alg».proof.Proof.KI.NormSpec
import Idealize.ShloMosaic.Lib.Pipeline.Value
import Idealize.ShloMosaic.Lib.ValueIdx
import Idealize.ShloMosaic.Lib.Tactic

/-! # Region 3 of the kernel program: the output array after the region, as one function of the input arrays

Each grid point writes back block `t` (rows `5000 t … 5000 t + 4999`) of the normalised array; the twenty blocks
cover the array, so the array ends holding it. -/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

/-! # Region 3: the output array after the region -/

section Value3
variable (V : (c : Dev nD) → (b : Ref sig .tc) → Buf (Elt Ideal) ((c : Thread nD τ).loc b))

/-- The printed index maps, decided over the 20 grid points: the three-or-four large windows take row block `t` at
    point `t`, the one-row windows their whole array at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Input window 0's block at point `t` is rows `5000 t … 5000 t + 4999` of its array. -/
theorem iblk3_0_apply (c : Dev nD) (t : Fin cfg3.N) (p : Fin 5000) (q : Fin 128) (k : S100000x128.Idx)
    (hk0 : (k 0).val = 5000 * t.val + p.val) (hk1 : (k 1).val = q.val) :
    (iblk3 V c 0 t : Vec Ideal S5000x128 .f32) (ix2 p q) = (V c main_v51_0 : Vec Ideal S100000x128 .f32) k := by
  obtain ⟨e00, e01, e10, e11, e20, e21, e30, e31, e40, e41, e50, e51, e60, e61⟩ := idx_facts3 t
  unfold iblk3
  rw [View.read_apply]
  show V c main_v51_0 _ = V c main_v51_0 k
  refine congrArg (V c main_v51_0) ?_
  funext a; apply Fin.ext
  match a with
  | ⟨0, _⟩ => show win3_0.index t 0 * 5000 + 1 * p.val = (k 0).val; rw [e00, hk0]; omega
  | ⟨1, _⟩ => show win3_0.index t 1 * 128 + 1 * q.val = (k 1).val; rw [e01, hk1]; omega

/-- Input window 5's block at point `t` is rows `5000 t … 5000 t + 4999` of its array. -/
theorem iblk3_5_apply (c : Dev nD) (t : Fin cfg3.N) (p : Fin 5000) (q : Fin 128) (k : S100000x128.Idx)
    (hk0 : (k 0).val = 5000 * t.val + p.val) (hk1 : (k 1).val = q.val) :
    (iblk3 V c 5 t : Vec Ideal S5000x128 .f32) (ix2 p q) = (V c main_v38 : Vec Ideal S100000x128 .f32) k := by
  obtain ⟨e00, e01, e10, e11, e20, e21, e30, e31, e40, e41, e50, e51, e60, e61⟩ := idx_facts3 t
  unfold iblk3
  rw [View.read_apply]
  show V c main_v38 _ = V c main_v38 k
  refine congrArg (V c main_v38) ?_
  funext a; apply Fin.ext
  match a with
  | ⟨0, _⟩ => show win3_5.index t 0 * 5000 + 1 * p.val = (k 0).val; rw [e50, hk0]; omega
  | ⟨1, _⟩ => show win3_5.index t 1 * 128 + 1 * q.val = (k 1).val; rw [e51, hk1]; omega

/-- Input window 1's block at every point is its one-row array. -/
theorem iblk3_1_apply (c : Dev nD) (t : Fin cfg3.N) (q : Fin 128) :
    (iblk3 V c 1 t : Vec Ideal S1x128 .f32) (row128 q) = (V c main_v53 : Vec Ideal S1x128 .f32) (row128 q) := by
  obtain ⟨e00, e01, e10, e11, e20, e21, e30, e31, e40, e41, e50, e51, e60, e61⟩ := idx_facts3 t
  unfold iblk3
  rw [View.read_apply]
  show V c main_v53 _ = V c main_v53 (row128 q)
  refine congrArg (V c main_v53) ?_
  funext a; apply Fin.ext
  match a with
  | ⟨0, _⟩ => show win3_1.index t 0 * 1 + 1 * 0 = 0; rw [e10]
  | ⟨1, _⟩ => show win3_1.index t 1 * 128 + 1 * q.val = q.val; rw [e11]; omega

/-- Input window 2's block at every point is its one-row array. -/
theorem iblk3_2_apply (c : Dev nD) (t : Fin cfg3.N) (q : Fin 128) :
    (iblk3 V c 2 t : Vec Ideal S1x128 .f32) (row128 q) = (V c main_v57 : Vec Ideal S1x128 .f32) (row128 q) := by
  obtain ⟨e00, e01, e10, e11, e20, e21, e30, e31, e40, e41, e50, e51, e60, e61⟩ := idx_facts3 t
  unfold iblk3
  rw [View.read_apply]
  show V c main_v57 _ = V c main_v57 (row128 q)
  refine congrArg (V c main_v57) ?_
  funext a; apply Fin.ext
  match a with
  | ⟨0, _⟩ => show win3_2.index t 0 * 1 + 1 * 0 = 0; rw [e20]
  | ⟨1, _⟩ => show win3_2.index t 1 * 128 + 1 * q.val = q.val; rw [e21]; omega

/-- Input window 3's block at every point is its one-row array. -/
theorem iblk3_3_apply (c : Dev nD) (t : Fin cfg3.N) (q : Fin 128) :
    (iblk3 V c 3 t : Vec Ideal S1x128 .f32) (row128 q) = (V c main_v62 : Vec Ideal S1x128 .f32) (row128 q) := by
  obtain ⟨e00, e01, e10, e11, e20, e21, e30, e31, e40, e41, e50, e51, e60, e61⟩ := idx_facts3 t
  unfold iblk3
  rw [View.read_apply]
  show V c main_v62 _ = V c main_v62 (row128 q)
  refine congrArg (V c main_v62) ?_
  funext a; apply Fin.ext
  match a with
  | ⟨0, _⟩ => show win3_3.index t 0 * 1 + 1 * 0 = 0; rw [e30]
  | ⟨1, _⟩ => show win3_3.index t 1 * 128 + 1 * q.val = q.val; rw [e31]; omega

/-- Input window 4's block at every point is its one-row array. -/
theorem iblk3_4_apply (c : Dev nD) (t : Fin cfg3.N) (q : Fin 128) :
    (iblk3 V c 4 t : Vec Ideal S1x128 .f32) (row128 q) = (V c main_v63 : Vec Ideal S1x128 .f32) (row128 q) := by
  obtain ⟨e00, e01, e10, e11, e20, e21, e30, e31, e40, e41, e50, e51, e60, e61⟩ := idx_facts3 t
  unfold iblk3
  rw [View.read_apply]
  show V c main_v63 _ = V c main_v63 (row128 q)
  refine congrArg (V c main_v63) ?_
  funext a; apply Fin.ext
  match a with
  | ⟨0, _⟩ => show win3_4.index t 0 * 1 + 1 * 0 = 0; rw [e40]
  | ⟨1, _⟩ => show win3_4.index t 1 * 128 + 1 * q.val = q.val; rw [e41]; omega

/-- What point `t` writes back is block `t` of the normalised array of the region's input arrays. -/
theorem flushed3_eq (c : Dev nD) (t : Fin cfg3.N) :
    (dat3 V c).flushed 6 t = ((cfg3.win 6).blk t).view.read (Elt Ideal) (normReluRes (V c main_v51_0) (V c main_v53) (V c main_v57) (V c main_v62) (V c main_v63) (V c main_v38)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hN : cfg3.N = 20 := N_3
  have ht := t.isLt
  obtain ⟨e00, e01, e10, e11, e20, e21, e30, e31, e40, e41, e50, e51, e60, e61⟩ := idx_facts3 t
  have hb : 5000 * t.val + p.val < 100000 := by have := p.isLt; omega
  have he : ((cfg3.win 6).blk t).view.emb (ix2 p q) = (ix2 ⟨5000 * t.val + p.val, hb⟩ q : S100000x128.Idx) := by
    funext a; apply Fin.ext
    match a with
    | ⟨0, _⟩ => show win3_6.index t 0 * 5000 + 1 * p.val = 5000 * t.val + p.val; rw [e60]; omega
    | ⟨1, _⟩ => show win3_6.index t 1 * 128 + 1 * q.val = q.val; rw [e61]; omega
  rw [View.read_apply]
  show k3_pay1 (iblk3 V c 0 t) (iblk3 V c 1 t) (iblk3 V c 2 t) (iblk3 V c 3 t) (iblk3 V c 4 t) (iblk3 V c 5 t) (ix2 p q)
    = normReluRes (V c main_v51_0) (V c main_v53) (V c main_v57) (V c main_v62) (V c main_v63) (V c main_v38) (((cfg3.win 6).blk t).view.emb (ix2 p q))
  rw [he]
  refine (k3_pay1_at _ _ _ _ _ _ p q).trans ?_
  rw [iblk3_0_apply V c t p q (ix2 ⟨5000 * t.val + p.val, hb⟩ q) rfl rfl,
    iblk3_5_apply V c t p q (ix2 ⟨5000 * t.val + p.val, hb⟩ q) rfl rfl,
    iblk3_1_apply V c t q,
    iblk3_2_apply V c t q,
    iblk3_3_apply V c t q,
    iblk3_4_apply V c t q]
  rfl

/-- An index of the output array is in point `t`'s block iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v64).slice (win3_6.rect t)).set ↔ _
  rw [View.set_slice_whole, Rect.mem_set_unit]
  exact Iff.rfl

/-- Row `r` of the output array is in the block of point `r / 5000`: the blocks cover the array. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨e00, e01, e10, e11, e20, e21, e30, e31, e40, e41, e50, e51, e60, e61⟩ := idx_facts3 t
  refine ⟨t, flush3_6 t, ?_⟩
  rw [mem_blk3]
  intro a
  match a with
  | ⟨0, _⟩ => show win3_6.index t 0 * 5000 ≤ (i 0).val ∧ (i 0).val < win3_6.index t 0 * 5000 + 5000; rw [e60]; omega
  | ⟨1, _⟩ => show win3_6.index t 1 * 128 ≤ (i 1).val ∧ (i 1).val < win3_6.index t 1 * 128 + 128; rw [e61]; omega

/-- THE OUTPUT ARRAY after region 3: the normalised array of the region's input arrays as it finds them. -/
theorem arrAt3_out (c : Dev nD) :
    (dat3 V c).arrAt 6 cfg3.N = normReluRes (V c main_v51_0) (V c main_v53) (V c main_v57) (V c main_v62) (V c main_v63) (V c main_v38) :=
  (dat3 V c).arrAt_eq_of_cover 6 _ (fun t _ => flushed3_eq V c t) cover3

end Value3

end Cert.KernelIdeal.Gen
-- ==== Proof.KI.NormValue5.lean ====
import proofs.«167498_j75179107549620_1_alg».proof.Proof.KI.NormBody5
import proofs.«167498_j75179107549620_1_alg».proof.Proof.KI.NormSpec
import Idealize.ShloMosaic.Lib.Pipeline.Value
import Idealize.ShloMosaic.Lib.ValueIdx
import Idealize.ShloMosaic.Lib.Tactic

/-! # Region 5 of the kernel program: the output array after the region, as one function of the input arrays

Each grid point writes back block `t` (rows `5000 t … 5000 t + 4999`) of the normalised array; the twenty blocks
cover the array, so the array ends holding it. -/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

/-! # Region 5: the output array after the region -/

section Value5
variable (V : (c : Dev nD) → (b : Ref sig .tc) → Buf (Elt Ideal) ((c : Thread nD τ).loc b))

/-- The printed index maps, decided over the 20 grid points: the three-or-four large windows take row block `t` at
    point `t`, the one-row windows their whole array at every point. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Input window 0's block at point `t` is rows `5000 t … 5000 t + 4999` of its array. -/
theorem iblk5_0_apply (c : Dev nD) (t : Fin cfg5.N) (p : Fin 5000) (q : Fin 128) (k : S100000x128.Idx)
    (hk0 : (k 0).val = 5000 * t.val + p.val) (hk1 : (k 1).val = q.val) :
    (iblk5 V c 0 t : Vec Ideal S5000x128 .f32) (ix2 p q) = (V c main_v78_0 : Vec Ideal S100000x128 .f32) k := by
  obtain ⟨e00, e01, e10, e11, e20, e21, e30, e31, e40, e41, e50, e51, e60, e61⟩ := idx_facts5 t
  unfold iblk5
  rw [View.read_apply]
  show V c main_v78_0 _ = V c main_v78_0 k
  refine congrArg (V c main_v78_0) ?_
  funext a; apply Fin.ext
  match a with
  | ⟨0, _⟩ => show win5_0.index t 0 * 5000 + 1 * p.val = (k 0).val; rw [e00, hk0]; omega
  | ⟨1, _⟩ => show win5_0.index t 1 * 128 + 1 * q.val = (k 1).val; rw [e01, hk1]; omega

/-- Input window 5's block at point `t` is rows `5000 t … 5000 t + 4999` of its array. -/
theorem iblk5_5_apply (c : Dev nD) (t : Fin cfg5.N) (p : Fin 5000) (q : Fin 128) (k : S100000x128.Idx)
    (hk0 : (k 0).val = 5000 * t.val + p.val) (hk1 : (k 1).val = q.val) :
    (iblk5 V c 5 t : Vec Ideal S5000x128 .f32) (ix2 p q) = (V c main_v64 : Vec Ideal S100000x128 .f32) k := by
  obtain ⟨e00, e01, e10, e11, e20, e21, e30, e31, e40, e41, e50, e51, e60, e61⟩ := idx_facts5 t
  unfold iblk5
  rw [View.read_apply]
  show V c main_v64 _ = V c main_v64 k
  refine congrArg (V c main_v64) ?_
  funext a; apply Fin.ext
  match a with
  | ⟨0, _⟩ => show win5_5.index t 0 * 5000 + 1 * p.val = (k 0).val; rw [e50, hk0]; omega
  | ⟨1, _⟩ => show win5_5.index t 1 * 128 + 1 * q.val = (k 1).val; rw [e51, hk1]; omega

/-- Input window 1's block at every point is its one-row array. -/
theorem iblk5_1_apply (c : Dev nD) (t : Fin cfg5.N) (q : Fin 128) :
    (iblk5 V c 1 t : Vec Ideal S1x128 .f32) (row128 q) = (V c main_v80 : Vec Ideal S1x128 .f32) (row128 q) := by
  obtain ⟨e00, e01, e10, e11, e20, e21, e30, e31, e40, e41, e50, e51, e60, e61⟩ := idx_facts5 t
  unfold iblk5
  rw [View.read_apply]
  show V c main_v80 _ = V c main_v80 (row128 q)
  refine congrArg (V c main_v80) ?_
  funext a; apply Fin.ext
  match a with
  | ⟨0, _⟩ => show win5_1.index t 0 * 1 + 1 * 0 = 0; rw [e10]
  | ⟨1, _⟩ => show win5_1.index t 1 * 128 + 1 * q.val = q.val; rw [e11]; omega

/-- Input window 2's block at every point is its one-row array. -/
theorem iblk5_2_apply (c : Dev nD) (t : Fin cfg5.N) (q : Fin 128) :
    (iblk5 V c 2 t : Vec Ideal S1x128 .f32) (row128 q) = (V c main_v84 : Vec Ideal S1x128 .f32) (row128 q) := by
  obtain ⟨e00, e01, e10, e11, e20, e21, e30, e31, e40, e41, e50, e51, e60, e61⟩ := idx_facts5 t
  unfold iblk5
  rw [View.read_apply]
  show V c main_v84 _ = V c main_v84 (row128 q)
  refine congrArg (V c main_v84) ?_
  funext a; apply Fin.ext
  match a with
  | ⟨0, _⟩ => show win5_2.index t 0 * 1 + 1 * 0 = 0; rw [e20]
  | ⟨1, _⟩ => show win5_2.index t 1 * 128 + 1 * q.val = q.val; rw [e21]; omega

/-- Input window 3's block at every point is its one-row array. -/
theorem iblk5_3_apply (c : Dev nD) (t : Fin cfg5.N) (q : Fin 128) :
    (iblk5 V c 3 t : Vec Ideal S1x128 .f32) (row128 q) = (V c main_v89 : Vec Ideal S1x128 .f32) (row128 q) := by
  obtain ⟨e00, e01, e10, e11, e20, e21, e30, e31, e40, e41, e50, e51, e60, e61⟩ := idx_facts5 t
  unfold iblk5
  rw [View.read_apply]
  show V c main_v89 _ = V c main_v89 (row128 q)
  refine congrArg (V c main_v89) ?_
  funext a; apply Fin.ext
  match a with
  | ⟨0, _⟩ => show win5_3.index t 0 * 1 + 1 * 0 = 0; rw [e30]
  | ⟨1, _⟩ => show win5_3.index t 1 * 128 + 1 * q.val = q.val; rw [e31]; omega

/-- Input window 4's block at every point is its one-row array. -/
theorem iblk5_4_apply (c : Dev nD) (t : Fin cfg5.N) (q : Fin 128) :
    (iblk5 V c 4 t : Vec Ideal S1x128 .f32) (row128 q) = (V c main_v90 : Vec Ideal S1x128 .f32) (row128 q) := by
  obtain ⟨e00, e01, e10, e11, e20, e21, e30, e31, e40, e41, e50, e51, e60, e61⟩ := idx_facts5 t
  unfold iblk5
  rw [View.read_apply]
  show V c main_v90 _ = V c main_v90 (row128 q)
  refine congrArg (V c main_v90) ?_
  funext a; apply Fin.ext
  match a with
  | ⟨0, _⟩ => show win5_4.index t 0 * 1 + 1 * 0 = 0; rw [e40]
  | ⟨1, _⟩ => show win5_4.index t 1 * 128 + 1 * q.val = q.val; rw [e41]; omega

/-- What point `t` writes back is block `t` of the normalised array of the region's input arrays. -/
theorem flushed5_eq (c : Dev nD) (t : Fin cfg5.N) :
    (dat5 V c).flushed 6 t = ((cfg5.win 6).blk t).view.read (Elt Ideal) (normReluRes (V c main_v78_0) (V c main_v80) (V c main_v84) (V c main_v89) (V c main_v90) (V c main_v64)) := by
  show (cfg5.win 6).cut (grid5.coords t) ((dat5 V c).after 6 t) = _
  rw [after5_6]
  unfold out5_6
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  have hN : cfg5.N = 20 := N_5
  have ht := t.isLt
  obtain ⟨e00, e01, e10, e11, e20, e21, e30, e31, e40, e41, e50, e51, e60, e61⟩ := idx_facts5 t
  have hb : 5000 * t.val + p.val < 100000 := by have := p.isLt; omega
  have he : ((cfg5.win 6).blk t).view.emb (ix2 p q) = (ix2 ⟨5000 * t.val + p.val, hb⟩ q : S100000x128.Idx) := by
    funext a; apply Fin.ext
    match a with
    | ⟨0, _⟩ => show win5_6.index t 0 * 5000 + 1 * p.val = 5000 * t.val + p.val; rw [e60]; omega
    | ⟨1, _⟩ => show win5_6.index t 1 * 128 + 1 * q.val = q.val; rw [e61]; omega
  rw [View.read_apply]
  show k5_pay1 (iblk5 V c 0 t) (iblk5 V c 1 t) (iblk5 V c 2 t) (iblk5 V c 3 t) (iblk5 V c 4 t) (iblk5 V c 5 t) (ix2 p q)
    = normReluRes (V c main_v78_0) (V c main_v80) (V c main_v84) (V c main_v89) (V c main_v90) (V c main_v64) (((cfg5.win 6).blk t).view.emb (ix2 p q))
  rw [he]
  refine (k5_pay1_at _ _ _ _ _ _ p q).trans ?_
  rw [iblk5_0_apply V c t p q (ix2 ⟨5000 * t.val + p.val, hb⟩ q) rfl rfl,
    iblk5_5_apply V c t p q (ix2 ⟨5000 * t.val + p.val, hb⟩ q) rfl rfl,
    iblk5_1_apply V c t q,
    iblk5_2_apply V c t q,
    iblk5_3_apply V c t q,
    iblk5_4_apply V c t q]
  rfl

/-- An index of the output array is in point `t`'s block iff each coordinate is in the block's range on its axis. -/
theorem mem_blk5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v91).slice (win5_6.rect t)).set ↔ _
  rw [View.set_slice_whole, Rect.mem_set_unit]
  exact Iff.rfl

/-- Row `r` of the output array is in the block of point `r / 5000`: the blocks cover the array. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by omega⟩, rfl⟩
  obtain ⟨e00, e01, e10, e11, e20, e21, e30, e31, e40, e41, e50, e51, e60, e61⟩ := idx_facts5 t
  refine ⟨t, flush5_6 t, ?_⟩
  rw [mem_blk5]
  intro a
  match a with
  | ⟨0, _⟩ => show win5_6.index t 0 * 5000 ≤ (i 0).val ∧ (i 0).val < win5_6.index t 0 * 5000 + 5000; rw [e60]; omega
  | ⟨1, _⟩ => show win5_6.index t 1 * 128 ≤ (i 1).val ∧ (i 1).val < win5_6.index t 1 * 128 + 128; rw [e61]; omega

/-- THE OUTPUT ARRAY after region 5: the normalised array of the region's input arrays as it finds them. -/
theorem arrAt5_out (c : Dev nD) :
    (dat5 V c).arrAt 6 cfg5.N = normReluRes (V c main_v78_0) (V c main_v80) (V c main_v84) (V c main_v89) (V c main_v90) (V c main_v64) :=
  (dat5 V c).arrAt_eq_of_cover 6 _ (fun t _ => flushed5_eq V c t) cover5

end Value5

end Cert.KernelIdeal.Gen
-- ==== Proof.KI.NormValue.lean ====
import proofs.«167498_j75179107549620_1_alg».proof.Proof.KI.NormValue1
import proofs.«167498_j75179107549620_1_alg».proof.Proof.KI.NormValue3
import proofs.«167498_j75179107549620_1_alg».proof.Proof.KI.NormValue5

/-! # The normalisation regions (1, 3, 5) of the kernel program: each output array after its region, gathered -/
-- ==== Proof.KI.FinalSpec.lean ====
import proofs.«167498_j75179107549620_1_alg».proof.Proof.Gen.KernelIdeal.Skeleton
import Idealize.ShloMosaic.Lib.Pipeline.Value
import Idealize.ShloMosaic.Lib.ValueIdx
import Idealize.ShloMosaic.PureOps.Ideal.Laws

/-! # The final region's payload, read at an index

One row of the stored block: the row of 40 logits is the aggregate's row times the left weights plus the features'
row times the right weights plus the bias; from each logit the row's maximum is subtracted, and from that the
logarithm of the row's sum of exponentials — in the order the program takes these steps. -/

noncomputable section

open scoped BigOperators

namespace Cert.KernelIdeal.Gen

open Idealize.ShloMosaic
open Idealize.ShloMosaic.ValueIdx

/-- The index `(0, q)` of a one-row array of 40. -/
abbrev row40 (q : Fin 40) : S1x40.Idx := ix2 (0 : Fin 1) q

/-- The maximum of a row of 40, folded from the word the program starts from (minus infinity). -/
def rowMaxOf (z : Fin 40 → Ideal .f32) : Ideal .f32 :=
  (Finset.univ : Finset (Fin 40)).fold max (Ideal.ofBits .f32 0xFF800000#32) z

/-- Log-softmax of a row of 40 at column `q`, in the program's order: the shifted logit less the logarithm of the sum
    of the exponentials of the shifted logits. -/
def lsmRow (z : Fin 40 → Ideal .f32) (q : Fin 40) : Ideal .f32 :=
  (z q - rowMaxOf z) - Ideal.log (∑ j : Fin 40, Ideal.exp (z j - rowMaxOf z))

/-- A row of 40 logits: the aggregate's row `a` times the left weights, plus the features' row `x` times the right
    weights, plus the bias. -/
def logits (a x : Fin 128 → Ideal .f32) (Wl Wr : Vec Ideal S128x40 .f32) (b : Vec Ideal S1x40 .f32) (j : Fin 40) : Ideal .f32 :=
  ((∑ k : Fin 128, a k * Wl (ix2 k j)) + (∑ k : Fin 128, x k * Wr (ix2 k j))) + b (row40 j)

/-- The array of log-probabilities: row `r` from row `r` of the aggregate and of the features. -/
def finalArr (A X : Vec Ideal S100000x128 .f32) (Wl Wr : Vec Ideal S128x40 .f32) (b : Vec Ideal S1x40 .f32) :
    Vec Ideal S100000x40 .f32 :=
  fun i => lsmRow (logits (fun k => A (ix2 (i 0) k)) (fun k => X (ix2 (i 0) k)) Wl Wr b) (i 1)

/-! ## The operations at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The product's operand indices, axis by axis. -/
theorem lhs6_0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs6_1 (i : S5000x40.Idx) (q : dot_S5000x128_S128x40_S5000x40_1_0_0_1_n_n.contr.Idx) : (dot_S5000x128_S128x40_S5000x40_1_0_0_1_n_n.lhsIdx i q 1).val = (q ⟨0, by decide⟩).val :=
  dot_S5000x128_S128x40_S5000x40_1_0_0_1_n_n.lhsIdx_val_of_single rfl i q
theorem rhs6_0 (i : S5000x40.Idx) (q : dot_S5000x128_S128x40_S5000x40_1_0_0_1_n_n.contr.Idx) : (dot_S5000x128_S128x40_S5000x40_1_0_0_1_n_n.rhsIdx i q 0).val = (q ⟨0, by decide⟩).val :=
  dot_S5000x128_S128x40_S5000x40_1_0_0_1_n_n.rhsIdx_val_of_single rfl i q
theorem rhs6_1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A block times a weight array, into the zero block, at `(p, q)`: the sum over the 128 shared coordinates. -/
theorem matmul6_apply (x : Vec Ideal S5000x128 .f32) (w : Vec Ideal S128x40 .f32) (p : Fin 5000) (q : Fin 40) :
    (matmul (F := Ideal) (φ₁ := .f32) (φ₂ := .f32) dot_S5000x128_S128x40_S5000x40_1_0_0_1_n_n none x w (constant S5000x40 .f32 0x00000000#32) : FVec Ideal S5000x40 .f32) (ix2 p q)
      = ∑ k : Fin 128, x (ix2 p k) * w (ix2 k q) := by
  refine (Ideal.matmul_constant_zero_apply dot_S5000x128_S128x40_S5000x40_1_0_0_1_n_n none x w (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhs6_0 _ _
    | ⟨1, _⟩ => exact (lhs6_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhs6_0 _ _).trans hk
    | ⟨1, _⟩ => exact rhs6_1 _ _)
  rw [el, er]

/-- A row's index with the column inserted. -/
theorem lift6 (p : Fin 5000) (k : Fin 40) : (reduces_S5000x40_S5000.lift (ix1 p) k : S5000x40.Idx) = ix2 p k :=
  funext fun c => Fin.ext (by match c with | ⟨0, _⟩ => rfl | ⟨1, _⟩ => rfl)

/-- The maximum over a block's columns, at row `p`. -/
theorem rowmax6_apply (x : FVec Ideal S5000x40 .f32) (p : Fin 5000) :
    multiReduction .maximumf [1] S5000 x 0xFF800000#32 reduces_S5000x40_S5000 (.inl rfl) rfl (ix1 p)
      = rowMaxOf (fun k => x (ix2 p k)) := by
  refine (Ideal.multiReduction_maximumf_single x 0xFF800000#32 reduces_S5000x40_S5000 (.inl rfl) rfl (ix1 p)).trans ?_
  exact congrArg (fun f : Fin 40 → Ideal .f32 => (Finset.univ : Finset (Fin 40)).fold max (Ideal.ofBits .f32 0xFF800000#32) f)
    (funext fun k => congrArg x (lift6 p k))

/-- The sum over a block's columns, at row `p`. -/
theorem rowsum6_apply (x : FVec Ideal S5000x40 .f32) (p : Fin 5000) :
    multiReduction .add [1] S5000 x 0x00000000#32 reduces_S5000x40_S5000 (.inl rfl) rfl (ix1 p)
      = ∑ k : Fin 40, x (ix2 p k) := by
  refine (Ideal.multiReduction_add_single x 0x00000000#32 reduces_S5000x40_S5000 (.inl rfl) rfl (ix1 p)).trans ?_
  exact Finset.sum_congr rfl (fun k _ => congrArg x (lift6 p k))

/-- A vector of 5000 as a column, at `(p, 0)`. -/
theorem col6_apply {α : Type} (v : S5000.Idx → α) (h : S5000.ShapeCasts S5000x1) (p : Fin 5000) :
    shapeCast S5000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column repeated along the 40 columns, at `(p, q)`. -/
theorem bcol6_apply {α : Type} (x : S5000x1.Idx → α) (h : S5000x1.Broadcasts S5000x40) (p : Fin 5000) (q : Fin 40) :
    broadcastTo S5000x40 x h (ix2 p q) = x (ix2 p (0 : Fin 1)) :=
  broadcastTo_apply x h (ix2 p q) (ix2 p (0 : Fin 1)) (fun a => by match a with | ⟨0, _⟩ => rfl | ⟨1, _⟩ => rfl)

/-- The bias row repeated down the rows, at `(p, q)`. -/
theorem brow6_apply {α : Type} (x : S1x40.Idx → α) (h : S1x40.Broadcasts S5000x40) (p : Fin 5000) (q : Fin 40) :
    broadcastTo S5000x40 x h (ix2 p q) = x (row40 q) :=
  broadcastTo_apply x h (ix2 p q) (row40 q) (fun a => by match a with | ⟨0, _⟩ => rfl | ⟨1, _⟩ => rfl)

/-- The final region's stored block at `(p, q)`: log-softmax of row `p`'s logits at column `q`. -/
theorem k6_pay1_at (x0 : Vec Ideal S5000x128 .f32) (x2 : Vec Ideal S128x40 .f32) (x4 : Vec Ideal S5000x128 .f32)
    (x6 : Vec Ideal S128x40 .f32) (x9 : Vec Ideal S1x40 .f32) (p : Fin 5000) (q : Fin 40) :
    k6_pay1 x0 x2 x4 x6 x9 (ix2 p q)
      = lsmRow (logits (fun k => x0 (ix2 p k)) (fun k => x4 (ix2 p k)) x2 x6 x9) q := by
  unfold k6_pay1 lsmRow logits
  simp only [shapeCast_self, subf_apply, addf_apply, bcol6_apply, brow6_apply, col6_apply, log_apply, exp_apply, matmul6_apply]
  rw [rowsum6_apply]
  simp only [shapeCast_self, subf_apply, addf_apply, bcol6_apply, brow6_apply, col6_apply, log_apply, exp_apply, matmul6_apply]
  rw [rowmax6_apply]
  simp only [shapeCast_self, subf_apply, addf_apply, bcol6_apply, brow6_apply, col6_apply, log_apply, exp_apply, matmul6_apply]

end Cert.KernelIdeal.Gen
-- ==== Proof.KI.FinalValue.lean ====
import proofs.«167498_j75179107549620_1_alg».proof.Proof.KI.FinalBody
import proofs.«167498_j75179107549620_1_alg».proof.Proof.KI.FinalSpec
import Idealize.ShloMosaic.Lib.Pipeline.Value
import Idealize.ShloMosaic.Lib.ValueIdx
import Idealize.ShloMosaic.Lib.Tactic

/-! # Region 6 of the kernel program: the output array after the region, as one function of the input arrays

Each grid point writes back block `t` (rows `5000 t … 5000 t + 4999`) of the array of log-probabilities; the twenty
blocks cover the array, so the array ends holding it. -/

set_option maxRecDepth 16384

noncomputable section

namespace Cert.KernelIdeal.Gen

open Idealize.ShloMosaic Idealize.ShloMosaic.TcCoe Idealize.SL.Sem
open Idealize.ShloMosaic.Pipeline (Dat)
open Idealize.ShloMosaic.ValueIdx

open scoped BigOperators

section Value6

/-- The zero offsets of a rank-2 access, however spelt. -/
theorem hz6 : (![0, 0] : Fin 2 → Nat) = fun _ => 0 := funext fun a => by fin_cases a <;> rfl
variable (V : (c : Dev nD) → (b : Ref sig .tc) → Buf (Elt Ideal) ((c : Thread nD τ).loc b))

/-- The printed index maps, decided over the 20 grid points: the two large inputs and the output take row block `t` at
    point `t`, the weights and the bias their whole array at every point. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Input window 0's block at point `t` is rows `5000 t … 5000 t + 4999` of its array. -/
theorem iblk6_0_apply (c : Dev nD) (t : Fin cfg6.N) (p : Fin 5000) (q : Fin 128) (k : S100000x128.Idx)
    (hk0 : (k 0).val = 5000 * t.val + p.val) (hk1 : (k 1).val = q.val) :
    (iblk6 V c 0 t : Vec Ideal S5000x128 .f32) (ix2 p q) = (V c main_v103 : Vec Ideal S100000x128 .f32) k := by
  obtain ⟨e00, e01, e10, e11, e20, e21, e30, e31, e40, e41, e50, e51⟩ := idx_facts6 t
  unfold iblk6
  rw [View.read_apply]
  show V c main_v103 _ = V c main_v103 k
  refine congrArg (V c main_v103) ?_
  funext a; apply Fin.ext
  match a with
  | ⟨0, _⟩ => show win6_0.index t 0 * 5000 + 1 * p.val = (k 0).val; rw [e00, hk0]; omega
  | ⟨1, _⟩ => show win6_0.index t 1 * 128 + 1 * q.val = (k 1).val; rw [e01, hk1]; omega

/-- Input window 1's block at point `t` is rows `5000 t … 5000 t + 4999` of its array. -/
theorem iblk6_1_apply (c : Dev nD) (t : Fin cfg6.N) (p : Fin 5000) (q : Fin 128) (k : S100000x128.Idx)
    (hk0 : (k 0).val = 5000 * t.val + p.val) (hk1 : (k 1).val = q.val) :
    (iblk6 V c 1 t : Vec Ideal S5000x128 .f32) (ix2 p q) = (V c main_v91 : Vec Ideal S100000x128 .f32) k := by
  obtain ⟨e00, e01, e10, e11, e20, e21, e30, e31, e40, e41, e50, e51⟩ := idx_facts6 t
  unfold iblk6
  rw [View.read_apply]
  show V c main_v91 _ = V c main_v91 k
  refine congrArg (V c main_v91) ?_
  funext a; apply Fin.ext
  match a with
  | ⟨0, _⟩ => show win6_1.index t 0 * 5000 + 1 * p.val = (k 0).val; rw [e10, hk0]; omega
  | ⟨1, _⟩ => show win6_1.index t 1 * 128 + 1 * q.val = (k 1).val; rw [e11, hk1]; omega

/-- Input window 2's block at every point is its whole array. -/
theorem iblk6_2_eq (c : Dev nD) (t : Fin cfg6.N) :
    (iblk6 V c 2 t : Vec Ideal S128x40 .f32) = (V c main_arg12 : Vec Ideal S128x40 .f32) := by
  obtain ⟨e00, e01, e10, e11, e20, e21, e30, e31, e40, e41, e50, e51⟩ := idx_facts6 t
  funext j
  obtain ⟨a, b, rfl⟩ : ∃ (a : Fin 128) (b : Fin 40), j = ix2 a b := ⟨j 0, j 1, eq_ix2 j⟩
  unfold iblk6
  rw [View.read_apply]
  show V c main_arg12 _ = V c main_arg12 (ix2 a b)
  refine congrArg (V c main_arg12) ?_
  funext ax; apply Fin.ext
  match ax with
  | ⟨0, _⟩ => show win6_2.index t 0 * 128 + 1 * a.val = a.val; rw [e20]; omega
  | ⟨1, _⟩ => show win6_2.index t 1 * 40 + 1 * b.val = b.val; rw [e21]; omega

/-- Input window 3's block at every point is its whole array. -/
theorem iblk6_3_eq (c : Dev nD) (t : Fin cfg6.N) :
    (iblk6 V c 3 t : Vec Ideal S128x40 .f32) = (V c main_arg13 : Vec Ideal S128x40 .f32) := by
  obtain ⟨e00, e01, e10, e11, e20, e21, e30, e31, e40, e41, e50, e51⟩ := idx_facts6 t
  funext j
  obtain ⟨a, b, rfl⟩ : ∃ (a : Fin 128) (b : Fin 40), j = ix2 a b := ⟨j 0, j 1, eq_ix2 j⟩
  unfold iblk6
  rw [View.read_apply]
  show V c main_arg13 _ = V c main_arg13 (ix2 a b)
  refine congrArg (V c main_arg13) ?_
  funext ax; apply Fin.ext
  match ax with
  | ⟨0, _⟩ => show win6_3.index t 0 * 128 + 1 * a.val = a.val; rw [e30]; omega
  | ⟨1, _⟩ => show win6_3.index t 1 * 40 + 1 * b.val = b.val; rw [e31]; omega

/-- Input window 4's block at every point is its whole array. -/
theorem iblk6_4_eq (c : Dev nD) (t : Fin cfg6.N) :
    (iblk6 V c 4 t : Vec Ideal S1x40 .f32) = (V c main_v104 : Vec Ideal S1x40 .f32) := by
  obtain ⟨e00, e01, e10, e11, e20, e21, e30, e31, e40, e41, e50, e51⟩ := idx_facts6 t
  funext j
  obtain ⟨a, b, rfl⟩ : ∃ (a : Fin 1) (b : Fin 40), j = ix2 a b := ⟨j 0, j 1, eq_ix2 j⟩
  unfold iblk6
  rw [View.read_apply]
  show V c main_v104 _ = V c main_v104 (ix2 a b)
  refine congrArg (V c main_v104) ?_
  funext ax; apply Fin.ext
  match ax with
  | ⟨0, _⟩ => show win6_4.index t 0 * 1 + 1 * a.val = a.val; rw [e40]; omega
  | ⟨1, _⟩ => show win6_4.index t 1 * 40 + 1 * b.val = b.val; rw [e41]; omega

/-- What point `t` writes back is block `t` of the array of log-probabilities of the region's input arrays. -/
theorem flushed6_eq (c : Dev nD) (t : Fin cfg6.N) :
    (dat6 V c).flushed 5 t = ((cfg6.win 5).blk t).view.read (Elt Ideal) (finalArr (V c main_v103) (V c main_v91) (V c main_arg12) (V c main_arg13) (V c main_v104)) := by
  show (cfg6.win 5).cut (grid6.coords t) ((dat6 V c).after 5 t) = _
  rw [after6_5]
  unfold out6_5
  rw [View.canon_unit_zero hz6]
  simp only [View.ld_unit_zero (S := S5000x128) hz6, View.ld_unit_zero (S := S128x40) hz6, View.ld_unit_zero (S := S1x40) hz6]
  funext j
  obtain ⟨p, q, rfl⟩ : ∃ (p : Fin 5000) (q : Fin 40), j = ix2 p q := ⟨j 0, j 1, eq_ix2 j⟩
  have hN : cfg6.N = 20 := N_6
  have ht := t.isLt
  obtain ⟨e00, e01, e10, e11, e20, e21, e30, e31, e40, e41, e50, e51⟩ := idx_facts6 t
  have hb : 5000 * t.val + p.val < 100000 := by have := p.isLt; omega
  have he : ((cfg6.win 5).blk t).view.emb (ix2 p q) = (ix2 ⟨5000 * t.val + p.val, hb⟩ q : S100000x40.Idx) := by
    funext a; apply Fin.ext
    match a with
    | ⟨0, _⟩ => show win6_5.index t 0 * 5000 + 1 * p.val = 5000 * t.val + p.val; rw [e50]; omega
    | ⟨1, _⟩ => show win6_5.index t 1 * 40 + 1 * q.val = q.val; rw [e51]; omega
  rw [View.read_apply]
  show k6_pay1 (iblk6 V c 0 t) (iblk6 V c 2 t) (iblk6 V c 1 t) (iblk6 V c 3 t) (iblk6 V c 4 t) (ix2 p q)
    = finalArr (V c main_v103) (V c main_v91) (V c main_arg12) (V c main_arg13) (V c main_v104) (((cfg6.win 5).blk t).view.emb (ix2 p q))
  rw [he]
  refine (k6_pay1_at _ _ _ _ _ p q).trans ?_
  have h0 : (fun k : Fin 128 => (iblk6 V c 0 t : Vec Ideal S5000x128 .f32) (ix2 p k))
      = fun k => (V c main_v103 : Vec Ideal S100000x128 .f32) (ix2 ⟨5000 * t.val + p.val, hb⟩ k) :=
    funext fun k => iblk6_0_apply V c t p k _ rfl rfl
  have h1 : (fun k : Fin 128 => (iblk6 V c 1 t : Vec Ideal S5000x128 .f32) (ix2 p k))
      = fun k => (V c main_v91 : Vec Ideal S100000x128 .f32) (ix2 ⟨5000 * t.val + p.val, hb⟩ k) :=
    funext fun k => iblk6_1_apply V c t p k _ rfl rfl
  rw [h0, h1, iblk6_2_eq V c t, iblk6_3_eq V c t, iblk6_4_eq V c t]
  rfl

/-- An index of the output array is in point `t`'s block iff each coordinate is in the block's range on its axis. -/
theorem mem_blk6 (t : Fin cfg6.N) (i : S100000x40.Idx) :
    i ∈ ((cfg6.win 5).blk t).view.set ↔ ∀ a : Fin 2, win6_5.index t a * S5000x40.size a ≤ (i a).val ∧ (i a).val < win6_5.index t a * S5000x40.size a + S5000x40.size a := by
  show i ∈ ((View.whole main_v105).slice (win6_5.rect t)).set ↔ _
  rw [View.set_slice_whole, Rect.mem_set_unit]
  exact Iff.rfl

/-- Row `r` of the output array is in the block of point `r / 5000`: the blocks cover the array. -/
theorem cover6 (i : S100000x40.Idx) :
    ∃ t : Fin cfg6.N, (cfg6.win 5).flush t = true ∧ i ∈ ((cfg6.win 5).blk t).view.set := by
  have hi0 : (i 0).val < 100000 := (i 0).isLt
  have hi1 : (i 1).val < 40 := (i 1).isLt
  have hN : cfg6.N = 20 := N_6
  obtain ⟨t, ht⟩ : ∃ t : Fin cfg6.N, t.val = (i 0).val / 5000 := ⟨⟨(i 0).val / 5000, by omega⟩, rfl⟩
  obtain ⟨e00, e01, e10, e11, e20, e21, e30, e31, e40, e41, e50, e51⟩ := idx_facts6 t
  refine ⟨t, flush6_5 t, ?_⟩
  rw [mem_blk6]
  intro a
  match a with
  | ⟨0, _⟩ => show win6_5.index t 0 * 5000 ≤ (i 0).val ∧ (i 0).val < win6_5.index t 0 * 5000 + 5000; rw [e50]; omega
  | ⟨1, _⟩ => show win6_5.index t 1 * 40 ≤ (i 1).val ∧ (i 1).val < win6_5.index t 1 * 40 + 40; rw [e51]; omega

/-- THE OUTPUT ARRAY after region 6: the array of log-probabilities of the region's input arrays as it finds them. -/
theorem arrAt6_out (c : Dev nD) :
    (dat6 V c).arrAt 5 cfg6.N = finalArr (V c main_v103) (V c main_v91) (V c main_arg12) (V c main_arg13) (V c main_v104) :=
  (dat6 V c).arrAt_eq_of_cover 5 _ (fun t _ => flushed6_eq V c t) cover6

end Value6

end Cert.KernelIdeal.Gen
-- ==== Proof.Ref.Terms.lean ====
import proofs.«167498_j75179107549620_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference computation as whole-array functions: one named function per stage, and the result as their
    composition. Nodes are the rows of a `100000 × 128` array, edges the columns of a `2 × 1600000` integer array
    (row 0 the source node of each edge, row 1 its destination). -/

/-- Row 0 of the edge array as a vector: each edge's source node, as given. -/
def srcRaw (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge array as a vector: each edge's destination node. -/
def dstIx (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- A negative index counted from the end: `s + 100000` where `s < 0`, else `s`. -/
def fixNeg (s : (⟨S1600000, .i32⟩ : BufTy).Contents (Elt F)) : (⟨S1600000, .i32⟩ : BufTy).Contents (Elt F) :=
  select (cmpi .slt s (broadcastInDim S1600000 ![] bcast_S_S1600000 (constantI S_ 32 0#32 : (⟨S_, .i32⟩ : BufTy).Contents (Elt F))))
    (addi s (broadcastInDim S1600000 ![] bcast_S_S1600000 (constantI S_ 32 100000#32 : (⟨S_, .i32⟩ : BufTy).Contents (Elt F)))) s

/-- Each edge's source node, a negative one counted from the end. -/
def srcIx (e : (⟨S2x1600000, .i32⟩ : BufTy).Contents (Elt F)) : (⟨S1600000, .i32⟩ : BufTy).Contents (Elt F) := fixNeg (srcRaw e)

/-- The sum aggregate: row `n` is the sum over the edges `j` with destination `d j = n` of row `s j` of `h`
    (the rows gathered at `s`, then added into a zero array at `d`). -/
def sumAgg (s d : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 d)
    (Host.gather gather_S100000x128_S1600000x1_S1600000x128_1_0_n_n_0_1_1128 h (broadcastInDim S1600000x1 ![0] bcast_S1600000_S1600000x1_0 s))

/-- The in-degree column: entry `n` is the number of edges with destination `n` (ones added into a zero column). -/
def degCol (d : (⟨S1600000, .i32⟩ : BufTy).Contents (Elt F)) : (⟨S100000x1, .f32⟩ : BufTy).Contents (Elt F) :=
  Host.scatterAdd scatter_S100000x1_S1600000x1_S1600000x1_1_0_0_1
    (broadcastInDim S100000x1 ![] bcast_S_S100000x1 (constant S_ .f32 0x00000000#32 : (⟨S_, .f32⟩ : BufTy).Contents (Elt F)))
    (broadcastInDim S1600000x1 ![0] bcast_S1600000_S1600000x1_0 d)
    (broadcastInDim S1600000x1 ![] bcast_S_S1600000x1 (constant S_ .f32 0x3F800000#32 : (⟨S_, .f32⟩ : BufTy).Contents (Elt F)))

/-- The mean aggregate: the sum aggregate divided, row by row, by the larger of the in-degree and one. -/
def meanAgg (s d : (⟨S1600000, .i32⟩ : BufTy).Contents (Elt F)) (h : (⟨S100000x128, .f32⟩ : BufTy).Contents (Elt F)) : (⟨S100000x128, .f32⟩ : BufTy).Contents (Elt F) :=
  Host.divf (sumAgg s d h)
    (broadcastInDim S100000x128 ![0, 1] bcast_S100000x1_S100000x128_0_1
      (maximumf (degCol d) (broadcastInDim S100000x1 ![] bcast_S_S100000x1 (constant S_ .f32 0x3F800000#32 : (⟨S_, .f32⟩ : BufTy).Contents (Elt F)))))

/-- A length-128 row repeated down the 100000 rows. -/
def rowBc (r : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 r)

/-- A length-40 row repeated down the 100000 rows. -/
def rowBc40 (r : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 r)

/-- The affine combination `(agg · wl + b) + h · wr`, in that order of additions. -/
def sage (agg h : (⟨S100000x128, .f32⟩ : BufTy).Contents (Elt F)) (wl wr : (⟨S128x128, .f32⟩ : BufTy).Contents (Elt F)) (b : (⟨S128, .f32⟩ : BufTy).Contents (Elt F)) : (⟨S100000x128, .f32⟩ : BufTy).Contents (Elt F) :=
  addf (addf (Host.dotGeneral dot_S100000x128_S128x128_S100000x128_1_0_0_1_n_n none agg wl) (rowBc b)) (Host.dotGeneral dot_S100000x128_S128x128_S100000x128_1_0_0_1_n_n none h wr)

/-- The same with 40 output columns. -/
def sageOut (agg h : (⟨S100000x128, .f32⟩ : BufTy).Contents (Elt F)) (wl wr : (⟨S128x40, .f32⟩ : BufTy).Contents (Elt F)) (b : (⟨S40, .f32⟩ : BufTy).Contents (Elt F)) : (⟨S100000x40, .f32⟩ : BufTy).Contents (Elt F) :=
  addf (addf (Host.dotGeneral dot_S100000x128_S128x40_S100000x40_1_0_0_1_n_n none agg wl) (rowBc40 b)) (Host.dotGeneral dot_S100000x128_S128x40_S100000x40_1_0_0_1_n_n none h wr)

/-- The column means: the column sums divided by the number of rows. -/
def colMean (h : (⟨S100000x128, .f32⟩ : BufTy).Contents (Elt F)) : (⟨S128, .f32⟩ : BufTy).Contents (Elt F) :=
  Host.divf (Host.reduceAdd h (constant S_ .f32 0x00000000#32 : (⟨S_, .f32⟩ : BufTy).Contents (Elt F)) reducesTo_S100000x128_S128_d0 h_S_)
    (broadcastInDim S128 ![] bcast_S_S128 (constant S_ .f32 0x47C35000#32 : (⟨S_, .f32⟩ : BufTy).Contents (Elt F)))

/-- The number of rows less the correction (which is zero), as a float scalar. -/
def varCount : (⟨S_, .f32⟩ : BufTy).Contents (Elt F) :=
  subf (constant S_ .f32 0x47C35000#32 : (⟨S_, .f32⟩ : BufTy).Contents (Elt F)) (sitofp .f32 (constantI S_ 32 0#32 : (⟨S_, .i32⟩ : BufTy).Contents (Elt F)))

/-- The column variances: the column sums of the squared deviations from the column means (the means formed as a
    `1 × 128` row and repeated down the rows), divided by the count; not-a-number if the count is not positive. -/
def colVar (h : (⟨S100000x128, .f32⟩ : BufTy).Contents (Elt F)) : (⟨S128, .f32⟩ : BufTy).Contents (Elt F) :=
  select (broadcastInDim S128 ![] bcast_S_S128 (cmpf .ogt (varCount (F := F)) (constant S_ .f32 0x00000000#32 : (⟨S_, .f32⟩ : BufTy).Contents (Elt F))))
    (Host.divf
      (Host.reduceAdd
        (mulf
          (subf h (broadcastInDim S100000x128 ![0, 1] bcast_S1x128_S100000x128_0_1
            (Host.divf (broadcastInDim S1x128 ![1] bcast_S128_S1x128_1 (Host.reduceAdd h (constant S_ .f32 0x00000000#32 : (⟨S_, .f32⟩ : BufTy).Contents (Elt F)) reducesTo_S100000x128_S128_d0 h_S_))
              (broadcastInDim S1x128 ![] bcast_S_S1x128 (constant S_ .f32 0x47C35000#32 : (⟨S_, .f32⟩ : BufTy).Contents (Elt F))))))
          (subf h (broadcastInDim S100000x128 ![0, 1] bcast_S1x128_S100000x128_0_1
            (Host.divf (broadcastInDim S1x128 ![1] bcast_S128_S1x128_1 (Host.reduceAdd h (constant S_ .f32 0x00000000#32 : (⟨S_, .f32⟩ : BufTy).Contents (Elt F)) reducesTo_S100000x128_S128_d0 h_S_))
              (broadcastInDim S1x128 ![] bcast_S_S1x128 (constant S_ .f32 0x47C35000#32 : (⟨S_, .f32⟩ : BufTy).Contents (Elt F)))))))
        (constant S_ .f32 0x00000000#32 : (⟨S_, .f32⟩ : BufTy).Contents (Elt F)) reducesTo_S100000x128_S128_d0 h_S_)
      (broadcastInDim S128 ![] bcast_S_S128 (varCount (F := F))))
    (broadcastInDim S128 ![] bcast_S_S128 (id (constant S_ .f32 0x7FC00000#32 : (⟨S_, .f32⟩ : BufTy).Contents (Elt F))))

/-- Row `i` of a `3 × 128` parameter array as a vector (`i = 0, 1, 2`). -/
def bnRow0 (g : (⟨S3x128, .f32⟩ : BufTy).Contents (Elt F)) : (⟨S128, .f32⟩ : BufTy).Contents (Elt F) :=
  shapeCast S128 (extractStridedSlice S1x128 ![0, 0] g slices_S3x128_S1x128_0_0) shapeCasts_S1x128_S128
@[inherit_doc bnRow0]
def bnRow1 (g : (⟨S3x128, .f32⟩ : BufTy).Contents (Elt F)) : (⟨S128, .f32⟩ : BufTy).Contents (Elt F) :=
  shapeCast S128 (extractStridedSlice S1x128 ![1, 0] g slices_S3x128_S1x128_1_0) shapeCasts_S1x128_S128
@[inherit_doc bnRow0]
def bnRow2 (g : (⟨S3x128, .f32⟩ : BufTy).Contents (Elt F)) : (⟨S128, .f32⟩ : BufTy).Contents (Elt F) :=
  shapeCast S128 (extractStridedSlice S1x128 ![2, 0] g slices_S3x128_S1x128_2_0) shapeCasts_S1x128_S128

/-- The normalised and scaled array: `(h − mean) · rsqrt(var + ε) · γ`, column statistics repeated down the rows. -/
def bnScaled (h : (⟨S100000x128, .f32⟩ : BufTy).Contents (Elt F)) (γ : (⟨S128, .f32⟩ : BufTy).Contents (Elt F)) : (⟨S100000x128, .f32⟩ : BufTy).Contents (Elt F) :=
  mulf (mulf (subf h (rowBc (colMean h)))
      (rowBc (Host.rsqrt (addf (colVar h) (broadcastInDim S128 ![] bcast_S_S128 (constant S_ .f32 0x3727C5AC#32 : (⟨S_, .f32⟩ : BufTy).Contents (Elt F)))))))
    (rowBc γ)

/-- Batch normalisation with the batch's own statistics: the normalised, scaled array plus the shift row. -/
def bnRef (h : (⟨S100000x128, .f32⟩ : BufTy).Contents (Elt F)) (γ β : (⟨S128, .f32⟩ : BufTy).Contents (Elt F)) : (⟨S100000x128, .f32⟩ : BufTy).Contents (Elt F) :=
  addf (bnScaled h γ) (rowBc β)

/-- The maximum with zero, entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32 : (⟨S_, .f32⟩ : BufTy).Contents (Elt F)))

/-- Two affine maps with a maximum with zero between them, applied to `h + s`. -/
def ginMlp (h s : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) :
    (⟨S100000x128, .f32⟩ : BufTy).Contents (Elt F) :=
  addf (Host.dotGeneral dot_S100000x128_S128x128_S100000x128_1_0_0_1_n_n none (relu (addf (Host.dotGeneral dot_S100000x128_S128x128_S100000x128_1_0_0_1_n_n none (addf h s) w1) (rowBc b1))) w2) (rowBc b2)

/-- The row maxima (from minus infinity, and once more against minus infinity), as a column. -/
def rowMax (x : (⟨S100000x40, .f32⟩ : BufTy).Contents (Elt F)) : (⟨S100000x1, .f32⟩ : BufTy).Contents (Elt F) :=
  broadcastInDim S100000x1 ![0] bcast_S100000_S100000x1_0
    (maximumf (broadcastInDim S100000 ![] bcast_S_S100000 (constant S_ .f32 0xFF800000#32 : (⟨S_, .f32⟩ : BufTy).Contents (Elt F)))
      (Host.reduce FloatOps.maximumf x (constant S_ .f32 0xFF800000#32 : (⟨S_, .f32⟩ : BufTy).Contents (Elt F)) reducesTo_S100000x40_S100000_d1 h_S_))

/-- Each row less its maximum. -/
def shifted (x : (⟨S100000x40, .f32⟩ : BufTy).Contents (Elt F)) : (⟨S100000x40, .f32⟩ : BufTy).Contents (Elt F) :=
  subf x (broadcastInDim S100000x40 ![0, 1] bcast_S100000x1_S100000x40_0_1 (rowMax x))

/-- The logarithm of the row-wise soft maximum: the shifted rows less the logarithm of their sums of exponentials. -/
def logSoftmaxRef (x : (⟨S100000x40, .f32⟩ : BufTy).Contents (Elt F)) : (⟨S100000x40, .f32⟩ : BufTy).Contents (Elt F) :=
  subf (shifted x)
    (broadcastInDim S100000x40 ![0, 1] bcast_S100000x1_S100000x40_0_1
      (Host.log (broadcastInDim S100000x1 ![0] bcast_S100000_S100000x1_0
        (Host.reduceAdd (Host.exp (shifted x)) (constant S_ .f32 0x00000000#32 : (⟨S_, .f32⟩ : BufTy).Contents (Elt F)) reducesTo_S100000x40_S100000_d1 h_S_))))

/-- Layer 0: the affine combination of the mean aggregate and the features, normalised (parameter row 0), then the
    maximum with zero. -/
def layer0 (x : (⟨S100000x128, .f32⟩ : BufTy).Contents (Elt F)) (e : (⟨S2x1600000, .i32⟩ : BufTy).Contents (Elt F)) (wl wr : (⟨S128x128, .f32⟩ : BufTy).Contents (Elt F)) (b : (⟨S128, .f32⟩ : BufTy).Contents (Elt F))
    (γ β : (⟨S3x128, .f32⟩ : BufTy).Contents (Elt F)) : (⟨S100000x128, .f32⟩ : BufTy).Contents (Elt F) :=
  relu (bnRef (sage (meanAgg (srcIx e) (dstIx e) x) x wl wr b) (bnRow0 γ) (bnRow0 β))

/-- Layer 1: the two-map network of the features plus their sum aggregate, normalised (parameter row 1), the maximum
    with zero, plus the layer's input. -/
def layer1 (h : (⟨S100000x128, .f32⟩ : BufTy).Contents (Elt F)) (e : (⟨S2x1600000, .i32⟩ : BufTy).Contents (Elt F)) (w1 : (⟨S128x128, .f32⟩ : BufTy).Contents (Elt F)) (c1 : (⟨S128, .f32⟩ : BufTy).Contents (Elt F))
    (w2 : (⟨S128x128, .f32⟩ : BufTy).Contents (Elt F)) (c2 : (⟨S128, .f32⟩ : BufTy).Contents (Elt F)) (γ β : (⟨S3x128, .f32⟩ : BufTy).Contents (Elt F)) : (⟨S100000x128, .f32⟩ : BufTy).Contents (Elt F) :=
  addf (relu (bnRef (ginMlp h (sumAgg (srcIx e) (dstIx e) h) w1 c1 w2 c2) (bnRow1 γ) (bnRow1 β))) h

/-- Layer 2: as layer 0 with parameter row 2, plus the layer's input. -/
def layer2 (h : (⟨S100000x128, .f32⟩ : BufTy).Contents (Elt F)) (e : (⟨S2x1600000, .i32⟩ : BufTy).Contents (Elt F)) (wl wr : (⟨S128x128, .f32⟩ : BufTy).Contents (Elt F)) (b : (⟨S128, .f32⟩ : BufTy).Contents (Elt F))
    (γ β : (⟨S3x128, .f32⟩ : BufTy).Contents (Elt F)) : (⟨S100000x128, .f32⟩ : BufTy).Contents (Elt F) :=
  addf (relu (bnRef (sage (meanAgg (srcIx e) (dstIx e) h) h wl wr b) (bnRow2 γ) (bnRow2 β))) h

/-- The output layer: the 40-column affine combination of the mean aggregate and the features, then the logarithm
    of the row-wise soft maximum. -/
def layerOut (h : (⟨S100000x128, .f32⟩ : BufTy).Contents (Elt F)) (e : (⟨S2x1600000, .i32⟩ : BufTy).Contents (Elt F)) (wl wr : (⟨S128x40, .f32⟩ : BufTy).Contents (Elt F)) (b : (⟨S40, .f32⟩ : BufTy).Contents (Elt F)) :
    (⟨S100000x40, .f32⟩ : BufTy).Contents (Elt F) :=
  logSoftmaxRef (sageOut (meanAgg (srcIx e) (dstIx e) h) h wl wr b)

/-- The whole computation on arrays: the four layers composed. -/
def refOutArr (x : (⟨S100000x128, .f32⟩ : BufTy).Contents (Elt F))
    (e : (⟨S2x1600000, .i32⟩ : BufTy).Contents (Elt F))
    (wl0 : (⟨S128x128, .f32⟩ : BufTy).Contents (Elt F))
    (wr0 : (⟨S128x128, .f32⟩ : BufTy).Contents (Elt F))
    (b0 : (⟨S128, .f32⟩ : BufTy).Contents (Elt F))
    (w1 : (⟨S128x128, .f32⟩ : BufTy).Contents (Elt F))
    (c1 : (⟨S128, .f32⟩ : BufTy).Contents (Elt F))
    (w2 : (⟨S128x128, .f32⟩ : BufTy).Contents (Elt F))
    (c2 : (⟨S128, .f32⟩ : BufTy).Contents (Elt F))
    (wl2 : (⟨S128x128, .f32⟩ : BufTy).Contents (Elt F))
    (wr2 : (⟨S128x128, .f32⟩ : BufTy).Contents (Elt F))
    (b2 : (⟨S128, .f32⟩ : BufTy).Contents (Elt F))
    (wl3 : (⟨S128x40, .f32⟩ : BufTy).Contents (Elt F))
    (wr3 : (⟨S128x40, .f32⟩ : BufTy).Contents (Elt F))
    (b3 : (⟨S40, .f32⟩ : BufTy).Contents (Elt F))
    (γ : (⟨S3x128, .f32⟩ : BufTy).Contents (Elt F))
    (β : (⟨S3x128, .f32⟩ : BufTy).Contents (Elt F)) :
    (⟨S100000x40, .f32⟩ : BufTy).Contents (Elt F) :=
  layerOut (layer2 (layer1 (layer0 x e wl0 wr0 b0 γ β) e w1 c1 w2 c2 γ β) e wl2 wr2 b2 γ β) e wl3 wr3 b3

end Cert.ReferenceIdeal.RefRun

end
-- ==== Proof.KI.HostVals.lean ====
import proofs.«167498_j75179107549620_1_alg».proof.Proof.Gen.KernelIdeal.Launch
import proofs.«167498_j75179107549620_1_alg».proof.Proof.Ref.Terms
import Idealize.ShloMosaic.Lib.StableHlo.Run

/-! # The kernel program's host stretches, read as pure terms

Between its seven pipelined regions the kernel program runs seven stretches of host operations. For an arbitrary
valuation `V` of the buffers when a stretch starts, each buffer a later region (or a later stretch) reads is, after
the stretch, a composition of whole-array functions of `V` at the buffers the stretch reads: the edge rows, the
neighbour sum and mean, the reciprocal in-degree column, the mean and variance rows from the column sums, and the
scale and shift rows cut from the parameter arrays. -/

noncomputable section

namespace Cert.KernelIdeal.Gen

open Idealize.ShloMosaic Idealize.ShloMosaic.TcCoe Idealize.SL.Sem Idealize.ShloMosaic.StableHlo
open Cert.ReferenceIdeal.RefRun (srcRaw dstIx fixNeg srcIx sumAgg degCol bnRow0 bnRow1 bnRow2)

variable {F : FTy → Type} [FloatOps F]

/-! ## The kernel-only pieces -/

/-- The reciprocal of the larger of the in-degree and one, as a column. -/
def invDeg (d : (⟨S1600000, .i32⟩ : BufTy).Contents (Elt F)) : (⟨S100000x1, .f32⟩ : BufTy).Contents (Elt F) :=
  Host.divf (broadcastInDim S100000x1 ![] bcast_S_S100000x1 (constant S_ .f32 0x3F800000#32 : (⟨S_, .f32⟩ : BufTy).Contents (Elt F)))
    (maximumf (degCol d) (broadcastInDim S100000x1 ![] bcast_S_S100000x1 (constant S_ .f32 0x3F800000#32 : (⟨S_, .f32⟩ : BufTy).Contents (Elt F))))

/-- A neighbour sum scaled row by row by a column. -/
def scaleRows (s : (⟨S100000x128, .f32⟩ : BufTy).Contents (Elt F)) (col : (⟨S100000x1, .f32⟩ : BufTy).Contents (Elt F)) : (⟨S100000x128, .f32⟩ : BufTy).Contents (Elt F) :=
  mulf s (broadcastInDim S100000x128 ![0, 1] bcast_S100000x1_S100000x128_0_1 col)

/-- The neighbour mean as the kernel program forms it: the neighbour sum times the reciprocal column. -/
def meanAggK (s d : (⟨S1600000, .i32⟩ : BufTy).Contents (Elt F)) (h : (⟨S100000x128, .f32⟩ : BufTy).Contents (Elt F)) : (⟨S100000x128, .f32⟩ : BufTy).Contents (Elt F) :=
  scaleRows (sumAgg s d h) (invDeg d)

/-- The row of column means from the row of column sums: divided by the number of rows, as the word the program prints. -/
def meanRowK (sumRow : (⟨S1x128, .f32⟩ : BufTy).Contents (Elt F)) : (⟨S1x128, .f32⟩ : BufTy).Contents (Elt F) :=
  Host.divf sumRow (broadcastInDim S1x128 ![] bcast_S_S1x128 (constant S_ .f32 0x47C35000#32 : (⟨S_, .f32⟩ : BufTy).Contents (Elt F)))

/-- The row of column variances from the rows of column sums of squares and of column sums: the mean square less the
    squared mean. -/
def varRowK (ssRow sumRow : (⟨S1x128, .f32⟩ : BufTy).Contents (Elt F)) : (⟨S1x128, .f32⟩ : BufTy).Contents (Elt F) :=
  subf (Host.divf ssRow (broadcastInDim S1x128 ![] bcast_S_S1x128 (constant S_ .f32 0x47C35000#32 : (⟨S_, .f32⟩ : BufTy).Contents (Elt F))))
    (mulf (meanRowK sumRow) (meanRowK sumRow))

/-- A length-128 vector as a one-row array. -/
def asRow128 (r : (⟨S128, .f32⟩ : BufTy).Contents (Elt F)) : (⟨S1x128, .f32⟩ : BufTy).Contents (Elt F) := shapeCast S1x128 r shapeCasts_S128_S1x128

/-- A length-40 vector as a one-row array. -/
def asRow40 (r : (⟨S40, .f32⟩ : BufTy).Contents (Elt F)) : (⟨S1x40, .f32⟩ : BufTy).Contents (Elt F) := shapeCast S1x40 r shapeCasts_S40_S1x40

variable (V : Valuation τ sig (Elt F))

/-! ## Stretch 1 -/

theorem host1_v27 : after (hostOps1 (F := F)) V (Proc.devRef .tc main_v27) = meanRowK (V (Proc.devRef .tc main_v25_1)) := by
  show after (hostOps1 (F := F)) V (Proc.devRef .tc main_v27) = _
  after_results
  rfl

theorem host1_v31 : after (hostOps1 (F := F)) V (Proc.devRef .tc main_v31) = varRowK (V (Proc.devRef .tc main_v25_2)) (V (Proc.devRef .tc main_v25_1)) := by
  show after (hostOps1 (F := F)) V (Proc.devRef .tc main_v31) = _
  after_results
  rfl

theorem host1_v36 : after (hostOps1 (F := F)) V (Proc.devRef .tc main_v36) = asRow128 (bnRow0 (V (Proc.devRef .tc main_arg15))) := by
  show after (hostOps1 (F := F)) V (Proc.devRef .tc main_v36) = _
  after_results
  rfl

theorem host1_v37 : after (hostOps1 (F := F)) V (Proc.devRef .tc main_v37) = asRow128 (bnRow0 (V (Proc.devRef .tc main_arg16))) := by
  show after (hostOps1 (F := F)) V (Proc.devRef .tc main_v37) = _
  after_results
  rfl

/-! ## Stretch 3 -/

theorem host3_v53 : after (hostOps3 (F := F)) V (Proc.devRef .tc main_v53) = meanRowK (V (Proc.devRef .tc main_v51_1)) := by
  show after (hostOps3 (F := F)) V (Proc.devRef .tc main_v53) = _
  after_results
  rfl

theorem host3_v57 : after (hostOps3 (F := F)) V (Proc.devRef .tc main_v57) = varRowK (V (Proc.devRef .tc main_v51_2)) (V (Proc.devRef .tc main_v51_1)) := by
  show after (hostOps3 (F := F)) V (Proc.devRef .tc main_v57) = _
  after_results
  rfl

theorem host3_v62 : after (hostOps3 (F := F)) V (Proc.devRef .tc main_v62) = asRow128 (bnRow1 (V (Proc.devRef .tc main_arg15))) := by
  show after (hostOps3 (F := F)) V (Proc.devRef .tc main_v62) = _
  after_results
  rfl

theorem host3_v63 : after (hostOps3 (F := F)) V (Proc.devRef .tc main_v63) = asRow128 (bnRow1 (V (Proc.devRef .tc main_arg16))) := by
  show after (hostOps3 (F := F)) V (Proc.devRef .tc main_v63) = _
  after_results
  rfl

/-! ## Stretch 5 -/

theorem host5_v80 : after (hostOps5 (F := F)) V (Proc.devRef .tc main_v80) = meanRowK (V (Proc.devRef .tc main_v78_1)) := by
  show after (hostOps5 (F := F)) V (Proc.devRef .tc main_v80) = _
  after_results
  rfl

theorem host5_v84 : after (hostOps5 (F := F)) V (Proc.devRef .tc main_v84) = varRowK (V (Proc.devRef .tc main_v78_2)) (V (Proc.devRef .tc main_v78_1)) := by
  show after (hostOps5 (F := F)) V (Proc.devRef .tc main_v84) = _
  after_results
  rfl

theorem host5_v89 : after (hostOps5 (F := F)) V (Proc.devRef .tc main_v89) = asRow128 (bnRow2 (V (Proc.devRef .tc main_arg15))) := by
  show after (hostOps5 (F := F)) V (Proc.devRef .tc main_v89) = _
  after_results
  rfl

theorem host5_v90 : after (hostOps5 (F := F)) V (Proc.devRef .tc main_v90) = asRow128 (bnRow2 (V (Proc.devRef .tc main_arg16))) := by
  show after (hostOps5 (F := F)) V (Proc.devRef .tc main_v90) = _
  after_results
  rfl

/-! ## Stretch 0 -/

theorem host0_v1 : after (hostOps0 (F := F)) V (Proc.devRef .tc main_v1) = srcRaw (V (Proc.devRef .tc main_arg1)) := by
  show after (hostOps0 (F := F)) V (Proc.devRef .tc main_v1) = _
  after_results_simp
  rfl

theorem host0_v3 : after (hostOps0 (F := F)) V (Proc.devRef .tc main_v3) = dstIx (V (Proc.devRef .tc main_arg1)) := by
  show after (hostOps0 (F := F)) V (Proc.devRef .tc main_v3) = _
  after_results_simp
  rfl

theorem host0_v11 : after (hostOps0 (F := F)) V (Proc.devRef .tc main_v11) = invDeg (dstIx (V (Proc.devRef .tc main_arg1))) := by
  show after (hostOps0 (F := F)) V (Proc.devRef .tc main_v11) = _
  after_results_simp
  rfl

theorem host0_v23 : after (hostOps0 (F := F)) V (Proc.devRef .tc main_v23) = meanAggK (srcIx (V (Proc.devRef .tc main_arg1))) (dstIx (V (Proc.devRef .tc main_arg1))) (V (Proc.devRef .tc main_arg0)) := by
  show after (hostOps0 (F := F)) V (Proc.devRef .tc main_v23) = _
  after_results_simp
  rfl

theorem host0_v24 : after (hostOps0 (F := F)) V (Proc.devRef .tc main_v24) = asRow128 (V (Proc.devRef .tc main_arg4)) := by
  show after (hostOps0 (F := F)) V (Proc.devRef .tc main_v24) = _
  after_results_simp
  rfl

/-! ## Stretch 2 -/

theorem host2_v48 : after (hostOps2 (F := F)) V (Proc.devRef .tc main_v48) = sumAgg (fixNeg (V (Proc.devRef .tc main_v1))) (V (Proc.devRef .tc main_v3)) (V (Proc.devRef .tc main_v38)) := by
  show after (hostOps2 (F := F)) V (Proc.devRef .tc main_v48) = _
  after_results_simp
  rfl

theorem host2_v49 : after (hostOps2 (F := F)) V (Proc.devRef .tc main_v49) = asRow128 (V (Proc.devRef .tc main_arg6)) := by
  show after (hostOps2 (F := F)) V (Proc.devRef .tc main_v49) = _
  after_results_simp
  rfl

theorem host2_v50 : after (hostOps2 (F := F)) V (Proc.devRef .tc main_v50) = asRow128 (V (Proc.devRef .tc main_arg8)) := by
  show after (hostOps2 (F := F)) V (Proc.devRef .tc main_v50) = _
  after_results_simp
  rfl

/-! ## Stretch 4 -/

theorem host4_v76 : after (hostOps4 (F := F)) V (Proc.devRef .tc main_v76) = scaleRows (sumAgg (fixNeg (V (Proc.devRef .tc main_v1))) (V (Proc.devRef .tc main_v3)) (V (Proc.devRef .tc main_v64))) (V (Proc.devRef .tc main_v11)) := by
  show after (hostOps4 (F := F)) V (Proc.devRef .tc main_v76) = _
  after_results_simp
  rfl

theorem host4_v77 : after (hostOps4 (F := F)) V (Proc.devRef .tc main_v77) = asRow128 (V (Proc.devRef .tc main_arg11)) := by
  show after (hostOps4 (F := F)) V (Proc.devRef .tc main_v77) = _
  after_results_simp
  rfl

/-! ## Stretch 6 -/

theorem host6_v103 : after (hostOps6 (F := F)) V (Proc.devRef .tc main_v103) = scaleRows (sumAgg (fixNeg (V (Proc.devRef .tc main_v1))) (V (Proc.devRef .tc main_v3)) (V (Proc.devRef .tc main_v91))) (V (Proc.devRef .tc main_v11)) := by
  show after (hostOps6 (F := F)) V (Proc.devRef .tc main_v103) = _
  after_results_simp
  rfl

theorem host6_v104 : after (hostOps6 (F := F)) V (Proc.devRef .tc main_v104) = asRow40 (V (Proc.devRef .tc main_arg14)) := by
  show after (hostOps6 (F := F)) V (Proc.devRef .tc main_v104) = _
  after_results_simp
  rfl

end Cert.KernelIdeal.Gen
-- ==== Proof.KI.KTerms.lean ====
/- The kernel program's arrays as terms of its seventeen argument arrays: each hidden state from the one before, in the
   program's own operations (host stretches) and the regions' whole-array functions. -/
import proofs.«167498_j75179107549620_1_alg».proof.Proof.KI.StatsSpec
import proofs.«167498_j75179107549620_1_alg».proof.Proof.KI.FinalSpec
import proofs.«167498_j75179107549620_1_alg».proof.Proof.KI.HostVals

noncomputable section

namespace Cert.KernelIdeal.Gen

open Idealize.ShloMosaic
open Cert.ReferenceIdeal.RefRun (srcRaw dstIx fixNeg srcIx sumAgg degCol bnRow0 bnRow1 bnRow2)

/-- The program's argument arrays, in the order it takes them. -/
structure KArgs where
  X : Vec Ideal S100000x128 .f32
  E : (⟨S2x1600000, .i32⟩ : BufTy).Contents (Elt Ideal)
  WL0 : Vec Ideal S128x128 .f32
  WR0 : Vec Ideal S128x128 .f32
  B0 : Vec Ideal S128 .f32
  W1 : Vec Ideal S128x128 .f32
  C1 : Vec Ideal S128 .f32
  W2 : Vec Ideal S128x128 .f32
  C2 : Vec Ideal S128 .f32
  WL2 : Vec Ideal S128x128 .f32
  WR2 : Vec Ideal S128x128 .f32
  B2 : Vec Ideal S128 .f32
  WLF : Vec Ideal S128x40 .f32
  WRF : Vec Ideal S128x40 .f32
  BF : Vec Ideal S40 .f32
  GA : Vec Ideal S3x128 .f32
  BE : Vec Ideal S3x128 .f32

variable (a : KArgs)

def tSrcRaw := srcRaw (F := Ideal) a.E
def tDst := dstIx (F := Ideal) a.E
def tInvDeg := invDeg (F := Ideal) (tDst a)
def tAgg0 : Vec Ideal S100000x128 .f32 := meanAggK (F := Ideal) (srcIx a.E) (tDst a) a.X
def tPre0 : Vec Ideal S100000x128 .f32 := sagePre (tAgg0 a) a.X a.WL0 a.WR0 (asRow128 (F := Ideal) a.B0)
/-- Batch normalisation, then the maximum with zero, with the statistics taken from the array itself. -/
def bnK (pre : Vec Ideal S100000x128 .f32) (g b : Vec Ideal S128 .f32) : Vec Ideal S100000x128 .f32 :=
  normRelu pre (meanRowK (F := Ideal) (colSumRow pre)) (varRowK (F := Ideal) (colSqSumRow pre) (colSumRow pre)) (asRow128 (F := Ideal) g) (asRow128 (F := Ideal) b)
def bnResK (pre : Vec Ideal S100000x128 .f32) (g b : Vec Ideal S128 .f32) (res : Vec Ideal S100000x128 .f32) : Vec Ideal S100000x128 .f32 :=
  normReluRes pre (meanRowK (F := Ideal) (colSumRow pre)) (varRowK (F := Ideal) (colSqSumRow pre) (colSumRow pre)) (asRow128 (F := Ideal) g) (asRow128 (F := Ideal) b) res
def tH0 : Vec Ideal S100000x128 .f32 := bnK (tPre0 a) (bnRow0 (F := Ideal) a.GA) (bnRow0 (F := Ideal) a.BE)
def tG1 : Vec Ideal S100000x128 .f32 := sumAgg (F := Ideal) (fixNeg (tSrcRaw a)) (tDst a) (tH0 a)
def tPre1 : Vec Ideal S100000x128 .f32 := ginPre (tH0 a) (tG1 a) a.W1 (asRow128 (F := Ideal) a.C1) a.W2 (asRow128 (F := Ideal) a.C2)
def tH1 : Vec Ideal S100000x128 .f32 := bnResK (tPre1 a) (bnRow1 (F := Ideal) a.GA) (bnRow1 (F := Ideal) a.BE) (tH0 a)
def tAgg2 : Vec Ideal S100000x128 .f32 := scaleRows (F := Ideal) (sumAgg (F := Ideal) (fixNeg (tSrcRaw a)) (tDst a) (tH1 a)) (tInvDeg a)
def tPre2 : Vec Ideal S100000x128 .f32 := sagePre (tAgg2 a) (tH1 a) a.WL2 a.WR2 (asRow128 (F := Ideal) a.B2)
def tH2 : Vec Ideal S100000x128 .f32 := bnResK (tPre2 a) (bnRow2 (F := Ideal) a.GA) (bnRow2 (F := Ideal) a.BE) (tH1 a)
def tAggF : Vec Ideal S100000x128 .f32 := scaleRows (F := Ideal) (sumAgg (F := Ideal) (fixNeg (tSrcRaw a)) (tDst a) (tH2 a)) (tInvDeg a)
def tOut : Vec Ideal S100000x40 .f32 := finalArr (tAggF a) (tH2 a) a.WLF a.WRF (asRow40 (F := Ideal) a.BF)

end Cert.KernelIdeal.Gen
-- ==== Proof.KI.KVal.lean ====
/- The kernel program's result array as one term of the launch memory: the boundary contents unfolded buffer by buffer — a host
   stretch's outputs by its operations' composed term, a region's outputs by the arrays its write-backs leave, everything else
   kept — down to the argument arrays. -/
import proofs.«167498_j75179107549620_1_alg».proof.Proof.KI.Run
import proofs.«167498_j75179107549620_1_alg».proof.Proof.KI.Stats0Arr
import proofs.«167498_j75179107549620_1_alg».proof.Proof.KI.Stats2Arr
import proofs.«167498_j75179107549620_1_alg».proof.Proof.KI.Stats4Arr
import proofs.«167498_j75179107549620_1_alg».proof.Proof.KI.NormValue
import proofs.«167498_j75179107549620_1_alg».proof.Proof.KI.FinalValue
import proofs.«167498_j75179107549620_1_alg».proof.Proof.KI.HostVals
import proofs.«167498_j75179107549620_1_alg».proof.Proof.KI.KTerms

set_option maxRecDepth 16384

noncomputable section

namespace Cert.KernelIdeal.Gen

open Idealize.ShloMosaic Idealize.ShloMosaic.TcCoe Idealize.SL.Sem Idealize.ShloMosaic.StableHlo
open Idealize.ShloMosaic.Pipeline (Dat)
open Cert.ReferenceIdeal.RefRun (srcRaw dstIx fixNeg srcIx sumAgg degCol bnRow0 bnRow1 bnRow2)

section KVal
variable (m : (ℓ : Loc nD τ sig) → Buf (Elt Ideal) ℓ) (ρ : Dev nD → PrngReg) (c : Dev nD)

/-! ## A region keeps an array it only reads -/
theorem reg0_keep_in (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1r m ρ) c).arrAt_in w hw _).trans (A_eq0 (V1r m ρ) c w))
theorem reg1_keep_in (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3r m ρ) c).arrAt_in w hw _).trans (A_eq1 (V3r m ρ) c w))
theorem reg2_keep_in (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5r m ρ) c).arrAt_in w hw _).trans (A_eq2 (V5r m ρ) c w))
theorem reg3_keep_in (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7r m ρ) c).arrAt_in w hw _).trans (A_eq3 (V7r m ρ) c w))
theorem reg4_keep_in (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9r m ρ) c).arrAt_in w hw _).trans (A_eq4 (V9r m ρ) c w))
theorem reg5_keep_in (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11r m ρ) c).arrAt_in w hw _).trans (A_eq5 (V11r m ρ) c w))
theorem reg6_keep_in (w : Fin cfg6.W) (hw : (cfg6.win w).isOut = false) :
    W14 m ρ c (Proc.devRef .tc (Pipeline.arrRef spec6 w)) = W13 m ρ c (Proc.devRef .tc (Pipeline.arrRef spec6 w)) :=
  (W14_arr m ρ c w).trans (((dat6 (V13r m ρ) c).arrAt_in w hw _).trans (A_eq6 (V13r m ρ) c w))

/-! ## The argument arrays as the launch memory holds them -/

def kArgs : KArgs where
  X := m ((c.tc : Thread nD τ).loc main_arg0)
  E := m ((c.tc : Thread nD τ).loc main_arg1)
  WL0 := m ((c.tc : Thread nD τ).loc main_arg2)
  WR0 := m ((c.tc : Thread nD τ).loc main_arg3)
  B0 := m ((c.tc : Thread nD τ).loc main_arg4)
  W1 := m ((c.tc : Thread nD τ).loc main_arg5)
  C1 := m ((c.tc : Thread nD τ).loc main_arg6)
  W2 := m ((c.tc : Thread nD τ).loc main_arg7)
  C2 := m ((c.tc : Thread nD τ).loc main_arg8)
  WL2 := m ((c.tc : Thread nD τ).loc main_arg9)
  WR2 := m ((c.tc : Thread nD τ).loc main_arg10)
  B2 := m ((c.tc : Thread nD τ).loc main_arg11)
  WLF := m ((c.tc : Thread nD τ).loc main_arg12)
  WRF := m ((c.tc : Thread nD τ).loc main_arg13)
  BF := m ((c.tc : Thread nD τ).loc main_arg14)
  GA := m ((c.tc : Thread nD τ).loc main_arg15)
  BE := m ((c.tc : Thread nD τ).loc main_arg16)

/-! ## The boundary contents, buffer by buffer -/
theorem B0_arg0 : W0 m ρ c (Proc.devRef .tc main_arg0) = (kArgs m c).X :=
  rfl
theorem B0_arg1 : W0 m ρ c (Proc.devRef .tc main_arg1) = (kArgs m c).E :=
  rfl
theorem B0_arg4 : W0 m ρ c (Proc.devRef .tc main_arg4) = (kArgs m c).B0 :=
  rfl
theorem B1_arg0 : W1 m ρ c (Proc.devRef .tc main_arg0) = (kArgs m c).X :=
  (StableHlo.after_of_writes_sub hostOps0 _ hostOps0_writes (by decide : main_arg0 ∉ hostOps0_W)).trans <| rfl
theorem B1_arg2 : W1 m ρ c (Proc.devRef .tc main_arg2) = (kArgs m c).WL0 :=
  (StableHlo.after_of_writes_sub hostOps0 _ hostOps0_writes (by decide : main_arg2 ∉ hostOps0_W)).trans <| rfl
theorem B1_arg3 : W1 m ρ c (Proc.devRef .tc main_arg3) = (kArgs m c).WR0 :=
  (StableHlo.after_of_writes_sub hostOps0 _ hostOps0_writes (by decide : main_arg3 ∉ hostOps0_W)).trans <| rfl
theorem B2_arg15 : W2 m ρ c (Proc.devRef .tc main_arg15) = (kArgs m c).GA :=
  (W2_of_ne m ρ c main_arg15 (by decide)).trans <| (StableHlo.after_of_writes_sub hostOps0 _ hostOps0_writes (by decide : main_arg15 ∉ hostOps0_W)).trans <| rfl
theorem B2_arg16 : W2 m ρ c (Proc.devRef .tc main_arg16) = (kArgs m c).BE :=
  (W2_of_ne m ρ c main_arg16 (by decide)).trans <| (StableHlo.after_of_writes_sub hostOps0 _ hostOps0_writes (by decide : main_arg16 ∉ hostOps0_W)).trans <| rfl
theorem B4_arg6 : W4 m ρ c (Proc.devRef .tc main_arg6) = (kArgs m c).C1 :=
  (W4_of_ne m ρ c main_arg6 (by decide)).trans <| (StableHlo.after_of_writes_sub hostOps1 _ hostOps1_writes (by decide : main_arg6 ∉ hostOps1_W)).trans <| (W2_of_ne m ρ c main_arg6 (by decide)).trans <| (StableHlo.after_of_writes_sub hostOps0 _ hostOps0_writes (by decide : main_arg6 ∉ hostOps0_W)).trans <| rfl
theorem B4_arg8 : W4 m ρ c (Proc.devRef .tc main_arg8) = (kArgs m c).C2 :=
  (W4_of_ne m ρ c main_arg8 (by decide)).trans <| (StableHlo.after_of_writes_sub hostOps1 _ hostOps1_writes (by decide : main_arg8 ∉ hostOps1_W)).trans <| (W2_of_ne m ρ c main_arg8 (by decide)).trans <| (StableHlo.after_of_writes_sub hostOps0 _ hostOps0_writes (by decide : main_arg8 ∉ hostOps0_W)).trans <| rfl
theorem B5_arg5 : W5 m ρ c (Proc.devRef .tc main_arg5) = (kArgs m c).W1 :=
  (StableHlo.after_of_writes_sub hostOps2 _ hostOps2_writes (by decide : main_arg5 ∉ hostOps2_W)).trans <| (W4_of_ne m ρ c main_arg5 (by decide)).trans <| (StableHlo.after_of_writes_sub hostOps1 _ hostOps1_writes (by decide : main_arg5 ∉ hostOps1_W)).trans <| (W2_of_ne m ρ c main_arg5 (by decide)).trans <| (StableHlo.after_of_writes_sub hostOps0 _ hostOps0_writes (by decide : main_arg5 ∉ hostOps0_W)).trans <| rfl
theorem B5_arg7 : W5 m ρ c (Proc.devRef .tc main_arg7) = (kArgs m c).W2 :=
  (StableHlo.after_of_writes_sub hostOps2 _ hostOps2_writes (by decide : main_arg7 ∉ hostOps2_W)).trans <| (W4_of_ne m ρ c main_arg7 (by decide)).trans <| (StableHlo.after_of_writes_sub hostOps1 _ hostOps1_writes (by decide : main_arg7 ∉ hostOps1_W)).trans <| (W2_of_ne m ρ c main_arg7 (by decide)).trans <| (StableHlo.after_of_writes_sub hostOps0 _ hostOps0_writes (by decide : main_arg7 ∉ hostOps0_W)).trans <| rfl
theorem B6_arg15 : W6 m ρ c (Proc.devRef .tc main_arg15) = (kArgs m c).GA :=
  (W6_of_ne m ρ c main_arg15 (by decide)).trans <| (StableHlo.after_of_writes_sub hostOps2 _ hostOps2_writes (by decide : main_arg15 ∉ hostOps2_W)).trans <| (W4_of_ne m ρ c main_arg15 (by decide)).trans <| (StableHlo.after_of_writes_sub hostOps1 _ hostOps1_writes (by decide : main_arg15 ∉ hostOps1_W)).trans <| (W2_of_ne m ρ c main_arg15 (by decide)).trans <| (StableHlo.after_of_writes_sub hostOps0 _ hostOps0_writes (by decide : main_arg15 ∉ hostOps0_W)).trans <| rfl
theorem B6_arg16 : W6 m ρ c (Proc.devRef .tc main_arg16) = (kArgs m c).BE :=
  (W6_of_ne m ρ c main_arg16 (by decide)).trans <| (StableHlo.after_of_writes_sub hostOps2 _ hostOps2_writes (by decide : main_arg16 ∉ hostOps2_W)).trans <| (W4_of_ne m ρ c main_arg16 (by decide)).trans <| (StableHlo.after_of_writes_sub hostOps1 _ hostOps1_writes (by decide : main_arg16 ∉ hostOps1_W)).trans <| (W2_of_ne m ρ c main_arg16 (by decide)).trans <| (StableHlo.after_of_writes_sub hostOps0 _ hostOps0_writes (by decide : main_arg16 ∉ hostOps0_W)).trans <| rfl
theorem B8_arg11 : W8 m ρ c (Proc.devRef .tc main_arg11) = (kArgs m c).B2 :=
  (W8_of_ne m ρ c main_arg11 (by decide)).trans <| (StableHlo.after_of_writes_sub hostOps3 _ hostOps3_writes (by decide : main_arg11 ∉ hostOps3_W)).trans <| (W6_of_ne m ρ c main_arg11 (by decide)).trans <| (StableHlo.after_of_writes_sub hostOps2 _ hostOps2_writes (by decide : main_arg11 ∉ hostOps2_W)).trans <| (W4_of_ne m ρ c main_arg11 (by decide)).trans <| (StableHlo.after_of_writes_sub hostOps1 _ hostOps1_writes (by decide : main_arg11 ∉ hostOps1_W)).trans <| (W2_of_ne m ρ c main_arg11 (by decide)).trans <| (StableHlo.after_of_writes_sub hostOps0 _ hostOps0_writes (by decide : main_arg11 ∉ hostOps0_W)).trans <| rfl
theorem B9_arg9 : W9 m ρ c (Proc.devRef .tc main_arg9) = (kArgs m c).WL2 :=
  (StableHlo.after_of_writes_sub hostOps4 _ hostOps4_writes (by decide : main_arg9 ∉ hostOps4_W)).trans <| (W8_of_ne m ρ c main_arg9 (by decide)).trans <| (StableHlo.after_of_writes_sub hostOps3 _ hostOps3_writes (by decide : main_arg9 ∉ hostOps3_W)).trans <| (W6_of_ne m ρ c main_arg9 (by decide)).trans <| (StableHlo.after_of_writes_sub hostOps2 _ hostOps2_writes (by decide : main_arg9 ∉ hostOps2_W)).trans <| (W4_of_ne m ρ c main_arg9 (by decide)).trans <| (StableHlo.after_of_writes_sub hostOps1 _ hostOps1_writes (by decide : main_arg9 ∉ hostOps1_W)).trans <| (W2_of_ne m ρ c main_arg9 (by decide)).trans <| (StableHlo.after_of_writes_sub hostOps0 _ hostOps0_writes (by decide : main_arg9 ∉ hostOps0_W)).trans <| rfl
theorem B9_arg10 : W9 m ρ c (Proc.devRef .tc main_arg10) = (kArgs m c).WR2 :=
  (StableHlo.after_of_writes_sub hostOps4 _ hostOps4_writes (by decide : main_arg10 ∉ hostOps4_W)).trans <| (W8_of_ne m ρ c main_arg10 (by decide)).trans <| (StableHlo.after_of_writes_sub hostOps3 _ hostOps3_writes (by decide : main_arg10 ∉ hostOps3_W)).trans <| (W6_of_ne m ρ c main_arg10 (by decide)).trans <| (StableHlo.after_of_writes_sub hostOps2 _ hostOps2_writes (by decide : main_arg10 ∉ hostOps2_W)).trans <| (W4_of_ne m ρ c main_arg10 (by decide)).trans <| (StableHlo.after_of_writes_sub hostOps1 _ hostOps1_writes (by decide : main_arg10 ∉ hostOps1_W)).trans <| (W2_of_ne m ρ c main_arg10 (by decide)).trans <| (StableHlo.after_of_writes_sub hostOps0 _ hostOps0_writes (by decide : main_arg10 ∉ hostOps0_W)).trans <| rfl
theorem B10_arg15 : W10 m ρ c (Proc.devRef .tc main_arg15) = (kArgs m c).GA :=
  (W10_of_ne m ρ c main_arg15 (by decide)).trans <| (StableHlo.after_of_writes_sub hostOps4 _ hostOps4_writes (by decide : main_arg15 ∉ hostOps4_W)).trans <| (W8_of_ne m ρ c main_arg15 (by decide)).trans <| (StableHlo.after_of_writes_sub hostOps3 _ hostOps3_writes (by decide : main_arg15 ∉ hostOps3_W)).trans <| (W6_of_ne m ρ c main_arg15 (by decide)).trans <| (StableHlo.after_of_writes_sub hostOps2 _ hostOps2_writes (by decide : main_arg15 ∉ hostOps2_W)).trans <| (W4_of_ne m ρ c main_arg15 (by decide)).trans <| (StableHlo.after_of_writes_sub hostOps1 _ hostOps1_writes (by decide : main_arg15 ∉ hostOps1_W)).trans <| (W2_of_ne m ρ c main_arg15 (by decide)).trans <| (StableHlo.after_of_writes_sub hostOps0 _ hostOps0_writes (by decide : main_arg15 ∉ hostOps0_W)).trans <| rfl
theorem B10_arg16 : W10 m ρ c (Proc.devRef .tc main_arg16) = (kArgs m c).BE :=
  (W10_of_ne m ρ c main_arg16 (by decide)).trans <| (StableHlo.after_of_writes_sub hostOps4 _ hostOps4_writes (by decide : main_arg16 ∉ hostOps4_W)).trans <| (W8_of_ne m ρ c main_arg16 (by decide)).trans <| (StableHlo.after_of_writes_sub hostOps3 _ hostOps3_writes (by decide : main_arg16 ∉ hostOps3_W)).trans <| (W6_of_ne m ρ c main_arg16 (by decide)).trans <| (StableHlo.after_of_writes_sub hostOps2 _ hostOps2_writes (by decide : main_arg16 ∉ hostOps2_W)).trans <| (W4_of_ne m ρ c main_arg16 (by decide)).trans <| (StableHlo.after_of_writes_sub hostOps1 _ hostOps1_writes (by decide : main_arg16 ∉ hostOps1_W)).trans <| (W2_of_ne m ρ c main_arg16 (by decide)).trans <| (StableHlo.after_of_writes_sub hostOps0 _ hostOps0_writes (by decide : main_arg16 ∉ hostOps0_W)).trans <| rfl
theorem B12_arg14 : W12 m ρ c (Proc.devRef .tc main_arg14) = (kArgs m c).BF :=
  (W12_of_ne m ρ c main_arg14 (by decide)).trans <| (StableHlo.after_of_writes_sub hostOps5 _ hostOps5_writes (by decide : main_arg14 ∉ hostOps5_W)).trans <| (W10_of_ne m ρ c main_arg14 (by decide)).trans <| (StableHlo.after_of_writes_sub hostOps4 _ hostOps4_writes (by decide : main_arg14 ∉ hostOps4_W)).trans <| (W8_of_ne m ρ c main_arg14 (by decide)).trans <| (StableHlo.after_of_writes_sub hostOps3 _ hostOps3_writes (by decide : main_arg14 ∉ hostOps3_W)).trans <| (W6_of_ne m ρ c main_arg14 (by decide)).trans <| (StableHlo.after_of_writes_sub hostOps2 _ hostOps2_writes (by decide : main_arg14 ∉ hostOps2_W)).trans <| (W4_of_ne m ρ c main_arg14 (by decide)).trans <| (StableHlo.after_of_writes_sub hostOps1 _ hostOps1_writes (by decide : main_arg14 ∉ hostOps1_W)).trans <| (W2_of_ne m ρ c main_arg14 (by decide)).trans <| (StableHlo.after_of_writes_sub hostOps0 _ hostOps0_writes (by decide : main_arg14 ∉ hostOps0_W)).trans <| rfl
theorem B13_arg12 : W13 m ρ c (Proc.devRef .tc main_arg12) = (kArgs m c).WLF :=
  (StableHlo.after_of_writes_sub hostOps6 _ hostOps6_writes (by decide : main_arg12 ∉ hostOps6_W)).trans <| (W12_of_ne m ρ c main_arg12 (by decide)).trans <| (StableHlo.after_of_writes_sub hostOps5 _ hostOps5_writes (by decide : main_arg12 ∉ hostOps5_W)).trans <| (W10_of_ne m ρ c main_arg12 (by decide)).trans <| (StableHlo.after_of_writes_sub hostOps4 _ hostOps4_writes (by decide : main_arg12 ∉ hostOps4_W)).trans <| (W8_of_ne m ρ c main_arg12 (by decide)).trans <| (StableHlo.after_of_writes_sub hostOps3 _ hostOps3_writes (by decide : main_arg12 ∉ hostOps3_W)).trans <| (W6_of_ne m ρ c main_arg12 (by decide)).trans <| (StableHlo.after_of_writes_sub hostOps2 _ hostOps2_writes (by decide : main_arg12 ∉ hostOps2_W)).trans <| (W4_of_ne m ρ c main_arg12 (by decide)).trans <| (StableHlo.after_of_writes_sub hostOps1 _ hostOps1_writes (by decide : main_arg12 ∉ hostOps1_W)).trans <| (W2_of_ne m ρ c main_arg12 (by decide)).trans <| (StableHlo.after_of_writes_sub hostOps0 _ hostOps0_writes (by decide : main_arg12 ∉ hostOps0_W)).trans <| rfl
theorem B13_arg13 : W13 m ρ c (Proc.devRef .tc main_arg13) = (kArgs m c).WRF :=
  (StableHlo.after_of_writes_sub hostOps6 _ hostOps6_writes (by decide : main_arg13 ∉ hostOps6_W)).trans <| (W12_of_ne m ρ c main_arg13 (by decide)).trans <| (StableHlo.after_of_writes_sub hostOps5 _ hostOps5_writes (by decide : main_arg13 ∉ hostOps5_W)).trans <| (W10_of_ne m ρ c main_arg13 (by decide)).trans <| (StableHlo.after_of_writes_sub hostOps4 _ hostOps4_writes (by decide : main_arg13 ∉ hostOps4_W)).trans <| (W8_of_ne m ρ c main_arg13 (by decide)).trans <| (StableHlo.after_of_writes_sub hostOps3 _ hostOps3_writes (by decide : main_arg13 ∉ hostOps3_W)).trans <| (W6_of_ne m ρ c main_arg13 (by decide)).trans <| (StableHlo.after_of_writes_sub hostOps2 _ hostOps2_writes (by decide : main_arg13 ∉ hostOps2_W)).trans <| (W4_of_ne m ρ c main_arg13 (by decide)).trans <| (StableHlo.after_of_writes_sub hostOps1 _ hostOps1_writes (by decide : main_arg13 ∉ hostOps1_W)).trans <| (W2_of_ne m ρ c main_arg13 (by decide)).trans <| (StableHlo.after_of_writes_sub hostOps0 _ hostOps0_writes (by decide : main_arg13 ∉ hostOps0_W)).trans <| rfl
theorem B1_v1 : W1 m ρ c (Proc.devRef .tc main_v1) = tSrcRaw (kArgs m c) :=
  (host0_v1 (W0 m ρ c)).trans (by rw [B0_arg1 m ρ c]; rfl)
theorem B1_v3 : W1 m ρ c (Proc.devRef .tc main_v3) = tDst (kArgs m c) :=
  (host0_v3 (W0 m ρ c)).trans (by rw [B0_arg1 m ρ c]; rfl)
theorem B1_v11 : W1 m ρ c (Proc.devRef .tc main_v11) = tInvDeg (kArgs m c) :=
  (host0_v11 (W0 m ρ c)).trans (by rw [B0_arg1 m ρ c]; rfl)
theorem B1_v23 : W1 m ρ c (Proc.devRef .tc main_v23) = tAgg0 (kArgs m c) :=
  (host0_v23 (W0 m ρ c)).trans (by rw [B0_arg1 m ρ c, B0_arg0 m ρ c]; rfl)
theorem B1_v24 : W1 m ρ c (Proc.devRef .tc main_v24) = asRow128 ((kArgs m c).B0) :=
  (host0_v24 (W0 m ρ c)).trans (by rw [B0_arg4 m ρ c]; first | rfl | done)
theorem B2_v25_0 : W2 m ρ c (Proc.devRef .tc main_v25_0) = tPre0 (kArgs m c) :=
  (W2_arr m ρ c 5).trans ((arrAt0_pre (V1r m ρ) c).trans (by
    have e0 : (V1r m ρ c main_v23) = _ := B1_v23 m ρ c
    have e1 : (V1r m ρ c main_arg0) = _ := B1_arg0 m ρ c
    have e2 : (V1r m ρ c main_arg2) = _ := B1_arg2 m ρ c
    have e3 : (V1r m ρ c main_arg3) = _ := B1_arg3 m ρ c
    have e4 : (V1r m ρ c main_v24) = _ := B1_v24 m ρ c
    rw [e0, e1, e2, e3, e4]; first | rfl | done))
theorem B2_v25_1 : W2 m ρ c (Proc.devRef .tc main_v25_1) = colSumRow (tPre0 (kArgs m c)) :=
  (W2_arr m ρ c 6).trans ((arrAt0_sum (V1r m ρ) c).trans (by
    have e0 : (V1r m ρ c main_v23) = _ := B1_v23 m ρ c
    have e1 : (V1r m ρ c main_arg0) = _ := B1_arg0 m ρ c
    have e2 : (V1r m ρ c main_arg2) = _ := B1_arg2 m ρ c
    have e3 : (V1r m ρ c main_arg3) = _ := B1_arg3 m ρ c
    have e4 : (V1r m ρ c main_v24) = _ := B1_v24 m ρ c
    rw [e0, e1, e2, e3, e4]; first | rfl | done))
theorem B2_v25_2 : W2 m ρ c (Proc.devRef .tc main_v25_2) = colSqSumRow (tPre0 (kArgs m c)) :=
  (W2_arr m ρ c 7).trans ((arrAt0_sq (V1r m ρ) c).trans (by
    have e0 : (V1r m ρ c main_v23) = _ := B1_v23 m ρ c
    have e1 : (V1r m ρ c main_arg0) = _ := B1_arg0 m ρ c
    have e2 : (V1r m ρ c main_arg2) = _ := B1_arg2 m ρ c
    have e3 : (V1r m ρ c main_arg3) = _ := B1_arg3 m ρ c
    have e4 : (V1r m ρ c main_v24) = _ := B1_v24 m ρ c
    rw [e0, e1, e2, e3, e4]; first | rfl | done))
theorem B3_v27 : W3 m ρ c (Proc.devRef .tc main_v27) = meanRowK (colSumRow (tPre0 (kArgs m c))) :=
  (host1_v27 (W2 m ρ c)).trans (by rw [B2_v25_1 m ρ c]; first | rfl | done)
theorem B3_v31 : W3 m ρ c (Proc.devRef .tc main_v31) = varRowK (colSqSumRow (tPre0 (kArgs m c))) (colSumRow (tPre0 (kArgs m c))) :=
  (host1_v31 (W2 m ρ c)).trans (by rw [B2_v25_2 m ρ c, B2_v25_1 m ρ c]; first | rfl | done)
theorem B3_v36 : W3 m ρ c (Proc.devRef .tc main_v36) = asRow128 (bnRow0 ((kArgs m c).GA)) :=
  (host1_v36 (W2 m ρ c)).trans (by rw [B2_arg15 m ρ c]; first | rfl | done)
theorem B3_v37 : W3 m ρ c (Proc.devRef .tc main_v37) = asRow128 (bnRow0 ((kArgs m c).BE)) :=
  (host1_v37 (W2 m ρ c)).trans (by rw [B2_arg16 m ρ c]; first | rfl | done)
theorem B3_v25_0 : W3 m ρ c (Proc.devRef .tc main_v25_0) = tPre0 (kArgs m c) :=
  (StableHlo.after_of_writes_sub hostOps1 _ hostOps1_writes (by decide : main_v25_0 ∉ hostOps1_W)).trans <| B2_v25_0 m ρ c
theorem B4_v38 : W4 m ρ c (Proc.devRef .tc main_v38) = tH0 (kArgs m c) :=
  (W4_arr m ρ c 5).trans ((arrAt1_out (V3r m ρ) c).trans (by
    have e0 : (V3r m ρ c main_v25_0) = _ := B3_v25_0 m ρ c
    have e1 : (V3r m ρ c main_v27) = _ := B3_v27 m ρ c
    have e2 : (V3r m ρ c main_v31) = _ := B3_v31 m ρ c
    have e3 : (V3r m ρ c main_v36) = _ := B3_v36 m ρ c
    have e4 : (V3r m ρ c main_v37) = _ := B3_v37 m ρ c
    rw [e0, e1, e2, e3, e4]; first | rfl | done))
theorem B4_v1 : W4 m ρ c (Proc.devRef .tc main_v1) = tSrcRaw (kArgs m c) :=
  (W4_of_ne m ρ c main_v1 (by decide)).trans <| (StableHlo.after_of_writes_sub hostOps1 _ hostOps1_writes (by decide : main_v1 ∉ hostOps1_W)).trans <| (W2_of_ne m ρ c main_v1 (by decide)).trans <| B1_v1 m ρ c
theorem B4_v3 : W4 m ρ c (Proc.devRef .tc main_v3) = tDst (kArgs m c) :=
  (W4_of_ne m ρ c main_v3 (by decide)).trans <| (StableHlo.after_of_writes_sub hostOps1 _ hostOps1_writes (by decide : main_v3 ∉ hostOps1_W)).trans <| (W2_of_ne m ρ c main_v3 (by decide)).trans <| B1_v3 m ρ c
theorem B5_v48 : W5 m ρ c (Proc.devRef .tc main_v48) = tG1 (kArgs m c) :=
  (host2_v48 (W4 m ρ c)).trans (by rw [B4_v1 m ρ c, B4_v3 m ρ c, B4_v38 m ρ c]; first | rfl | done)
theorem B5_v49 : W5 m ρ c (Proc.devRef .tc main_v49) = asRow128 ((kArgs m c).C1) :=
  (host2_v49 (W4 m ρ c)).trans (by rw [B4_arg6 m ρ c]; first | rfl | done)
theorem B5_v50 : W5 m ρ c (Proc.devRef .tc main_v50) = asRow128 ((kArgs m c).C2) :=
  (host2_v50 (W4 m ρ c)).trans (by rw [B4_arg8 m ρ c]; first | rfl | done)
theorem B5_v38 : W5 m ρ c (Proc.devRef .tc main_v38) = tH0 (kArgs m c) :=
  (StableHlo.after_of_writes_sub hostOps2 _ hostOps2_writes (by decide : main_v38 ∉ hostOps2_W)).trans <| B4_v38 m ρ c
theorem B6_v51_0 : W6 m ρ c (Proc.devRef .tc main_v51_0) = tPre1 (kArgs m c) :=
  (W6_arr m ρ c 6).trans ((arrAt2_pre (V5r m ρ) c).trans (by
    have e0 : (V5r m ρ c main_v38) = _ := B5_v38 m ρ c
    have e1 : (V5r m ρ c main_v48) = _ := B5_v48 m ρ c
    have e2 : (V5r m ρ c main_arg5) = _ := B5_arg5 m ρ c
    have e3 : (V5r m ρ c main_v49) = _ := B5_v49 m ρ c
    have e4 : (V5r m ρ c main_arg7) = _ := B5_arg7 m ρ c
    have e5 : (V5r m ρ c main_v50) = _ := B5_v50 m ρ c
    rw [e0, e1, e2, e3, e4, e5]; first | rfl | done))
theorem B6_v51_1 : W6 m ρ c (Proc.devRef .tc main_v51_1) = colSumRow (tPre1 (kArgs m c)) :=
  (W6_arr m ρ c 7).trans ((arrAt2_sum (V5r m ρ) c).trans (by
    have e0 : (V5r m ρ c main_v38) = _ := B5_v38 m ρ c
    have e1 : (V5r m ρ c main_v48) = _ := B5_v48 m ρ c
    have e2 : (V5r m ρ c main_arg5) = _ := B5_arg5 m ρ c
    have e3 : (V5r m ρ c main_v49) = _ := B5_v49 m ρ c
    have e4 : (V5r m ρ c main_arg7) = _ := B5_arg7 m ρ c
    have e5 : (V5r m ρ c main_v50) = _ := B5_v50 m ρ c
    rw [e0, e1, e2, e3, e4, e5]; first | rfl | done))
theorem B6_v51_2 : W6 m ρ c (Proc.devRef .tc main_v51_2) = colSqSumRow (tPre1 (kArgs m c)) :=
  (W6_arr m ρ c 8).trans ((arrAt2_sq (V5r m ρ) c).trans (by
    have e0 : (V5r m ρ c main_v38) = _ := B5_v38 m ρ c
    have e1 : (V5r m ρ c main_v48) = _ := B5_v48 m ρ c
    have e2 : (V5r m ρ c main_arg5) = _ := B5_arg5 m ρ c
    have e3 : (V5r m ρ c main_v49) = _ := B5_v49 m ρ c
    have e4 : (V5r m ρ c main_arg7) = _ := B5_arg7 m ρ c
    have e5 : (V5r m ρ c main_v50) = _ := B5_v50 m ρ c
    rw [e0, e1, e2, e3, e4, e5]; first | rfl | done))
theorem B7_v53 : W7 m ρ c (Proc.devRef .tc main_v53) = meanRowK (colSumRow (tPre1 (kArgs m c))) :=
  (host3_v53 (W6 m ρ c)).trans (by rw [B6_v51_1 m ρ c]; first | rfl | done)
theorem B7_v57 : W7 m ρ c (Proc.devRef .tc main_v57) = varRowK (colSqSumRow (tPre1 (kArgs m c))) (colSumRow (tPre1 (kArgs m c))) :=
  (host3_v57 (W6 m ρ c)).trans (by rw [B6_v51_2 m ρ c, B6_v51_1 m ρ c]; first | rfl | done)
theorem B7_v62 : W7 m ρ c (Proc.devRef .tc main_v62) = asRow128 (bnRow1 ((kArgs m c).GA)) :=
  (host3_v62 (W6 m ρ c)).trans (by rw [B6_arg15 m ρ c]; first | rfl | done)
theorem B7_v63 : W7 m ρ c (Proc.devRef .tc main_v63) = asRow128 (bnRow1 ((kArgs m c).BE)) :=
  (host3_v63 (W6 m ρ c)).trans (by rw [B6_arg16 m ρ c]; first | rfl | done)
theorem B7_v51_0 : W7 m ρ c (Proc.devRef .tc main_v51_0) = tPre1 (kArgs m c) :=
  (StableHlo.after_of_writes_sub hostOps3 _ hostOps3_writes (by decide : main_v51_0 ∉ hostOps3_W)).trans <| B6_v51_0 m ρ c
theorem B7_v38 : W7 m ρ c (Proc.devRef .tc main_v38) = tH0 (kArgs m c) :=
  (StableHlo.after_of_writes_sub hostOps3 _ hostOps3_writes (by decide : main_v38 ∉ hostOps3_W)).trans <| (reg2_keep_in m ρ c 0 rfl).trans <| B5_v38 m ρ c
theorem B8_v64 : W8 m ρ c (Proc.devRef .tc main_v64) = tH1 (kArgs m c) :=
  (W8_arr m ρ c 6).trans ((arrAt3_out (V7r m ρ) c).trans (by
    have e0 : (V7r m ρ c main_v51_0) = _ := B7_v51_0 m ρ c
    have e1 : (V7r m ρ c main_v53) = _ := B7_v53 m ρ c
    have e2 : (V7r m ρ c main_v57) = _ := B7_v57 m ρ c
    have e3 : (V7r m ρ c main_v62) = _ := B7_v62 m ρ c
    have e4 : (V7r m ρ c main_v63) = _ := B7_v63 m ρ c
    have e5 : (V7r m ρ c main_v38) = _ := B7_v38 m ρ c
    rw [e0, e1, e2, e3, e4, e5]; first | rfl | done))
theorem B8_v1 : W8 m ρ c (Proc.devRef .tc main_v1) = tSrcRaw (kArgs m c) :=
  (W8_of_ne m ρ c main_v1 (by decide)).trans <| (StableHlo.after_of_writes_sub hostOps3 _ hostOps3_writes (by decide : main_v1 ∉ hostOps3_W)).trans <| (W6_of_ne m ρ c main_v1 (by decide)).trans <| (StableHlo.after_of_writes_sub hostOps2 _ hostOps2_writes (by decide : main_v1 ∉ hostOps2_W)).trans <| B4_v1 m ρ c
theorem B8_v3 : W8 m ρ c (Proc.devRef .tc main_v3) = tDst (kArgs m c) :=
  (W8_of_ne m ρ c main_v3 (by decide)).trans <| (StableHlo.after_of_writes_sub hostOps3 _ hostOps3_writes (by decide : main_v3 ∉ hostOps3_W)).trans <| (W6_of_ne m ρ c main_v3 (by decide)).trans <| (StableHlo.after_of_writes_sub hostOps2 _ hostOps2_writes (by decide : main_v3 ∉ hostOps2_W)).trans <| B4_v3 m ρ c
theorem B8_v11 : W8 m ρ c (Proc.devRef .tc main_v11) = tInvDeg (kArgs m c) :=
  (W8_of_ne m ρ c main_v11 (by decide)).trans <| (StableHlo.after_of_writes_sub hostOps3 _ hostOps3_writes (by decide : main_v11 ∉ hostOps3_W)).trans <| (W6_of_ne m ρ c main_v11 (by decide)).trans <| (StableHlo.after_of_writes_sub hostOps2 _ hostOps2_writes (by decide : main_v11 ∉ hostOps2_W)).trans <| (W4_of_ne m ρ c main_v11 (by decide)).trans <| (StableHlo.after_of_writes_sub hostOps1 _ hostOps1_writes (by decide : main_v11 ∉ hostOps1_W)).trans <| (W2_of_ne m ρ c main_v11 (by decide)).trans <| B1_v11 m ρ c
theorem B9_v76 : W9 m ρ c (Proc.devRef .tc main_v76) = tAgg2 (kArgs m c) :=
  (host4_v76 (W8 m ρ c)).trans (by rw [B8_v1 m ρ c, B8_v3 m ρ c, B8_v64 m ρ c, B8_v11 m ρ c]; first | rfl | done)
theorem B9_v77 : W9 m ρ c (Proc.devRef .tc main_v77) = asRow128 ((kArgs m c).B2) :=
  (host4_v77 (W8 m ρ c)).trans (by rw [B8_arg11 m ρ c]; first | rfl | done)
theorem B9_v64 : W9 m ρ c (Proc.devRef .tc main_v64) = tH1 (kArgs m c) :=
  (StableHlo.after_of_writes_sub hostOps4 _ hostOps4_writes (by decide : main_v64 ∉ hostOps4_W)).trans <| B8_v64 m ρ c
theorem B10_v78_0 : W10 m ρ c (Proc.devRef .tc main_v78_0) = tPre2 (kArgs m c) :=
  (W10_arr m ρ c 5).trans ((arrAt4_pre (V9r m ρ) c).trans (by
    have e0 : (V9r m ρ c main_v76) = _ := B9_v76 m ρ c
    have e1 : (V9r m ρ c main_v64) = _ := B9_v64 m ρ c
    have e2 : (V9r m ρ c main_arg9) = _ := B9_arg9 m ρ c
    have e3 : (V9r m ρ c main_arg10) = _ := B9_arg10 m ρ c
    have e4 : (V9r m ρ c main_v77) = _ := B9_v77 m ρ c
    rw [e0, e1, e2, e3, e4]; first | rfl | done))
theorem B10_v78_1 : W10 m ρ c (Proc.devRef .tc main_v78_1) = colSumRow (tPre2 (kArgs m c)) :=
  (W10_arr m ρ c 6).trans ((arrAt4_sum (V9r m ρ) c).trans (by
    have e0 : (V9r m ρ c main_v76) = _ := B9_v76 m ρ c
    have e1 : (V9r m ρ c main_v64) = _ := B9_v64 m ρ c
    have e2 : (V9r m ρ c main_arg9) = _ := B9_arg9 m ρ c
    have e3 : (V9r m ρ c main_arg10) = _ := B9_arg10 m ρ c
    have e4 : (V9r m ρ c main_v77) = _ := B9_v77 m ρ c
    rw [e0, e1, e2, e3, e4]; first | rfl | done))
theorem B10_v78_2 : W10 m ρ c (Proc.devRef .tc main_v78_2) = colSqSumRow (tPre2 (kArgs m c)) :=
  (W10_arr m ρ c 7).trans ((arrAt4_sq (V9r m ρ) c).trans (by
    have e0 : (V9r m ρ c main_v76) = _ := B9_v76 m ρ c
    have e1 : (V9r m ρ c main_v64) = _ := B9_v64 m ρ c
    have e2 : (V9r m ρ c main_arg9) = _ := B9_arg9 m ρ c
    have e3 : (V9r m ρ c main_arg10) = _ := B9_arg10 m ρ c
    have e4 : (V9r m ρ c main_v77) = _ := B9_v77 m ρ c
    rw [e0, e1, e2, e3, e4]; first | rfl | done))
theorem B11_v80 : W11 m ρ c (Proc.devRef .tc main_v80) = meanRowK (colSumRow (tPre2 (kArgs m c))) :=
  (host5_v80 (W10 m ρ c)).trans (by rw [B10_v78_1 m ρ c]; first | rfl | done)
theorem B11_v84 : W11 m ρ c (Proc.devRef .tc main_v84) = varRowK (colSqSumRow (tPre2 (kArgs m c))) (colSumRow (tPre2 (kArgs m c))) :=
  (host5_v84 (W10 m ρ c)).trans (by rw [B10_v78_2 m ρ c, B10_v78_1 m ρ c]; first | rfl | done)
theorem B11_v89 : W11 m ρ c (Proc.devRef .tc main_v89) = asRow128 (bnRow2 ((kArgs m c).GA)) :=
  (host5_v89 (W10 m ρ c)).trans (by rw [B10_arg15 m ρ c]; first | rfl | done)
theorem B11_v90 : W11 m ρ c (Proc.devRef .tc main_v90) = asRow128 (bnRow2 ((kArgs m c).BE)) :=
  (host5_v90 (W10 m ρ c)).trans (by rw [B10_arg16 m ρ c]; first | rfl | done)
theorem B11_v78_0 : W11 m ρ c (Proc.devRef .tc main_v78_0) = tPre2 (kArgs m c) :=
  (StableHlo.after_of_writes_sub hostOps5 _ hostOps5_writes (by decide : main_v78_0 ∉ hostOps5_W)).trans <| B10_v78_0 m ρ c
theorem B11_v64 : W11 m ρ c (Proc.devRef .tc main_v64) = tH1 (kArgs m c) :=
  (StableHlo.after_of_writes_sub hostOps5 _ hostOps5_writes (by decide : main_v64 ∉ hostOps5_W)).trans <| (reg4_keep_in m ρ c 1 rfl).trans <| B9_v64 m ρ c
theorem B12_v91 : W12 m ρ c (Proc.devRef .tc main_v91) = tH2 (kArgs m c) :=
  (W12_arr m ρ c 6).trans ((arrAt5_out (V11r m ρ) c).trans (by
    have e0 : (V11r m ρ c main_v78_0) = _ := B11_v78_0 m ρ c
    have e1 : (V11r m ρ c main_v80) = _ := B11_v80 m ρ c
    have e2 : (V11r m ρ c main_v84) = _ := B11_v84 m ρ c
    have e3 : (V11r m ρ c main_v89) = _ := B11_v89 m ρ c
    have e4 : (V11r m ρ c main_v90) = _ := B11_v90 m ρ c
    have e5 : (V11r m ρ c main_v64) = _ := B11_v64 m ρ c
    rw [e0, e1, e2, e3, e4, e5]; first | rfl | done))
theorem B12_v1 : W12 m ρ c (Proc.devRef .tc main_v1) = tSrcRaw (kArgs m c) :=
  (W12_of_ne m ρ c main_v1 (by decide)).trans <| (StableHlo.after_of_writes_sub hostOps5 _ hostOps5_writes (by decide : main_v1 ∉ hostOps5_W)).trans <| (W10_of_ne m ρ c main_v1 (by decide)).trans <| (StableHlo.after_of_writes_sub hostOps4 _ hostOps4_writes (by decide : main_v1 ∉ hostOps4_W)).trans <| B8_v1 m ρ c
theorem B12_v3 : W12 m ρ c (Proc.devRef .tc main_v3) = tDst (kArgs m c) :=
  (W12_of_ne m ρ c main_v3 (by decide)).trans <| (StableHlo.after_of_writes_sub hostOps5 _ hostOps5_writes (by decide : main_v3 ∉ hostOps5_W)).trans <| (W10_of_ne m ρ c main_v3 (by decide)).trans <| (StableHlo.after_of_writes_sub hostOps4 _ hostOps4_writes (by decide : main_v3 ∉ hostOps4_W)).trans <| B8_v3 m ρ c
theorem B12_v11 : W12 m ρ c (Proc.devRef .tc main_v11) = tInvDeg (kArgs m c) :=
  (W12_of_ne m ρ c main_v11 (by decide)).trans <| (StableHlo.after_of_writes_sub hostOps5 _ hostOps5_writes (by decide : main_v11 ∉ hostOps5_W)).trans <| (W10_of_ne m ρ c main_v11 (by decide)).trans <| (StableHlo.after_of_writes_sub hostOps4 _ hostOps4_writes (by decide : main_v11 ∉ hostOps4_W)).trans <| B8_v11 m ρ c
theorem B13_v103 : W13 m ρ c (Proc.devRef .tc main_v103) = tAggF (kArgs m c) :=
  (host6_v103 (W12 m ρ c)).trans (by rw [B12_v1 m ρ c, B12_v3 m ρ c, B12_v91 m ρ c, B12_v11 m ρ c]; first | rfl | done)
theorem B13_v104 : W13 m ρ c (Proc.devRef .tc main_v104) = asRow40 ((kArgs m c).BF) :=
  (host6_v104 (W12 m ρ c)).trans (by rw [B12_arg14 m ρ c]; first | rfl | done)
theorem B13_v91 : W13 m ρ c (Proc.devRef .tc main_v91) = tH2 (kArgs m c) :=
  (StableHlo.after_of_writes_sub hostOps6 _ hostOps6_writes (by decide : main_v91 ∉ hostOps6_W)).trans <| B12_v91 m ρ c
theorem B14_v105 : W14 m ρ c (Proc.devRef .tc main_v105) = tOut (kArgs m c) :=
  (W14_arr m ρ c 5).trans ((arrAt6_out (V13r m ρ) c).trans (by
    have e0 : (V13r m ρ c main_v103) = _ := B13_v103 m ρ c
    have e1 : (V13r m ρ c main_v91) = _ := B13_v91 m ρ c
    have e2 : (V13r m ρ c main_arg12) = _ := B13_arg12 m ρ c
    have e3 : (V13r m ρ c main_arg13) = _ := B13_arg13 m ρ c
    have e4 : (V13r m ρ c main_v104) = _ := B13_v104 m ρ c
    rw [e0, e1, e2, e3, e4]; first | rfl | done))

end KVal

/-- The kernel program's run with the result array as that term, the arguments unchanged. -/
theorem run_kOut (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v105) = tOut (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v105 (by decide))).trans (B14_v105 m ρ c),
    (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c),
    (h c _ (mem_uc main_arg9 (by decide))).trans (W14_main_arg9 m ρ c),
    (h c _ (mem_uc main_arg10 (by decide))).trans (W14_main_arg10 m ρ c),
    (h c _ (mem_uc main_arg11 (by decide))).trans (W14_main_arg11 m ρ c),
    (h c _ (mem_uc main_arg12 (by decide))).trans (W14_main_arg12 m ρ c),
    (h c _ (mem_uc main_arg13 (by decide))).trans (W14_main_arg13 m ρ c),
    (h c _ (mem_uc main_arg14 (by decide))).trans (W14_main_arg14 m ρ c),
    (h c _ (mem_uc main_arg15 (by decide))).trans (W14_main_arg15 m ρ c),
    (h c _ (mem_uc main_arg16 (by decide))).trans (W14_main_arg16 m ρ c)⟩) (run_all m ρ)

end Cert.KernelIdeal.Gen
-- ==== Proof.Spec.lean ====
/- The mathematics of the two programs over the extended reals, index by index, with no program in sight.
   A layer of the network is a matrix product with a bias row, a batch normalisation over the rows, a maximum with zero and
   possibly a residual. The two programs differ in three places only: the order in which a bias row and a second product are
   added (commutativity); a quotient by max(deg, 1) against a product with its reciprocal (equal because max(deg, 1) is a
   real number ≥ 1); and the variance as "mean of squares minus squared mean" against "mean of squared deviations" (equal
   when every entry is a real number). The last needs every intermediate array to be real-valued, so each layer is also
   shown to keep real entries real. -/
import Mathlib.Analysis.SpecialFunctions.Sqrt
import Mathlib.Data.EReal.Operations
import Mathlib.Algebra.BigOperators.Fin
import Mathlib.Tactic
import Idealize.ShloMosaic.PureOps.Ideal

noncomputable section

namespace Cert.GnnSpec

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- The coercion of a maximum of reals. -/
theorem coe_max (a b : ℝ) : ((max a b : ℝ) : EReal) = max (a : EReal) (b : EReal) :=
  EReal.coe_strictMono.monotone.map_max
theorem IsReal.emax {x y : EReal} (hx : IsReal x) (hy : IsReal y) : IsReal (Max.max x y) := by
  obtain ⟨a, rfl⟩ := hx; obtain ⟨b, rfl⟩ := hy; exact ⟨Max.max a b, (coe_max a b).symm⟩
theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x : EReal) {c : ℝ} (hc : c ≠ 0) : Ideal.div x (c : EReal) = x * ((1 / c : ℝ) : EReal) := Ideal.div_coe hc x
theorem IsReal.div {x : EReal} (hx : IsReal x) {c : ℝ} (hc : c ≠ 0) : IsReal (Ideal.div x (c : EReal)) := by
  rw [div_real x hc]; exact hx.mul (IsReal.coe _)
theorem div_coe_coe (a : ℝ) {c : ℝ} (hc : c ≠ 0) : Ideal.div (a : EReal) (c : EReal) = ((a / c : ℝ) : EReal) := by
  rw [div_real _ hc, ← EReal.coe_mul]; congr 1; field_simp

/-- The reciprocal square root of a positive real is a real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-! ## The neighbourhood mean: a quotient against a product with the reciprocal -/

section MeanAgg
variable {n d : ℕ}

/-- The summed neighbour rows times the reciprocal of max(deg, 1). -/
def meanAggK (s : Fin n → Fin d → EReal) (dg : Fin n → EReal) : Fin n → Fin d → EReal :=
  fun p j => s p j * Ideal.div 1 (max (dg p) 1)
/-- The summed neighbour rows divided by max(deg, 1). -/
def meanAggR (s : Fin n → Fin d → EReal) (dg : Fin n → EReal) : Fin n → Fin d → EReal :=
  fun p j => Ideal.div (s p j) (max (dg p) 1)

theorem meanAgg_eq (s : Fin n → Fin d → EReal) (dg : Fin n → EReal) (hd : ∀ p, IsReal (dg p)) :
    meanAggK s dg = meanAggR s dg := by
  funext p j
  obtain ⟨r, hr⟩ := hd p
  have hm : max (dg p) 1 = ((max r 1 : ℝ) : EReal) := by rw [hr, coe_max, EReal.coe_one]
  have hne : (max r 1 : ℝ) ≠ 0 := (lt_of_lt_of_le one_pos (le_max_right r 1)).ne'
  unfold meanAggK meanAggR
  rw [hm, div_real _ hne, div_real _ hne, one_mul]

theorem meanAggR_real (s : Fin n → Fin d → EReal) (dg : Fin n → EReal) (hs : ∀ p j, IsReal (s p j)) (hd : ∀ p, IsReal (dg p)) :
    ∀ p j, IsReal (meanAggR s dg p j) := by
  intro p j
  obtain ⟨r, hr⟩ := hd p
  have hm : max (dg p) 1 = ((max r 1 : ℝ) : EReal) := by rw [hr, coe_max, EReal.coe_one]
  have hne : (max r 1 : ℝ) ≠ 0 := (lt_of_lt_of_le one_pos (le_max_right r 1)).ne'
  unfold meanAggR; rw [hm]; exact (hs p j).div hne

end MeanAgg

/-! ## A layer's linear part: two matrix products and a bias row, in either order -/

section Linear
variable {n d e : ℕ}

def matmul (a : Fin n → Fin d → EReal) (w : Fin d → Fin e → EReal) : Fin n → Fin e → EReal :=
  fun p j => ∑ k : Fin d, a p k * w k j

theorem matmul_real (a : Fin n → Fin d → EReal) (w : Fin d → Fin e → EReal) (ha : ∀ p k, IsReal (a p k)) (hw : ∀ k j, IsReal (w k j)) :
    ∀ p j, IsReal (matmul a w p j) := fun p j => IsReal.sum _ _ fun k _ => (ha p k).mul (hw k j)

/-- (agg·Wl + x·Wr) + b. -/
def sageK (agg x : Fin n → Fin d → EReal) (wl wr : Fin d → Fin e → EReal) (b : Fin e → EReal) : Fin n → Fin e → EReal :=
  fun p j => (matmul agg wl p j + matmul x wr p j) + b j
/-- (agg·Wl + b) + x·Wr. -/
def sageR (agg x : Fin n → Fin d → EReal) (wl wr : Fin d → Fin e → EReal) (b : Fin e → EReal) : Fin n → Fin e → EReal :=
  fun p j => (matmul agg wl p j + b j) + matmul x wr p j

theorem sage_eq (agg x : Fin n → Fin d → EReal) (wl wr : Fin d → Fin e → EReal) (b : Fin e → EReal) :
    sageK agg x wl wr b = sageR agg x wl wr b := by
  funext p j; unfold sageK sageR; exact add_right_comm _ _ _

theorem sageR_real (agg x : Fin n → Fin d → EReal) (wl wr : Fin d → Fin e → EReal) (b : Fin e → EReal)
    (hagg : ∀ p k, IsReal (agg p k)) (hx : ∀ p k, IsReal (x p k)) (hwl : ∀ k j, IsReal (wl k j)) (hwr : ∀ k j, IsReal (wr k j))
    (hb : ∀ j, IsReal (b j)) : ∀ p j, IsReal (sageR agg x wl wr b p j) :=
  fun p j => ((matmul_real agg wl hagg hwl p j).add (hb j)).add (matmul_real x wr hx hwr p j)

/-- max(g·W1 + b1, 0)·W2 + b2. -/
def mlp (g : Fin n → Fin d → EReal) (w1 : Fin d → Fin e → EReal) (b1 : Fin e → EReal) (w2 : Fin e → Fin e → EReal) (b2 : Fin e → EReal) :
    Fin n → Fin e → EReal :=
  fun p j => matmul (fun p k => max (matmul g w1 p k + b1 k) 0) w2 p j + b2 j

theorem mlp_real (g : Fin n → Fin d → EReal) (w1 : Fin d → Fin e → EReal) (b1 : Fin e → EReal) (w2 : Fin e → Fin e → EReal) (b2 : Fin e → EReal)
    (hg : ∀ p k, IsReal (g p k)) (hw1 : ∀ k j, IsReal (w1 k j)) (hb1 : ∀ j, IsReal (b1 j)) (hw2 : ∀ k j, IsReal (w2 k j)) (hb2 : ∀ j, IsReal (b2 j)) :
    ∀ p j, IsReal (mlp g w1 b1 w2 b2 p j) :=
  fun p j => (matmul_real _ w2 (fun p k => ((matmul_real g w1 hg hw1 p k).add (hb1 k)).emax IsReal.zero) hw2 p j).add (hb2 j)

end Linear

/-! ## Batch normalisation over the rows -/

section BatchNorm
variable {n d : ℕ}

def colMean (h : Fin n → Fin d → EReal) (N : EReal) : Fin d → EReal := fun j => Ideal.div (∑ p, h p j) N
/-- Mean of squares minus squared mean. -/
def varK (h : Fin n → Fin d → EReal) (N : EReal) : Fin d → EReal :=
  fun j => Ideal.div (∑ p, h p j * h p j) N - colMean h N j * colMean h N j
/-- Mean of squared deviations. -/
def varR (h : Fin n → Fin d → EReal) (N : EReal) : Fin d → EReal :=
  fun j => Ideal.div (∑ p, (h p j - colMean h N j) * (h p j - colMean h N j)) N

theorem var_eq (h : Fin n → Fin d → EReal) (hh : ∀ p j, IsReal (h p j)) (N : ℝ) (hN : (n : ℝ) = N) (h0 : N ≠ 0) :
    varK h (N : EReal) = varR h (N : EReal) := by
  funext j
  choose f hf using fun p => hh p j
  have hsum : (∑ p, h p j) = ((∑ p, f p : ℝ) : EReal) := by
    rw [coe_sum]; exact Finset.sum_congr rfl fun p _ => hf p
  have hmean : colMean h (N : EReal) j = (((∑ p, f p) / N : ℝ) : EReal) := by
    unfold colMean; rw [hsum, div_coe_coe _ h0]
  unfold varK varR
  rw [hmean]
  have hsq : (∑ p, h p j * h p j) = ((∑ p, f p * f p : ℝ) : EReal) := by
    rw [coe_sum]; exact Finset.sum_congr rfl fun p _ => by rw [hf p, EReal.coe_mul]
  have hdev : (∑ p, (h p j - (((∑ p, f p) / N : ℝ) : EReal)) * (h p j - (((∑ p, f p) / N : ℝ) : EReal)))
      = ((∑ p, (f p - (∑ p, f p) / N) * (f p - (∑ p, f p) / N) : ℝ) : EReal) := by
    rw [coe_sum]; exact Finset.sum_congr rfl fun p _ => by rw [hf p, ← EReal.coe_sub, ← EReal.coe_mul]
  rw [hsq, hdev, div_coe_coe _ h0, div_coe_coe _ h0, ← EReal.coe_mul, ← EReal.coe_sub]
  congr 1
  have hexp : (∑ p, (f p - (∑ p, f p) / N) * (f p - (∑ p, f p) / N))
      = (∑ p, f p * f p) - 2 * ((∑ p, f p) / N) * (∑ p, f p) + (n : ℝ) * (((∑ p, f p) / N) * ((∑ p, f p) / N)) := by
    have : ∀ p, (f p - (∑ p, f p) / N) * (f p - (∑ p, f p) / N)
        = f p * f p - 2 * ((∑ p, f p) / N) * f p + ((∑ p, f p) / N) * ((∑ p, f p) / N) := fun p => by ring
    rw [Finset.sum_congr rfl fun p _ => this p, Finset.sum_add_distrib, Finset.sum_sub_distrib, ← Finset.mul_sum,
      Finset.sum_const, Finset.card_univ, Fintype.card_fin, nsmul_eq_mul]
  rw [hexp, hN]
  field_simp
  ring

theorem varR_nonneg_real (h : Fin n → Fin d → EReal) (hh : ∀ p j, IsReal (h p j)) (N : ℝ) (h0 : 0 < N) (j : Fin d) :
    ∃ v : ℝ, 0 ≤ v ∧ varR h (N : EReal) j = (v : EReal) := by
  choose f hf using fun p => hh p j
  have hsum : (∑ p, h p j) = ((∑ p, f p : ℝ) : EReal) := by
    rw [coe_sum]; exact Finset.sum_congr rfl fun p _ => hf p
  have hmean : colMean h (N : EReal) j = (((∑ p, f p) / N : ℝ) : EReal) := by
    unfold colMean; rw [hsum, div_coe_coe _ h0.ne']
  have hdev : (∑ p, (h p j - (((∑ p, f p) / N : ℝ) : EReal)) * (h p j - (((∑ p, f p) / N : ℝ) : EReal)))
      = ((∑ p, (f p - (∑ p, f p) / N) * (f p - (∑ p, f p) / N) : ℝ) : EReal) := by
    rw [coe_sum]; exact Finset.sum_congr rfl fun p _ => by rw [hf p, ← EReal.coe_sub, ← EReal.coe_mul]
  refine ⟨(∑ p, (f p - (∑ p, f p) / N) * (f p - (∑ p, f p) / N)) / N, ?_, ?_⟩
  · exact div_nonneg (Finset.sum_nonneg fun p _ => mul_self_nonneg _) h0.le
  · unfold varR; rw [hmean, hdev, div_coe_coe _ h0.ne']

theorem colMean_real (h : Fin n → Fin d → EReal) (hh : ∀ p j, IsReal (h p j)) (N : ℝ) (h0 : N ≠ 0) (j : Fin d) :
    IsReal (colMean h (N : EReal) j) := (IsReal.sum _ _ fun p _ => hh p j).div h0

/-- ((h − mean)·rsqrt(var + ε))·γ + β. -/
def bnAff (h : Fin n → Fin d → EReal) (mean var γ β : Fin d → EReal) (eps : EReal) : Fin n → Fin d → EReal :=
  fun p j => ((h p j - mean j) * Ideal.rsqrt (var j + eps)) * γ j + β j

theorem bnAff_real (h : Fin n → Fin d → EReal) (hh : ∀ p j, IsReal (h p j)) (N : ℝ) (h0 : 0 < N) (γ β : Fin d → EReal)
    (hγ : ∀ j, IsReal (γ j)) (hβ : ∀ j, IsReal (β j)) (eps : ℝ) (heps : 0 < eps) :
    ∀ p j, IsReal (bnAff h (colMean h (N : EReal)) (varR h (N : EReal)) γ β (eps : EReal) p j) := by
  intro p j
  obtain ⟨v, hv0, hv⟩ := varR_nonneg_real h hh N h0 j
  unfold bnAff
  rw [hv, ← EReal.coe_add, rsqrt_pos (by positivity)]
  exact ((((hh p j).sub (colMean_real h hh N h0.ne' j)).mul (IsReal.coe _)).mul (hγ j)).add (hβ j)

end BatchNorm

/-! ## The whole network up to the logits -/

section Net
variable {n d c : ℕ}

/-- The arrays the network is given, as functions of row and column. -/
structure Params (n d c : ℕ) where
  x : Fin n → Fin d → EReal
  wl0 : Fin d → Fin d → EReal
  wr0 : Fin d → Fin d → EReal
  b0 : Fin d → EReal
  w1 : Fin d → Fin d → EReal
  c1 : Fin d → EReal
  w2 : Fin d → Fin d → EReal
  c2 : Fin d → EReal
  wl2 : Fin d → Fin d → EReal
  wr2 : Fin d → Fin d → EReal
  b2 : Fin d → EReal
  wlf : Fin d → Fin c → EReal
  wrf : Fin d → Fin c → EReal
  bf : Fin c → EReal
  γ : Fin 3 → Fin d → EReal
  β : Fin 3 → Fin d → EReal

/-- Every given entry is a real number. -/
structure Params.Real (P : Params n d c) : Prop where
  x : ∀ p k, IsReal (P.x p k)
  wl0 : ∀ k j, IsReal (P.wl0 k j)
  wr0 : ∀ k j, IsReal (P.wr0 k j)
  b0 : ∀ j, IsReal (P.b0 j)
  w1 : ∀ k j, IsReal (P.w1 k j)
  c1 : ∀ j, IsReal (P.c1 j)
  w2 : ∀ k j, IsReal (P.w2 k j)
  c2 : ∀ j, IsReal (P.c2 j)
  wl2 : ∀ k j, IsReal (P.wl2 k j)
  wr2 : ∀ k j, IsReal (P.wr2 k j)
  b2 : ∀ j, IsReal (P.b2 j)
  wlf : ∀ k j, IsReal (P.wlf k j)
  wrf : ∀ k j, IsReal (P.wrf k j)
  bf : ∀ j, IsReal (P.bf j)
  γ : ∀ l j, IsReal (P.γ l j)
  β : ∀ l j, IsReal (P.β l j)

/-- Batch normalisation with the variance as mean of squared deviations, then the maximum with zero. -/
def bnReluR (h : Fin n → Fin d → EReal) (γ β : Fin d → EReal) (N eps : EReal) : Fin n → Fin d → EReal :=
  fun p j => max (bnAff h (colMean h N) (varR h N) γ β eps p j) 0
/-- The same with the variance as mean of squares minus squared mean. -/
def bnReluK (h : Fin n → Fin d → EReal) (γ β : Fin d → EReal) (N eps : EReal) : Fin n → Fin d → EReal :=
  fun p j => max (bnAff h (colMean h N) (varK h N) γ β eps p j) 0

theorem bnRelu_eq (h : Fin n → Fin d → EReal) (hh : ∀ p j, IsReal (h p j)) (γ β : Fin d → EReal) (N : ℝ) (hN : (n : ℝ) = N) (h0 : N ≠ 0)
    (eps : EReal) : bnReluK h γ β (N : EReal) eps = bnReluR h γ β (N : EReal) eps := by
  unfold bnReluK bnReluR; rw [var_eq h hh N hN h0]

theorem bnReluR_real (h : Fin n → Fin d → EReal) (hh : ∀ p j, IsReal (h p j)) (γ β : Fin d → EReal)
    (hγ : ∀ j, IsReal (γ j)) (hβ : ∀ j, IsReal (β j)) (N : ℝ) (h0 : 0 < N) (eps : ℝ) (heps : 0 < eps) :
    ∀ p j, IsReal (bnReluR h γ β (N : EReal) (eps : EReal) p j) :=
  fun p j => (bnAff_real h hh N h0 γ β hγ hβ eps heps p j).emax IsReal.zero

variable (P : Params n d c) (A : (Fin n → Fin d → EReal) → Fin n → Fin d → EReal) (dg : Fin n → EReal) (N eps : EReal)

/-- The reference's hidden states and logits. -/
def h0R : Fin n → Fin d → EReal := bnReluR (sageR (meanAggR (A P.x) dg) P.x P.wl0 P.wr0 P.b0) (P.γ 0) (P.β 0) N eps
def h1R : Fin n → Fin d → EReal :=
  fun p j => bnReluR (mlp (fun p k => h0R P A dg N eps p k + A (h0R P A dg N eps) p k) P.w1 P.c1 P.w2 P.c2) (P.γ 1) (P.β 1) N eps p j
    + h0R P A dg N eps p j
def h2R : Fin n → Fin d → EReal :=
  fun p j => bnReluR (sageR (meanAggR (A (h1R P A dg N eps)) dg) (h1R P A dg N eps) P.wl2 P.wr2 P.b2) (P.γ 2) (P.β 2) N eps p j
    + h1R P A dg N eps p j
def logitsR : Fin n → Fin c → EReal :=
  sageR (meanAggR (A (h2R P A dg N eps)) dg) (h2R P A dg N eps) P.wlf P.wrf P.bf

/-- The kernel program's hidden states and logits. -/
def h0K : Fin n → Fin d → EReal := bnReluK (sageK (meanAggK (A P.x) dg) P.x P.wl0 P.wr0 P.b0) (P.γ 0) (P.β 0) N eps
def h1K : Fin n → Fin d → EReal :=
  fun p j => bnReluK (mlp (fun p k => h0K P A dg N eps p k + A (h0K P A dg N eps) p k) P.w1 P.c1 P.w2 P.c2) (P.γ 1) (P.β 1) N eps p j
    + h0K P A dg N eps p j
def h2K : Fin n → Fin d → EReal :=
  fun p j => bnReluK (sageK (meanAggK (A (h1K P A dg N eps)) dg) (h1K P A dg N eps) P.wl2 P.wr2 P.b2) (P.γ 2) (P.β 2) N eps p j
    + h1K P A dg N eps p j
def logitsK : Fin n → Fin c → EReal :=
  sageK (meanAggK (A (h2K P A dg N eps)) dg) (h2K P A dg N eps) P.wlf P.wrf P.bf

end Net

section NetEq
variable {n d c : ℕ} (P : Params n d c) (hP : P.Real) (A : (Fin n → Fin d → EReal) → Fin n → Fin d → EReal)
  (hA : ∀ h, (∀ p j, IsReal (h p j)) → ∀ p j, IsReal (A h p j)) (dg : Fin n → EReal) (hdg : ∀ p, IsReal (dg p))
  (N : ℝ) (hN : (n : ℝ) = N) (h0 : 0 < N) (eps : ℝ) (heps : 0 < eps)
include hP hA hdg hN h0 heps

theorem h0R_real : ∀ p j, IsReal (h0R P A dg (N : EReal) (eps : EReal) p j) :=
  bnReluR_real _ (sageR_real _ _ _ _ _ (meanAggR_real _ _ (hA _ hP.x) hdg) hP.x hP.wl0 hP.wr0 hP.b0) _ _ (hP.γ 0) (hP.β 0) N h0 eps heps

theorem h0_eq : h0K P A dg (N : EReal) (eps : EReal) = h0R P A dg (N : EReal) (eps : EReal) := by
  unfold h0K h0R
  rw [meanAgg_eq _ _ hdg, sage_eq]
  exact bnRelu_eq _ (sageR_real _ _ _ _ _ (meanAggR_real _ _ (hA _ hP.x) hdg) hP.x hP.wl0 hP.wr0 hP.b0) _ _ N hN h0.ne' _

theorem mlp1_real : ∀ p j, IsReal (mlp (fun p k => h0R P A dg (N : EReal) (eps : EReal) p k + A (h0R P A dg (N : EReal) (eps : EReal)) p k) P.w1 P.c1 P.w2 P.c2 p j) :=
  mlp_real _ _ _ _ _ (fun p k => (h0R_real P hP A hA dg hdg N hN h0 eps heps p k).add (hA _ (h0R_real P hP A hA dg hdg N hN h0 eps heps) p k))
    hP.w1 hP.c1 hP.w2 hP.c2

theorem h1R_real : ∀ p j, IsReal (h1R P A dg (N : EReal) (eps : EReal) p j) :=
  fun p j => (bnReluR_real _ (mlp1_real P hP A hA dg hdg N hN h0 eps heps) _ _ (hP.γ 1) (hP.β 1) N h0 eps heps p j).add
    (h0R_real P hP A hA dg hdg N hN h0 eps heps p j)

theorem h1_eq : h1K P A dg (N : EReal) (eps : EReal) = h1R P A dg (N : EReal) (eps : EReal) := by
  unfold h1K h1R
  rw [h0_eq P hP A hA dg hdg N hN h0 eps heps]
  funext p j
  rw [bnRelu_eq _ (mlp1_real P hP A hA dg hdg N hN h0 eps heps) _ _ N hN h0.ne' _]

theorem pre2_real : ∀ p j, IsReal (sageR (meanAggR (A (h1R P A dg (N : EReal) (eps : EReal))) dg) (h1R P A dg (N : EReal) (eps : EReal)) P.wl2 P.wr2 P.b2 p j) :=
  sageR_real _ _ _ _ _ (meanAggR_real _ _ (hA _ (h1R_real P hP A hA dg hdg N hN h0 eps heps)) hdg)
    (h1R_real P hP A hA dg hdg N hN h0 eps heps) hP.wl2 hP.wr2 hP.b2

theorem h2R_real : ∀ p j, IsReal (h2R P A dg (N : EReal) (eps : EReal) p j) :=
  fun p j => (bnReluR_real _ (pre2_real P hP A hA dg hdg N hN h0 eps heps) _ _ (hP.γ 2) (hP.β 2) N h0 eps heps p j).add
    (h1R_real P hP A hA dg hdg N hN h0 eps heps p j)

theorem h2_eq : h2K P A dg (N : EReal) (eps : EReal) = h2R P A dg (N : EReal) (eps : EReal) := by
  unfold h2K h2R
  rw [h1_eq P hP A hA dg hdg N hN h0 eps heps, meanAgg_eq _ _ hdg, sage_eq]
  funext p j
  rw [bnRelu_eq _ (pre2_real P hP A hA dg hdg N hN h0 eps heps) _ _ N hN h0.ne' _]

/-- The two programs' logits are one function of the given arrays. -/
theorem logits_eq : logitsK P A dg (N : EReal) (eps : EReal) = logitsR P A dg (N : EReal) (eps : EReal) := by
  unfold logitsK logitsR
  rw [h2_eq P hP A hA dg hdg N hN h0 eps heps, meanAgg_eq _ _ hdg, sage_eq]

end NetEq

end Cert.GnnSpec

end
-- ==== Proof.LibLiterals.lean ====
/-
  The float literals the two programs spell, as the extended reals their bit patterns denote:
  0, 1, 50000, 100000, -1/2, and the stabiliser 10995116 · 2⁻⁴⁰ (the binary32 nearest to 10⁻⁵).
-/
import Idealize.ShloMosaic.PureOps.Ideal

noncomputable section

namespace Cert.Bridge

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- Sign 0, exponent 142 - 127 = 15, significand 1 + 4411392 / 2²³: 2¹⁵ · 1.52587890625 = 50000. -/
theorem ofBits_50000 : Ideal.ofBits .f32 0x47435000#32 = ((50000 : ℝ) : EReal) := by
  simp [Ideal.ofBits, Ideal.ieee, -EReal.coe_mul]; norm_num

theorem ofBits_50000_nat : Ideal.ofBits .f32 0x47435000#32 = (((50000 : ℕ) : ℝ) : EReal) := by
  rw [ofBits_50000]; norm_num

/-- Sign 0, exponent 143 - 127 = 16, the same significand: 2¹⁶ · 1.52587890625 = 100000. -/
theorem ofBits_100000 : Ideal.ofBits .f32 0x47C35000#32 = ((100000 : ℝ) : EReal) := by
  simp [Ideal.ofBits, Ideal.ieee, -EReal.coe_mul]; norm_num

theorem ofBits_100000_nat : Ideal.ofBits .f32 0x47C35000#32 = (((100000 : ℕ) : ℝ) : EReal) := by
  rw [ofBits_100000]; norm_num

theorem ofBits_neg_half : Ideal.ofBits .f32 0xBF000000#32 = ((-1/2 : ℝ) : EReal) := by
  simp [Ideal.ofBits, Ideal.ieee, -EReal.coe_mul]; norm_num

/-- Sign 0, exponent 110 - 127 = -17, significand (2²³ + 2606508) / 2²³: the value 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

theorem ofBits_eps_pos : ∃ r : ℝ, 0 < r ∧ Ideal.ofBits .f32 0x3727C5AC#32 = (r : EReal) :=
  ⟨_, by positivity, ofBits_eps⟩

end Cert.Bridge

end
-- ==== Proof.BridgeDefs.lean ====
/- The common ground of the two programs' value proofs: arrays as functions of row and column, the network's given arrays
   gathered as the pure-math parameters, the neighbourhood sum and the degree column as functions of the edge list, and the
   log-softmax of a row, index by index. Both programs' result arrays are read against these. -/
import proofs.«167498_j75179107549620_1_alg».proof.Proof.Spec
import proofs.«167498_j75179107549620_1_alg».proof.Proof.Ref.Terms
import proofs.«167498_j75179107549620_1_alg».proof.Proof.LibLiterals
import Idealize.ShloMosaic.Lib.ValueIdx

noncomputable section

namespace Cert.Bridge

open Idealize.ShloMosaic Idealize.ShloMosaic.ValueIdx
open Cert.GnnSpec
open Cert.ReferenceIdeal (S100000x128 S128x128 S128x40 S100000x40 S128 S40 S3x128 S2x1600000 S1600000 S100000x1)
open Cert.ReferenceIdeal.RefRun (srcIx dstIx sumAgg degCol)

/-- A two-axis array as a function of row and column, and back. -/
def mat {a b : ℕ} (arr : (⟨2, ![a, b]⟩ : Shape).Idx → EReal) : Fin a → Fin b → EReal := fun p q => arr (ix2 p q)
def arr2 {a b : ℕ} (f : Fin a → Fin b → EReal) : (⟨2, ![a, b]⟩ : Shape).Idx → EReal := fun i => f (i 0) (i 1)
/-- A one-axis array as a function of its index. -/
def vec {a : ℕ} (arr : (⟨1, ![a]⟩ : Shape).Idx → EReal) : Fin a → EReal := fun j => arr (ix1 j)

theorem mat_arr2 {a b : ℕ} (f : Fin a → Fin b → EReal) : mat (arr2 f) = f := rfl
theorem arr2_mat {a b : ℕ} (arr : (⟨2, ![a, b]⟩ : Shape).Idx → EReal) : arr2 (mat arr) = arr := by
  funext i; unfold arr2 mat; exact congrArg arr (eq_ix2 i).symm

/-- The network's given arrays as the pure-math parameters. -/
def params (x : Vec Ideal S100000x128 .f32) (wl0 wr0 : Vec Ideal S128x128 .f32) (b0 : Vec Ideal S128 .f32)
    (w1 : Vec Ideal S128x128 .f32) (c1 : Vec Ideal S128 .f32) (w2 : Vec Ideal S128x128 .f32) (c2 : Vec Ideal S128 .f32)
    (wl2 wr2 : Vec Ideal S128x128 .f32) (b2 : Vec Ideal S128 .f32) (wlf wrf : Vec Ideal S128x40 .f32) (bf : Vec Ideal S40 .f32)
    (γ β : Vec Ideal S3x128 .f32) : Params 100000 128 40 where
  x := mat x
  wl0 := mat wl0
  wr0 := mat wr0
  b0 := vec b0
  w1 := mat w1
  c1 := vec c1
  w2 := mat w2
  c2 := vec c2
  wl2 := mat wl2
  wr2 := mat wr2
  b2 := vec b2
  wlf := mat wlf
  wrf := mat wrf
  bf := vec bf
  γ := mat γ
  β := mat β

/-- The summed neighbour rows as a function of the edge list: gather the rows at the sources, add them up at the destinations. -/
def aggOf (e : (⟨S2x1600000, .i32⟩ : BufTy).Contents (Elt Ideal)) : (Fin 100000 → Fin 128 → EReal) → Fin 100000 → Fin 128 → EReal :=
  fun h => mat (sumAgg (F := Ideal) (srcIx e) (dstIx e) (arr2 h))
/-- The number of edges arriving at each row. -/
def degOf (e : (⟨S2x1600000, .i32⟩ : BufTy).Contents (Elt Ideal)) : Fin 100000 → EReal :=
  fun p => degCol (F := Ideal) (dstIx e) (ix2 p (0 : Fin 1))

/-- The maximum of a row of 40, folded from minus infinity (the word the programs start from). -/
def rmax (z : Fin 40 → EReal) : EReal := (Finset.univ : Finset (Fin 40)).fold max (Ideal.ofBits .f32 0xFF800000#32) z
/-- Log-softmax along the rows: the shifted logit less the logarithm of the sum of the exponentials of the shifted logits. -/
def lsm (l : Fin 100000 → Fin 40 → EReal) : Fin 100000 → Fin 40 → EReal :=
  fun p q => (l p q - rmax (l p)) - Ideal.log (∑ j : Fin 40, Ideal.exp (l p j - rmax (l p)))

/-- The small constant added to the variance, as a real number. -/
def epsR : ℝ := (10995116 : ℝ) * (2 : ℝ) ^ (-40 : ℤ)
theorem ofBits_epsR : Ideal.ofBits .f32 0x3727C5AC#32 = ((epsR : ℝ) : EReal) := ofBits_eps
theorem epsR_pos : 0 < epsR := by unfold epsR; positivity

end Cert.Bridge
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.Ref.Bridge.lean ====
/- The reference's result array read index by index against the pure network: each stage's whole-array function, read
   at a row and a column, is the corresponding function of rows and columns; composed, the result array is the
   logarithm of the row-wise soft maximum of the pure network's logits. -/
import proofs.«167498_j75179107549620_1_alg».proof.Proof.BridgeDefs
import proofs.«167498_j75179107549620_1_alg».proof.Proof.Spec
import proofs.«167498_j75179107549620_1_alg».proof.Proof.Ref.Terms
import proofs.«167498_j75179107549620_1_alg».proof.Proof.LibLiterals
import proofs.«167498_j75179107549620_1_alg».proof.Proof.LibPlainMatmul
import proofs.«167498_j75179107549620_1_alg».proof.Proof.LibAxisReduce
import Idealize.ShloMosaic.Lib.ValueIdx
import Idealize.ShloMosaic.Lib.IdealHost
import Idealize.ShloMosaic.Lib.KernelVsHost
import Idealize.ShloMosaic.PureOps.Ideal.Laws

noncomputable section

namespace Cert.Bridge

open Idealize.ShloMosaic Idealize.ShloMosaic.ValueIdx Cert.ReferenceIdeal Cert.ReferenceIdeal.Gen Cert.ReferenceIdeal.RefRun Cert.GnnSpec
open scoped BigOperators
theorem arr2_apply {a b : ℕ} (f : Fin a → Fin b → EReal) (p : Fin a) (q : Fin b) : arr2 f (ix2 p q) = f p q := rfl

/-- A row repeated down the rows, read at an index: the row at the index's column. -/
theorem rowBc_apply (r : (⟨1, ![128]⟩ : Shape).Idx → EReal) (p : Fin 100000) (j : Fin 128) :
    rowBc (F := Ideal) r (ix2 p j) = r (ix1 j) := by
  unfold rowBc
  rw [broadcastInDim_oneRow_apply]
  refine broadcastInDim_apply _ _ _ _ (ix1 j) ?_
  intro a; fin_cases a
  show j.val = if (128 : ℕ) = 1 then 0 else j.val
  simp

theorem rowBc40_apply (r : (⟨1, ![40]⟩ : Shape).Idx → EReal) (p : Fin 100000) (j : Fin 40) :
    rowBc40 (F := Ideal) r (ix2 p j) = r (ix1 j) := by
  unfold rowBc40
  rw [broadcastInDim_oneRow_apply]
  refine broadcastInDim_apply _ _ _ _ (ix1 j) ?_
  intro a; fin_cases a
  show j.val = if (40 : ℕ) = 1 then 0 else j.val
  simp

/-- The plain product of a matrix by a matrix at a row and a column: the sum over the contracted coordinate. -/
theorem dot_apply {M K N : ℕ} (wf : DotDims.WF ⟨2, ![M, K]⟩ ⟨2, ![K, N]⟩ ⟨2, ![M, N]⟩ [1] [0] [0] [1] [] [])
    (prec : Option ContractPrecision) (sched : HostSchedule)
    (lhs : FVec Ideal ⟨2, ![M, K]⟩ .f32) (rhs : FVec Ideal ⟨2, ![K, N]⟩ .f32) (p : Fin M) (q : Fin N) :
    FloatOps.dotGeneral (PlainMatmul.dims wf) prec sched lhs rhs (ix2 p q) = ∑ k : Fin K, lhs (ix2 p k) * rhs (ix2 k q) := by
  rw [Ideal.dotGeneral_apply, ← Equiv.sum_comp (contrEquiv1 (PlainMatmul.dims wf) K rfl rfl).symm]
  refine Finset.sum_congr rfl fun k _ => ?_
  have hk := contrEquiv1_symm_val (PlainMatmul.dims wf) K rfl rfl k
  have el : (PlainMatmul.dims wf).lhsIdx (ix2 p q) ((contrEquiv1 (PlainMatmul.dims wf) K rfl rfl).symm k) = ix2 p k :=
    funext fun a => Fin.ext (by
      match a with
      | ⟨0, h0⟩ =>
        unfold DotDims.lhsIdx
        rw [dif_neg (List.not_mem_nil : ¬(⟨0, h0⟩ : Fin 2) ∈ (PlainMatmul.dims wf).lhsBatch),
          dif_pos (List.mem_singleton.mpr rfl : (⟨0, h0⟩ : Fin 2) ∈ (PlainMatmul.dims wf).lhsNonContracting)]
        rfl
      | ⟨1, _⟩ => exact ((PlainMatmul.dims wf).lhsIdx_val_of_single rfl _ _).trans hk)
  have er : (PlainMatmul.dims wf).rhsIdx (ix2 p q) ((contrEquiv1 (PlainMatmul.dims wf) K rfl rfl).symm k) = ix2 k q :=
    funext fun a => Fin.ext (by
      match a with
      | ⟨0, _⟩ => exact ((PlainMatmul.dims wf).rhsIdx_val_of_single rfl _ _).trans hk
      | ⟨1, h1⟩ =>
        unfold DotDims.rhsIdx
        rw [dif_neg (List.not_mem_nil : ¬(⟨1, h1⟩ : Fin 2) ∈ (PlainMatmul.dims wf).rhsBatch),
          dif_pos (List.mem_singleton.mpr rfl : (⟨1, h1⟩ : Fin 2) ∈ (PlainMatmul.dims wf).rhsNonContracting)]
        rfl)
  rw [el, er]

/-- The affine combination read at a row and a column. -/
theorem sage_apply (agg h : (⟨2, ![100000, 128]⟩ : Shape).Idx → EReal) (wl wr : (⟨2, ![128, 128]⟩ : Shape).Idx → EReal)
    (b : (⟨1, ![128]⟩ : Shape).Idx → EReal) :
    mat (sage (F := Ideal) agg h wl wr b) = sageR (mat agg) (mat h) (mat wl) (mat wr) (vec b) := by
  funext p j
  show sage (F := Ideal) agg h wl wr b (ix2 p j) = _
  unfold sage sageR GnnSpec.matmul
  rw [addf_apply, addf_apply, rowBc_apply]
  unfold dot_S100000x128_S128x128_S100000x128_1_0_0_1_n_n
  simp only [Host.dotGeneral]
  rw [dot_apply, dot_apply]
  rfl

theorem sageOut_apply (agg h : (⟨2, ![100000, 128]⟩ : Shape).Idx → EReal) (wl wr : (⟨2, ![128, 40]⟩ : Shape).Idx → EReal)
    (b : (⟨1, ![40]⟩ : Shape).Idx → EReal) :
    mat (sageOut (F := Ideal) agg h wl wr b) = sageR (mat agg) (mat h) (mat wl) (mat wr) (vec b) := by
  funext p j
  show sageOut (F := Ideal) agg h wl wr b (ix2 p j) = _
  unfold sageOut sageR GnnSpec.matmul
  rw [addf_apply, addf_apply, rowBc40_apply]
  unfold dot_S100000x128_S128x40_S100000x40_1_0_0_1_n_n
  simp only [Host.dotGeneral]
  rw [dot_apply, dot_apply]
  rfl

/-- The count of rows, as an extended real. -/
abbrev N100000 : ℝ := 100000

theorem red0 : (⟨2, ![100000, 128]⟩ : Shape).Reduces [0] ⟨1, ![128]⟩ := by decide
theorem red1 : (⟨2, ![100000, 40]⟩ : Shape).Reduces [1] ⟨1, ![100000]⟩ := by decide

/-- A vector made a one-row matrix, read at a column. -/
theorem rowUp_apply {n : ℕ} (hb : (⟨1, ![n]⟩ : Shape).BroadcastsInDim ⟨2, ![1, n]⟩ ![1])
    (v : (⟨1, ![n]⟩ : Shape).Idx → EReal) (q : Fin 1) (j : Fin n) :
    broadcastInDim ⟨2, ![1, n]⟩ ![1] hb v (ix2 q j) = v (ix1 j) := by
  refine broadcastInDim_apply _ _ _ _ (ix1 j) ?_
  intro a; fin_cases a
  show j.val = if n = 1 then 0 else j.val
  split_ifs with hn
  · have := j.isLt; omega
  · rfl

/-- The host sum down the rows of a `100000 × 128` array from a scalar: the scalar plus the column's sum. -/
theorem colSum0_apply (x : (⟨2, ![100000, 128]⟩ : Shape).Idx → EReal) (init : (⟨0, ![]⟩ : Shape).Idx → EReal)
    (hr : (⟨2, ![100000, 128]⟩ : Shape).ReducesTo [0] ⟨1, ![128]⟩) (hu : 0 < (⟨0, ![]⟩ : Shape).numel) (j : Fin 128) :
    Host.reduceAdd (F := Ideal) (φ := .f32) x init hr hu (ix1 j) = init ix0 + ∑ p : Fin 100000, x (ix2 p j) := by
  rw [hostReduceAdd_apply, Ideal.hostReduceAdd_single hr red0, eq_ix0 (Shape.Idx.first hu)]
  exact congrArg (init ix0 + ·) (Finset.sum_congr rfl fun k _ => congrArg x (AxisReduce.lift_ix0 red0 j k))

/-- The host sum along the rows of a `100000 × 40` array from a scalar: the scalar plus the row's sum. -/
theorem rowSum1_apply (x : (⟨2, ![100000, 40]⟩ : Shape).Idx → EReal) (init : (⟨0, ![]⟩ : Shape).Idx → EReal)
    (hr : (⟨2, ![100000, 40]⟩ : Shape).ReducesTo [1] ⟨1, ![100000]⟩) (hu : 0 < (⟨0, ![]⟩ : Shape).numel) (p : Fin 100000) :
    Host.reduceAdd (F := Ideal) (φ := .f32) x init hr hu (ix1 p) = init ix0 + ∑ j : Fin 40, x (ix2 p j) := by
  rw [hostReduceAdd_apply, Ideal.hostReduceAdd_single hr red1, eq_ix0 (Shape.Idx.first hu)]
  exact congrArg (init ix0 + ·) (Finset.sum_congr rfl fun k _ => congrArg x (AxisReduce.lift_ix1 red1 p k))

/-- The column means read at a column. -/
theorem colMean_apply (h : (⟨2, ![100000, 128]⟩ : Shape).Idx → EReal) (j : Fin 128) :
    RefRun.colMean (F := Ideal) h (ix1 j) = GnnSpec.colMean (mat h) ((N100000 : ℝ) : EReal) j := by
  unfold RefRun.colMean GnnSpec.colMean
  rw [hostDivf_apply, colSum0_apply, broadcastInDim_scalar_apply, constant_apply, constant_apply, ofBits_100000, ofBits_zero, zero_add]
  rfl

theorem varCount_apply : varCount (F := Ideal) ix0 = ((N100000 : ℝ) : EReal) := by
  unfold varCount
  rw [subf_apply, constant_apply, sitofp_apply, constantI_apply, ofBits_100000]
  show ((100000 : ℝ) : EReal) - (((0#32 : BitVec 32).toInt : ℝ) : EReal) = _
  rw [show (0#32 : BitVec 32).toInt = 0 by decide]
  simp

theorem cmp_ogt_of_lt {x y : EReal} (h : y < x) : Ideal.cmp .ogt x y = 1#1 := by
  unfold Ideal.cmp
  simp [h]

/-- The column variances read at a column: the count is positive, so the guarded quotient is the quotient. -/
theorem colVar_apply (h : (⟨2, ![100000, 128]⟩ : Shape).Idx → EReal) (j : Fin 128) :
    colVar (F := Ideal) h (ix1 j) = varR (mat h) ((N100000 : ℝ) : EReal) j := by
  unfold colVar varR GnnSpec.colMean
  rw [select_apply, broadcastInDim_scalar_apply, cmpf_apply, varCount_apply, constant_apply, ofBits_zero]
  rw [show FloatOps.cmpf (F := Ideal) (φ := .f32) .ogt ((N100000 : ℝ) : EReal) 0 = 1#1 from
    cmp_ogt_of_lt (by norm_num : (0 : EReal) < ((N100000 : ℝ) : EReal)), select_one]
  rw [hostDivf_apply, colSum0_apply, broadcastInDim_scalar_apply, varCount_apply, constant_apply, ofBits_zero, zero_add]
  apply congrArg (fun t => Ideal.div t ((N100000 : ℝ) : EReal))
  apply Finset.sum_congr rfl
  intro p _
  rw [mulf_apply, subf_apply, broadcastInDim_oneRow_apply, hostDivf_apply, rowUp_apply, colSum0_apply,
    broadcastInDim_scalar_apply, constant_apply, constant_apply, ofBits_zero, ofBits_100000, zero_add]
  rfl

/-- Row `i` of a `3 × 128` array, read at a column. -/
theorem bnRow0_apply (g : (⟨2, ![3, 128]⟩ : Shape).Idx → EReal) (j : Fin 128) : bnRow0 (F := Ideal) g (ix1 j) = mat g 0 j := by
  unfold bnRow0
  rw [shapeCast_1a_a_apply, slice2_axis0_apply 0 g _ (0 : Fin 1) j (0 : Fin 3) (by rfl)]
  rfl
theorem bnRow1_apply (g : (⟨2, ![3, 128]⟩ : Shape).Idx → EReal) (j : Fin 128) : bnRow1 (F := Ideal) g (ix1 j) = mat g 1 j := by
  unfold bnRow1
  rw [shapeCast_1a_a_apply, slice2_axis0_apply 1 g _ (0 : Fin 1) j (1 : Fin 3) (by rfl)]
  rfl
theorem bnRow2_apply (g : (⟨2, ![3, 128]⟩ : Shape).Idx → EReal) (j : Fin 128) : bnRow2 (F := Ideal) g (ix1 j) = mat g 2 j := by
  unfold bnRow2
  rw [shapeCast_1a_a_apply, slice2_axis0_apply 2 g _ (0 : Fin 1) j (2 : Fin 3) (by rfl)]
  rfl

theorem hostRsqrt_apply {s : Shape} (v : FVec Ideal s .f32) (i : s.Idx) : Host.rsqrt v i = Ideal.rsqrt (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Batch normalisation read at a row and a column. -/
theorem bnRef_apply (h : (⟨2, ![100000, 128]⟩ : Shape).Idx → EReal) (γ β : (⟨1, ![128]⟩ : Shape).Idx → EReal) :
    mat (bnRef (F := Ideal) h γ β)
      = bnAff (mat h) (GnnSpec.colMean (mat h) ((N100000 : ℝ) : EReal)) (varR (mat h) ((N100000 : ℝ) : EReal)) (vec γ) (vec β) ((epsR : ℝ) : EReal) := by
  funext p j
  show bnRef (F := Ideal) h γ β (ix2 p j) = _
  unfold bnRef bnScaled bnAff
  rw [addf_apply, mulf_apply, mulf_apply, subf_apply, rowBc_apply, rowBc_apply, rowBc_apply, rowBc_apply, colMean_apply]
  rw [hostRsqrt_apply, addf_apply, colVar_apply, broadcastInDim_scalar_apply, constant_apply, ofBits_epsR]
  rfl

/-- The maximum with zero read at a row and a column. -/
theorem relu_apply (x : (⟨2, ![100000, 128]⟩ : Shape).Idx → EReal) (p : Fin 100000) (j : Fin 128) :
    relu (F := Ideal) x (ix2 p j) = max (x (ix2 p j)) 0 := by
  unfold relu
  rw [maximumf_apply, broadcastInDim_scalar_apply, constant_apply, ofBits_zero]

theorem relu_bnRef (h : (⟨2, ![100000, 128]⟩ : Shape).Idx → EReal) (γ β : (⟨1, ![128]⟩ : Shape).Idx → EReal) :
    mat (relu (F := Ideal) (bnRef (F := Ideal) h γ β)) = bnReluR (mat h) (vec γ) (vec β) ((N100000 : ℝ) : EReal) ((epsR : ℝ) : EReal) := by
  funext p j
  show relu (F := Ideal) _ (ix2 p j) = _
  rw [relu_apply]
  unfold bnReluR
  rw [← bnRef_apply]
  rfl

/-- A column repeated along the rows, read at an index: the column at the index's row. -/
theorem colBc_apply {m n : ℕ} (hb : (⟨2, ![m, 1]⟩ : Shape).BroadcastsInDim ⟨2, ![m, n]⟩ ![0, 1])
    (y : (⟨2, ![m, 1]⟩ : Shape).Idx → EReal) (p : Fin m) (j : Fin n) :
    broadcastInDim ⟨2, ![m, n]⟩ ![0, 1] hb y (ix2 p j) = y (ix2 p (0 : Fin 1)) := by
  refine broadcastInDim_apply _ _ _ _ (ix2 p (0 : Fin 1)) ?_
  intro a; fin_cases a
  · show p.val = if m = 1 then 0 else p.val
    split_ifs with hm
    · have := p.isLt; omega
    · rfl
  · show (0 : ℕ) = if (1 : ℕ) = 1 then 0 else _
    simp

/-- A vector made a one-column matrix, read at a row. -/
theorem colUp_apply {m : ℕ} (hb : (⟨1, ![m]⟩ : Shape).BroadcastsInDim ⟨2, ![m, 1]⟩ ![0])
    (v : (⟨1, ![m]⟩ : Shape).Idx → EReal) (p : Fin m) (q : Fin 1) :
    broadcastInDim ⟨2, ![m, 1]⟩ ![0] hb v (ix2 p q) = v (ix1 p) := by
  refine broadcastInDim_apply _ _ _ _ (ix1 p) ?_
  intro a; fin_cases a
  show p.val = if m = 1 then 0 else p.val
  split_ifs with hm
  · have := p.isLt; omega
  · rfl

/-- The sum aggregate as the neighbourhood sum of the row-and-column function. -/
theorem sumAgg_eq (e : (⟨S2x1600000, .i32⟩ : BufTy).Contents (Elt Ideal)) (h : (⟨2, ![100000, 128]⟩ : Shape).Idx → EReal) :
    mat (sumAgg (F := Ideal) (srcIx e) (dstIx e) h) = aggOf e (mat h) := by
  unfold aggOf; rw [arr2_mat]

/-- The mean aggregate read at a row and a column. -/
theorem meanAgg_apply (e : (⟨S2x1600000, .i32⟩ : BufTy).Contents (Elt Ideal)) (h : (⟨2, ![100000, 128]⟩ : Shape).Idx → EReal) :
    mat (meanAgg (F := Ideal) (srcIx e) (dstIx e) h) = meanAggR (aggOf e (mat h)) (degOf e) := by
  rw [← sumAgg_eq]
  funext p j
  show meanAgg (F := Ideal) _ _ h (ix2 p j) = _
  unfold meanAgg meanAggR degOf
  rw [hostDivf_apply, colBc_apply, maximumf_apply, broadcastInDim_scalar_apply, constant_apply, ofBits_one]
  rfl

theorem vec_bnRow0 (g : (⟨2, ![3, 128]⟩ : Shape).Idx → EReal) : vec (bnRow0 (F := Ideal) g) = mat g 0 := funext fun j => bnRow0_apply g j
theorem vec_bnRow1 (g : (⟨2, ![3, 128]⟩ : Shape).Idx → EReal) : vec (bnRow1 (F := Ideal) g) = mat g 1 := funext fun j => bnRow1_apply g j
theorem vec_bnRow2 (g : (⟨2, ![3, 128]⟩ : Shape).Idx → EReal) : vec (bnRow2 (F := Ideal) g) = mat g 2 := funext fun j => bnRow2_apply g j

/-- The two-map network read at a row and a column. -/
theorem ginMlp_apply (h s : (⟨2, ![100000, 128]⟩ : Shape).Idx → EReal) (w1 : (⟨2, ![128, 128]⟩ : Shape).Idx → EReal) (b1 : (⟨1, ![128]⟩ : Shape).Idx → EReal) (w2 : (⟨2, ![128, 128]⟩ : Shape).Idx → EReal) (b2 : (⟨1, ![128]⟩ : Shape).Idx → EReal) :
    mat (ginMlp (F := Ideal) h s w1 b1 w2 b2)
      = mlp (fun p k => mat h p k + mat s p k) (mat w1) (vec b1) (mat w2) (vec b2) := by
  funext p j
  show ginMlp (F := Ideal) h s w1 b1 w2 b2 (ix2 p j) = _
  unfold ginMlp mlp GnnSpec.matmul
  rw [addf_apply, rowBc_apply]
  unfold dot_S100000x128_S128x128_S100000x128_1_0_0_1_n_n
  simp only [Host.dotGeneral]
  rw [dot_apply]
  apply congrArg (fun t => t + vec b2 j)
  apply Finset.sum_congr rfl
  intro k _
  rw [relu_apply, addf_apply, rowBc_apply, dot_apply]
  apply congrArg (fun t => max (t + vec b1 k) 0 * mat w2 k j)
  apply Finset.sum_congr rfl
  intro k' _
  rw [addf_apply]
  rfl

/-- The row maximum read at a row. -/
theorem rowMax_apply (x : (⟨2, ![100000, 40]⟩ : Shape).Idx → EReal) (p : Fin 100000) : rowMax (F := Ideal) x (ix2 p (0 : Fin 1)) = rmax (mat x p) := by
  unfold rowMax rmax
  rw [colUp_apply, maximumf_apply, broadcastInDim_scalar_apply, constant_apply,
    Host.reduce_eq_fold_single _ _ _ _ red1, constant_apply]
  have hz : (x ∘ red1.lift (ix1 p)) = mat x p := funext fun k => congrArg x (AxisReduce.lift_ix1 red1 p k)
  rw [hz]
  exact max_eq_right ((Finset.le_fold_max _).mpr (Or.inl le_rfl))

theorem shifted_apply (x : (⟨2, ![100000, 40]⟩ : Shape).Idx → EReal) (p : Fin 100000) (j : Fin 40) :
    shifted (F := Ideal) x (ix2 p j) = mat x p j - rmax (mat x p) := by
  unfold shifted
  rw [subf_apply, colBc_apply, rowMax_apply]
  rfl

/-- The logarithm of the soft maximum read at a row and a column. -/
theorem logSoftmaxRef_apply (x : (⟨2, ![100000, 40]⟩ : Shape).Idx → EReal) : mat (logSoftmaxRef (F := Ideal) x) = lsm (mat x) := by
  funext p q
  show logSoftmaxRef (F := Ideal) x (ix2 p q) = _
  unfold logSoftmaxRef lsm
  rw [subf_apply, shifted_apply, colBc_apply, hostLog_apply, colUp_apply, rowSum1_apply, constant_apply, ofBits_zero, zero_add]
  apply congrArg (fun t => (mat x p q - rmax (mat x p)) - Ideal.log t)
  apply Finset.sum_congr rfl
  intro j _
  rw [hostExp_apply, shifted_apply]

/-- Layer 0 as the pure network's first hidden state. -/
theorem layer0_eq (x : (⟨2, ![100000, 128]⟩ : Shape).Idx → EReal) (e : (⟨S2x1600000, .i32⟩ : BufTy).Contents (Elt Ideal)) (wl wr : (⟨2, ![128, 128]⟩ : Shape).Idx → EReal) (b : (⟨1, ![128]⟩ : Shape).Idx → EReal) (γ β : (⟨2, ![3, 128]⟩ : Shape).Idx → EReal) :
    mat (layer0 (F := Ideal) x e wl wr b γ β)
      = bnReluR (sageR (meanAggR (aggOf e (mat x)) (degOf e)) (mat x) (mat wl) (mat wr) (vec b)) (mat γ 0) (mat β 0) ((N100000 : ℝ) : EReal) ((epsR : ℝ) : EReal) := by
  unfold layer0
  rw [relu_bnRef, sage_apply, meanAgg_apply, vec_bnRow0, vec_bnRow0]

/-- Layer 1 as the pure network's second hidden state. -/
theorem layer1_eq (h : (⟨2, ![100000, 128]⟩ : Shape).Idx → EReal) (e : (⟨S2x1600000, .i32⟩ : BufTy).Contents (Elt Ideal)) (w1 : (⟨2, ![128, 128]⟩ : Shape).Idx → EReal) (c1 : (⟨1, ![128]⟩ : Shape).Idx → EReal) (w2 : (⟨2, ![128, 128]⟩ : Shape).Idx → EReal) (c2 : (⟨1, ![128]⟩ : Shape).Idx → EReal) (γ β : (⟨2, ![3, 128]⟩ : Shape).Idx → EReal) :
    mat (layer1 (F := Ideal) h e w1 c1 w2 c2 γ β)
      = fun p j => bnReluR (mlp (fun p k => mat h p k + aggOf e (mat h) p k) (mat w1) (vec c1) (mat w2) (vec c2))
          (mat γ 1) (mat β 1) ((N100000 : ℝ) : EReal) ((epsR : ℝ) : EReal) p j + mat h p j := by
  funext p j
  show layer1 (F := Ideal) h e w1 c1 w2 c2 γ β (ix2 p j) = _
  unfold layer1
  rw [addf_apply]
  refine congrArg (· + mat h p j) ?_
  have := congrFun (congrFun (relu_bnRef (ginMlp (F := Ideal) h (sumAgg (F := Ideal) (srcIx e) (dstIx e) h) w1 c1 w2 c2)
    (bnRow1 (F := Ideal) γ) (bnRow1 (F := Ideal) β)) p) j
  rw [ginMlp_apply, sumAgg_eq, vec_bnRow1, vec_bnRow1] at this
  exact this

/-- Layer 2 as the pure network's third hidden state. -/
theorem layer2_eq (h : (⟨2, ![100000, 128]⟩ : Shape).Idx → EReal) (e : (⟨S2x1600000, .i32⟩ : BufTy).Contents (Elt Ideal)) (wl wr : (⟨2, ![128, 128]⟩ : Shape).Idx → EReal) (b : (⟨1, ![128]⟩ : Shape).Idx → EReal) (γ β : (⟨2, ![3, 128]⟩ : Shape).Idx → EReal) :
    mat (layer2 (F := Ideal) h e wl wr b γ β)
      = fun p j => bnReluR (sageR (meanAggR (aggOf e (mat h)) (degOf e)) (mat h) (mat wl) (mat wr) (vec b))
          (mat γ 2) (mat β 2) ((N100000 : ℝ) : EReal) ((epsR : ℝ) : EReal) p j + mat h p j := by
  funext p j
  show layer2 (F := Ideal) h e wl wr b γ β (ix2 p j) = _
  unfold layer2
  rw [addf_apply]
  refine congrArg (· + mat h p j) ?_
  have := congrFun (congrFun (relu_bnRef (sage (F := Ideal) (meanAgg (F := Ideal) (srcIx e) (dstIx e) h) h wl wr b)
    (bnRow2 (F := Ideal) γ) (bnRow2 (F := Ideal) β)) p) j
  rw [sage_apply, meanAgg_apply, vec_bnRow2, vec_bnRow2] at this
  exact this

/-- The output layer as the logarithm of the soft maximum of the pure network's logits. -/
theorem layerOut_eq (h : (⟨2, ![100000, 128]⟩ : Shape).Idx → EReal) (e : (⟨S2x1600000, .i32⟩ : BufTy).Contents (Elt Ideal)) (wl wr : (⟨2, ![128, 40]⟩ : Shape).Idx → EReal) (b : (⟨1, ![40]⟩ : Shape).Idx → EReal) :
    mat (layerOut (F := Ideal) h e wl wr b)
      = lsm (sageR (meanAggR (aggOf e (mat h)) (degOf e)) (mat h) (mat wl) (mat wr) (vec b)) := by
  unfold layerOut
  rw [logSoftmaxRef_apply, sageOut_apply, meanAgg_apply]

/-- THE READ: the reference's result array is the logarithm of the row-wise soft maximum of the pure network's logits,
    at the parameters the argument arrays give, the neighbourhood sum and degree column of the edge array, the count
    of rows and the guard term. -/
theorem ref_read (x : (⟨2, ![100000, 128]⟩ : Shape).Idx → EReal) (e : (⟨S2x1600000, .i32⟩ : BufTy).Contents (Elt Ideal)) (wl0 wr0 : (⟨2, ![128, 128]⟩ : Shape).Idx → EReal) (b0 : (⟨1, ![128]⟩ : Shape).Idx → EReal) (w1 : (⟨2, ![128, 128]⟩ : Shape).Idx → EReal) (c1 : (⟨1, ![128]⟩ : Shape).Idx → EReal)
    (w2 : (⟨2, ![128, 128]⟩ : Shape).Idx → EReal) (c2 : (⟨1, ![128]⟩ : Shape).Idx → EReal) (wl2 wr2 : (⟨2, ![128, 128]⟩ : Shape).Idx → EReal) (b2 : (⟨1, ![128]⟩ : Shape).Idx → EReal) (wlf wrf : (⟨2, ![128, 40]⟩ : Shape).Idx → EReal) (bf : (⟨1, ![40]⟩ : Shape).Idx → EReal) (γ β : (⟨2, ![3, 128]⟩ : Shape).Idx → EReal) :
    refOutArr (F := Ideal) x e wl0 wr0 b0 w1 c1 w2 c2 wl2 wr2 b2 wlf wrf bf γ β
      = arr2 (lsm (logitsR (params x wl0 wr0 b0 w1 c1 w2 c2 wl2 wr2 b2 wlf wrf bf γ β) (aggOf e) (degOf e)
          ((100000 : ℝ) : EReal) ((epsR : ℝ) : EReal))) := by
  rw [← arr2_mat (refOutArr (F := Ideal) x e wl0 wr0 b0 w1 c1 w2 c2 wl2 wr2 b2 wlf wrf bf γ β)]
  refine congrArg arr2 ?_
  unfold refOutArr
  rw [layerOut_eq, layer2_eq, layer1_eq, layer0_eq]
  rfl

end Cert.Bridge

end
-- ==== Proof.KI.KRead.lean ====
/- The kernel program's result term read index by index: it is the log-softmax of the pure-math network's logits (the kernel
   program's forms: products with the reciprocal degree, variance as mean square less squared mean, the bias row added last)
   at the given arrays. -/
import proofs.«167498_j75179107549620_1_alg».proof.Proof.KI.KTerms
import proofs.«167498_j75179107549620_1_alg».proof.Proof.BridgeDefs
import proofs.«167498_j75179107549620_1_alg».proof.Proof.Ref.Bridge
import Idealize.ShloMosaic.Lib.IdealHost

noncomputable section

namespace Cert.KernelIdeal.Gen

open Idealize.ShloMosaic Idealize.ShloMosaic.ValueIdx
open Cert.ReferenceIdeal.RefRun (srcRaw dstIx fixNeg srcIx sumAgg degCol bnRow0 bnRow1 bnRow2)
open Cert.Bridge Cert.GnnSpec

/-! ## Small layout facts -/

theorem asRow128_at (r : Vec Ideal S128 .f32) (j : Fin 128) : asRow128 (F := Ideal) r (row128 j) = r (ix1 j) :=
  shapeCast_a_1a_apply r shapeCasts_S128_S1x128 0 j
theorem asRow40_at (r : Vec Ideal S40 .f32) (j : Fin 40) : asRow40 (F := Ideal) r (row40 j) = r (ix1 j) :=
  shapeCast_a_1a_apply r shapeCasts_S40_S1x40 0 j

theorem bnRow0_at (g : Vec Ideal S3x128 .f32) (j : Fin 128) : bnRow0 (F := Ideal) g (ix1 j) = g (ix2 (0 : Fin 3) j) := by
  unfold bnRow0
  refine (shapeCast_1a_a_apply _ _ j).trans ?_
  exact extractStridedSlice_apply _ g _ (ix2 (0 : Fin 1) j) (ix2 (0 : Fin 3) j) (fun a => by
    match a with
    | ⟨0, _⟩ => rfl
    | ⟨1, _⟩ => show j.val = 0 + j.val; omega)
theorem bnRow1_at (g : Vec Ideal S3x128 .f32) (j : Fin 128) : bnRow1 (F := Ideal) g (ix1 j) = g (ix2 (1 : Fin 3) j) := by
  unfold bnRow1
  refine (shapeCast_1a_a_apply _ _ j).trans ?_
  exact extractStridedSlice_apply _ g _ (ix2 (0 : Fin 1) j) (ix2 (1 : Fin 3) j) (fun a => by
    match a with
    | ⟨0, _⟩ => rfl
    | ⟨1, _⟩ => show j.val = 0 + j.val; omega)
theorem bnRow2_at (g : Vec Ideal S3x128 .f32) (j : Fin 128) : bnRow2 (F := Ideal) g (ix1 j) = g (ix2 (2 : Fin 3) j) := by
  unfold bnRow2
  refine (shapeCast_1a_a_apply _ _ j).trans ?_
  exact extractStridedSlice_apply _ g _ (ix2 (0 : Fin 1) j) (ix2 (2 : Fin 3) j) (fun a => by
    match a with
    | ⟨0, _⟩ => rfl
    | ⟨1, _⟩ => show j.val = 0 + j.val; omega)

/-- The row of column means at a column. -/
theorem meanRowK_at (s : Vec Ideal S1x128 .f32) (j : Fin 128) :
    meanRowK (F := Ideal) s (row128 j) = Ideal.div (s (row128 j)) ((100000 : ℝ) : EReal) := by
  unfold meanRowK
  show Ideal.div (s (row128 j)) (broadcastInDim S1x128 ![] bcast_S_S1x128 (constant (F := Ideal) S_ .f32 0x47C35000#32) (row128 j)) = _
  rw [broadcastInDim_scalar_apply, constant_apply, ofBits_100000]
/-- The row of column variances at a column. -/
theorem varRowK_at (ss s : Vec Ideal S1x128 .f32) (j : Fin 128) :
    varRowK (F := Ideal) ss s (row128 j)
      = Ideal.div (ss (row128 j)) ((100000 : ℝ) : EReal) - Ideal.div (s (row128 j)) ((100000 : ℝ) : EReal) * Ideal.div (s (row128 j)) ((100000 : ℝ) : EReal) := by
  unfold varRowK
  show Ideal.div (ss (row128 j)) (broadcastInDim S1x128 ![] bcast_S_S1x128 (constant (F := Ideal) S_ .f32 0x47C35000#32) (row128 j))
    - meanRowK (F := Ideal) s (row128 j) * meanRowK (F := Ideal) s (row128 j) = _
  rw [broadcastInDim_scalar_apply, constant_apply, ofBits_100000, meanRowK_at]

/-- A neighbour sum scaled by the reciprocal-degree column, at an entry. -/
theorem scaleRows_invDeg_at (s : Vec Ideal S100000x128 .f32) (d : (⟨S1600000, .i32⟩ : BufTy).Contents (Elt Ideal)) (p : Fin 100000) (j : Fin 128) :
    scaleRows (F := Ideal) s (invDeg (F := Ideal) d) (ix2 p j) = s (ix2 p j) * Ideal.div 1 (max (degCol (F := Ideal) d (ix2 p (0 : Fin 1))) 1) := by
  unfold scaleRows
  rw [mulf_apply, colBc_apply]
  unfold invDeg
  rw [hostDivf_apply, maximumf_apply, broadcastInDim_scalar_apply, constant_apply, ofBits_one]

/-! ## The layers against the pure-math network -/

theorem mat_sagePre (A X : Vec Ideal S100000x128 .f32) (WL WR : Vec Ideal S128x128 .f32) (B : Vec Ideal S128 .f32) :
    mat (sagePre A X WL WR (asRow128 (F := Ideal) B)) = sageK (mat A) (mat X) (mat WL) (mat WR) (vec B) := by
  funext p j
  unfold mat sagePre sageAt sageK GnnSpec.matmul vec
  rw [asRow128_at]

theorem mat_ginPre (Hh G : Vec Ideal S100000x128 .f32) (W1 : Vec Ideal S128x128 .f32) (C1 : Vec Ideal S128 .f32) (W2 : Vec Ideal S128x128 .f32) (C2 : Vec Ideal S128 .f32) :
    mat (ginPre Hh G W1 (asRow128 (F := Ideal) C1) W2 (asRow128 (F := Ideal) C2))
      = mlp (fun p k => mat Hh p k + mat G p k) (mat W1) (vec C1) (mat W2) (vec C2) := by
  funext p j
  unfold mat ginPre ginAt mlp GnnSpec.matmul vec
  simp only [asRow128_at]

theorem mat_meanAgg (s : Vec Ideal S100000x128 .f32) (d : (⟨S1600000, .i32⟩ : BufTy).Contents (Elt Ideal)) :
    mat (scaleRows (F := Ideal) s (invDeg (F := Ideal) d)) = Cert.GnnSpec.meanAggK (mat s) (fun p => degCol (F := Ideal) d (ix2 p (0 : Fin 1))) := by
  funext p j
  unfold mat Cert.GnnSpec.meanAggK
  exact scaleRows_invDeg_at s d p j

theorem mat_bnK (pre : Vec Ideal S100000x128 .f32) (g b : Vec Ideal S128 .f32) :
    mat (bnK pre g b) = bnReluK (mat pre) (vec g) (vec b) ((100000 : ℝ) : EReal) ((epsR : ℝ) : EReal) := by
  funext p j
  unfold mat bnK normRelu normReluAt bnReluK bnAff GnnSpec.colMean varK vec
  show max (((pre (ix2 p j) - meanRowK (F := Ideal) (colSumRow pre) (row128 j)) * Ideal.rsqrt (varRowK (F := Ideal) (colSqSumRow pre) (colSumRow pre) (row128 j) + Ideal.ofBits .f32 0x3727C5AC#32))
      * asRow128 (F := Ideal) g (row128 j) + asRow128 (F := Ideal) b (row128 j)) 0 = _
  rw [meanRowK_at, varRowK_at, asRow128_at, asRow128_at, ofBits_epsR]
  rfl

theorem mat_bnResK (pre : Vec Ideal S100000x128 .f32) (g b : Vec Ideal S128 .f32) (res : Vec Ideal S100000x128 .f32) :
    mat (bnResK pre g b res) = fun p j => bnReluK (mat pre) (vec g) (vec b) ((100000 : ℝ) : EReal) ((epsR : ℝ) : EReal) p j + mat res p j := by
  funext p j
  have h := congrFun (congrFun (mat_bnK pre g b) p) j
  unfold mat at h ⊢
  unfold bnResK normReluRes
  unfold bnK at h
  rw [h]

theorem vec_bnRow0 (g : Vec Ideal S3x128 .f32) : vec (bnRow0 (F := Ideal) g) = mat g 0 := funext fun j => bnRow0_at g j
theorem vec_bnRow1 (g : Vec Ideal S3x128 .f32) : vec (bnRow1 (F := Ideal) g) = mat g 1 := funext fun j => bnRow1_at g j
theorem vec_bnRow2 (g : Vec Ideal S3x128 .f32) : vec (bnRow2 (F := Ideal) g) = mat g 2 := funext fun j => bnRow2_at g j

/-- The neighbour sum of an array is the edge list's aggregation of its rows. -/
theorem mat_sumAgg (e : (⟨S2x1600000, .i32⟩ : BufTy).Contents (Elt Ideal)) (h : Vec Ideal S100000x128 .f32) :
    mat (sumAgg (F := Ideal) (fixNeg (srcRaw (F := Ideal) e)) (dstIx (F := Ideal) e) h) = aggOf e (mat h) := by
  unfold aggOf; rw [arr2_mat]; rfl

section Read
variable (a : KArgs)

/-- The pure-math parameters of the program's argument arrays. -/
abbrev tParams : Params 100000 128 40 :=
  params a.X a.WL0 a.WR0 a.B0 a.W1 a.C1 a.W2 a.C2 a.WL2 a.WR2 a.B2 a.WLF a.WRF a.BF a.GA a.BE

/-- The neighbour sum scaled by the reciprocal degree is the pure network's neighbour mean. -/
theorem mat_tAgg (e : (⟨S2x1600000, .i32⟩ : BufTy).Contents (Elt Ideal)) (h : Vec Ideal S100000x128 .f32) :
    mat (scaleRows (F := Ideal) (sumAgg (F := Ideal) (fixNeg (srcRaw (F := Ideal) e)) (dstIx (F := Ideal) e) h) (invDeg (F := Ideal) (dstIx (F := Ideal) e)))
      = Cert.GnnSpec.meanAggK (aggOf e (mat h)) (degOf e) := by
  rw [mat_meanAgg, mat_sumAgg]
  rfl

theorem mat_tH0 : mat (tH0 a) = h0K (tParams a) (aggOf a.E) (degOf a.E) ((100000 : ℝ) : EReal) ((epsR : ℝ) : EReal) := by
  unfold tH0 tPre0 tAgg0 tDst Cert.KernelIdeal.Gen.meanAggK srcIx
  rw [mat_bnK, vec_bnRow0, vec_bnRow0, mat_sagePre, mat_tAgg]
  rfl

theorem mat_tH1 : mat (tH1 a) = h1K (tParams a) (aggOf a.E) (degOf a.E) ((100000 : ℝ) : EReal) ((epsR : ℝ) : EReal) := by
  unfold tH1 tPre1 tG1 tSrcRaw tDst
  rw [mat_bnResK, vec_bnRow1, vec_bnRow1, mat_ginPre, mat_sumAgg, mat_tH0]
  rfl

theorem mat_tH2 : mat (tH2 a) = h2K (tParams a) (aggOf a.E) (degOf a.E) ((100000 : ℝ) : EReal) ((epsR : ℝ) : EReal) := by
  unfold tH2 tPre2 tAgg2 tInvDeg tSrcRaw tDst
  rw [mat_bnResK, vec_bnRow2, vec_bnRow2, mat_sagePre, mat_tAgg, mat_tH1]
  rfl

/-- The final array is the logarithm of the row-wise soft maximum of the two-product logits. -/
theorem finalArr_eq (A X : Vec Ideal S100000x128 .f32) (Wl Wr : Vec Ideal S128x40 .f32) (B : Vec Ideal S40 .f32) :
    finalArr A X Wl Wr (asRow40 (F := Ideal) B) = arr2 (lsm (sageK (mat A) (mat X) (mat Wl) (mat Wr) (vec B))) := by
  funext i
  have hl : logits (fun k => A (ix2 (i 0) k)) (fun k => X (ix2 (i 0) k)) Wl Wr (asRow40 (F := Ideal) B)
      = sageK (mat A) (mat X) (mat Wl) (mat Wr) (vec B) (i 0) := by
    funext j
    unfold logits sageK GnnSpec.matmul mat vec
    rw [asRow40_at]
  unfold finalArr arr2 lsm lsmRow
  rw [hl]
  rfl

/-- THE READ: the kernel program's result array is the logarithm of the row-wise soft maximum of the pure network's
    logits in the kernel program's forms. -/
theorem tOut_read : tOut a = arr2 (lsm (logitsK (tParams a) (aggOf a.E) (degOf a.E) ((100000 : ℝ) : EReal) ((epsR : ℝ) : EReal))) := by
  unfold tOut tAggF tInvDeg tSrcRaw tDst
  rw [finalArr_eq, mat_tAgg, mat_tH2]
  rfl

end Read

end Cert.KernelIdeal.Gen
-- ==== Proof.Ref.Ops.lean ====
import proofs.«167498_j75179107549620_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The program's host operations as consecutive lists, one list per stage of the computation, each operation over
    the plain buffer references (an outlined function's operations written at its call, over that call's buffers). -/

/-- The two rows of the edge array, each as a vector: the source column and the destination column. -/
def sIdx : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The source column with a negative entry shifted up by the number of nodes. -/
def sIx0 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The in-degree column (ones summed into destination rows), its maximum with one, and the quotient of the sums by it. -/
def sMean0 : List (HloOp τ sig (Elt F)) :=
  [ unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_v13 main_v20 main_v21 (Host.divf : (⟨S100000x128, .f32⟩ : BufTy).Contents (Elt F) → (⟨S100000x128, .f32⟩ : BufTy).Contents (Elt F) → (⟨S100000x128, .f32⟩ : BufTy).Contents (Elt F)) ]

/-- The affine combination: aggregate times the left weights, plus the bias row, plus the features times the right weights. -/
def sSage0 : List (HloOp τ sig (Elt F)) :=
  [ binary main_v21 main_arg2 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    binary main_arg0 main_arg3 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v27 (addf : (⟨S100000x128, .f32⟩ : BufTy).Contents (Elt F) → (⟨S100000x128, .f32⟩ : BufTy).Contents (Elt F) → (⟨S100000x128, .f32⟩ : BufTy).Contents (Elt F)) ]

/-- Batch normalisation over the node axis: the column mean, the column variance (mean of squared deviations, guarded by the sign of the count), the reciprocal square root of variance plus epsilon, the scale row and the shift row. -/
def sBn0a : List (HloOp τ sig (Elt F)) :=
  [ nullary main_cst_4 (constant S_ .f32 0x00000000#32),
    binary main_v27 main_cst_4 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_5 (constant S_ .f32 0x47C35000#32),
    unary main_cst_5 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    nullary main_call0_cst (constant S_ .f32 0x00000000#32),
    binary main_v27 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v0 main_call0_v1 ((broadcastInDim S1x128 ![1] bcast_S128_S1x128_1) : (⟨S128, .f32⟩ : BufTy).Contents (Elt F) → (⟨S1x128, .f32⟩ : BufTy).Contents (Elt F)),
    nullary main_call0_cst_0 (constant S_ .f32 0x47C35000#32),
    unary main_call0_cst_0 main_call0_v2 ((broadcastInDim S1x128 ![] bcast_S_S1x128) : (⟨S_, .f32⟩ : BufTy).Contents (Elt F) → (⟨S1x128, .f32⟩ : BufTy).Contents (Elt F)),
    binary main_call0_v1 main_call0_v2 main_call0_v3 ((Host.divf) : (⟨S1x128, .f32⟩ : BufTy).Contents (Elt F) → (⟨S1x128, .f32⟩ : BufTy).Contents (Elt F) → (⟨S1x128, .f32⟩ : BufTy).Contents (Elt F)),
    unary main_call0_v3 main_call0_v4 ((broadcastInDim S100000x128 ![0, 1] bcast_S1x128_S100000x128_0_1) : (⟨S1x128, .f32⟩ : BufTy).Contents (Elt F) → (⟨S100000x128, .f32⟩ : BufTy).Contents (Elt F)),
    binary main_v27 main_call0_v4 main_call0_v5 ((subf) : (⟨S100000x128, .f32⟩ : BufTy).Contents (Elt F) → (⟨S100000x128, .f32⟩ : BufTy).Contents (Elt F) → (⟨S100000x128, .f32⟩ : BufTy).Contents (Elt F)),
    binary main_call0_v5 main_call0_v5 main_call0_v6 ((mulf) : (⟨S100000x128, .f32⟩ : BufTy).Contents (Elt F) → (⟨S100000x128, .f32⟩ : BufTy).Contents (Elt F) → (⟨S100000x128, .f32⟩ : BufTy).Contents (Elt F)),
    unary main_c_6 main_call0_v7 ((sitofp .f32) : (⟨S_, .i32⟩ : BufTy).Contents (Elt F) → (⟨S_, .f32⟩ : BufTy).Contents (Elt F)),
    nullary main_call0_cst_1 (constant S_ .f32 0x47C35000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v8 main_call0_v10 ((broadcastInDim S128 ![] bcast_S_S128) : (⟨S_, .f32⟩ : BufTy).Contents (Elt F) → (⟨S128, .f32⟩ : BufTy).Contents (Elt F)),
    binary main_call0_v9 main_call0_v10 main_call0_v11 ((Host.divf) : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S128 ![] bcast_S_S128) : (⟨S_, .f32⟩ : BufTy).Contents (Elt F) → (⟨S128, .f32⟩ : BufTy).Contents (Elt F)),
    ternary main_call0_v12 main_call0_v11 main_call0_call0_v1 main_v31 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v27 main_v33 main_v34 (subf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (mulf : (⟨S100000x128, .f32⟩ : BufTy).Contents (Elt F) → (⟨S100000x128, .f32⟩ : BufTy).Contents (Elt F) → (⟨S100000x128, .f32⟩ : BufTy).Contents (Elt F)),
    unary main_arg15 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v40 main_v44 main_v45 (mulf : (⟨S100000x128, .f32⟩ : BufTy).Contents (Elt F) → (⟨S100000x128, .f32⟩ : BufTy).Contents (Elt F) → (⟨S100000x128, .f32⟩ : BufTy).Contents (Elt F)),
    unary main_arg16 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)) ]

/-- Batch normalisation over the node axis: the column mean, the column variance (mean of squared deviations, guarded by the sign of the count), the reciprocal square root of variance plus epsilon, the scale row and the shift row. -/
def sBn0b : List (HloOp τ sig (Elt F)) :=
  [ binary main_v45 main_v49 main_v50 (addf : (⟨S100000x128, .f32⟩ : BufTy).Contents (Elt F) → (⟨S100000x128, .f32⟩ : BufTy).Contents (Elt F) → (⟨S100000x128, .f32⟩ : BufTy).Contents (Elt F)) ]

/-- The maximum with a zero array. -/
def sRelu0 : List (HloOp τ sig (Elt F)) :=
  [ nullary main_call1_cst (constant S_ .f32 0x00000000#32),
    unary main_call1_cst main_call1_v0 ((broadcastInDim S100000x128 ![] bcast_S_S100000x128) : (⟨S_, .f32⟩ : BufTy).Contents (Elt F) → (⟨S100000x128, .f32⟩ : BufTy).Contents (Elt F)),
    binary main_v50 main_call1_v0 main_v51 ((maximumf) : (⟨S100000x128, .f32⟩ : BufTy).Contents (Elt F) → (⟨S100000x128, .f32⟩ : BufTy).Contents (Elt F) → (⟨S100000x128, .f32⟩ : BufTy).Contents (Elt F)) ]

/-- The source column with a negative entry shifted up by the number of nodes. -/
def sIx1 : List (HloOp τ sig (Elt F)) :=
  [ nullary main_c_8 (constantI S_ 32 0#32),
    unary main_c_8 main_v52 (broadcastInDim S1600000 ![] bcast_S_S1600000 : (⟨S_, .i32⟩ : BufTy).Contents (Elt F) → (⟨S1600000, .i32⟩ : BufTy).Contents (Elt F)),
    binary main_v1 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v54 (broadcastInDim S1600000 ![] bcast_S_S1600000 : (⟨S_, .i32⟩ : BufTy).Contents (Elt F) → (⟨S1600000, .i32⟩ : BufTy).Contents (Elt F)),
    binary main_v1 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The rows gathered at the source column, summed into the destination rows of a zero array. -/
def sSum1 : List (HloOp τ sig (Elt F)) :=
  [ unary main_v56 main_v57 (broadcastInDim S1600000x1 ![0] bcast_S1600000_S1600000x1_0 : (⟨S1600000, .i32⟩ : BufTy).Contents (Elt F) → (⟨S1600000x1, .i32⟩ : BufTy).Contents (Elt F)),
    binary main_v51 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v59 (broadcastInDim S100000x128 ![] bcast_S_S100000x128 : (⟨S_, .f32⟩ : BufTy).Contents (Elt F) → (⟨S100000x128, .f32⟩ : BufTy).Contents (Elt F)),
    unary main_v3 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The sum of features and aggregate through two affine maps with the maximum with zero between them. -/
def sGin1 : List (HloOp τ sig (Elt F)) :=
  [ binary main_v51 main_v61 main_v62 (addf : (⟨S100000x128, .f32⟩ : BufTy).Contents (Elt F) → (⟨S100000x128, .f32⟩ : BufTy).Contents (Elt F) → (⟨S100000x128, .f32⟩ : BufTy).Contents (Elt F)),
    binary main_v62 main_arg5 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 ((broadcastInDim S100000x128 ![] bcast_S_S100000x128) : (⟨S_, .f32⟩ : BufTy).Contents (Elt F) → (⟨S100000x128, .f32⟩ : BufTy).Contents (Elt F)),
    binary main_v66 main_call2_v0 main_v67 ((maximumf) : (⟨S100000x128, .f32⟩ : BufTy).Contents (Elt F) → (⟨S100000x128, .f32⟩ : BufTy).Contents (Elt F) → (⟨S100000x128, .f32⟩ : BufTy).Contents (Elt F)),
    binary main_v67 main_arg7 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)) ]

/-- Batch normalisation over the node axis: the column mean, the column variance (mean of squared deviations, guarded by the sign of the count), the reciprocal square root of variance plus epsilon, the scale row and the shift row. -/
def sBn1 : List (HloOp τ sig (Elt F)) :=
  [ nullary main_cst_11 (constant S_ .f32 0x00000000#32),
    binary main_v71 main_cst_11 main_v72 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v73 (broadcastInDim S128 ![] bcast_S_S128 : (⟨S_, .f32⟩ : BufTy).Contents (Elt F) → (⟨S128, .f32⟩ : BufTy).Contents (Elt F)),
    binary main_v72 main_v73 main_v74 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    nullary main_call3_cst (constant S_ .f32 0x00000000#32),
    binary main_v71 main_call3_cst main_call3_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v0 main_call3_v1 ((broadcastInDim S1x128 ![1] bcast_S128_S1x128_1) : (⟨S128, .f32⟩ : BufTy).Contents (Elt F) → (⟨S1x128, .f32⟩ : BufTy).Contents (Elt F)),
    nullary main_call3_cst_0 (constant S_ .f32 0x47C35000#32),
    unary main_call3_cst_0 main_call3_v2 ((broadcastInDim S1x128 ![] bcast_S_S1x128) : (⟨S_, .f32⟩ : BufTy).Contents (Elt F) → (⟨S1x128, .f32⟩ : BufTy).Contents (Elt F)),
    binary main_call3_v1 main_call3_v2 main_call3_v3 ((Host.divf) : (⟨S1x128, .f32⟩ : BufTy).Contents (Elt F) → (⟨S1x128, .f32⟩ : BufTy).Contents (Elt F) → (⟨S1x128, .f32⟩ : BufTy).Contents (Elt F)),
    unary main_call3_v3 main_call3_v4 ((broadcastInDim S100000x128 ![0, 1] bcast_S1x128_S100000x128_0_1) : (⟨S1x128, .f32⟩ : BufTy).Contents (Elt F) → (⟨S100000x128, .f32⟩ : BufTy).Contents (Elt F)),
    binary main_v71 main_call3_v4 main_call3_v5 ((subf) : (⟨S100000x128, .f32⟩ : BufTy).Contents (Elt F) → (⟨S100000x128, .f32⟩ : BufTy).Contents (Elt F) → (⟨S100000x128, .f32⟩ : BufTy).Contents (Elt F)),
    binary main_call3_v5 main_call3_v5 main_call3_v6 ((mulf) : (⟨S100000x128, .f32⟩ : BufTy).Contents (Elt F) → (⟨S100000x128, .f32⟩ : BufTy).Contents (Elt F) → (⟨S100000x128, .f32⟩ : BufTy).Contents (Elt F)),
    unary main_c_13 main_call3_v7 ((sitofp .f32) : (⟨S_, .i32⟩ : BufTy).Contents (Elt F) → (⟨S_, .f32⟩ : BufTy).Contents (Elt F)),
    nullary main_call3_cst_1 (constant S_ .f32 0x47C35000#32),
    binary main_call3_cst_1 main_call3_v7 main_call3_v8 ((subf) : (⟨S_, .f32⟩ : BufTy).Contents (Elt F) → (⟨S_, .f32⟩ : BufTy).Contents (Elt F) → (⟨S_, .f32⟩ : BufTy).Contents (Elt F)),
    nullary main_call3_cst_2 (constant S_ .f32 0x00000000#32),
    binary main_call3_v6 main_call3_cst_2 main_call3_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v8 main_call3_v10 ((broadcastInDim S128 ![] bcast_S_S128) : (⟨S_, .f32⟩ : BufTy).Contents (Elt F) → (⟨S128, .f32⟩ : BufTy).Contents (Elt F)),
    binary main_call3_v9 main_call3_v10 main_call3_v11 ((Host.divf) : (⟨S128, .f32⟩ : BufTy).Contents (Elt F) → (⟨S128, .f32⟩ : BufTy).Contents (Elt F) → (⟨S128, .f32⟩ : BufTy).Contents (Elt F)),
    nullary main_call3_cst_3 (constant S_ .f32 0x00000000#32),
    binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32),
    unary main_call3_cst_4 main_call3_call0_v0 ((id) : (⟨S_, .f32⟩ : BufTy).Contents (Elt F) → (⟨S_, .f32⟩ : BufTy).Contents (Elt F)),
    unary main_call3_call0_v0 main_call3_call0_v1 ((broadcastInDim S128 ![] bcast_S_S128) : (⟨S_, .f32⟩ : BufTy).Contents (Elt F) → (⟨S128, .f32⟩ : BufTy).Contents (Elt F)),
    ternary main_call3_v12 main_call3_v11 main_call3_call0_v1 main_v75 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v74 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v71 main_v77 main_v78 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v79 (broadcastInDim S128 ![] bcast_S_S128 : (⟨S_, .f32⟩ : BufTy).Contents (Elt F) → (⟨S128, .f32⟩ : BufTy).Contents (Elt F)),
    binary main_v75 main_v79 main_v80 (addf : (⟨S128, .f32⟩ : BufTy).Contents (Elt F) → (⟨S128, .f32⟩ : BufTy).Contents (Elt F) → (⟨S128, .f32⟩ : BufTy).Contents (Elt F)),
    unary main_v80 main_v81 (Host.rsqrt : (⟨S128, .f32⟩ : BufTy).Contents (Elt F) → (⟨S128, .f32⟩ : BufTy).Contents (Elt F)),
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v78 main_v83 main_v84 (mulf : (⟨S100000x128, .f32⟩ : BufTy).Contents (Elt F) → (⟨S100000x128, .f32⟩ : BufTy).Contents (Elt F) → (⟨S100000x128, .f32⟩ : BufTy).Contents (Elt F)),
    unary main_arg15 main_v85 ((extractStridedSlice S1x128 ![1, 0] · slices_S3x128_S1x128_1_0) : (⟨S3x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v84 main_v88 main_v89 (mulf : (⟨S100000x128, .f32⟩ : BufTy).Contents (Elt F) → (⟨S100000x128, .f32⟩ : BufTy).Contents (Elt F) → (⟨S100000x128, .f32⟩ : BufTy).Contents (Elt F)),
    unary main_arg16 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v89 main_v93 main_v94 (addf : (⟨S100000x128, .f32⟩ : BufTy).Contents (Elt F) → (⟨S100000x128, .f32⟩ : BufTy).Contents (Elt F) → (⟨S100000x128, .f32⟩ : BufTy).Contents (Elt F)) ]

/-- The maximum with a zero array. -/
def sRelu1 : List (HloOp τ sig (Elt F)) :=
  [ nullary main_call4_cst (constant S_ .f32 0x00000000#32),
    unary main_call4_cst main_call4_v0 ((broadcastInDim S100000x128 ![] bcast_S_S100000x128) : (⟨S_, .f32⟩ : BufTy).Contents (Elt F) → (⟨S100000x128, .f32⟩ : BufTy).Contents (Elt F)),
    binary main_v94 main_call4_v0 main_v95 ((maximumf) : (⟨S100000x128, .f32⟩ : BufTy).Contents (Elt F) → (⟨S100000x128, .f32⟩ : BufTy).Contents (Elt F) → (⟨S100000x128, .f32⟩ : BufTy).Contents (Elt F)) ]

/-- The residual sum. -/
def sRes1 : List (HloOp τ sig (Elt F)) :=
  [ binary main_v95 main_v51 main_v96 (addf : (⟨S100000x128, .f32⟩ : BufTy).Contents (Elt F) → (⟨S100000x128, .f32⟩ : BufTy).Contents (Elt F) → (⟨S100000x128, .f32⟩ : BufTy).Contents (Elt F)) ]

/-- The source column with a negative entry shifted up by the number of nodes. -/
def sIx2a : List (HloOp τ sig (Elt F)) :=
  [ nullary main_c_15 (constantI S_ 32 0#32),
    unary main_c_15 main_v97 (broadcastInDim S1600000 ![] bcast_S_S1600000 : (⟨S_, .i32⟩ : BufTy).Contents (Elt F) → (⟨S1600000, .i32⟩ : BufTy).Contents (Elt F)),
    binary main_v1 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v99 (broadcastInDim S1600000 ![] bcast_S_S1600000 : (⟨S_, .i32⟩ : BufTy).Contents (Elt F) → (⟨S1600000, .i32⟩ : BufTy).Contents (Elt F)),
    binary main_v1 main_v99 main_v100 (addi : (⟨S1600000, .i32⟩ : BufTy).Contents (Elt F) → (⟨S1600000, .i32⟩ : BufTy).Contents (Elt F) → (⟨S1600000, .i32⟩ : BufTy).Contents (Elt F)) ]

/-- The source column with a negative entry shifted up by the number of nodes. -/
def sIx2b : List (HloOp τ sig (Elt F)) :=
  [ ternary main_v98 main_v100 main_v1 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The in-degree column (ones summed into destination rows), its maximum with one, and the quotient of the sums by it. -/
def sMean2 : List (HloOp τ sig (Elt F)) :=
  [ unary main_v101 main_v102 (broadcastInDim S1600000x1 ![0] bcast_S1600000_S1600000x1_0 : (⟨S1600000, .i32⟩ : BufTy).Contents (Elt F) → (⟨S1600000x1, .i32⟩ : BufTy).Contents (Elt F)),
    binary main_v96 main_v102 main_v103 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_17 (constant S_ .f32 0x00000000#32),
    unary main_cst_17 main_v104 (broadcastInDim S100000x128 ![] bcast_S_S100000x128 : (⟨S_, .f32⟩ : BufTy).Contents (Elt F) → (⟨S100000x128, .f32⟩ : BufTy).Contents (Elt F)),
    unary main_v3 main_v105 (broadcastInDim S1600000x1 ![0] bcast_S1600000_S1600000x1_0 : (⟨S1600000, .i32⟩ : BufTy).Contents (Elt F) → (⟨S1600000x1, .i32⟩ : BufTy).Contents (Elt F)),
    ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_18 (constant S_ .f32 0x3F800000#32),
    unary main_cst_18 main_v107 (broadcastInDim S1600000x1 ![] bcast_S_S1600000x1 : (⟨S_, .f32⟩ : BufTy).Contents (Elt F) → (⟨S1600000x1, .f32⟩ : BufTy).Contents (Elt F)),
    nullary main_cst_19 (constant S_ .f32 0x00000000#32),
    unary main_cst_19 main_v108 (broadcastInDim S100000x1 ![] bcast_S_S100000x1 : (⟨S_, .f32⟩ : BufTy).Contents (Elt F) → (⟨S100000x1, .f32⟩ : BufTy).Contents (Elt F)),
    unary main_v3 main_v109 (broadcastInDim S1600000x1 ![0] bcast_S1600000_S1600000x1_0 : (⟨S1600000, .i32⟩ : BufTy).Contents (Elt F) → (⟨S1600000x1, .i32⟩ : BufTy).Contents (Elt F)),
    ternary main_v108 main_v109 main_v107 main_v110 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_20 (constant S_ .f32 0x3F800000#32),
    unary main_cst_20 main_v111 (broadcastInDim S100000x1 ![] bcast_S_S100000x1 : (⟨S_, .f32⟩ : BufTy).Contents (Elt F) → (⟨S100000x1, .f32⟩ : BufTy).Contents (Elt F)),
    binary main_v110 main_v111 main_v112 (maximumf : (⟨S100000x1, .f32⟩ : BufTy).Contents (Elt F) → (⟨S100000x1, .f32⟩ : BufTy).Contents (Elt F) → (⟨S100000x1, .f32⟩ : BufTy).Contents (Elt F)),
    unary main_v112 main_v113 (broadcastInDim S100000x128 ![0, 1] bcast_S100000x1_S100000x128_0_1 : (⟨S100000x1, .f32⟩ : BufTy).Contents (Elt F) → (⟨S100000x128, .f32⟩ : BufTy).Contents (Elt F)),
    binary main_v106 main_v113 main_v114 (Host.divf : (⟨S100000x128, .f32⟩ : BufTy).Contents (Elt F) → (⟨S100000x128, .f32⟩ : BufTy).Contents (Elt F) → (⟨S100000x128, .f32⟩ : BufTy).Contents (Elt F)) ]

/-- The affine combination: aggregate times the left weights, plus the bias row, plus the features times the right weights. -/
def sSage2 : List (HloOp τ sig (Elt F)) :=
  [ binary main_v114 main_arg9 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v115 main_v117 main_v118 (addf : (⟨S100000x128, .f32⟩ : BufTy).Contents (Elt F) → (⟨S100000x128, .f32⟩ : BufTy).Contents (Elt F) → (⟨S100000x128, .f32⟩ : BufTy).Contents (Elt F)),
    binary main_v96 main_arg10 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v118 main_v119 main_v120 (addf : (⟨S100000x128, .f32⟩ : BufTy).Contents (Elt F) → (⟨S100000x128, .f32⟩ : BufTy).Contents (Elt F) → (⟨S100000x128, .f32⟩ : BufTy).Contents (Elt F)) ]

/-- Batch normalisation over the node axis: the column mean, the column variance (mean of squared deviations, guarded by the sign of the count), the reciprocal square root of variance plus epsilon, the scale row and the shift row. -/
def sBn2 : List (HloOp τ sig (Elt F)) :=
  [ nullary main_cst_21 (constant S_ .f32 0x00000000#32),
    binary main_v120 main_cst_21 main_v121 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v122 (broadcastInDim S128 ![] bcast_S_S128 : (⟨S_, .f32⟩ : BufTy).Contents (Elt F) → (⟨S128, .f32⟩ : BufTy).Contents (Elt F)),
    binary main_v121 main_v122 main_v123 (Host.divf : (⟨S128, .f32⟩ : BufTy).Contents (Elt F) → (⟨S128, .f32⟩ : BufTy).Contents (Elt F) → (⟨S128, .f32⟩ : BufTy).Contents (Elt F)),
    nullary main_c_23 (constantI S_ 32 0#32),
    nullary main_call5_cst (constant S_ .f32 0x00000000#32),
    binary main_v120 main_call5_cst main_call5_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call5_v0 main_call5_v1 ((broadcastInDim S1x128 ![1] bcast_S128_S1x128_1) : (⟨S128, .f32⟩ : BufTy).Contents (Elt F) → (⟨S1x128, .f32⟩ : BufTy).Contents (Elt F)),
    nullary main_call5_cst_0 (constant S_ .f32 0x47C35000#32),
    unary main_call5_cst_0 main_call5_v2 ((broadcastInDim S1x128 ![] bcast_S_S1x128) : (⟨S_, .f32⟩ : BufTy).Contents (Elt F) → (⟨S1x128, .f32⟩ : BufTy).Contents (Elt F)),
    binary main_call5_v1 main_call5_v2 main_call5_v3 ((Host.divf) : (⟨S1x128, .f32⟩ : BufTy).Contents (Elt F) → (⟨S1x128, .f32⟩ : BufTy).Contents (Elt F) → (⟨S1x128, .f32⟩ : BufTy).Contents (Elt F)),
    unary main_call5_v3 main_call5_v4 ((broadcastInDim S100000x128 ![0, 1] bcast_S1x128_S100000x128_0_1) : (⟨S1x128, .f32⟩ : BufTy).Contents (Elt F) → (⟨S100000x128, .f32⟩ : BufTy).Contents (Elt F)),
    binary main_v120 main_call5_v4 main_call5_v5 ((subf) : (⟨S100000x128, .f32⟩ : BufTy).Contents (Elt F) → (⟨S100000x128, .f32⟩ : BufTy).Contents (Elt F) → (⟨S100000x128, .f32⟩ : BufTy).Contents (Elt F)),
    binary main_call5_v5 main_call5_v5 main_call5_v6 ((mulf) : (⟨S100000x128, .f32⟩ : BufTy).Contents (Elt F) → (⟨S100000x128, .f32⟩ : BufTy).Contents (Elt F) → (⟨S100000x128, .f32⟩ : BufTy).Contents (Elt F)),
    unary main_c_23 main_call5_v7 ((sitofp .f32) : (⟨S_, .i32⟩ : BufTy).Contents (Elt F) → (⟨S_, .f32⟩ : BufTy).Contents (Elt F)),
    nullary main_call5_cst_1 (constant S_ .f32 0x47C35000#32),
    binary main_call5_cst_1 main_call5_v7 main_call5_v8 ((subf) : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call5_v8 main_call5_v10 ((broadcastInDim S128 ![] bcast_S_S128) : (⟨S_, .f32⟩ : BufTy).Contents (Elt F) → (⟨S128, .f32⟩ : BufTy).Contents (Elt F)),
    binary main_call5_v9 main_call5_v10 main_call5_v11 ((Host.divf) : (⟨S128, .f32⟩ : BufTy).Contents (Elt F) → (⟨S128, .f32⟩ : BufTy).Contents (Elt F) → (⟨S128, .f32⟩ : BufTy).Contents (Elt F)),
    nullary main_call5_cst_3 (constant S_ .f32 0x00000000#32),
    binary main_call5_v8 main_call5_cst_3 main_call5_v12 ((cmpf .ogt) : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 ((id) : (⟨S_, .f32⟩ : BufTy).Contents (Elt F) → (⟨S_, .f32⟩ : BufTy).Contents (Elt F)),
    unary main_call5_call0_v0 main_call5_call0_v1 ((broadcastInDim S128 ![] bcast_S_S128) : (⟨S_, .f32⟩ : BufTy).Contents (Elt F) → (⟨S128, .f32⟩ : BufTy).Contents (Elt F)),
    ternary main_call5_v12 main_call5_v11 main_call5_call0_v1 main_v124 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v123 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v120 main_v126 main_v127 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v128 (broadcastInDim S128 ![] bcast_S_S128 : (⟨S_, .f32⟩ : BufTy).Contents (Elt F) → (⟨S128, .f32⟩ : BufTy).Contents (Elt F)),
    binary main_v124 main_v128 main_v129 (addf : (⟨S128, .f32⟩ : BufTy).Contents (Elt F) → (⟨S128, .f32⟩ : BufTy).Contents (Elt F) → (⟨S128, .f32⟩ : BufTy).Contents (Elt F)),
    unary main_v129 main_v130 (Host.rsqrt : (⟨S128, .f32⟩ : BufTy).Contents (Elt F) → (⟨S128, .f32⟩ : BufTy).Contents (Elt F)),
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v127 main_v132 main_v133 (mulf : (⟨S100000x128, .f32⟩ : BufTy).Contents (Elt F) → (⟨S100000x128, .f32⟩ : BufTy).Contents (Elt F) → (⟨S100000x128, .f32⟩ : BufTy).Contents (Elt F)),
    unary main_arg15 main_v134 ((extractStridedSlice S1x128 ![2, 0] · slices_S3x128_S1x128_2_0) : (⟨S3x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v133 main_v137 main_v138 (mulf : (⟨S100000x128, .f32⟩ : BufTy).Contents (Elt F) → (⟨S100000x128, .f32⟩ : BufTy).Contents (Elt F) → (⟨S100000x128, .f32⟩ : BufTy).Contents (Elt F)),
    unary main_arg16 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_v140 main_v141 (broadcastInDim S1x128 ![1] bcast_S128_S1x128_1 : (⟨S128, .f32⟩ : BufTy).Contents (Elt F) → (⟨S1x128, .f32⟩ : BufTy).Contents (Elt F)),
    unary main_v141 main_v142 (broadcastInDim S100000x128 ![0, 1] bcast_S1x128_S100000x128_0_1 : (⟨S1x128, .f32⟩ : BufTy).Contents (Elt F) → (⟨S100000x128, .f32⟩ : BufTy).Contents (Elt F)),
    binary main_v138 main_v142 main_v143 (addf : (⟨S100000x128, .f32⟩ : BufTy).Contents (Elt F) → (⟨S100000x128, .f32⟩ : BufTy).Contents (Elt F) → (⟨S100000x128, .f32⟩ : BufTy).Contents (Elt F)) ]

/-- The maximum with a zero array. -/
def sRelu2 : List (HloOp τ sig (Elt F)) :=
  [ nullary main_call6_cst (constant S_ .f32 0x00000000#32),
    unary main_call6_cst main_call6_v0 ((broadcastInDim S100000x128 ![] bcast_S_S100000x128) : (⟨S_, .f32⟩ : BufTy).Contents (Elt F) → (⟨S100000x128, .f32⟩ : BufTy).Contents (Elt F)),
    binary main_v143 main_call6_v0 main_v144 ((maximumf) : (⟨S100000x128, .f32⟩ : BufTy).Contents (Elt F) → (⟨S100000x128, .f32⟩ : BufTy).Contents (Elt F) → (⟨S100000x128, .f32⟩ : BufTy).Contents (Elt F)) ]

/-- The residual sum. -/
def sRes2 : List (HloOp τ sig (Elt F)) :=
  [ binary main_v144 main_v96 main_v145 (addf : (⟨S100000x128, .f32⟩ : BufTy).Contents (Elt F) → (⟨S100000x128, .f32⟩ : BufTy).Contents (Elt F) → (⟨S100000x128, .f32⟩ : BufTy).Contents (Elt F)) ]

/-- The source column with a negative entry shifted up by the number of nodes. -/
def sIx3 : List (HloOp τ sig (Elt F)) :=
  [ nullary main_c_25 (constantI S_ 32 0#32),
    unary main_c_25 main_v146 (broadcastInDim S1600000 ![] bcast_S_S1600000 : (⟨S_, .i32⟩ : BufTy).Contents (Elt F) → (⟨S1600000, .i32⟩ : BufTy).Contents (Elt F)),
    binary main_v1 main_v146 main_v147 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v148 (broadcastInDim S1600000 ![] bcast_S_S1600000 : (⟨S_, .i32⟩ : BufTy).Contents (Elt F) → (⟨S1600000, .i32⟩ : BufTy).Contents (Elt F)),
    binary main_v1 main_v148 main_v149 (addi : (⟨S1600000, .i32⟩ : BufTy).Contents (Elt F) → (⟨S1600000, .i32⟩ : BufTy).Contents (Elt F) → (⟨S1600000, .i32⟩ : BufTy).Contents (Elt F)),
    ternary main_v147 main_v149 main_v1 main_v150 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The in-degree column (ones summed into destination rows), its maximum with one, and the quotient of the sums by it. -/
def sMean3 : List (HloOp τ sig (Elt F)) :=
  [ unary main_v150 main_v151 (broadcastInDim S1600000x1 ![0] bcast_S1600000_S1600000x1_0 : (⟨S1600000, .i32⟩ : BufTy).Contents (Elt F) → (⟨S1600000x1, .i32⟩ : BufTy).Contents (Elt F)),
    binary main_v145 main_v151 main_v152 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_27 (constant S_ .f32 0x00000000#32),
    unary main_cst_27 main_v153 (broadcastInDim S100000x128 ![] bcast_S_S100000x128 : (⟨S_, .f32⟩ : BufTy).Contents (Elt F) → (⟨S100000x128, .f32⟩ : BufTy).Contents (Elt F)),
    unary main_v3 main_v154 (broadcastInDim S1600000x1 ![0] bcast_S1600000_S1600000x1_0 : (⟨S1600000, .i32⟩ : BufTy).Contents (Elt F) → (⟨S1600000x1, .i32⟩ : BufTy).Contents (Elt F)),
    ternary main_v153 main_v154 main_v152 main_v155 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_28 (constant S_ .f32 0x3F800000#32),
    unary main_cst_28 main_v156 (broadcastInDim S1600000x1 ![] bcast_S_S1600000x1 : (⟨S_, .f32⟩ : BufTy).Contents (Elt F) → (⟨S1600000x1, .f32⟩ : BufTy).Contents (Elt F)),
    nullary main_cst_29 (constant S_ .f32 0x00000000#32),
    unary main_cst_29 main_v157 (broadcastInDim S100000x1 ![] bcast_S_S100000x1 : (⟨S_, .f32⟩ : BufTy).Contents (Elt F) → (⟨S100000x1, .f32⟩ : BufTy).Contents (Elt F)),
    unary main_v3 main_v158 (broadcastInDim S1600000x1 ![0] bcast_S1600000_S1600000x1_0 : (⟨S1600000, .i32⟩ : BufTy).Contents (Elt F) → (⟨S1600000x1, .i32⟩ : BufTy).Contents (Elt F)),
    ternary main_v157 main_v158 main_v156 main_v159 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_30 (constant S_ .f32 0x3F800000#32),
    unary main_cst_30 main_v160 (broadcastInDim S100000x1 ![] bcast_S_S100000x1 : (⟨S_, .f32⟩ : BufTy).Contents (Elt F) → (⟨S100000x1, .f32⟩ : BufTy).Contents (Elt F)),
    binary main_v159 main_v160 main_v161 (maximumf : (⟨S100000x1, .f32⟩ : BufTy).Contents (Elt F) → (⟨S100000x1, .f32⟩ : BufTy).Contents (Elt F) → (⟨S100000x1, .f32⟩ : BufTy).Contents (Elt F)),
    unary main_v161 main_v162 (broadcastInDim S100000x128 ![0, 1] bcast_S100000x1_S100000x128_0_1 : (⟨S100000x1, .f32⟩ : BufTy).Contents (Elt F) → (⟨S100000x128, .f32⟩ : BufTy).Contents (Elt F)),
    binary main_v155 main_v162 main_v163 (Host.divf : (⟨S100000x128, .f32⟩ : BufTy).Contents (Elt F) → (⟨S100000x128, .f32⟩ : BufTy).Contents (Elt F) → (⟨S100000x128, .f32⟩ : BufTy).Contents (Elt F)) ]

/-- The affine combination: aggregate times the left weights, plus the bias row, plus the features times the right weights. -/
def sSage3 : List (HloOp τ sig (Elt F)) :=
  [ binary main_v163 main_arg12 main_v164 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg14 main_v165 (broadcastInDim S1x40 ![1] bcast_S40_S1x40_1 : (⟨S40, .f32⟩ : BufTy).Contents (Elt F) → (⟨S1x40, .f32⟩ : BufTy).Contents (Elt F)),
    unary main_v165 main_v166 (broadcastInDim S100000x40 ![0, 1] bcast_S1x40_S100000x40_0_1 : (⟨S1x40, .f32⟩ : BufTy).Contents (Elt F) → (⟨S100000x40, .f32⟩ : BufTy).Contents (Elt F)),
    binary main_v164 main_v166 main_v167 (addf : (⟨S100000x40, .f32⟩ : BufTy).Contents (Elt F) → (⟨S100000x40, .f32⟩ : BufTy).Contents (Elt F) → (⟨S100000x40, .f32⟩ : BufTy).Contents (Elt F)),
    binary main_v145 main_arg13 main_v168 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v167 main_v168 main_v169 (addf : (⟨S100000x40, .f32⟩ : BufTy).Contents (Elt F) → (⟨S100000x40, .f32⟩ : BufTy).Contents (Elt F) → (⟨S100000x40, .f32⟩ : BufTy).Contents (Elt F)) ]

/-- Row-wise: subtract the row maximum, then subtract the logarithm of the row sum of exponentials. -/
def sLsm : List (HloOp τ sig (Elt F)) :=
  [ nullary main_call7_cst (constant S_ .f32 0xFF800000#32),
    binary main_v169 main_call7_cst main_call7_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call7_cst_0 (constant S_ .f32 0xFF800000#32),
    unary main_call7_cst_0 main_call7_v1 ((broadcastInDim S100000 ![] bcast_S_S100000) : (⟨S_, .f32⟩ : BufTy).Contents (Elt F) → (⟨S100000, .f32⟩ : BufTy).Contents (Elt F)),
    binary main_call7_v1 main_call7_v0 main_call7_v2 ((maximumf) : (⟨S100000, .f32⟩ : BufTy).Contents (Elt F) → (⟨S100000, .f32⟩ : BufTy).Contents (Elt F) → (⟨S100000, .f32⟩ : BufTy).Contents (Elt F)),
    unary main_call7_v2 main_call7_v3 ((broadcastInDim S100000x1 ![0] bcast_S100000_S100000x1_0) : (⟨S100000, .f32⟩ : BufTy).Contents (Elt F) → (⟨S100000x1, .f32⟩ : BufTy).Contents (Elt F)),
    unary main_call7_v3 main_call7_v4 ((broadcastInDim S100000x40 ![0, 1] bcast_S100000x1_S100000x40_0_1) : (⟨S100000x1, .f32⟩ : BufTy).Contents (Elt F) → (⟨S100000x40, .f32⟩ : BufTy).Contents (Elt F)),
    binary main_v169 main_call7_v4 main_call7_v5 ((subf) : (⟨S100000x40, .f32⟩ : BufTy).Contents (Elt F) → (⟨S100000x40, .f32⟩ : BufTy).Contents (Elt F) → (⟨S100000x40, .f32⟩ : BufTy).Contents (Elt F)),
    unary main_call7_v5 main_call7_v6 ((Host.exp) : (⟨S100000x40, .f32⟩ : BufTy).Contents (Elt F) → (⟨S100000x40, .f32⟩ : BufTy).Contents (Elt F)),
    nullary main_call7_cst_1 (constant S_ .f32 0x00000000#32),
    binary main_call7_v6 main_call7_cst_1 main_call7_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call7_v7 main_call7_v8 ((broadcastInDim S100000x1 ![0] bcast_S100000_S100000x1_0) : (⟨S100000, .f32⟩ : BufTy).Contents (Elt F) → (⟨S100000x1, .f32⟩ : BufTy).Contents (Elt F)),
    unary main_call7_v8 main_call7_v9 ((Host.log) : (⟨S100000x1, .f32⟩ : BufTy).Contents (Elt F) → (⟨S100000x1, .f32⟩ : BufTy).Contents (Elt F)),
    unary main_call7_v9 main_call7_v10 ((broadcastInDim S100000x40 ![0, 1] bcast_S100000x1_S100000x40_0_1) : (⟨S100000x1, .f32⟩ : BufTy).Contents (Elt F) → (⟨S100000x40, .f32⟩ : BufTy).Contents (Elt F)),
    binary main_call7_v5 main_call7_v10 main_v170 ((subf) : (⟨S100000x40, .f32⟩ : BufTy).Contents (Elt F) → (⟨S100000x40, .f32⟩ : BufTy).Contents (Elt F) → (⟨S100000x40, .f32⟩ : BufTy).Contents (Elt F)) ]

/-- The operations of window 0 of the program, in order. -/
def ops0 : List (HloOp τ sig (Elt F)) :=
  sIdx ++ (sIx0 ++ (sMean0 ++ (sSage0 ++ (sBn0a))))

/-- The operations of window 1 of the program, in order. -/
def ops1 : List (HloOp τ sig (Elt F)) :=
  sBn0b ++ (sRelu0 ++ (sIx1 ++ (sSum1 ++ (sGin1 ++ (sBn1 ++ (sRelu1 ++ (sRes1 ++ (sIx2a))))))))

/-- The operations of window 2 of the program, in order. -/
def ops2 : List (HloOp τ sig (Elt F)) :=
  sIx2b ++ (sMean2 ++ (sSage2 ++ (sBn2 ++ (sRelu2 ++ (sRes2 ++ (sIx3))))))

/-- The operations of window 3 of the program, in order. -/
def ops3 : List (HloOp τ sig (Elt F)) :=
  sMean3 ++ (sSage3 ++ (sLsm))

/-- All the operations, in order. -/
def ops : List (HloOp τ sig (Elt F)) :=
  ops0 ++ (ops1 ++ (ops2 ++ ops3))

attribute [local irreducible] Host.reduceAdd Host.reduce Host.gather Host.scatterAdd in
set_option maxRecDepth 16384 in
set_option maxHeartbeats 4000000 in
/-- Window 0 is that straight line: the called functions' bodies unfolded at their calls and sequencing
    reassociated, both sides are one chain of the same steps. -/
theorem part0_eq (c : Dev nD) : main_part0 (F := F) c = seq ops0 := by
  simp only [main_part0, fn_var.body, fn_where.body, ops0, sIdx, sIx0, sMean0, sSage0, sBn0a, List.cons_append, List.nil_append, seq, bind_assoc, pure_bind]
  rfl

attribute [local irreducible] Host.reduceAdd Host.reduce Host.gather Host.scatterAdd in
set_option maxRecDepth 16384 in
set_option maxHeartbeats 4000000 in
/-- Window 1 is that straight line: the called functions' bodies unfolded at their calls and sequencing
    reassociated, both sides are one chain of the same steps. -/
theorem part1_eq (c : Dev nD) : main_part1 (F := F) c = seq ops1 := by
  simp only [main_part1, fn_var.body, fn_where.body, fn_relu.body, ops1, sBn0b, sRelu0, sIx1, sSum1, sGin1, sBn1, sRelu1, sRes1, sIx2a, List.cons_append, List.nil_append, seq, bind_assoc, pure_bind]
  rfl

attribute [local irreducible] Host.reduceAdd Host.reduce Host.gather Host.scatterAdd in
set_option maxRecDepth 16384 in
set_option maxHeartbeats 4000000 in
/-- Window 2 is that straight line: the called functions' bodies unfolded at their calls and sequencing
    reassociated, both sides are one chain of the same steps. -/
theorem part2_eq (c : Dev nD) : main_part2 (F := F) c = seq ops2 := by
  simp only [main_part2, fn_var.body, fn_where.body, fn_relu.body, ops2, sIx2b, sMean2, sSage2, sBn2, sRelu2, sRes2, sIx3, List.cons_append, List.nil_append, seq, bind_assoc, pure_bind]
  rfl

attribute [local irreducible] Host.reduceAdd Host.reduce Host.gather Host.scatterAdd in
set_option maxRecDepth 16384 in
set_option maxHeartbeats 4000000 in
/-- Window 3 is that straight line: the called functions' bodies unfolded at their calls and sequencing
    reassociated, both sides are one chain of the same steps. -/
theorem part3_eq (c : Dev nD) : main_part3 (F := F) c = seq ops3 := by
  simp only [main_part3, fn_log_softmax.body, ops3, sMean3, sSage3, sLsm, List.cons_append, List.nil_append, seq, bind_assoc, pure_bind]
  rfl

/-- The program is the straight line of all the operations. -/
theorem main_eq (c : Dev nD) : main (F := F) c = seq ops := by
  simp only [ops, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem sIdx_sub : (sIdx : List (HloOp τ sig (Elt F))).Forall fun op => op.bufs ⊆ tcRefs τ sig := by
  simp only [sIdx, List.Forall]
  exact ⟨unary_bufs_sub .., reshape_bufs_sub .., unary_bufs_sub .., reshape_bufs_sub ..⟩
theorem sIdx_fresh : ∀ op ∈ (sIdx : List (HloOp τ sig (Elt F))), op.fresh = ∅ := by
  intro _ h; unfold sIdx at h; (repeat (cases h with | head => rfl | tail _ h => ?_)); exact nomatch h

theorem sIx0_sub : (sIx0 : List (HloOp τ sig (Elt F))).Forall fun op => op.bufs ⊆ tcRefs τ sig := by
  simp only [sIx0, List.Forall]
  exact ⟨nullary_bufs_sub .., unary_bufs_sub .., binary_bufs_sub .., nullary_bufs_sub .., unary_bufs_sub .., binary_bufs_sub .., ternary_bufs_sub ..⟩
theorem sIx0_fresh : ∀ op ∈ (sIx0 : List (HloOp τ sig (Elt F))), op.fresh = ∅ := by
  intro _ h; unfold sIx0 at h; (repeat (cases h with | head => rfl | tail _ h => ?_)); exact nomatch h

theorem sMean0_sub : (sMean0 : List (HloOp τ sig (Elt F))).Forall fun op => op.bufs ⊆ tcRefs τ sig := by
  simp only [sMean0, List.Forall]
  exact ⟨unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem sMean0_fresh : ∀ op ∈ (sMean0 : List (HloOp τ sig (Elt F))), op.fresh = ∅ := by
  intro _ h; unfold sMean0 at h; (repeat (cases h with | head => rfl | tail _ h => ?_)); exact nomatch h

theorem sSage0_sub : (sSage0 : List (HloOp τ sig (Elt F))).Forall fun op => op.bufs ⊆ tcRefs τ sig := by
  simp only [sSage0, List.Forall]
  exact ⟨binary_bufs_sub .., unary_bufs_sub .., unary_bufs_sub .., binary_bufs_sub .., binary_bufs_sub .., binary_bufs_sub ..⟩
theorem sSage0_fresh : ∀ op ∈ (sSage0 : List (HloOp τ sig (Elt F))), op.fresh = ∅ := by
  intro _ h; unfold sSage0 at h; (repeat (cases h with | head => rfl | tail _ h => ?_)); exact nomatch h

theorem sBn0a_sub : (sBn0a : List (HloOp τ sig (Elt F))).Forall fun op => op.bufs ⊆ tcRefs τ sig := by
  simp only [sBn0a, List.Forall]
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩
theorem sBn0a_fresh : ∀ op ∈ (sBn0a : List (HloOp τ sig (Elt F))), op.fresh = ∅ := by
  intro _ h; unfold sBn0a at h; (repeat (cases h with | head => rfl | tail _ h => ?_)); exact nomatch h

theorem sBn0b_sub : (sBn0b : List (HloOp τ sig (Elt F))).Forall fun op => op.bufs ⊆ tcRefs τ sig := by
  simp only [sBn0b, List.Forall]
  exact binary_bufs_sub ..
theorem sBn0b_fresh : ∀ op ∈ (sBn0b : List (HloOp τ sig (Elt F))), op.fresh = ∅ := by
  intro _ h; unfold sBn0b at h; (repeat (cases h with | head => rfl | tail _ h => ?_)); exact nomatch h

theorem sRelu0_sub : (sRelu0 : List (HloOp τ sig (Elt F))).Forall fun op => op.bufs ⊆ tcRefs τ sig := by
  simp only [sRelu0, List.Forall]
  exact ⟨nullary_bufs_sub .., unary_bufs_sub .., binary_bufs_sub ..⟩
theorem sRelu0_fresh : ∀ op ∈ (sRelu0 : List (HloOp τ sig (Elt F))), op.fresh = ∅ := by
  intro _ h; unfold sRelu0 at h; (repeat (cases h with | head => rfl | tail _ h => ?_)); exact nomatch h

theorem sIx1_sub : (sIx1 : List (HloOp τ sig (Elt F))).Forall fun op => op.bufs ⊆ tcRefs τ sig := by
  simp only [sIx1, List.Forall]
  exact ⟨nullary_bufs_sub .., unary_bufs_sub .., binary_bufs_sub .., nullary_bufs_sub .., unary_bufs_sub .., binary_bufs_sub .., ternary_bufs_sub ..⟩
theorem sIx1_fresh : ∀ op ∈ (sIx1 : List (HloOp τ sig (Elt F))), op.fresh = ∅ := by
  intro _ h; unfold sIx1 at h; (repeat (cases h with | head => rfl | tail _ h => ?_)); exact nomatch h

theorem sSum1_sub : (sSum1 : List (HloOp τ sig (Elt F))).Forall fun op => op.bufs ⊆ tcRefs τ sig := by
  simp only [sSum1, List.Forall]
  exact ⟨unary_bufs_sub .., binary_bufs_sub .., nullary_bufs_sub .., unary_bufs_sub .., unary_bufs_sub .., ternary_bufs_sub ..⟩
theorem sSum1_fresh : ∀ op ∈ (sSum1 : List (HloOp τ sig (Elt F))), op.fresh = ∅ := by
  intro _ h; unfold sSum1 at h; (repeat (cases h with | head => rfl | tail _ h => ?_)); exact nomatch h

theorem sGin1_sub : (sGin1 : List (HloOp τ sig (Elt F))).Forall fun op => op.bufs ⊆ tcRefs τ sig := by
  simp only [sGin1, List.Forall]
  exact ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem sGin1_fresh : ∀ op ∈ (sGin1 : List (HloOp τ sig (Elt F))), op.fresh = ∅ := by
  intro _ h; unfold sGin1 at h; (repeat (cases h with | head => rfl | tail _ h => ?_)); exact nomatch h

theorem sBn1_sub : (sBn1 : List (HloOp τ sig (Elt F))).Forall fun op => op.bufs ⊆ tcRefs τ sig := by
  simp only [sBn1, List.Forall]
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem sBn1_fresh : ∀ op ∈ (sBn1 : List (HloOp τ sig (Elt F))), op.fresh = ∅ := by
  intro _ h; unfold sBn1 at h; (repeat (cases h with | head => rfl | tail _ h => ?_)); exact nomatch h

theorem sRelu1_sub : (sRelu1 : List (HloOp τ sig (Elt F))).Forall fun op => op.bufs ⊆ tcRefs τ sig := by
  simp only [sRelu1, List.Forall]
  exact ⟨nullary_bufs_sub .., unary_bufs_sub .., binary_bufs_sub ..⟩
theorem sRelu1_fresh : ∀ op ∈ (sRelu1 : List (HloOp τ sig (Elt F))), op.fresh = ∅ := by
  intro _ h; unfold sRelu1 at h; (repeat (cases h with | head => rfl | tail _ h => ?_)); exact nomatch h

theorem sRes1_sub : (sRes1 : List (HloOp τ sig (Elt F))).Forall fun op => op.bufs ⊆ tcRefs τ sig := by
  simp only [sRes1, List.Forall]
  exact binary_bufs_sub ..
theorem sRes1_fresh : ∀ op ∈ (sRes1 : List (HloOp τ sig (Elt F))), op.fresh = ∅ := by
  intro _ h; unfold sRes1 at h; (repeat (cases h with | head => rfl | tail _ h => ?_)); exact nomatch h

theorem sIx2a_sub : (sIx2a : List (HloOp τ sig (Elt F))).Forall fun op => op.bufs ⊆ tcRefs τ sig := by
  simp only [sIx2a, List.Forall]
  exact ⟨nullary_bufs_sub .., unary_bufs_sub .., binary_bufs_sub .., nullary_bufs_sub .., unary_bufs_sub .., binary_bufs_sub ..⟩
theorem sIx2a_fresh : ∀ op ∈ (sIx2a : List (HloOp τ sig (Elt F))), op.fresh = ∅ := by
  intro _ h; unfold sIx2a at h; (repeat (cases h with | head => rfl | tail _ h => ?_)); exact nomatch h

theorem sIx2b_sub : (sIx2b : List (HloOp τ sig (Elt F))).Forall fun op => op.bufs ⊆ tcRefs τ sig := by
  simp only [sIx2b, List.Forall]
  exact ternary_bufs_sub ..
theorem sIx2b_fresh : ∀ op ∈ (sIx2b : List (HloOp τ sig (Elt F))), op.fresh = ∅ := by
  intro _ h; unfold sIx2b at h; (repeat (cases h with | head => rfl | tail _ h => ?_)); exact nomatch h

theorem sMean2_sub : (sMean2 : List (HloOp τ sig (Elt F))).Forall fun op => op.bufs ⊆ tcRefs τ sig := by
  simp only [sMean2, List.Forall]
  exact ⟨unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem sMean2_fresh : ∀ op ∈ (sMean2 : List (HloOp τ sig (Elt F))), op.fresh = ∅ := by
  intro _ h; unfold sMean2 at h; (repeat (cases h with | head => rfl | tail _ h => ?_)); exact nomatch h

theorem sSage2_sub : (sSage2 : List (HloOp τ sig (Elt F))).Forall fun op => op.bufs ⊆ tcRefs τ sig := by
  simp only [sSage2, List.Forall]
  exact ⟨binary_bufs_sub .., unary_bufs_sub .., unary_bufs_sub .., binary_bufs_sub .., binary_bufs_sub .., binary_bufs_sub ..⟩
theorem sSage2_fresh : ∀ op ∈ (sSage2 : List (HloOp τ sig (Elt F))), op.fresh = ∅ := by
  intro _ h; unfold sSage2 at h; (repeat (cases h with | head => rfl | tail _ h => ?_)); exact nomatch h

theorem sBn2_sub : (sBn2 : List (HloOp τ sig (Elt F))).Forall fun op => op.bufs ⊆ tcRefs τ sig := by
  simp only [sBn2, List.Forall]
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem sBn2_fresh : ∀ op ∈ (sBn2 : List (HloOp τ sig (Elt F))), op.fresh = ∅ := by
  intro _ h; unfold sBn2 at h; (repeat (cases h with | head => rfl | tail _ h => ?_)); exact nomatch h

theorem sRelu2_sub : (sRelu2 : List (HloOp τ sig (Elt F))).Forall fun op => op.bufs ⊆ tcRefs τ sig := by
  simp only [sRelu2, List.Forall]
  exact ⟨nullary_bufs_sub .., unary_bufs_sub .., binary_bufs_sub ..⟩
theorem sRelu2_fresh : ∀ op ∈ (sRelu2 : List (HloOp τ sig (Elt F))), op.fresh = ∅ := by
  intro _ h; unfold sRelu2 at h; (repeat (cases h with | head => rfl | tail _ h => ?_)); exact nomatch h

theorem sRes2_sub : (sRes2 : List (HloOp τ sig (Elt F))).Forall fun op => op.bufs ⊆ tcRefs τ sig := by
  simp only [sRes2, List.Forall]
  exact binary_bufs_sub ..
theorem sRes2_fresh : ∀ op ∈ (sRes2 : List (HloOp τ sig (Elt F))), op.fresh = ∅ := by
  intro _ h; unfold sRes2 at h; (repeat (cases h with | head => rfl | tail _ h => ?_)); exact nomatch h

theorem sIx3_sub : (sIx3 : List (HloOp τ sig (Elt F))).Forall fun op => op.bufs ⊆ tcRefs τ sig := by
  simp only [sIx3, List.Forall]
  exact ⟨nullary_bufs_sub .., unary_bufs_sub .., binary_bufs_sub .., nullary_bufs_sub .., unary_bufs_sub .., binary_bufs_sub .., ternary_bufs_sub ..⟩
theorem sIx3_fresh : ∀ op ∈ (sIx3 : List (HloOp τ sig (Elt F))), op.fresh = ∅ := by
  intro _ h; unfold sIx3 at h; (repeat (cases h with | head => rfl | tail _ h => ?_)); exact nomatch h

theorem sMean3_sub : (sMean3 : List (HloOp τ sig (Elt F))).Forall fun op => op.bufs ⊆ tcRefs τ sig := by
  simp only [sMean3, List.Forall]
  exact ⟨unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩
theorem sMean3_fresh : ∀ op ∈ (sMean3 : List (HloOp τ sig (Elt F))), op.fresh = ∅ := by
  intro _ h; unfold sMean3 at h; (repeat (cases h with | head => rfl | tail _ h => ?_)); exact nomatch h

theorem sSage3_sub : (sSage3 : List (HloOp τ sig (Elt F))).Forall fun op => op.bufs ⊆ tcRefs τ sig := by
  simp only [sSage3, List.Forall]
  exact ⟨binary_bufs_sub .., unary_bufs_sub .., unary_bufs_sub .., binary_bufs_sub .., binary_bufs_sub .., binary_bufs_sub ..⟩
theorem sSage3_fresh : ∀ op ∈ (sSage3 : List (HloOp τ sig (Elt F))), op.fresh = ∅ := by
  intro _ h; unfold sSage3 at h; (repeat (cases h with | head => rfl | tail _ h => ?_)); exact nomatch h

theorem sLsm_sub : (sLsm : List (HloOp τ sig (Elt F))).Forall fun op => op.bufs ⊆ tcRefs τ sig := by
  simp only [sLsm, List.Forall]
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem sLsm_fresh : ∀ op ∈ (sLsm : List (HloOp τ sig (Elt F))), op.fresh = ∅ := by
  intro _ h; unfold sLsm at h; (repeat (cases h with | head => rfl | tail _ h => ?_)); exact nomatch h

/-- Every operation's buffers are buffers of the core. -/
theorem ops_sub : (ops : List (HloOp τ sig (Elt F))).Forall fun op => op.bufs ⊆ tcRefs τ sig := by
  refine List.forall_iff_forall_mem.2 fun op h => ?_
  simp only [ops, ops0, ops1, ops2, ops3, List.mem_append, or_assoc] at h
  rcases h with h | h | h | h | h | h | h | h | h | h | h | h | h | h | h | h | h | h | h | h | h | h | h | h
  exacts [List.forall_iff_forall_mem.1 sIdx_sub op h,
    List.forall_iff_forall_mem.1 sIx0_sub op h,
    List.forall_iff_forall_mem.1 sMean0_sub op h,
    List.forall_iff_forall_mem.1 sSage0_sub op h,
    List.forall_iff_forall_mem.1 sBn0a_sub op h,
    List.forall_iff_forall_mem.1 sBn0b_sub op h,
    List.forall_iff_forall_mem.1 sRelu0_sub op h,
    List.forall_iff_forall_mem.1 sIx1_sub op h,
    List.forall_iff_forall_mem.1 sSum1_sub op h,
    List.forall_iff_forall_mem.1 sGin1_sub op h,
    List.forall_iff_forall_mem.1 sBn1_sub op h,
    List.forall_iff_forall_mem.1 sRelu1_sub op h,
    List.forall_iff_forall_mem.1 sRes1_sub op h,
    List.forall_iff_forall_mem.1 sIx2a_sub op h,
    List.forall_iff_forall_mem.1 sIx2b_sub op h,
    List.forall_iff_forall_mem.1 sMean2_sub op h,
    List.forall_iff_forall_mem.1 sSage2_sub op h,
    List.forall_iff_forall_mem.1 sBn2_sub op h,
    List.forall_iff_forall_mem.1 sRelu2_sub op h,
    List.forall_iff_forall_mem.1 sRes2_sub op h,
    List.forall_iff_forall_mem.1 sIx3_sub op h,
    List.forall_iff_forall_mem.1 sMean3_sub op h,
    List.forall_iff_forall_mem.1 sSage3_sub op h,
    List.forall_iff_forall_mem.1 sLsm_sub op h]

/-- No operation allocates: each determines its result. -/
theorem ops_fresh : ∀ op ∈ (ops : List (HloOp τ sig (Elt F))), op.fresh = ∅ := by
  intro op h
  simp only [ops, ops0, ops1, ops2, ops3, List.mem_append, or_assoc] at h
  rcases h with h | h | h | h | h | h | h | h | h | h | h | h | h | h | h | h | h | h | h | h | h | h | h | h
  exacts [sIdx_fresh op h, sIx0_fresh op h, sMean0_fresh op h, sSage0_fresh op h, sBn0a_fresh op h, sBn0b_fresh op h, sRelu0_fresh op h, sIx1_fresh op h, sSum1_fresh op h, sGin1_fresh op h, sBn1_fresh op h, sRelu1_fresh op h, sRes1_fresh op h, sIx2a_fresh op h, sIx2b_fresh op h, sMean2_fresh op h, sSage2_fresh op h, sBn2_fresh op h, sRelu2_fresh op h, sRes2_fresh op h, sIx3_fresh op h, sMean3_fresh op h, sSage3_fresh op h, sLsm_fresh op h]

/-- Two lists run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, from any memory with zero counters: every weakly fair execution of the program terminates, and
    every final state has each buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.Ref.Segs.lean ====
import proofs.«167498_j75179107549620_1_alg».proof.Proof.Ref.Ops
import proofs.«167498_j75179107549620_1_alg».proof.Proof.Ref.Terms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Stage by stage: the buffers a stage writes (every other buffer keeps its contents through it), and the stage's
    result as the stage's named function of the contents it reads. -/

/-- The buffers stage `sIdx` writes. -/
abbrev sIdx_W : List (Ref sig .tc) := [main_v0, main_v1, main_v2, main_v3]
theorem sIdx_writes : (sIdx : List (HloOp τ sig (Elt F))).Forall fun op =>
    op.writes ⊆ (sIdx_W.map (Proc.devRef (τ := τ) .tc)).toFinset := by
  simp only [sIdx, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sIdx_keep (V : Valuation τ sig (Elt F)) {r : Ref sig .tc} (h : r ∉ sIdx_W) :
    after sIdx V (no_index (Proc.devRef .tc r)) = V (Proc.devRef .tc r) :=
  after_of_writes_sub sIdx V sIdx_writes h

/-- The buffers stage `sIx0` writes. -/
abbrev sIx0_W : List (Ref sig .tc) := [main_c, main_v4, main_v5, main_c_0, main_v6, main_v7, main_v8]
theorem sIx0_writes : (sIx0 : List (HloOp τ sig (Elt F))).Forall fun op =>
    op.writes ⊆ (sIx0_W.map (Proc.devRef (τ := τ) .tc)).toFinset := by
  simp only [sIx0, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sIx0_keep (V : Valuation τ sig (Elt F)) {r : Ref sig .tc} (h : r ∉ sIx0_W) :
    after sIx0 V (no_index (Proc.devRef .tc r)) = V (Proc.devRef .tc r) :=
  after_of_writes_sub sIx0 V sIx0_writes h

/-- The buffers stage `sMean0` writes. -/
abbrev sMean0_W : List (Ref sig .tc) := [main_v9, main_v10, main_cst, main_v11, main_v12, main_v13, main_cst_1, main_v14, main_cst_2, main_v15, main_v16, main_v17, main_cst_3, main_v18, main_v19, main_v20, main_v21]
theorem sMean0_writes : (sMean0 : List (HloOp τ sig (Elt F))).Forall fun op =>
    op.writes ⊆ (sMean0_W.map (Proc.devRef (τ := τ) .tc)).toFinset := by
  simp only [sMean0, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sMean0_keep (V : Valuation τ sig (Elt F)) {r : Ref sig .tc} (h : r ∉ sMean0_W) :
    after sMean0 V (no_index (Proc.devRef .tc r)) = V (Proc.devRef .tc r) :=
  after_of_writes_sub sMean0 V sMean0_writes h

/-- The buffers stage `sSage0` writes. -/
abbrev sSage0_W : List (Ref sig .tc) := [main_v22, main_v23, main_v24, main_v25, main_v26, main_v27]
theorem sSage0_writes : (sSage0 : List (HloOp τ sig (Elt F))).Forall fun op =>
    op.writes ⊆ (sSage0_W.map (Proc.devRef (τ := τ) .tc)).toFinset := by
  simp only [sSage0, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sSage0_keep (V : Valuation τ sig (Elt F)) {r : Ref sig .tc} (h : r ∉ sSage0_W) :
    after sSage0 V (no_index (Proc.devRef .tc r)) = V (Proc.devRef .tc r) :=
  after_of_writes_sub sSage0 V sSage0_writes h

/-- The buffers stage `sBn0a` writes. -/
abbrev sBn0a_W : List (Ref sig .tc) := [main_cst_4, main_v28, main_cst_5, main_v29, main_v30, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v31, main_v32, main_v33, main_v34, main_cst_7, main_v35, main_v36, main_v37, main_v38, main_v39, main_v40, main_v41, main_v42, main_v43, main_v44, main_v45, main_v46, main_v47, main_v48, main_v49]
theorem sBn0a_writes : (sBn0a : List (HloOp τ sig (Elt F))).Forall fun op =>
    op.writes ⊆ (sBn0a_W.map (Proc.devRef (τ := τ) .tc)).toFinset := by
  simp only [sBn0a, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sBn0a_keep (V : Valuation τ sig (Elt F)) {r : Ref sig .tc} (h : r ∉ sBn0a_W) :
    after sBn0a V (no_index (Proc.devRef .tc r)) = V (Proc.devRef .tc r) :=
  after_of_writes_sub sBn0a V sBn0a_writes h

/-- The buffers stage `sBn0b` writes. -/
abbrev sBn0b_W : List (Ref sig .tc) := [main_v50]
theorem sBn0b_writes : (sBn0b : List (HloOp τ sig (Elt F))).Forall fun op =>
    op.writes ⊆ (sBn0b_W.map (Proc.devRef (τ := τ) .tc)).toFinset := by
  simp only [sBn0b, List.Forall]
  exact (by simp only [nullary_writes, unary_writes, binary_writes, ternary_writes, quaternary_writes, reshape_writes, Finset.singleton_subset_iff, List.mem_toFinset]; exact List.mem_map_of_mem (by decide))
/-- A buffer the stage does not write keeps its contents through it. -/
theorem sBn0b_keep (V : Valuation τ sig (Elt F)) {r : Ref sig .tc} (h : r ∉ sBn0b_W) :
    after sBn0b V (no_index (Proc.devRef .tc r)) = V (Proc.devRef .tc r) :=
  after_of_writes_sub sBn0b V sBn0b_writes h

/-- The buffers stage `sRelu0` writes. -/
abbrev sRelu0_W : List (Ref sig .tc) := [main_call1_cst, main_call1_v0, main_v51]
theorem sRelu0_writes : (sRelu0 : List (HloOp τ sig (Elt F))).Forall fun op =>
    op.writes ⊆ (sRelu0_W.map (Proc.devRef (τ := τ) .tc)).toFinset := by
  simp only [sRelu0, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sRelu0_keep (V : Valuation τ sig (Elt F)) {r : Ref sig .tc} (h : r ∉ sRelu0_W) :
    after sRelu0 V (no_index (Proc.devRef .tc r)) = V (Proc.devRef .tc r) :=
  after_of_writes_sub sRelu0 V sRelu0_writes h

/-- The buffers stage `sIx1` writes. -/
abbrev sIx1_W : List (Ref sig .tc) := [main_c_8, main_v52, main_v53, main_c_9, main_v54, main_v55, main_v56]
theorem sIx1_writes : (sIx1 : List (HloOp τ sig (Elt F))).Forall fun op =>
    op.writes ⊆ (sIx1_W.map (Proc.devRef (τ := τ) .tc)).toFinset := by
  simp only [sIx1, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sIx1_keep (V : Valuation τ sig (Elt F)) {r : Ref sig .tc} (h : r ∉ sIx1_W) :
    after sIx1 V (no_index (Proc.devRef .tc r)) = V (Proc.devRef .tc r) :=
  after_of_writes_sub sIx1 V sIx1_writes h

/-- The buffers stage `sSum1` writes. -/
abbrev sSum1_W : List (Ref sig .tc) := [main_v57, main_v58, main_cst_10, main_v59, main_v60, main_v61]
theorem sSum1_writes : (sSum1 : List (HloOp τ sig (Elt F))).Forall fun op =>
    op.writes ⊆ (sSum1_W.map (Proc.devRef (τ := τ) .tc)).toFinset := by
  simp only [sSum1, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sSum1_keep (V : Valuation τ sig (Elt F)) {r : Ref sig .tc} (h : r ∉ sSum1_W) :
    after sSum1 V (no_index (Proc.devRef .tc r)) = V (Proc.devRef .tc r) :=
  after_of_writes_sub sSum1 V sSum1_writes h

/-- The buffers stage `sGin1` writes. -/
abbrev sGin1_W : List (Ref sig .tc) := [main_v62, main_v63, main_v64, main_v65, main_v66, main_call2_cst, main_call2_v0, main_v67, main_v68, main_v69, main_v70, main_v71]
theorem sGin1_writes : (sGin1 : List (HloOp τ sig (Elt F))).Forall fun op =>
    op.writes ⊆ (sGin1_W.map (Proc.devRef (τ := τ) .tc)).toFinset := by
  simp only [sGin1, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sGin1_keep (V : Valuation τ sig (Elt F)) {r : Ref sig .tc} (h : r ∉ sGin1_W) :
    after sGin1 V (no_index (Proc.devRef .tc r)) = V (Proc.devRef .tc r) :=
  after_of_writes_sub sGin1 V sGin1_writes h

/-- The buffers stage `sBn1` writes. -/
abbrev sBn1_W : List (Ref sig .tc) := [main_cst_11, main_v72, main_cst_12, main_v73, main_v74, main_c_13, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v75, main_v76, main_v77, main_v78, main_cst_14, main_v79, main_v80, main_v81, main_v82, main_v83, main_v84, main_v85, main_v86, main_v87, main_v88, main_v89, main_v90, main_v91, main_v92, main_v93, main_v94]
theorem sBn1_writes : (sBn1 : List (HloOp τ sig (Elt F))).Forall fun op =>
    op.writes ⊆ (sBn1_W.map (Proc.devRef (τ := τ) .tc)).toFinset := by
  simp only [sBn1, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sBn1_keep (V : Valuation τ sig (Elt F)) {r : Ref sig .tc} (h : r ∉ sBn1_W) :
    after sBn1 V (no_index (Proc.devRef .tc r)) = V (Proc.devRef .tc r) :=
  after_of_writes_sub sBn1 V sBn1_writes h

/-- The buffers stage `sRelu1` writes. -/
abbrev sRelu1_W : List (Ref sig .tc) := [main_call4_cst, main_call4_v0, main_v95]
theorem sRelu1_writes : (sRelu1 : List (HloOp τ sig (Elt F))).Forall fun op =>
    op.writes ⊆ (sRelu1_W.map (Proc.devRef (τ := τ) .tc)).toFinset := by
  simp only [sRelu1, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sRelu1_keep (V : Valuation τ sig (Elt F)) {r : Ref sig .tc} (h : r ∉ sRelu1_W) :
    after sRelu1 V (no_index (Proc.devRef .tc r)) = V (Proc.devRef .tc r) :=
  after_of_writes_sub sRelu1 V sRelu1_writes h

/-- The buffers stage `sRes1` writes. -/
abbrev sRes1_W : List (Ref sig .tc) := [main_v96]
theorem sRes1_writes : (sRes1 : List (HloOp τ sig (Elt F))).Forall fun op =>
    op.writes ⊆ (sRes1_W.map (Proc.devRef (τ := τ) .tc)).toFinset := by
  simp only [sRes1, List.Forall]
  exact (by simp only [nullary_writes, unary_writes, binary_writes, ternary_writes, quaternary_writes, reshape_writes, Finset.singleton_subset_iff, List.mem_toFinset]; exact List.mem_map_of_mem (by decide))
/-- A buffer the stage does not write keeps its contents through it. -/
theorem sRes1_keep (V : Valuation τ sig (Elt F)) {r : Ref sig .tc} (h : r ∉ sRes1_W) :
    after sRes1 V (no_index (Proc.devRef .tc r)) = V (Proc.devRef .tc r) :=
  after_of_writes_sub sRes1 V sRes1_writes h

/-- The buffers stage `sIx2a` writes. -/
abbrev sIx2a_W : List (Ref sig .tc) := [main_c_15, main_v97, main_v98, main_c_16, main_v99, main_v100]
theorem sIx2a_writes : (sIx2a : List (HloOp τ sig (Elt F))).Forall fun op =>
    op.writes ⊆ (sIx2a_W.map (Proc.devRef (τ := τ) .tc)).toFinset := by
  simp only [sIx2a, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sIx2a_keep (V : Valuation τ sig (Elt F)) {r : Ref sig .tc} (h : r ∉ sIx2a_W) :
    after sIx2a V (no_index (Proc.devRef .tc r)) = V (Proc.devRef .tc r) :=
  after_of_writes_sub sIx2a V sIx2a_writes h

/-- The buffers stage `sIx2b` writes. -/
abbrev sIx2b_W : List (Ref sig .tc) := [main_v101]
theorem sIx2b_writes : (sIx2b : List (HloOp τ sig (Elt F))).Forall fun op =>
    op.writes ⊆ (sIx2b_W.map (Proc.devRef (τ := τ) .tc)).toFinset := by
  simp only [sIx2b, List.Forall]
  exact (by simp only [nullary_writes, unary_writes, binary_writes, ternary_writes, quaternary_writes, reshape_writes, Finset.singleton_subset_iff, List.mem_toFinset]; exact List.mem_map_of_mem (by decide))
/-- A buffer the stage does not write keeps its contents through it. -/
theorem sIx2b_keep (V : Valuation τ sig (Elt F)) {r : Ref sig .tc} (h : r ∉ sIx2b_W) :
    after sIx2b V (no_index (Proc.devRef .tc r)) = V (Proc.devRef .tc r) :=
  after_of_writes_sub sIx2b V sIx2b_writes h

/-- The buffers stage `sMean2` writes. -/
abbrev sMean2_W : List (Ref sig .tc) := [main_v102, main_v103, main_cst_17, main_v104, main_v105, main_v106, main_cst_18, main_v107, main_cst_19, main_v108, main_v109, main_v110, main_cst_20, main_v111, main_v112, main_v113, main_v114]
theorem sMean2_writes : (sMean2 : List (HloOp τ sig (Elt F))).Forall fun op =>
    op.writes ⊆ (sMean2_W.map (Proc.devRef (τ := τ) .tc)).toFinset := by
  simp only [sMean2, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sMean2_keep (V : Valuation τ sig (Elt F)) {r : Ref sig .tc} (h : r ∉ sMean2_W) :
    after sMean2 V (no_index (Proc.devRef .tc r)) = V (Proc.devRef .tc r) :=
  after_of_writes_sub sMean2 V sMean2_writes h

/-- The buffers stage `sSage2` writes. -/
abbrev sSage2_W : List (Ref sig .tc) := [main_v115, main_v116, main_v117, main_v118, main_v119, main_v120]
theorem sSage2_writes : (sSage2 : List (HloOp τ sig (Elt F))).Forall fun op =>
    op.writes ⊆ (sSage2_W.map (Proc.devRef (τ := τ) .tc)).toFinset := by
  simp only [sSage2, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sSage2_keep (V : Valuation τ sig (Elt F)) {r : Ref sig .tc} (h : r ∉ sSage2_W) :
    after sSage2 V (no_index (Proc.devRef .tc r)) = V (Proc.devRef .tc r) :=
  after_of_writes_sub sSage2 V sSage2_writes h

/-- The buffers stage `sBn2` writes. -/
abbrev sBn2_W : List (Ref sig .tc) := [main_cst_21, main_v121, main_cst_22, main_v122, main_v123, main_c_23, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v124, main_v125, main_v126, main_v127, main_cst_24, main_v128, main_v129, main_v130, main_v131, main_v132, main_v133, main_v134, main_v135, main_v136, main_v137, main_v138, main_v139, main_v140, main_v141, main_v142, main_v143]
theorem sBn2_writes : (sBn2 : List (HloOp τ sig (Elt F))).Forall fun op =>
    op.writes ⊆ (sBn2_W.map (Proc.devRef (τ := τ) .tc)).toFinset := by
  simp only [sBn2, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sBn2_keep (V : Valuation τ sig (Elt F)) {r : Ref sig .tc} (h : r ∉ sBn2_W) :
    after sBn2 V (no_index (Proc.devRef .tc r)) = V (Proc.devRef .tc r) :=
  after_of_writes_sub sBn2 V sBn2_writes h

/-- The buffers stage `sRelu2` writes. -/
abbrev sRelu2_W : List (Ref sig .tc) := [main_call6_cst, main_call6_v0, main_v144]
theorem sRelu2_writes : (sRelu2 : List (HloOp τ sig (Elt F))).Forall fun op =>
    op.writes ⊆ (sRelu2_W.map (Proc.devRef (τ := τ) .tc)).toFinset := by
  simp only [sRelu2, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sRelu2_keep (V : Valuation τ sig (Elt F)) {r : Ref sig .tc} (h : r ∉ sRelu2_W) :
    after sRelu2 V (no_index (Proc.devRef .tc r)) = V (Proc.devRef .tc r) :=
  after_of_writes_sub sRelu2 V sRelu2_writes h

/-- The buffers stage `sRes2` writes. -/
abbrev sRes2_W : List (Ref sig .tc) := [main_v145]
theorem sRes2_writes : (sRes2 : List (HloOp τ sig (Elt F))).Forall fun op =>
    op.writes ⊆ (sRes2_W.map (Proc.devRef (τ := τ) .tc)).toFinset := by
  simp only [sRes2, List.Forall]
  exact (by simp only [nullary_writes, unary_writes, binary_writes, ternary_writes, quaternary_writes, reshape_writes, Finset.singleton_subset_iff, List.mem_toFinset]; exact List.mem_map_of_mem (by decide))
/-- A buffer the stage does not write keeps its contents through it. -/
theorem sRes2_keep (V : Valuation τ sig (Elt F)) {r : Ref sig .tc} (h : r ∉ sRes2_W) :
    after sRes2 V (no_index (Proc.devRef .tc r)) = V (Proc.devRef .tc r) :=
  after_of_writes_sub sRes2 V sRes2_writes h

/-- The buffers stage `sIx3` writes. -/
abbrev sIx3_W : List (Ref sig .tc) := [main_c_25, main_v146, main_v147, main_c_26, main_v148, main_v149, main_v150]
theorem sIx3_writes : (sIx3 : List (HloOp τ sig (Elt F))).Forall fun op =>
    op.writes ⊆ (sIx3_W.map (Proc.devRef (τ := τ) .tc)).toFinset := by
  simp only [sIx3, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sIx3_keep (V : Valuation τ sig (Elt F)) {r : Ref sig .tc} (h : r ∉ sIx3_W) :
    after sIx3 V (no_index (Proc.devRef .tc r)) = V (Proc.devRef .tc r) :=
  after_of_writes_sub sIx3 V sIx3_writes h

/-- The buffers stage `sMean3` writes. -/
abbrev sMean3_W : List (Ref sig .tc) := [main_v151, main_v152, main_cst_27, main_v153, main_v154, main_v155, main_cst_28, main_v156, main_cst_29, main_v157, main_v158, main_v159, main_cst_30, main_v160, main_v161, main_v162, main_v163]
theorem sMean3_writes : (sMean3 : List (HloOp τ sig (Elt F))).Forall fun op =>
    op.writes ⊆ (sMean3_W.map (Proc.devRef (τ := τ) .tc)).toFinset := by
  simp only [sMean3, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sMean3_keep (V : Valuation τ sig (Elt F)) {r : Ref sig .tc} (h : r ∉ sMean3_W) :
    after sMean3 V (no_index (Proc.devRef .tc r)) = V (Proc.devRef .tc r) :=
  after_of_writes_sub sMean3 V sMean3_writes h

/-- The buffers stage `sSage3` writes. -/
abbrev sSage3_W : List (Ref sig .tc) := [main_v164, main_v165, main_v166, main_v167, main_v168, main_v169]
theorem sSage3_writes : (sSage3 : List (HloOp τ sig (Elt F))).Forall fun op =>
    op.writes ⊆ (sSage3_W.map (Proc.devRef (τ := τ) .tc)).toFinset := by
  simp only [sSage3, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sSage3_keep (V : Valuation τ sig (Elt F)) {r : Ref sig .tc} (h : r ∉ sSage3_W) :
    after sSage3 V (no_index (Proc.devRef .tc r)) = V (Proc.devRef .tc r) :=
  after_of_writes_sub sSage3 V sSage3_writes h

/-- The buffers stage `sLsm` writes. -/
abbrev sLsm_W : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v170]
theorem sLsm_writes : (sLsm : List (HloOp τ sig (Elt F))).Forall fun op =>
    op.writes ⊆ (sLsm_W.map (Proc.devRef (τ := τ) .tc)).toFinset := by
  simp only [sLsm, List.Forall]
  exact ⟨(by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide)), (by simp only [nullary_writes, unary_writes, binary_writes, ternary_writes, quaternary_writes, reshape_writes, Finset.singleton_subset_iff, List.mem_toFinset]; exact List.mem_map_of_mem (by decide))⟩
/-- A buffer the stage does not write keeps its contents through it. -/
theorem sLsm_keep (V : Valuation τ sig (Elt F)) {r : Ref sig .tc} (h : r ∉ sLsm_W) :
    after sLsm V (no_index (Proc.devRef .tc r)) = V (Proc.devRef .tc r) :=
  after_of_writes_sub sLsm V sLsm_writes h

attribute [local irreducible] Host.reduceAdd Host.reduce Host.gather Host.scatterAdd in
set_option maxRecDepth 8192 in
set_option maxHeartbeats 400000 in
theorem sIdx_main_v1 (V : Valuation τ sig (Elt F)) :
    after sIdx V (no_index (Proc.devRef .tc main_v1)) = srcRaw (V (Proc.devRef .tc main_arg1)) := by
  simp only [sIdx]
  after_results_simp
  rfl

attribute [local irreducible] Host.reduceAdd Host.reduce Host.gather Host.scatterAdd in
set_option maxRecDepth 8192 in
set_option maxHeartbeats 400000 in
theorem sIdx_main_v3 (V : Valuation τ sig (Elt F)) :
    after sIdx V (no_index (Proc.devRef .tc main_v3)) = dstIx (V (Proc.devRef .tc main_arg1)) := by
  simp only [sIdx]
  after_results_simp
  rfl

attribute [local irreducible] Host.reduceAdd Host.reduce Host.gather Host.scatterAdd in
set_option maxRecDepth 8192 in
set_option maxHeartbeats 700000 in
theorem sIx0_main_v8 (V : Valuation τ sig (Elt F)) :
    after sIx0 V (no_index (Proc.devRef .tc main_v8)) = fixNeg (V (Proc.devRef .tc main_v1)) := by
  simp only [sIx0]
  after_results_simp
  rfl

attribute [local irreducible] Host.reduceAdd Host.reduce Host.gather Host.scatterAdd in
set_option maxRecDepth 8192 in
set_option maxHeartbeats 1700000 in
theorem sMean0_main_v21 (V : Valuation τ sig (Elt F)) :
    after sMean0 V (no_index (Proc.devRef .tc main_v21)) = meanAgg (V (Proc.devRef .tc main_v8)) (V (Proc.devRef .tc main_v3)) (V (Proc.devRef .tc main_arg0)) := by
  simp only [sMean0]
  after_results_simp
  rfl

attribute [local irreducible] Host.reduceAdd Host.reduce Host.gather Host.scatterAdd in
set_option maxRecDepth 8192 in
set_option maxHeartbeats 600000 in
theorem sSage0_main_v27 (V : Valuation τ sig (Elt F)) :
    after sSage0 V (no_index (Proc.devRef .tc main_v27)) = sage (V (Proc.devRef .tc main_v21)) (V (Proc.devRef .tc main_arg0)) (V (Proc.devRef .tc main_arg2)) (V (Proc.devRef .tc main_arg3)) (V (Proc.devRef .tc main_arg4)) := by
  simp only [sSage0]
  after_results_simp
  rfl

attribute [local irreducible] Host.reduceAdd Host.reduce Host.gather Host.scatterAdd in
set_option maxRecDepth 8192 in
set_option maxHeartbeats 4800000 in
theorem sBn0b_main_v50 (V : Valuation τ sig (Elt F)) :
    after sBn0b (after sBn0a V) (no_index (Proc.devRef .tc main_v50)) = bnRef (V (Proc.devRef .tc main_v27)) (bnRow0 (V (Proc.devRef .tc main_arg15))) (bnRow0 (V (Proc.devRef .tc main_arg16))) := by
  simp only [sBn0a, sBn0b]
  after_results_simp
  rfl

attribute [local irreducible] Host.reduceAdd Host.reduce Host.gather Host.scatterAdd in
set_option maxRecDepth 8192 in
set_option maxHeartbeats 400000 in
theorem sRelu0_main_v51 (V : Valuation τ sig (Elt F)) :
    after sRelu0 V (no_index (Proc.devRef .tc main_v51)) = relu (V (Proc.devRef .tc main_v50)) := by
  simp only [sRelu0]
  after_results_simp
  rfl

attribute [local irreducible] Host.reduceAdd Host.reduce Host.gather Host.scatterAdd in
set_option maxRecDepth 8192 in
set_option maxHeartbeats 700000 in
theorem sIx1_main_v56 (V : Valuation τ sig (Elt F)) :
    after sIx1 V (no_index (Proc.devRef .tc main_v56)) = fixNeg (V (Proc.devRef .tc main_v1)) := by
  simp only [sIx1]
  after_results_simp
  rfl

attribute [local irreducible] Host.reduceAdd Host.reduce Host.gather Host.scatterAdd in
set_option maxRecDepth 8192 in
set_option maxHeartbeats 600000 in
theorem sSum1_main_v61 (V : Valuation τ sig (Elt F)) :
    after sSum1 V (no_index (Proc.devRef .tc main_v61)) = sumAgg (V (Proc.devRef .tc main_v56)) (V (Proc.devRef .tc main_v3)) (V (Proc.devRef .tc main_v51)) := by
  simp only [sSum1]
  after_results_simp
  rfl

attribute [local irreducible] Host.reduceAdd Host.reduce Host.gather Host.scatterAdd in
set_option maxRecDepth 8192 in
set_option maxHeartbeats 1200000 in
theorem sGin1_main_v71 (V : Valuation τ sig (Elt F)) :
    after sGin1 V (no_index (Proc.devRef .tc main_v71)) = ginMlp (V (Proc.devRef .tc main_v51)) (V (Proc.devRef .tc main_v61)) (V (Proc.devRef .tc main_arg5)) (V (Proc.devRef .tc main_arg6)) (V (Proc.devRef .tc main_arg7)) (V (Proc.devRef .tc main_arg8)) := by
  simp only [sGin1]
  after_results_simp
  rfl

attribute [local irreducible] Host.reduceAdd Host.reduce Host.gather Host.scatterAdd in
set_option maxRecDepth 8192 in
set_option maxHeartbeats 4800000 in
theorem sBn1_main_v94 (V : Valuation τ sig (Elt F)) :
    after sBn1 V (no_index (Proc.devRef .tc main_v94)) = bnRef (V (Proc.devRef .tc main_v71)) (bnRow1 (V (Proc.devRef .tc main_arg15))) (bnRow1 (V (Proc.devRef .tc main_arg16))) := by
  simp only [sBn1]
  after_results_simp
  rfl

attribute [local irreducible] Host.reduceAdd Host.reduce Host.gather Host.scatterAdd in
set_option maxRecDepth 8192 in
set_option maxHeartbeats 400000 in
theorem sRelu1_main_v95 (V : Valuation τ sig (Elt F)) :
    after sRelu1 V (no_index (Proc.devRef .tc main_v95)) = relu (V (Proc.devRef .tc main_v94)) := by
  simp only [sRelu1]
  after_results_simp
  rfl

attribute [local irreducible] Host.reduceAdd Host.reduce Host.gather Host.scatterAdd in
set_option maxRecDepth 8192 in
set_option maxHeartbeats 400000 in
theorem sRes1_main_v96 (V : Valuation τ sig (Elt F)) :
    after sRes1 V (no_index (Proc.devRef .tc main_v96)) = addf (V (Proc.devRef .tc main_v95)) (V (Proc.devRef .tc main_v51)) := by
  simp only [sRes1]
  after_results_simp

attribute [local irreducible] Host.reduceAdd Host.reduce Host.gather Host.scatterAdd in
set_option maxRecDepth 8192 in
set_option maxHeartbeats 700000 in
theorem sIx2b_main_v101 (V : Valuation τ sig (Elt F)) :
    after sIx2b (after sIx2a V) (no_index (Proc.devRef .tc main_v101)) = fixNeg (V (Proc.devRef .tc main_v1)) := by
  simp only [sIx2a, sIx2b]
  after_results_simp
  rfl

attribute [local irreducible] Host.reduceAdd Host.reduce Host.gather Host.scatterAdd in
set_option maxRecDepth 8192 in
set_option maxHeartbeats 1700000 in
theorem sMean2_main_v114 (V : Valuation τ sig (Elt F)) :
    after sMean2 V (no_index (Proc.devRef .tc main_v114)) = meanAgg (V (Proc.devRef .tc main_v101)) (V (Proc.devRef .tc main_v3)) (V (Proc.devRef .tc main_v96)) := by
  simp only [sMean2]
  after_results_simp
  rfl

attribute [local irreducible] Host.reduceAdd Host.reduce Host.gather Host.scatterAdd in
set_option maxRecDepth 8192 in
set_option maxHeartbeats 600000 in
theorem sSage2_main_v120 (V : Valuation τ sig (Elt F)) :
    after sSage2 V (no_index (Proc.devRef .tc main_v120)) = sage (V (Proc.devRef .tc main_v114)) (V (Proc.devRef .tc main_v96)) (V (Proc.devRef .tc main_arg9)) (V (Proc.devRef .tc main_arg10)) (V (Proc.devRef .tc main_arg11)) := by
  simp only [sSage2]
  after_results_simp
  rfl

attribute [local irreducible] Host.reduceAdd Host.reduce Host.gather Host.scatterAdd in
set_option maxRecDepth 8192 in
set_option maxHeartbeats 4800000 in
theorem sBn2_main_v143 (V : Valuation τ sig (Elt F)) :
    after sBn2 V (no_index (Proc.devRef .tc main_v143)) = bnRef (V (Proc.devRef .tc main_v120)) (bnRow2 (V (Proc.devRef .tc main_arg15))) (bnRow2 (V (Proc.devRef .tc main_arg16))) := by
  simp only [sBn2]
  after_results_simp
  rfl

attribute [local irreducible] Host.reduceAdd Host.reduce Host.gather Host.scatterAdd in
set_option maxRecDepth 8192 in
set_option maxHeartbeats 400000 in
theorem sRelu2_main_v144 (V : Valuation τ sig (Elt F)) :
    after sRelu2 V (no_index (Proc.devRef .tc main_v144)) = relu (V (Proc.devRef .tc main_v143)) := by
  simp only [sRelu2]
  after_results_simp
  rfl

attribute [local irreducible] Host.reduceAdd Host.reduce Host.gather Host.scatterAdd in
set_option maxRecDepth 8192 in
set_option maxHeartbeats 400000 in
theorem sRes2_main_v145 (V : Valuation τ sig (Elt F)) :
    after sRes2 V (no_index (Proc.devRef .tc main_v145)) = addf (V (Proc.devRef .tc main_v144)) (V (Proc.devRef .tc main_v96)) := by
  simp only [sRes2]
  after_results_simp

attribute [local irreducible] Host.reduceAdd Host.reduce Host.gather Host.scatterAdd in
set_option maxRecDepth 8192 in
set_option maxHeartbeats 700000 in
theorem sIx3_main_v150 (V : Valuation τ sig (Elt F)) :
    after sIx3 V (no_index (Proc.devRef .tc main_v150)) = fixNeg (V (Proc.devRef .tc main_v1)) := by
  simp only [sIx3]
  after_results_simp
  rfl

attribute [local irreducible] Host.reduceAdd Host.reduce Host.gather Host.scatterAdd in
set_option maxRecDepth 8192 in
set_option maxHeartbeats 1700000 in
theorem sMean3_main_v163 (V : Valuation τ sig (Elt F)) :
    after sMean3 V (no_index (Proc.devRef .tc main_v163)) = meanAgg (V (Proc.devRef .tc main_v150)) (V (Proc.devRef .tc main_v3)) (V (Proc.devRef .tc main_v145)) := by
  simp only [sMean3]
  after_results_simp
  rfl

attribute [local irreducible] Host.reduceAdd Host.reduce Host.gather Host.scatterAdd in
set_option maxRecDepth 8192 in
set_option maxHeartbeats 600000 in
theorem sSage3_main_v169 (V : Valuation τ sig (Elt F)) :
    after sSage3 V (no_index (Proc.devRef .tc main_v169)) = sageOut (V (Proc.devRef .tc main_v163)) (V (Proc.devRef .tc main_v145)) (V (Proc.devRef .tc main_arg12)) (V (Proc.devRef .tc main_arg13)) (V (Proc.devRef .tc main_arg14)) := by
  simp only [sSage3]
  after_results_simp
  rfl

attribute [local irreducible] Host.reduceAdd Host.reduce Host.gather Host.scatterAdd in
set_option maxRecDepth 8192 in
set_option maxHeartbeats 1500000 in
theorem sLsm_main_v170 (V : Valuation τ sig (Elt F)) :
    after sLsm V (no_index (Proc.devRef .tc main_v170)) = logSoftmaxRef (V (Proc.devRef .tc main_v169)) := by
  simp only [sLsm]
  after_results_simp
  rfl

end Cert.ReferenceIdeal.RefRun

end
-- ==== Proof.Ref.Run.lean ====
import proofs.«167498_j75179107549620_1_alg».proof.Proof.Ref.Segs
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The run of the reference program: every execution terminates with the result buffer at the composition of the
    stages' functions applied to the argument arrays, and the argument arrays unchanged. -/

set_option maxRecDepth 8192 in
set_option maxHeartbeats 4000000 in
/-- After all the operations the result buffer holds the four layers composed, applied to the contents of the
    argument buffers: stage by stage, each stage's result is its function of what it reads, and what it reads is
    either an earlier stage's result or an argument, kept by every stage in between. -/
theorem after_out (V : Valuation τ sig (Elt F)) :
    after ops V (Proc.devRef .tc main_v170) = refOutArr (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [ops, ops0, ops1, ops2, ops3, after_append]
  simp (disch := decide) only [sIdx_main_v1, sIdx_main_v3, sIx0_main_v8, sMean0_main_v21, sSage0_main_v27, sBn0b_main_v50, sRelu0_main_v51, sIx1_main_v56, sSum1_main_v61, sGin1_main_v71, sBn1_main_v94, sRelu1_main_v95, sRes1_main_v96, sIx2b_main_v101, sMean2_main_v114, sSage2_main_v120, sBn2_main_v143, sRelu2_main_v144, sRes2_main_v145, sIx3_main_v150, sMean3_main_v163, sSage3_main_v169, sLsm_main_v170,
    sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]
  simp only [refOutArr, layerOut, layer2, layer1, layer0, srcIx]

theorem after_main_arg0 (V : Valuation τ sig (Elt F)) :
    after ops V (Proc.devRef .tc main_arg0) = V (Proc.devRef .tc main_arg0) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg1 (V : Valuation τ sig (Elt F)) :
    after ops V (Proc.devRef .tc main_arg1) = V (Proc.devRef .tc main_arg1) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg2 (V : Valuation τ sig (Elt F)) :
    after ops V (Proc.devRef .tc main_arg2) = V (Proc.devRef .tc main_arg2) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg3 (V : Valuation τ sig (Elt F)) :
    after ops V (Proc.devRef .tc main_arg3) = V (Proc.devRef .tc main_arg3) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg4 (V : Valuation τ sig (Elt F)) :
    after ops V (Proc.devRef .tc main_arg4) = V (Proc.devRef .tc main_arg4) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg5 (V : Valuation τ sig (Elt F)) :
    after ops V (Proc.devRef .tc main_arg5) = V (Proc.devRef .tc main_arg5) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg6 (V : Valuation τ sig (Elt F)) :
    after ops V (Proc.devRef .tc main_arg6) = V (Proc.devRef .tc main_arg6) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg7 (V : Valuation τ sig (Elt F)) :
    after ops V (Proc.devRef .tc main_arg7) = V (Proc.devRef .tc main_arg7) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg8 (V : Valuation τ sig (Elt F)) :
    after ops V (Proc.devRef .tc main_arg8) = V (Proc.devRef .tc main_arg8) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg9 (V : Valuation τ sig (Elt F)) :
    after ops V (Proc.devRef .tc main_arg9) = V (Proc.devRef .tc main_arg9) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg10 (V : Valuation τ sig (Elt F)) :
    after ops V (Proc.devRef .tc main_arg10) = V (Proc.devRef .tc main_arg10) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg11 (V : Valuation τ sig (Elt F)) :
    after ops V (Proc.devRef .tc main_arg11) = V (Proc.devRef .tc main_arg11) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg12 (V : Valuation τ sig (Elt F)) :
    after ops V (Proc.devRef .tc main_arg12) = V (Proc.devRef .tc main_arg12) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg13 (V : Valuation τ sig (Elt F)) :
    after ops V (Proc.devRef .tc main_arg13) = V (Proc.devRef .tc main_arg13) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg14 (V : Valuation τ sig (Elt F)) :
    after ops V (Proc.devRef .tc main_arg14) = V (Proc.devRef .tc main_arg14) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg15 (V : Valuation τ sig (Elt F)) :
    after ops V (Proc.devRef .tc main_arg15) = V (Proc.devRef .tc main_arg15) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

theorem after_main_arg16 (V : Valuation τ sig (Elt F)) :
    after ops V (Proc.devRef .tc main_arg16) = V (Proc.devRef .tc main_arg16) := by
  simp only [ops, ops0, ops1, ops2, ops3, after_append]
  simp (disch := decide) only [sIdx_keep, sIx0_keep, sMean0_keep, sSage0_keep, sBn0a_keep, sBn0b_keep, sRelu0_keep, sIx1_keep, sSum1_keep, sGin1_keep, sBn1_keep, sRelu1_keep, sRes1_keep, sIx2a_keep, sIx2b_keep, sMean2_keep, sSage2_keep, sBn2_keep, sRelu2_keep, sRes2_keep, sIx3_keep, sMean3_keep, sSage3_keep, sLsm_keep]

/-- The reference's result on a device, as the composed function of the argument arrays held in memory `m`. -/
def refOut (m : (ℓ : Loc nD τ sig) → Buf (Elt F) ℓ) (c : Dev nD) : (⟨S100000x40, .f32⟩ : BufTy).Contents (Elt F) :=
  refOutArr (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))

/-- On every device, from any memory with zero counters: every weakly fair execution of the reference program
    terminates with the result buffer at `refOut` and each argument buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v170) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c => ⟨(h c main_v170).trans (after_out _),
      (h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _),
      (h c main_arg10).trans (after_main_arg10 _),
      (h c main_arg11).trans (after_main_arg11 _),
      (h c main_arg12).trans (after_main_arg12 _),
      (h c main_arg13).trans (after_main_arg13 _),
      (h c main_arg14).trans (after_main_arg14 _),
      (h c main_arg15).trans (after_main_arg15 _),
      (h c main_arg16).trans (after_main_arg16 _)⟩)
    (run_after m ρ)

end Cert.ReferenceIdeal.RefRun

end
-- ==== Proof.Ref.Frame.lean ====
import proofs.«167498_j75179107549620_1_alg».proof.Defs
import proofs.«167498_j75179107549620_1_alg».proof.Proof.Ref.Run

noncomputable section

namespace Cert.ReferenceIdeal.RefRun

open Idealize.ShloMosaic Idealize.SL.Sem

/-- The reference program runs and its argument arrays end unchanged: the run with the result dropped. -/
theorem frame_ri [Cert.Pre_finite_inputs.Facts] : Cert.frame_ReferenceIdeal :=
  fun m g _ => (θ_run _ _ _).mono (fun _ h c => (h c).2) (run m g)

end Cert.ReferenceIdeal.RefRun

end
-- ==== Proof.RealInputs.lean ====
import proofs.«167498_j75179107549620_1_alg».proof.Proof.BridgeDefs
import proofs.«167498_j75179107549620_1_alg».proof.Pre_finite_inputs
import Idealize.ShloMosaic.Lib.ReduceAll
import Idealize.ShloMosaic.Lib.IdealHost
import Idealize.ShloMosaic.Lib.Affine
import Idealize.ShloMosaic.Lib.ValueIdx

/-! # Real inputs give real neighbourhood sums, and the precondition gives real inputs

The neighbourhood sum of an array of reals, and the degree column, are arrays of reals whatever the edge list holds:
each entry is zero plus a finite sum of entries of the array (of ones). And the precondition — every float input's
absolute value below plus infinity, all entries — makes each given array an array of reals. -/

set_option maxRecDepth 16384

noncomputable section

namespace Cert.Bridge

open Idealize.ShloMosaic Idealize.ShloMosaic.ValueIdx
open Cert.GnnSpec
open Cert.ReferenceIdeal (S100000x128 S128x128 S128x40 S100000x40 S128 S40 S3x128 S2x1600000 S1600000 S100000x1 S_)
open Cert.ReferenceIdeal.RefRun (srcIx dstIx sumAgg degCol)

/-- The scalar shape has one index. -/
local instance subsingleton_scalar_idx : Subsingleton (⟨0, ![]⟩ : Shape).Idx := ⟨fun a b => funext fun d => d.elim0⟩

/-! ## Sums over the edge list -/

/-- A scalar constant repeated over any shape is, at every index, the value of its word. -/
theorem bc_const_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply]; rfl

/-- A repeated zero is real everywhere; -/
theorem bc_zero_real {T : Shape} (h : (⟨0, ![]⟩ : Shape).BroadcastsInDim T ![]) (j : T.Idx) :
    IsReal (broadcastInDim T ![] h (constant (F := Ideal) ⟨0, ![]⟩ .f32 0x00000000#32) j) := by
  rw [bc_const_apply, ofBits_zero]; exact IsReal.zero

/-- and so is a repeated one. -/
theorem bc_one_real {T : Shape} (h : (⟨0, ![]⟩ : Shape).BroadcastsInDim T ![]) (j : T.Idx) :
    IsReal (broadcastInDim T ![] h (constant (F := Ideal) ⟨0, ![]⟩ .f32 0x3F800000#32) j) := by
  rw [bc_const_apply, ofBits_one]; exact IsReal.one

/-- An accumulating scatter of real updates into a real operand is real, wherever the updates land: each entry is the
    operand's plus a finite sum of updates. (Stated over abstract shapes.) -/
theorem scatterAdd_real {s si su : Shape} {w : Nat} (d : ScatterDims s si su) (z : FVec Ideal s .f32) (idx : IVec si w)
    (upd : FVec Ideal su .f32) (hz : ∀ i, IsReal (z i)) (hu : ∀ j, IsReal (upd j)) (i : s.Idx) :
    IsReal (Host.scatterAdd (F := Ideal) (φ := .f32) d z idx upd i) := by
  show IsReal (Ideal.hostScatterAdd d z idx upd i)
  unfold Ideal.hostScatterAdd
  exact IsReal.add (hz i) (IsReal.sum _ _ fun j _ => hu j)

/-- A gather of a real array is real: each entry is an entry of the array. -/
theorem gather_real {s si t : Shape} {w : Nat} (d : GatherDims s si t) (x : s.Idx → EReal) (idx : IVec si w)
    (hx : ∀ i, IsReal (x i)) (j : t.Idx) : IsReal (Host.gather d x idx j) := hx _

/-- The neighbourhood sum of real rows is real: each entry is zero plus a finite sum of entries of the rows. -/
theorem aggOf_real (e : (⟨S2x1600000, .i32⟩ : BufTy).Contents (Elt Ideal)) :
    ∀ h : Fin 100000 → Fin 128 → EReal, (∀ p j, IsReal (h p j)) → ∀ p j, IsReal (aggOf e h p j) := by
  intro h hh p j
  unfold aggOf mat sumAgg
  refine scatterAdd_real _ _ _ _ ?_ ?_ _
  · intro i; exact bc_zero_real _ i
  · intro k
    refine gather_real _ _ _ ?_ k
    intro i
    exact hh (i 0) (i 1)

/-- The degree column is real: each entry is zero plus a finite sum of ones. -/
theorem degOf_real (e : (⟨S2x1600000, .i32⟩ : BufTy).Contents (Elt Ideal)) : ∀ p, IsReal (degOf e p) := by
  intro p
  unfold degOf degCol
  refine scatterAdd_real _ _ _ _ ?_ ?_ _
  · intro i; exact bc_zero_real _ i
  · intro k; exact bc_one_real _ k

/-! ## From the precondition to real entries -/

/-- An extended real whose absolute value is below plus infinity (the word 0x7F800000) is a real. -/
theorem real_of_abs_lt (x : EReal)
    (h : FloatOps.cmpf (F := Ideal) (φ := .f32) .olt (FloatOps.hostAbsf (F := Ideal) (φ := .f32) x) (Ideal.ofBits .f32 0x7F800000#32) = 1#1) :
    IsReal x := by
  have hinf : Ideal.ofBits .f32 0x7F800000#32 = (⊤ : EReal) := by simp [Ideal.ofBits, Ideal.ieee]
  rw [hinf] at h
  change BitVec.ofBool (decide (max x (-x) < (⊤ : EReal))) = 1#1 at h
  have hlt : max x (-x) < (⊤ : EReal) := by
    by_contra hn
    rw [decide_eq_false hn] at h
    exact absurd h (by decide)
  induction x using EReal.rec with
  | bot => simp at hlt
  | coe r => exact ⟨r, rfl⟩
  | top => simp at hlt

/-- If the all-reduce of "the absolute value is below plus infinity" over an array is one, every entry is a real. -/
theorem real_of_all {s u : Shape} {axes : List (Fin s.rank)} (x : FVec Ideal s .f32)
    (hb : (⟨0, ![]⟩ : Shape).BroadcastsInDim s ![]) (init : IVec u 1) (hr : s.ReducesTo axes ⟨0, ![]⟩) (hu : 0 < u.numel)
    (h : Host.reduce IntOp.andi (cmpf .olt (Host.absf x) (broadcastInDim s ![] hb (constant (F := Ideal) ⟨0, ![]⟩ .f32 0x7F800000#32)))
      init hr hu ix0 = 1#1) (i : s.Idx) : IsReal (x i) := by
  have hi := Host.reduce_andi_all _ _ hr hu ix0 h i
  rw [cmpf_apply, bc_const_apply] at hi
  exact real_of_abs_lt (x i) hi

/-- The precondition (every float input finite) makes the network's given arrays arrays of reals. -/
theorem params_real [Cert.Pre_finite_inputs.Facts]
    (x : FVec Ideal Cert.Pre_finite_inputs.S100000x128 .f32) (wl0 : FVec Ideal Cert.Pre_finite_inputs.S128x128 .f32) (wr0 : FVec Ideal Cert.Pre_finite_inputs.S128x128 .f32) (b0 : FVec Ideal Cert.Pre_finite_inputs.S128 .f32) (w1 : FVec Ideal Cert.Pre_finite_inputs.S128x128 .f32) (c1 : FVec Ideal Cert.Pre_finite_inputs.S128 .f32) (w2 : FVec Ideal Cert.Pre_finite_inputs.S128x128 .f32) (c2 : FVec Ideal Cert.Pre_finite_inputs.S128 .f32) (wl2 : FVec Ideal Cert.Pre_finite_inputs.S128x128 .f32) (wr2 : FVec Ideal Cert.Pre_finite_inputs.S128x128 .f32) (b2 : FVec Ideal Cert.Pre_finite_inputs.S128 .f32) (wlf : FVec Ideal Cert.Pre_finite_inputs.S128x40 .f32) (wrf : FVec Ideal Cert.Pre_finite_inputs.S128x40 .f32) (bf : FVec Ideal Cert.Pre_finite_inputs.S40 .f32) (γ : FVec Ideal Cert.Pre_finite_inputs.S3x128 .f32) (β : FVec Ideal Cert.Pre_finite_inputs.S3x128 .f32)
    (e : IVec Cert.Pre_finite_inputs.S2x1600000 32)
    (h : Cert.Pre_finite_inputs.fn (F := Ideal) x e wl0 wr0 b0 w1 c1 w2 c2 wl2 wr2 b2 wlf wrf bf γ β = fun _ => 1#1) :
    (params x wl0 wr0 b0 w1 c1 w2 c2 wl2 wr2 b2 wlf wrf bf γ β).Real := by
  have h0 := congrFun h ix0
  simp only [Cert.Pre_finite_inputs.fn, Cert.Pre_finite_inputs.fn_part1, Cert.Pre_finite_inputs.fn_part2,
    Cert.Pre_finite_inputs.fn_part3, Cert.Pre_finite_inputs.fn_part4, andi, IntOp.andi_eq_one] at h0
  obtain ⟨⟨⟨⟨⟨⟨⟨⟨⟨⟨⟨⟨⟨⟨⟨r0, r1⟩, r2⟩, r3⟩, r4⟩, r5⟩, r6⟩, r7⟩, r8⟩, r9⟩, r10⟩, r11⟩, r12⟩, r13⟩, r14⟩, r15⟩ := h0
  exact {
    x := fun p k => real_of_all x _ _ _ _ r0 (ix2 p k)
    wl0 := fun p k => real_of_all wl0 _ _ _ _ r1 (ix2 p k)
    wr0 := fun p k => real_of_all wr0 _ _ _ _ r2 (ix2 p k)
    b0 := fun j => real_of_all b0 _ _ _ _ r3 (ix1 j)
    w1 := fun p k => real_of_all w1 _ _ _ _ r4 (ix2 p k)
    c1 := fun j => real_of_all c1 _ _ _ _ r5 (ix1 j)
    w2 := fun p k => real_of_all w2 _ _ _ _ r6 (ix2 p k)
    c2 := fun j => real_of_all c2 _ _ _ _ r7 (ix1 j)
    wl2 := fun p k => real_of_all wl2 _ _ _ _ r8 (ix2 p k)
    wr2 := fun p k => real_of_all wr2 _ _ _ _ r9 (ix2 p k)
    b2 := fun j => real_of_all b2 _ _ _ _ r10 (ix1 j)
    wlf := fun p k => real_of_all wlf _ _ _ _ r11 (ix2 p k)
    wrf := fun p k => real_of_all wrf _ _ _ _ r12 (ix2 p k)
    bf := fun j => real_of_all bf _ _ _ _ r13 (ix1 j)
    γ := fun p k => real_of_all γ _ _ _ _ r14 (ix2 p k)
    β := fun p k => real_of_all β _ _ _ _ r15 (ix2 p k) }

end Cert.Bridge
-- ==== Proof.lean ====
/- The certificate's five claims.
   Frames: the kernel program is a run of fourteen segments (seven stretches of host operations, each followed by a kernel
   region); each region's body is run per control case, the column-statistics regions carrying two scratch rows from point
   to point; every argument array is written by no segment. The reference is a run of host operations.
   The idealization rewrote nothing. At the ideal instance both programs end with the log-softmax of one network's logits:
   the kernel program's result unfolds, region by region and stretch by stretch, to a term of the argument arrays which reads,
   index by index, as the network with products by the reciprocal degree, variances as mean square less squared mean and the
   bias row added last; the reference's reads as the network with quotients by the degree, variances as mean squared deviation
   and the bias row added between the two products; on real-valued inputs (the precondition) these are one function. -/
import proofs.«167498_j75179107549620_1_alg».proof.Defs
import proofs.«167498_j75179107549620_1_alg».proof.Proof.Gen.Kernel
import proofs.«167498_j75179107549620_1_alg».proof.Proof.Gen.KernelIdeal
import proofs.«167498_j75179107549620_1_alg».proof.Proof.Gen.ReferenceIdeal
import proofs.«167498_j75179107549620_1_alg».proof.Proof.Gen.Pre_finite_inputs
import proofs.«167498_j75179107549620_1_alg».proof.Proof.K.Run
import proofs.«167498_j75179107549620_1_alg».proof.Proof.KI.KVal
import proofs.«167498_j75179107549620_1_alg».proof.Proof.KI.KRead
import proofs.«167498_j75179107549620_1_alg».proof.Proof.Ref.Run
import proofs.«167498_j75179107549620_1_alg».proof.Proof.Ref.Frame
import proofs.«167498_j75179107549620_1_alg».proof.Proof.Ref.Bridge
import proofs.«167498_j75179107549620_1_alg».proof.Proof.RealInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame (F := Bits) m ρ
theorem frame_ki : Cert.frame_KernelIdeal := fun m ρ _ => Cert.KernelIdeal.Gen.frame (F := Ideal) m ρ
theorem frame_ri : Cert.frame_ReferenceIdeal := Cert.ReferenceIdeal.RefRun.frame_ri

theorem preserves : Cert.preserves_Kernel_KernelIdeal := trivial

/-- Both programs end with the same result array: each side's term read against the pure-math network, whose two forms agree
    on real-valued inputs. -/
theorem algebraic : Cert.algebraic_KernelIdeal_ReferenceIdeal := by
  intro m ρ m' ρ' hpre hagree
  refine ⟨fun c => Cert.KernelIdeal.Gen.tOut (Cert.KernelIdeal.Gen.kArgs m c), Cert.KernelIdeal.Gen.run_kOut m ρ, ?_⟩
  refine (θ_run Cert.ReferenceIdeal.defs _ _).mono (fun r h c => ⟨(h c).1.trans ?_, (h c).2⟩)
    (Cert.ReferenceIdeal.RefRun.run m' ρ')
  obtain ⟨a0, a1, a2, a3, a4, a5, a6, a7, a8, a9, a10, a11, a12, a13, a14, a15, a16⟩ := hagree c
  unfold Cert.ReferenceIdeal.RefRun.refOut
  rw [a0, a1, a2, a3, a4, a5, a6, a7, a8, a9, a10, a11, a12, a13, a14, a15, a16]
  refine ((Cert.Bridge.ref_read _ _ _ _ _ _ _ _ _ _ _ _ _ _ _ _ _).trans ?_).trans
    (Cert.KernelIdeal.Gen.tOut_read (Cert.KernelIdeal.Gen.kArgs m c)).symm
  refine congrArg (fun l => Cert.Bridge.arr2 (Cert.Bridge.lsm l)) ?_
  exact (Cert.GnnSpec.logits_eq (Cert.KernelIdeal.Gen.tParams (Cert.KernelIdeal.Gen.kArgs m c))
    (Cert.Bridge.params_real _ _ _ _ _ _ _ _ _ _ _ _ _ _ _ _ _ (hpre c)) _ (Cert.Bridge.aggOf_real _) _
    (Cert.Bridge.degOf_real _) (100000 : ℝ) (by norm_num) (by norm_num) Cert.Bridge.epsR Cert.Bridge.epsR_pos).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
